-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) →
    ∃ (v0 : (c : Dev Cert.KernelIdeal.nD) → Buf (Elt Ideal) ((c.tc : Thread Cert.KernelIdeal.nD Cert.KernelIdeal.τ).loc Cert.KernelIdeal.main_v9_0)) (v1 : (c : Dev Cert.KernelIdeal.nD) → Buf (Elt Ideal) ((c.tc : Thread Cert.KernelIdeal.nD Cert.KernelIdeal.τ).loc Cert.KernelIdeal.main_v9_1)) (v2 : (c : Dev Cert.KernelIdeal.nD) → Buf (Elt Ideal) ((c.tc : Thread Cert.KernelIdeal.nD Cert.KernelIdeal.τ).loc Cert.KernelIdeal.main_v9_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9_0) = v0 c
          ∧ r.2.mem ((c.tc : Thread Cert.KernelIdeal.nD Cert.KernelIdeal.τ).loc Cert.KernelIdeal.main_v9_1) = v1 c
          ∧ r.2.mem ((c.tc : Thread Cert.KernelIdeal.nD Cert.KernelIdeal.τ).loc Cert.KernelIdeal.main_v9_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v62) = v0 c
          ∧ r.2.mem ((c.tc : Thread Cert.ReferenceIdeal.nD Cert.ReferenceIdeal.τ).loc Cert.ReferenceIdeal.main_v184) = v1 c
          ∧ r.2.mem ((c.tc : Thread Cert.ReferenceIdeal.nD Cert.ReferenceIdeal.τ).loc Cert.ReferenceIdeal.main_v306) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x256 : Shape := ⟨2, ![65536, 256]⟩
abbrev S3x1024x256 : Shape := ⟨3, ![3, 1024, 256]⟩
abbrev S3x1024 : Shape := ⟨2, ![3, 1024]⟩
abbrev S3x3x256x256 : Shape := ⟨4, ![3, 3, 256, 256]⟩
abbrev S3x3x256 : Shape := ⟨3, ![3, 3, 256]⟩
abbrev S3x256x256 : Shape := ⟨3, ![3, 256, 256]⟩
abbrev S3x256 : Shape := ⟨2, ![3, 256]⟩
abbrev S54x256 : Shape := ⟨2, ![54, 256]⟩
abbrev S54 : Shape := ⟨1, ![54]⟩
abbrev S23x256 : Shape := ⟨2, ![23, 256]⟩
abbrev S23 : Shape := ⟨1, ![23]⟩
abbrev S20x256 : Shape := ⟨2, ![20, 256]⟩
abbrev S20 : Shape := ⟨1, ![20]⟩
abbrev S_ : Shape := ⟨0, ![]⟩

class Facts : Prop where
  bcast_S_S65536x256 : S_.BroadcastsInDim S65536x256 (![] : Fin 0 → Fin S65536x256.rank)
  reducesTo_S65536x256_S_d0_1 : S65536x256.ReducesTo [0, 1] S_
  h_S_ : 0 < S_.numel
  bcast_S_S3x1024x256 : S_.BroadcastsInDim S3x1024x256 (![] : Fin 0 → Fin S3x1024x256.rank)
  reducesTo_S3x1024x256_S_d0_1_2 : S3x1024x256.ReducesTo [0, 1, 2] S_
  bcast_S_S3x1024 : S_.BroadcastsInDim S3x1024 (![] : Fin 0 → Fin S3x1024.rank)
  reducesTo_S3x1024_S_d0_1 : S3x1024.ReducesTo [0, 1] S_
  bcast_S_S3x3x256x256 : S_.BroadcastsInDim S3x3x256x256 (![] : Fin 0 → Fin S3x3x256x256.rank)
  reducesTo_S3x3x256x256_S_d0_1_2_3 : S3x3x256x256.ReducesTo [0, 1, 2, 3] S_
  bcast_S_S3x3x256 : S_.BroadcastsInDim S3x3x256 (![] : Fin 0 → Fin S3x3x256.rank)
  reducesTo_S3x3x256_S_d0_1_2 : S3x3x256.ReducesTo [0, 1, 2] S_
  bcast_S_S3x256x256 : S_.BroadcastsInDim S3x256x256 (![] : Fin 0 → Fin S3x256x256.rank)
  reducesTo_S3x256x256_S_d0_1_2 : S3x256x256.ReducesTo [0, 1, 2] S_
  bcast_S_S3x256 : S_.BroadcastsInDim S3x256 (![] : Fin 0 → Fin S3x256.rank)
  reducesTo_S3x256_S_d0_1 : S3x256.ReducesTo [0, 1] S_
  bcast_S_S54x256 : S_.BroadcastsInDim S54x256 (![] : Fin 0 → Fin S54x256.rank)
  reducesTo_S54x256_S_d0_1 : S54x256.ReducesTo [0, 1] S_
  bcast_S_S54 : S_.BroadcastsInDim S54 (![] : Fin 0 → Fin S54.rank)
  reducesTo_S54_S_d0 : S54.ReducesTo [0] S_
  bcast_S_S23x256 : S_.BroadcastsInDim S23x256 (![] : Fin 0 → Fin S23x256.rank)
  reducesTo_S23x256_S_d0_1 : S23x256.ReducesTo [0, 1] S_
  bcast_S_S23 : S_.BroadcastsInDim S23 (![] : Fin 0 → Fin S23.rank)
  reducesTo_S23_S_d0 : S23.ReducesTo [0] S_
  bcast_S_S20x256 : S_.BroadcastsInDim S20x256 (![] : Fin 0 → Fin S20x256.rank)
  reducesTo_S20x256_S_d0_1 : S20x256.ReducesTo [0, 1] S_
  bcast_S_S20 : S_.BroadcastsInDim S20 (![] : Fin 0 → Fin S20.rank)
  reducesTo_S20_S_d0 : S20.ReducesTo [0] S_

variable [Facts]

def fn_part4 {F : FTy → Type} [FloatOps F] (main_arg14 : FVec F S23 .f32) (main_arg15 : FVec F S20x256 .f32) (main_arg16 : FVec F S20 .f32) (main_v63 : IVec S_ 1) (main_v67 : IVec S_ 1) : IVec S_ 1 :=
  let main_v68 : IVec S_ 1 := andi main_v63 main_v67
  let main_v69 : FVec F S23 .f32 := Host.absf main_arg14
  let main_cst_26 : FVec F S_ .f32 := constant S_ .f32 0x7F800000#32
  let main_v70 : FVec F S23 .f32 := broadcastInDim S23 ![] bcast_S_S23 main_cst_26
  let main_v71 : IVec S23 1 := cmpf .olt main_v69 main_v70
  let main_c_27 : IVec S_ 1 := constantI S_ 1 1#1
  let main_v72 : IVec S_ 1 := (fun x v => Host.reduce IntOp.andi x v reducesTo_S23_S_d0 h_S_) main_v71 main_c_27
  let main_v73 : IVec S_ 1 := andi main_v68 main_v72
  let main_v74 : FVec F S20x256 .f32 := Host.absf main_arg15
  let main_cst_28 : FVec F S_ .f32 := constant S_ .f32 0x7F800000#32
  let main_v75 : FVec F S20x256 .f32 := broadcastInDim S20x256 ![] bcast_S_S20x256 main_cst_28
  let main_v76 : IVec S20x256 1 := cmpf .olt main_v74 main_v75
  let main_c_29 : IVec S_ 1 := constantI S_ 1 1#1
  let main_v77 : IVec S_ 1 := (fun x v => Host.reduce IntOp.andi x v reducesTo_S20x256_S_d0_1 h_S_) main_v76 main_c_29
  let main_v78 : IVec S_ 1 := andi main_v73 main_v77
  let main_v79 : FVec F S20 .f32 := Host.absf main_arg16
  let main_cst_30 : FVec F S_ .f32 := constant S_ .f32 0x7F800000#32
  let main_v80 : FVec F S20 .f32 := broadcastInDim S20 ![] bcast_S_S20 main_cst_30
  let main_v81 : IVec S20 1 := cmpf .olt main_v79 main_v80
  let main_c_31 : IVec S_ 1 := constantI S_ 1 1#1
  let main_v82 : IVec S_ 1 := (fun x v => Host.reduce IntOp.andi x v reducesTo_S20_S_d0 h_S_) main_v81 main_c_31
  let main_v83 : IVec S_ 1 := andi main_v78 main_v82
  main_v83

def fn_part3 {F : FTy → Type} [FloatOps F] (main_arg11 : FVec F S54x256 .f32) (main_arg12 : FVec F S54 .f32) (main_arg13 : FVec F S23x256 .f32) (main_arg14 : FVec F S23 .f32) (main_arg15 : FVec F S20x256 .f32) (main_arg16 : FVec F S20 .f32) (main_v48 : IVec S_ 1) (main_v49 : FVec F S3x256 .f32) (main_v50 : FVec F S3x256 .f32) : IVec S_ 1 :=
  let main_v51 : IVec S3x256 1 := cmpf .olt main_v49 main_v50
  let main_c_19 : IVec S_ 1 := constantI S_ 1 1#1
  let main_v52 : IVec S_ 1 := (fun x v => Host.reduce IntOp.andi x v reducesTo_S3x256_S_d0_1 h_S_) main_v51 main_c_19
  let main_v53 : IVec S_ 1 := andi main_v48 main_v52
  let main_v54 : FVec F S54x256 .f32 := Host.absf main_arg11
  let main_cst_20 : FVec F S_ .f32 := constant S_ .f32 0x7F800000#32
  let main_v55 : FVec F S54x256 .f32 := broadcastInDim S54x256 ![] bcast_S_S54x256 main_cst_20
  let main_v56 : IVec S54x256 1 := cmpf .olt main_v54 main_v55
  let main_c_21 : IVec S_ 1 := constantI S_ 1 1#1
  let main_v57 : IVec S_ 1 := (fun x v => Host.reduce IntOp.andi x v reducesTo_S54x256_S_d0_1 h_S_) main_v56 main_c_21
  let main_v58 : IVec S_ 1 := andi main_v53 main_v57
  let main_v59 : FVec F S54 .f32 := Host.absf main_arg12
  let main_cst_22 : FVec F S_ .f32 := constant S_ .f32 0x7F800000#32
  let main_v60 : FVec F S54 .f32 := broadcastInDim S54 ![] bcast_S_S54 main_cst_22
  let main_v61 : IVec S54 1 := cmpf .olt main_v59 main_v60
  let main_c_23 : IVec S_ 1 := constantI S_ 1 1#1
  let main_v62 : IVec S_ 1 := (fun x v => Host.reduce IntOp.andi x v reducesTo_S54_S_d0 h_S_) main_v61 main_c_23
  let main_v63 : IVec S_ 1 := andi main_v58 main_v62
  let main_v64 : FVec F S23x256 .f32 := Host.absf main_arg13
  let main_cst_24 : FVec F S_ .f32 := constant S_ .f32 0x7F800000#32
  let main_v65 : FVec F S23x256 .f32 := broadcastInDim S23x256 ![] bcast_S_S23x256 main_cst_24
  let main_v66 : IVec S23x256 1 := cmpf .olt main_v64 main_v65
  let main_c_25 : IVec S_ 1 := constantI S_ 1 1#1
  let main_v67 : IVec S_ 1 := (fun x v => Host.reduce IntOp.andi x v reducesTo_S23x256_S_d0_1 h_S_) main_v66 main_c_25
  fn_part4 (F := F) main_arg14 main_arg15 main_arg16 main_v63 main_v67

def fn_part2 {F : FTy → Type} [FloatOps F] (main_arg7 : FVec F S3x3x256x256 .f32) (main_arg8 : FVec F S3x3x256 .f32) (main_arg9 : FVec F S3x256x256 .f32) (main_arg10 : FVec F S3x256 .f32) (main_arg11 : FVec F S54x256 .f32) (main_arg12 : FVec F S54 .f32) (main_arg13 : FVec F S23x256 .f32) (main_arg14 : FVec F S23 .f32) (main_arg15 : FVec F S20x256 .f32) (main_arg16 : FVec F S20 .f32) (main_v33 : IVec S_ 1) : IVec S_ 1 :=
  let main_v34 : FVec F S3x3x256x256 .f32 := Host.absf main_arg7
  let main_cst_12 : FVec F S_ .f32 := constant S_ .f32 0x7F800000#32
  let main_v35 : FVec F S3x3x256x256 .f32 := broadcastInDim S3x3x256x256 ![] bcast_S_S3x3x256x256 main_cst_12
  let main_v36 : IVec S3x3x256x256 1 := cmpf .olt main_v34 main_v35
  let main_c_13 : IVec S_ 1 := constantI S_ 1 1#1
  let main_v37 : IVec S_ 1 := (fun x v => Host.reduce IntOp.andi x v reducesTo_S3x3x256x256_S_d0_1_2_3 h_S_) main_v36 main_c_13
  let main_v38 : IVec S_ 1 := andi main_v33 main_v37
  let main_v39 : FVec F S3x3x256 .f32 := Host.absf main_arg8
  let main_cst_14 : FVec F S_ .f32 := constant S_ .f32 0x7F800000#32
  let main_v40 : FVec F S3x3x256 .f32 := broadcastInDim S3x3x256 ![] bcast_S_S3x3x256 main_cst_14
  let main_v41 : IVec S3x3x256 1 := cmpf .olt main_v39 main_v40
  let main_c_15 : IVec S_ 1 := constantI S_ 1 1#1
  let main_v42 : IVec S_ 1 := (fun x v => Host.reduce IntOp.andi x v reducesTo_S3x3x256_S_d0_1_2 h_S_) main_v41 main_c_15
  let main_v43 : IVec S_ 1 := andi main_v38 main_v42
  let main_v44 : FVec F S3x256x256 .f32 := Host.absf main_arg9
  let main_cst_16 : FVec F S_ .f32 := constant S_ .f32 0x7F800000#32
  let main_v45 : FVec F S3x256x256 .f32 := broadcastInDim S3x256x256 ![] bcast_S_S3x256x256 main_cst_16
  let main_v46 : IVec S3x256x256 1 := cmpf .olt main_v44 main_v45
  let main_c_17 : IVec S_ 1 := constantI S_ 1 1#1
  let main_v47 : IVec S_ 1 := (fun x v => Host.reduce IntOp.andi x v reducesTo_S3x256x256_S_d0_1_2 h_S_) main_v46 main_c_17
  let main_v48 : IVec S_ 1 := andi main_v43 main_v47
  let main_v49 : FVec F S3x256 .f32 := Host.absf main_arg10
  let main_cst_18 : FVec F S_ .f32 := constant S_ .f32 0x7F800000#32
  let main_v50 : FVec F S3x256 .f32 := broadcastInDim S3x256 ![] bcast_S_S3x256 main_cst_18
  fn_part3 (F := F) main_arg11 main_arg12 main_arg13 main_arg14 main_arg15 main_arg16 main_v48 main_v49 main_v50

def fn_part1 {F : FTy → Type} [FloatOps F] (main_arg4 : FVec F S3x1024 .f32) (main_arg5 : FVec F S3x3x256x256 .f32) (main_arg6 : FVec F S3x3x256 .f32) (main_arg7 : FVec F S3x3x256x256 .f32) (main_arg8 : FVec F S3x3x256 .f32) (main_arg9 : FVec F S3x256x256 .f32) (main_arg10 : FVec F S3x256 .f32) (main_arg11 : FVec F S54x256 .f32) (main_arg12 : FVec F S54 .f32) (main_arg13 : FVec F S23x256 .f32) (main_arg14 : FVec F S23 .f32) (main_arg15 : FVec F S20x256 .f32) (main_arg16 : FVec F S20 .f32) (main_v13 : IVec S_ 1) (main_v16 : IVec S3x1024 1) : IVec S_ 1 :=
  let main_c_5 : IVec S_ 1 := constantI S_ 1 1#1
  let main_v17 : IVec S_ 1 := (fun x v => Host.reduce IntOp.andi x v reducesTo_S3x1024_S_d0_1 h_S_) main_v16 main_c_5
  let main_v18 : IVec S_ 1 := andi main_v13 main_v17
  let main_v19 : FVec F S3x1024 .f32 := Host.absf main_arg4
  let main_cst_6 : FVec F S_ .f32 := constant S_ .f32 0x7F800000#32
  let main_v20 : FVec F S3x1024 .f32 := broadcastInDim S3x1024 ![] bcast_S_S3x1024 main_cst_6
  let main_v21 : IVec S3x1024 1 := cmpf .olt main_v19 main_v20
  let main_c_7 : IVec S_ 1 := constantI S_ 1 1#1
  let main_v22 : IVec S_ 1 := (fun x v => Host.reduce IntOp.andi x v reducesTo_S3x1024_S_d0_1 h_S_) main_v21 main_c_7
  let main_v23 : IVec S_ 1 := andi main_v18 main_v22
  let main_v24 : FVec F S3x3x256x256 .f32 := Host.absf main_arg5
  let main_cst_8 : FVec F S_ .f32 := constant S_ .f32 0x7F800000#32
  let main_v25 : FVec F S3x3x256x256 .f32 := broadcastInDim S3x3x256x256 ![] bcast_S_S3x3x256x256 main_cst_8
  let main_v26 : IVec S3x3x256x256 1 := cmpf .olt main_v24 main_v25
  let main_c_9 : IVec S_ 1 := constantI S_ 1 1#1
  let main_v27 : IVec S_ 1 := (fun x v => Host.reduce IntOp.andi x v reducesTo_S3x3x256x256_S_d0_1_2_3 h_S_) main_v26 main_c_9
  let main_v28 : IVec S_ 1 := andi main_v23 main_v27
  let main_v29 : FVec F S3x3x256 .f32 := Host.absf main_arg6
  let main_cst_10 : FVec F S_ .f32 := constant S_ .f32 0x7F800000#32
  let main_v30 : FVec F S3x3x256 .f32 := broadcastInDim S3x3x256 ![] bcast_S_S3x3x256 main_cst_10
  let main_v31 : IVec S3x3x256 1 := cmpf .olt main_v29 main_v30
  let main_c_11 : IVec S_ 1 := constantI S_ 1 1#1
  let main_v32 : IVec S_ 1 := (fun x v => Host.reduce IntOp.andi x v reducesTo_S3x3x256_S_d0_1_2 h_S_) main_v31 main_c_11
  let main_v33 : IVec S_ 1 := andi main_v28 main_v32
  fn_part2 (F := F) main_arg7 main_arg8 main_arg9 main_arg10 main_arg11 main_arg12 main_arg13 main_arg14 main_arg15 main_arg16 main_v33

def fn {F : FTy → Type} [FloatOps F] (main_arg0 : FVec F S65536x256 .f32) (main_arg1 : FVec F S3x1024x256 .f32) (main_arg2 : FVec F S3x1024x256 .f32) (main_arg3 : FVec F S3x1024 .f32) (main_arg4 : FVec F S3x1024 .f32) (main_arg5 : FVec F S3x3x256x256 .f32) (main_arg6 : FVec F S3x3x256 .f32) (main_arg7 : FVec F S3x3x256x256 .f32) (main_arg8 : FVec F S3x3x256 .f32) (main_arg9 : FVec F S3x256x256 .f32) (main_arg10 : FVec F S3x256 .f32) (main_arg11 : FVec F S54x256 .f32) (main_arg12 : FVec F S54 .f32) (main_arg13 : FVec F S23x256 .f32) (main_arg14 : FVec F S23 .f32) (main_arg15 : FVec F S20x256 .f32) (main_arg16 : FVec F S20 .f32) : IVec S_ 1 :=
  let main_v0 : FVec F S65536x256 .f32 := Host.absf main_arg0
  let main_cst : FVec F S_ .f32 := constant S_ .f32 0x7F800000#32
  let main_v1 : FVec F S65536x256 .f32 := broadcastInDim S65536x256 ![] bcast_S_S65536x256 main_cst
  let main_v2 : IVec S65536x256 1 := cmpf .olt main_v0 main_v1
  let main_c : IVec S_ 1 := constantI S_ 1 1#1
  let main_v3 : IVec S_ 1 := (fun x v => Host.reduce IntOp.andi x v reducesTo_S65536x256_S_d0_1 h_S_) main_v2 main_c
  let main_v4 : FVec F S3x1024x256 .f32 := Host.absf main_arg1
  let main_cst_0 : FVec F S_ .f32 := constant S_ .f32 0x7F800000#32
  let main_v5 : FVec F S3x1024x256 .f32 := broadcastInDim S3x1024x256 ![] bcast_S_S3x1024x256 main_cst_0
  let main_v6 : IVec S3x1024x256 1 := cmpf .olt main_v4 main_v5
  let main_c_1 : IVec S_ 1 := constantI S_ 1 1#1
  let main_v7 : IVec S_ 1 := (fun x v => Host.reduce IntOp.andi x v reducesTo_S3x1024x256_S_d0_1_2 h_S_) main_v6 main_c_1
  let main_v8 : IVec S_ 1 := andi main_v3 main_v7
  let main_v9 : FVec F S3x1024x256 .f32 := Host.absf main_arg2
  let main_cst_2 : FVec F S_ .f32 := constant S_ .f32 0x7F800000#32
  let main_v10 : FVec F S3x1024x256 .f32 := broadcastInDim S3x1024x256 ![] bcast_S_S3x1024x256 main_cst_2
  let main_v11 : IVec S3x1024x256 1 := cmpf .olt main_v9 main_v10
  let main_c_3 : IVec S_ 1 := constantI S_ 1 1#1
  let main_v12 : IVec S_ 1 := (fun x v => Host.reduce IntOp.andi x v reducesTo_S3x1024x256_S_d0_1_2 h_S_) main_v11 main_c_3
  let main_v13 : IVec S_ 1 := andi main_v8 main_v12
  let main_v14 : FVec F S3x1024 .f32 := Host.absf main_arg3
  let main_cst_4 : FVec F S_ .f32 := constant S_ .f32 0x7F800000#32
  let main_v15 : FVec F S3x1024 .f32 := broadcastInDim S3x1024 ![] bcast_S_S3x1024 main_cst_4
  let main_v16 : IVec S3x1024 1 := cmpf .olt main_v14 main_v15
  fn_part1 (F := F) main_arg4 main_arg5 main_arg6 main_arg7 main_arg8 main_arg9 main_arg10 main_arg11 main_arg12 main_arg13 main_arg14 main_arg15 main_arg16 main_v13 main_v16
-- ==== Kernel.lean ====
abbrev S65536x256 : Shape := ⟨2, ![65536, 256]⟩
abbrev S3x1024x256 : Shape := ⟨3, ![3, 1024, 256]⟩
abbrev S3x1024 : Shape := ⟨2, ![3, 1024]⟩
abbrev S3x3x256x256 : Shape := ⟨4, ![3, 3, 256, 256]⟩
abbrev S3x3x256 : Shape := ⟨3, ![3, 3, 256]⟩
abbrev S3x256x256 : Shape := ⟨3, ![3, 256, 256]⟩
abbrev S3x256 : Shape := ⟨2, ![3, 256]⟩
abbrev S54x256 : Shape := ⟨2, ![54, 256]⟩
abbrev S54 : Shape := ⟨1, ![54]⟩
abbrev S23x256 : Shape := ⟨2, ![23, 256]⟩
abbrev S23 : Shape := ⟨1, ![23]⟩
abbrev S20x256 : Shape := ⟨2, ![20, 256]⟩
abbrev S20 : Shape := ⟨1, ![20]⟩
abbrev S1x1x256x256 : Shape := ⟨4, ![1, 1, 256, 256]⟩
abbrev S256x256 : Shape := ⟨2, ![256, 256]⟩
abbrev S1x1x256 : Shape := ⟨3, ![1, 1, 256]⟩
abbrev S256 : Shape := ⟨1, ![256]⟩
abbrev S65536x54 : Shape := ⟨2, ![65536, 54]⟩
abbrev S65536x23 : Shape := ⟨2, ![65536, 23]⟩
abbrev S65536x20 : Shape := ⟨2, ![65536, 20]⟩
abbrev S1024x256 : Shape := ⟨2, ![1024, 256]⟩
abbrev S1024x54 : Shape := ⟨2, ![1024, 54]⟩
abbrev S1024x23 : Shape := ⟨2, ![1024, 23]⟩
abbrev S1024x20 : Shape := ⟨2, ![1024, 20]⟩
abbrev S1x1024x256 : Shape := ⟨3, ![1, 1024, 256]⟩
abbrev S1x1024 : Shape := ⟨2, ![1, 1024]⟩
abbrev S1024 : Shape := ⟨1, ![1024]⟩
abbrev S1024x1024 : Shape := ⟨2, ![1024, 1024]⟩
abbrev S1x256x256 : Shape := ⟨3, ![1, 256, 256]⟩
abbrev S1x256 : Shape := ⟨2, ![1, 256]⟩
abbrev S1x54 : Shape := ⟨2, ![1, 54]⟩
abbrev S1x23 : Shape := ⟨2, ![1, 23]⟩
abbrev S1x20 : Shape := ⟨2, ![1, 20]⟩

abbrev nBuf : Space → Nat
  | .hbm => 29
  | .vmem => 23
  | .smem => 0
  | _ => 0

abbrev bufTy : (tb : Table) → Fin (tcTables nBuf tb) → BufTy
  | .hbm, ⟨0, _⟩ => ⟨S65536x256, .f32⟩
  | .hbm, ⟨1, _⟩ => ⟨S3x1024x256, .f32⟩
  | .hbm, ⟨2, _⟩ => ⟨S3x1024x256, .f32⟩
  | .hbm, ⟨3, _⟩ => ⟨S3x1024, .f32⟩
  | .hbm, ⟨4, _⟩ => ⟨S3x1024, .f32⟩
  | .hbm, ⟨5, _⟩ => ⟨S3x3x256x256, .f32⟩
  | .hbm, ⟨6, _⟩ => ⟨S3x3x256, .f32⟩
  | .hbm, ⟨7, _⟩ => ⟨S3x3x256x256, .f32⟩
  | .hbm, ⟨8, _⟩ => ⟨S3x3x256, .f32⟩
  | .hbm, ⟨9, _⟩ => ⟨S3x256x256, .f32⟩
  | .hbm, ⟨10, _⟩ => ⟨S3x256, .f32⟩
  | .hbm, ⟨11, _⟩ => ⟨S54x256, .f32⟩
  | .hbm, ⟨12, _⟩ => ⟨S54, .f32⟩
  | .hbm, ⟨13, _⟩ => ⟨S23x256, .f32⟩
  | .hbm, ⟨14, _⟩ => ⟨S23, .f32⟩
  | .hbm, ⟨15, _⟩ => ⟨S20x256, .f32⟩
  | .hbm, ⟨16, _⟩ => ⟨S20, .f32⟩
  | .hbm, ⟨17, _⟩ => ⟨S3x1024, .f32⟩
  | .hbm, ⟨18, _⟩ => ⟨S1x1x256x256, .f32⟩
  | .hbm, ⟨19, _⟩ => ⟨S256x256, .f32⟩
  | .hbm, ⟨20, _⟩ => ⟨S1x1x256x256, .f32⟩
  | .hbm, ⟨21, _⟩ => ⟨S256x256, .f32⟩
  | .hbm, ⟨22, _⟩ => ⟨S1x1x256, .f32⟩
  | .hbm, ⟨23, _⟩ => ⟨S256, .f32⟩
  | .hbm, ⟨24, _⟩ => ⟨S1x1x256, .f32⟩
  | .hbm, ⟨25, _⟩ => ⟨S256, .f32⟩
  | .hbm, ⟨26, _⟩ => ⟨S65536x54, .f32⟩
  | .hbm, ⟨27, _⟩ => ⟨S65536x23, .f32⟩
  | .hbm, ⟨28, _⟩ => ⟨S65536x20, .f32⟩
  | .local _ .vmem, ⟨0, _⟩ => ⟨S1024x256, .f32⟩
  | .local _ .vmem, ⟨1, _⟩ => ⟨S1024x256, .f32⟩
  | .local _ .vmem, ⟨2, _⟩ => ⟨S3x1024x256, .f32⟩
  | .local _ .vmem, ⟨3, _⟩ => ⟨S3x1024x256, .f32⟩
  | .local _ .vmem, ⟨4, _⟩ => ⟨S3x1024, .f32⟩
  | .local _ .vmem, ⟨5, _⟩ => ⟨S256x256, .f32⟩
  | .local _ .vmem, ⟨6, _⟩ => ⟨S256, .f32⟩
  | .local _ .vmem, ⟨7, _⟩ => ⟨S256x256, .f32⟩
  | .local _ .vmem, ⟨8, _⟩ => ⟨S256, .f32⟩
  | .local _ .vmem, ⟨9, _⟩ => ⟨S3x256x256, .f32⟩
  | .local _ .vmem, ⟨10, _⟩ => ⟨S3x256, .f32⟩
  | .local _ .vmem, ⟨11, _⟩ => ⟨S54x256, .f32⟩
  | .local _ .vmem, ⟨12, _⟩ => ⟨S54, .f32⟩
  | .local _ .vmem, ⟨13, _⟩ => ⟨S23x256, .f32⟩
  | .local _ .vmem, ⟨14, _⟩ => ⟨S23, .f32⟩
  | .local _ .vmem, ⟨15, _⟩ => ⟨S20x256, .f32⟩
  | .local _ .vmem, ⟨16, _⟩ => ⟨S20, .f32⟩
  | .local _ .vmem, ⟨17, _⟩ => ⟨S1024x54, .f32⟩
  | .local _ .vmem, ⟨18, _⟩ => ⟨S1024x54, .f32⟩
  | .local _ .vmem, ⟨19, _⟩ => ⟨S1024x23, .f32⟩
  | .local _ .vmem, ⟨20, _⟩ => ⟨S1024x23, .f32⟩
  | .local _ .vmem, ⟨21, _⟩ => ⟨S1024x20, .f32⟩
  | .local _ .vmem, ⟨22, _⟩ => ⟨S1024x20, .f32⟩
  | _, _ => ⟨S65536x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9_0 : Ref sig .tc := ⟨.hbm, 26, rfl⟩
abbrev main_v9_1 : Ref sig .tc := ⟨.hbm, 27, rfl⟩
abbrev main_v9_2 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg13_0 : Ref sig .tc := ⟨.vmem, 14, rfl⟩
abbrev cc0_stg14_0 : Ref sig .tc := ⟨.vmem, 15, rfl⟩
abbrev cc0_stg15_0 : Ref sig .tc := ⟨.vmem, 16, rfl⟩
abbrev cc0_stg16_0 : Ref sig .tc := ⟨.vmem, 17, rfl⟩
abbrev cc0_stg16_1 : Ref sig .tc := ⟨.vmem, 18, rfl⟩
abbrev cc0_stg17_0 : Ref sig .tc := ⟨.vmem, 19, rfl⟩
abbrev cc0_stg17_1 : Ref sig .tc := ⟨.vmem, 20, rfl⟩
abbrev cc0_stg18_0 : Ref sig .tc := ⟨.vmem, 21, rfl⟩
abbrev cc0_stg18_1 : Ref sig .tc := ⟨.vmem, 22, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem13_0 : DmaSem sig := 14
abbrev cc0_sem14_0 : DmaSem sig := 15
abbrev cc0_sem15_0 : DmaSem sig := 16
abbrev cc0_sem16_0 : DmaSem sig := 17
abbrev cc0_sem16_1 : DmaSem sig := 18
abbrev cc0_sem17_0 : DmaSem sig := 19
abbrev cc0_sem17_1 : DmaSem sig := 20
abbrev cc0_sem18_0 : DmaSem sig := 21
abbrev cc0_sem18_1 : DmaSem sig := 22

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S3x1024x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S3x1024x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S3x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S3x256x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S3x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S54x256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S54 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S23x256 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S23 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S20x256 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S20 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 2 → Memref sig .tc .vmem S1024x54 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S1024x23 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S1024x20 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

class Facts₀ : Prop where
  slices_S3x3x256x256_S1x1x256x256_1_2_0_0 : S3x3x256x256.Slices ![1, 2, 0, 0] S1x1x256x256
  shapeCasts_S1x1x256x256_S256x256 : S1x1x256x256.ShapeCasts S256x256
  slices_S3x3x256_S1x1x256_1_2_0 : S3x3x256.Slices ![1, 2, 0] S1x1x256
  shapeCasts_S1x1x256_S256 : S1x1x256.ShapeCasts S256
  inb_S1024x256_S1024x256_0_0 : ∀ a, (![0, 0] : Fin 2 → Nat) a + S1024x256.size a ≤ S1024x256.size a
  h_S1024x256 : 0 < S1024x256.numel
  bitsLt_bf16_f32 : FTy.bits .bf16 < FTy.bits .f32
  inb_S3x1024x256_S1x1024x256_0_0_0 : ∀ a, (![0, 0, 0] : Fin 3 → Nat) a + S1x1024x256.size a ≤ S3x1024x256.size a
  h_S1x1024x256 : 0 < S1x1024x256.numel
  shapeCasts_S1x1024x256_S1024x256 : S1x1024x256.ShapeCasts S1024x256
  inb_S3x1024_S1x1024_0_0 : ∀ a, (![0, 0] : Fin 2 → Nat) a + S1x1024.size a ≤ S3x1024.size a
  h_S1x1024 : 0 < S1x1024.numel
  shapeCasts_S1x1024_S1024 : S1x1024.ShapeCasts S1024
  shapeCasts_S1024_S1x1024 : S1024.ShapeCasts S1x1024
  broadcasts_S1x1024_S1024x1024 : S1x1024.Broadcasts S1024x1024
  slices_S1024x1024_o0_0_S1024x256 : S1024x1024.Slices ![0, 0] S1024x256
  slices_S1024x1024_o0_256_S1024x256 : S1024x1024.Slices ![0, 256] S1024x256
  slices_S1024x1024_o0_512_S1024x256 : S1024x1024.Slices ![0, 512] S1024x256
  slices_S1024x1024_o0_768_S1024x256 : S1024x1024.Slices ![0, 768] S1024x256
  inb_S3x256x256_S1x256x256_0_0_0 : ∀ a, (![0, 0, 0] : Fin 3 → Nat) a + S1x256x256.size a ≤ S3x256x256.size a
  h_S1x256x256 : 0 < S1x256x256.numel
  shapeCasts_S1x256x256_S256x256 : S1x256x256.ShapeCasts S256x256
  inb_S3x256_S1x256_0_0 : ∀ a, (![0, 0] : Fin 2 → Nat) a + S1x256.size a ≤ S3x256.size a
  h_S1x256 : 0 < S1x256.numel
  shapeCasts_S1x256_S256 : S1x256.ShapeCasts S256
  shapeCasts_S256_S1x256 : S256.ShapeCasts S1x256
  broadcasts_S1x256_S1024x256 : S1x256.Broadcasts S1024x256
  inb_S54x256_S54x256_0_0 : ∀ a, (![0, 0] : Fin 2 → Nat) a + S54x256.size a ≤ S54x256.size a
  h_S54x256 : 0 < S54x256.numel
  inb_S54_S54_0 : ∀ a, (![0] : Fin 1 → Nat) a + S54.size a ≤ S54.size a
  h_S54 : 0 < S54.numel
  shapeCasts_S54_S1x54 : S54.ShapeCasts S1x54
  broadcasts_S1x54_S1024x54 : S1x54.Broadcasts S1024x54
  inb_S1024x54_S1024x54_0_0 : ∀ a, (![0, 0] : Fin 2 → Nat) a + S1024x54.size a ≤ S1024x54.size a
  h_S1024x54 : 0 < S1024x54.numel
  inb_S3x1024x256_S1x1024x256_1_0_0 : ∀ a, (![1, 0, 0] : Fin 3 → Nat) a + S1x1024x256.size a ≤ S3x1024x256.size a
  inb_S3x1024_S1x1024_1_0 : ∀ a, (![1, 0] : Fin 2 → Nat) a + S1x1024.size a ≤ S3x1024.size a
  inb_S3x256x256_S1x256x256_1_0_0 : ∀ a, (![1, 0, 0] : Fin 3 → Nat) a + S1x256x256.size a ≤ S3x256x256.size a
  inb_S3x256_S1x256_1_0 : ∀ a, (![1, 0] : Fin 2 → Nat) a + S1x256.size a ≤ S3x256.size a
  inb_S23x256_S23x256_0_0 : ∀ a, (![0, 0] : Fin 2 → Nat) a + S23x256.size a ≤ S23x256.size a
  h_S23x256 : 0 < S23x256.numel
  inb_S23_S23_0 : ∀ a, (![0] : Fin 1 → Nat) a + S23.size a ≤ S23.size a
  h_S23 : 0 < S23.numel
  shapeCasts_S23_S1x23 : S23.ShapeCasts S1x23
  broadcasts_S1x23_S1024x23 : S1x23.Broadcasts S1024x23
  inb_S1024x23_S1024x23_0_0 : ∀ a, (![0, 0] : Fin 2 → Nat) a + S1024x23.size a ≤ S1024x23.size a
  h_S1024x23 : 0 < S1024x23.numel
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S256_S256_0 : ∀ a, (![0] : Fin 1 → Nat) a + S256.size a ≤ S256.size a
  h_S256 : 0 < S256.numel
  shapeCasts_S256_S256 : S256.ShapeCasts S256
  inb_S3x1024x256_S1x1024x256_2_0_0 : ∀ a, (![2, 0, 0] : Fin 3 → Nat) a + S1x1024x256.size a ≤ S3x1024x256.size a
  inb_S3x1024_S1x1024_2_0 : ∀ a, (![2, 0] : Fin 2 → Nat) a + S1x1024.size a ≤ S3x1024.size a
  inb_S3x256x256_S1x256x256_2_0_0 : ∀ a, (![2, 0, 0] : Fin 3 → Nat) a + S1x256x256.size a ≤ S3x256x256.size a
  inb_S3x256_S1x256_2_0 : ∀ a, (![2, 0] : Fin 2 → Nat) a + S1x256.size a ≤ S3x256.size a
  inb_S20x256_S20x256_0_0 : ∀ a, (![0, 0] : Fin 2 → Nat) a + S20x256.size a ≤ S20x256.size a
  h_S20x256 : 0 < S20x256.numel
  inb_S20_S20_0 : ∀ a, (![0] : Fin 1 → Nat) a + S20.size a ≤ S20.size a
  h_S20 : 0 < S20.numel
  shapeCasts_S20_S1x20 : S20.ShapeCasts S1x20
  broadcasts_S1x20_S1024x20 : S1x20.Broadcasts S1024x20
  inb_S1024x20_S1024x20_0_0 : ∀ a, (![0, 0] : Fin 2 → Nat) a + S1024x20.size a ≤ S1024x20.size a
  h_S1024x20 : 0 < S1024x20.numel
  dot_S1024x256_S1024x256_S1024x1024_1_1_0_0_n_n_wf : DotDims.WF S1024x256 S1024x256 S1024x1024 [1] [1] [0] [0] [] []
  dot_S1024x256_S256x256_S1024x256_1_1_0_0_n_n_wf : DotDims.WF S1024x256 S256x256 S1024x256 [1] [1] [0] [0] [] []
  dot_S1024x256_S54x256_S1024x54_1_1_0_0_n_n_wf : DotDims.WF S1024x256 S54x256 S1024x54 [1] [1] [0] [0] [] []
  dot_S1024x256_S23x256_S1024x23_1_1_0_0_n_n_wf : DotDims.WF S1024x256 S23x256 S1024x23 [1] [1] [0] [0] [] []
  dot_S1024x256_S20x256_S1024x20_1_1_0_0_n_n_wf : DotDims.WF S1024x256 S20x256 S1024x20 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x256.size a ≤ S65536x256.size a
  hwx0_0 : ∀ i : grid0.Coords, EltTy.bits .f32 = 32 ∨ (Rect.block (s := S65536x256) S1024x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S3x1024x256.size a ≤ S3x1024x256.size a
  hwx0_1 : ∀ i : grid0.Coords, EltTy.bits .f32 = 32 ∨ (Rect.block (s := S3x1024x256) S3x1024x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S3x1024x256.size a ≤ S3x1024x256.size a
  hwx0_2 : ∀ i : grid0.Coords, EltTy.bits .f32 = 32 ∨ (Rect.block (s := S3x1024x256) S3x1024x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S3x1024.size a ≤ S3x1024.size a
  hwx0_3 : ∀ i : grid0.Coords, EltTy.bits .f32 = 32 ∨ (Rect.block (s := S3x1024) S3x1024.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256x256.size a ≤ S256x256.size a
  hwx0_4 : ∀ i : grid0.Coords, EltTy.bits .f32 = 32 ∨ (Rect.block (s := S256x256) S256x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256.size a ≤ S256.size a
  hwx0_5 : ∀ i : grid0.Coords, EltTy.bits .f32 = 32 ∨ (Rect.block (s := S256) S256.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S256x256.size a ≤ S256x256.size a
  hwx0_6 : ∀ i : grid0.Coords, EltTy.bits .f32 = 32 ∨ (Rect.block (s := S256x256) S256x256.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S256.size a ≤ S256.size a
  hwx0_7 : ∀ i : grid0.Coords, EltTy.bits .f32 = 32 ∨ (Rect.block (s := S256) S256.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S3x256x256.size a ≤ S3x256x256.size a
  hwx0_8 : ∀ i : grid0.Coords, EltTy.bits .f32 = 32 ∨ (Rect.block (s := S3x256x256) S3x256x256.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S3x256.size a ≤ S3x256.size a
  hwx0_9 : ∀ i : grid0.Coords, EltTy.bits .f32 = 32 ∨ (Rect.block (s := S3x256) S3x256.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S54x256.size a ≤ S54x256.size a
  hwx0_10 : ∀ i : grid0.Coords, EltTy.bits .f32 = 32 ∨ (Rect.block (s := S54x256) S54x256.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S54.size a ≤ S54.size a
  hwx0_11 : ∀ i : grid0.Coords, EltTy.bits .f32 = 32 ∨ (Rect.block (s := S54) S54.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S23x256.size a ≤ S23x256.size a
  hwx0_12 : ∀ i : grid0.Coords, EltTy.bits .f32 = 32 ∨ (Rect.block (s := S23x256) S23x256.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S23.size a ≤ S23.size a
  hwx0_13 : ∀ i : grid0.Coords, EltTy.bits .f32 = 32 ∨ (Rect.block (s := S23) S23.size (cc0_transform_13 i) (hinb0_13 i)).WholeWords (EltTy.packing .f32)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S20x256.size a ≤ S20x256.size a
  hwx0_14 : ∀ i : grid0.Coords, EltTy.bits .f32 = 32 ∨ (Rect.block (s := S20x256) S20x256.size (cc0_transform_14 i) (hinb0_14 i)).WholeWords (EltTy.packing .f32)
  hstage0_15 : ∀ j, (stage0_15 j).IsWhole
  nbuf0_15 : grid0.bufCount reads0_15 true = 1
  hreads0_15 : ∀ i i' : grid0.Coords, (∀ a, reads0_15 a = true → i a = i' a) → cc0_transform_15 i = cc0_transform_15 i'
  hinb0_15 : ∀ (i : grid0.Coords) a, (cc0_transform_15 i a + 1) * S20.size a ≤ S20.size a
  hwx0_15 : ∀ i : grid0.Coords, EltTy.bits .f32 = 32 ∨ (Rect.block (s := S20) S20.size (cc0_transform_15 i) (hinb0_15 i)).WholeWords (EltTy.packing .f32)
  hstage0_16 : ∀ j, (stage0_16 j).IsWhole
  nbuf0_16 : grid0.bufCount reads0_16 false = 2
  hreads0_16 : ∀ i i' : grid0.Coords, (∀ a, reads0_16 a = true → i a = i' a) → cc0_transform_16 i = cc0_transform_16 i'
  hinb0_16 : ∀ (i : grid0.Coords) a, (cc0_transform_16 i a + 1) * S1024x54.size a ≤ S65536x54.size a
  hwx0_16 : ∀ i : grid0.Coords, EltTy.bits .f32 = 32 ∨ (Rect.block (s := S65536x54) S1024x54.size (cc0_transform_16 i) (hinb0_16 i)).WholeWords (EltTy.packing .f32)
  hstage0_17 : ∀ j, (stage0_17 j).IsWhole
  nbuf0_17 : grid0.bufCount reads0_17 false = 2
  hreads0_17 : ∀ i i' : grid0.Coords, (∀ a, reads0_17 a = true → i a = i' a) → cc0_transform_17 i = cc0_transform_17 i'
  hinb0_17 : ∀ (i : grid0.Coords) a, (cc0_transform_17 i a + 1) * S1024x23.size a ≤ S65536x23.size a
  hwx0_17 : ∀ i : grid0.Coords, EltTy.bits .f32 = 32 ∨ (Rect.block (s := S65536x23) S1024x23.size (cc0_transform_17 i) (hinb0_17 i)).WholeWords (EltTy.packing .f32)
  hstage0_18 : ∀ j, (stage0_18 j).IsWhole
  nbuf0_18 : grid0.bufCount reads0_18 false = 2
  hreads0_18 : ∀ i i' : grid0.Coords, (∀ a, reads0_18 a = true → i a = i' a) → cc0_transform_18 i = cc0_transform_18 i'
  hinb0_18 : ∀ (i : grid0.Coords) a, (cc0_transform_18 i a + 1) * S1024x20.size a ≤ S65536x20.size a
  hwx0_18 : ∀ i : grid0.Coords, EltTy.bits .f32 = 32 ∨ (Rect.block (s := S65536x20) S1024x20.size (cc0_transform_18 i) (hinb0_18 i)).WholeWords (EltTy.packing .f32)

variable [Facts₀]

def dot_S1024x256_S1024x256_S1024x1024_1_1_0_0_n_n : DotDims S1024x256 S1024x256 S1024x1024 where
  lhsContracting := [1]
  rhsContracting := [1]
  lhsNonContracting := [0]
  rhsNonContracting := [0]
  lhsBatch := []
  rhsBatch := []
  wf := dot_S1024x256_S1024x256_S1024x1024_1_1_0_0_n_n_wf
def dot_S1024x256_S256x256_S1024x256_1_1_0_0_n_n : DotDims S1024x256 S256x256 S1024x256 where
  lhsContracting := [1]
  rhsContracting := [1]
  lhsNonContracting := [0]
  rhsNonContracting := [0]
  lhsBatch := []
  rhsBatch := []
  wf := dot_S1024x256_S256x256_S1024x256_1_1_0_0_n_n_wf
def dot_S1024x256_S54x256_S1024x54_1_1_0_0_n_n : DotDims S1024x256 S54x256 S1024x54 where
  lhsContracting := [1]
  rhsContracting := [1]
  lhsNonContracting := [0]
  rhsNonContracting := [0]
  lhsBatch := []
  rhsBatch := []
  wf := dot_S1024x256_S54x256_S1024x54_1_1_0_0_n_n_wf
def dot_S1024x256_S23x256_S1024x23_1_1_0_0_n_n : DotDims S1024x256 S23x256 S1024x23 where
  lhsContracting := [1]
  rhsContracting := [1]
  lhsNonContracting := [0]
  rhsNonContracting := [0]
  lhsBatch := []
  rhsBatch := []
  wf := dot_S1024x256_S23x256_S1024x23_1_1_0_0_n_n_wf
def dot_S1024x256_S20x256_S1024x20_1_1_0_0_n_n : DotDims S1024x256 S20x256 S1024x20 where
  lhsContracting := [1]
  rhsContracting := [1]
  lhsNonContracting := [0]
  rhsNonContracting := [0]
  lhsBatch := []
  rhsBatch := []
  wf := dot_S1024x256_S20x256_S1024x20_1_1_0_0_n_n_wf

abbrev win0_0 : Pipeline.Window sig grid0 :=
  Pipeline.Window.ofSpec (Memref.whole main_arg0) S1024x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S3x1024x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S3x1024x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S3x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v2) S256x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v6) S256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v4) S256x256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v8) S256.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg9) S3x256x256.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg10) S3x256.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg11) S54x256.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_arg12) S54.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_arg13) S23x256.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_arg14) S23.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_arg15) S20x256.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_arg16) S20.size cc0_transform_15 reads0_15 false true 1 stage0_15 sem0_15
    hrank0 hreads0_15 hinb0_15 nbuf0_15 (Memref.isWhole_whole _) hwx0_15 hstage0_15

abbrev win0_16 : Pipeline.Window sig grid0 :=
  Pipeline.Window.ofSpec (Memref.whole main_v9_0) S1024x54.size cc0_transform_16 reads0_16 true false 2 stage0_16 sem0_16
    hrank0 hreads0_16 hinb0_16 nbuf0_16 (Memref.isWhole_whole _) hwx0_16 hstage0_16

abbrev win0_17 : Pipeline.Window sig grid0 :=
  Pipeline.Window.ofSpec (Memref.whole main_v9_1) S1024x23.size cc0_transform_17 reads0_17 true false 2 stage0_17 sem0_17
    hrank0 hreads0_17 hinb0_17 nbuf0_17 (Memref.isWhole_whole _) hwx0_17 hstage0_17

abbrev win0_18 : Pipeline.Window sig grid0 :=
  Pipeline.Window.ofSpec (Memref.whole main_v9_2) S1024x20.size cc0_transform_18 reads0_18 true false 2 stage0_18 sem0_18
    hrank0 hreads0_18 hinb0_18 nbuf0_18 (Memref.isWhole_whole _) hwx0_18 hstage0_18

abbrev win0 : Fin 19 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | 17 => win0_17 | 18 => win0_18 | ⟨_ + 19, h⟩ => absurd h (Nat.not_lt.2 (Nat.le_add_left _ _))
abbrev spec0 : Fin 19 → Pipeline.WinSpec sig grid0.rank := fun w => (win0 w).toWinSpec

class Facts : Prop extends Facts₀ where

variable [Facts]
-- ==== ReferenceIdeal.lean ====
abbrev S65536x256 : Shape := ⟨2, ![65536, 256]⟩
abbrev S3x1024x256 : Shape := ⟨3, ![3, 1024, 256]⟩
abbrev S3x1024 : Shape := ⟨2, ![3, 1024]⟩
abbrev S3x3x256x256 : Shape := ⟨4, ![3, 3, 256, 256]⟩
abbrev S3x3x256 : Shape := ⟨3, ![3, 3, 256]⟩
abbrev S3x256x256 : Shape := ⟨3, ![3, 256, 256]⟩
abbrev S3x256 : Shape := ⟨2, ![3, 256]⟩
abbrev S54x256 : Shape := ⟨2, ![54, 256]⟩
abbrev S54 : Shape := ⟨1, ![54]⟩
abbrev S23x256 : Shape := ⟨2, ![23, 256]⟩
abbrev S23 : Shape := ⟨1, ![23]⟩
abbrev S20x256 : Shape := ⟨2, ![20, 256]⟩
abbrev S20 : Shape := ⟨1, ![20]⟩
abbrev S_ : Shape := ⟨0, ![]⟩
abbrev S1x1024x256 : Shape := ⟨3, ![1, 1024, 256]⟩
abbrev S1024x256 : Shape := ⟨2, ![1024, 256]⟩
abbrev S256x1024 : Shape := ⟨2, ![256, 1024]⟩
abbrev S65536x1024 : Shape := ⟨2, ![65536, 1024]⟩
abbrev S1x1024 : Shape := ⟨2, ![1, 1024]⟩
abbrev S1024 : Shape := ⟨1, ![1024]⟩
abbrev S1x256x256 : Shape := ⟨3, ![1, 256, 256]⟩
abbrev S256x256 : Shape := ⟨2, ![256, 256]⟩
abbrev S1x256 : Shape := ⟨2, ![1, 256]⟩
abbrev S256 : Shape := ⟨1, ![256]⟩
abbrev S256x54 : Shape := ⟨2, ![256, 54]⟩
abbrev S65536x54 : Shape := ⟨2, ![65536, 54]⟩
abbrev S1x54 : Shape := ⟨2, ![1, 54]⟩
abbrev S1x1x256x256 : Shape := ⟨4, ![1, 1, 256, 256]⟩
abbrev S1x1x256 : Shape := ⟨3, ![1, 1, 256]⟩
abbrev S256x23 : Shape := ⟨2, ![256, 23]⟩
abbrev S65536x23 : Shape := ⟨2, ![65536, 23]⟩
abbrev S1x23 : Shape := ⟨2, ![1, 23]⟩
abbrev S256x20 : Shape := ⟨2, ![256, 20]⟩
abbrev S65536x20 : Shape := ⟨2, ![65536, 20]⟩
abbrev S1x20 : Shape := ⟨2, ![1, 20]⟩

abbrev nBuf : Space → Nat
  | .hbm => 349
  | .vmem => 0
  | .smem => 0
  | _ => 0

abbrev hbmTy0_0 (i : Nat) : BufTy := match i % 128 with
  | 0 => ⟨S65536x256, .f32⟩
  | 1 => ⟨S3x1024x256, .f32⟩
  | 2 => ⟨S3x1024x256, .f32⟩
  | 3 => ⟨S3x1024, .f32⟩
  | 4 => ⟨S3x1024, .f32⟩
  | 5 => ⟨S3x3x256x256, .f32⟩
  | 6 => ⟨S3x3x256, .f32⟩
  | 7 => ⟨S3x3x256x256, .f32⟩
  | 8 => ⟨S3x3x256, .f32⟩
  | 9 => ⟨S3x256x256, .f32⟩
  | 10 => ⟨S3x256, .f32⟩
  | 11 => ⟨S54x256, .f32⟩
  | 12 => ⟨S54, .f32⟩
  | 13 => ⟨S23x256, .f32⟩
  | 14 => ⟨S23, .f32⟩
  | 15 => ⟨S20x256, .f32⟩
  | 16 => ⟨S20, .f32⟩
  | 17 => ⟨S_, .f32⟩
  | 18 => ⟨S65536x256, .f32⟩
  | 19 => ⟨S1x1024x256, .f32⟩
  | 20 => ⟨S1024x256, .f32⟩
  | 21 => ⟨S256x1024, .f32⟩
  | 22 => ⟨S65536x1024, .f32⟩
  | 23 => ⟨S1x1024, .f32⟩
  | 24 => ⟨S1024, .f32⟩
  | 25 => ⟨S1x1024, .f32⟩
  | 26 => ⟨S65536x1024, .f32⟩
  | 27 => ⟨S65536x1024, .f32⟩
  | 28 => ⟨S1x1024x256, .f32⟩
  | 29 => ⟨S1024x256, .f32⟩
  | 30 => ⟨S256x1024, .f32⟩
  | 31 => ⟨S65536x1024, .f32⟩
  | 32 => ⟨S65536x1024, .f32⟩
  | 33 => ⟨S1x1024, .f32⟩
  | 34 => ⟨S1024, .f32⟩
  | 35 => ⟨S1x1024, .f32⟩
  | 36 => ⟨S65536x1024, .f32⟩
  | 37 => ⟨S65536x1024, .f32⟩
  | 38 => ⟨S65536x256, .f32⟩
  | 39 => ⟨S65536x256, .f32⟩
  | 40 => ⟨S65536x256, .f32⟩
  | 41 => ⟨S65536x256, .f32⟩
  | 42 => ⟨S65536x256, .f32⟩
  | 43 => ⟨S65536x256, .f32⟩
  | 44 => ⟨S_, .f32⟩
  | 45 => ⟨S65536x256, .f32⟩
  | 46 => ⟨S65536x256, .f32⟩
  | 47 => ⟨S_, .f32⟩
  | 48 => ⟨S65536x256, .f32⟩
  | 49 => ⟨S65536x256, .f32⟩
  | 50 => ⟨S65536x256, .f32⟩
  | 51 => ⟨S65536x256, .f32⟩
  | 52 => ⟨S65536x256, .f32⟩
  | 53 => ⟨S_, .f32⟩
  | 54 => ⟨S65536x256, .f32⟩
  | 55 => ⟨S65536x256, .f32⟩
  | 56 => ⟨S_, .f32⟩
  | 57 => ⟨S65536x256, .f32⟩
  | 58 => ⟨S65536x256, .f32⟩
  | 59 => ⟨S65536x256, .f32⟩
  | 60 => ⟨S65536x256, .f32⟩
  | 61 => ⟨S65536x256, .f32⟩
  | 62 => ⟨S65536x256, .f32⟩
  | 63 => ⟨S65536x256, .f32⟩
  | 64 => ⟨S_, .f32⟩
  | 65 => ⟨S65536x256, .f32⟩
  | 66 => ⟨S65536x256, .f32⟩
  | 67 => ⟨S_, .f32⟩
  | 68 => ⟨S65536x256, .f32⟩
  | 69 => ⟨S65536x256, .f32⟩
  | 70 => ⟨S65536x256, .f32⟩
  | 71 => ⟨S65536x256, .f32⟩
  | 72 => ⟨S1x256x256, .f32⟩
  | 73 => ⟨S256x256, .f32⟩
  | 74 => ⟨S256x256, .f32⟩
  | 75 => ⟨S65536x256, .f32⟩
  | 76 => ⟨S1x256, .f32⟩
  | 77 => ⟨S256, .f32⟩
  | 78 => ⟨S1x256, .f32⟩
  | 79 => ⟨S65536x256, .f32⟩
  | 80 => ⟨S65536x256, .f32⟩
  | 81 => ⟨S_, .f32⟩
  | 82 => ⟨S65536x256, .f32⟩
  | 83 => ⟨S65536x256, .f32⟩
  | 84 => ⟨S256x54, .f32⟩
  | 85 => ⟨S65536x54, .f32⟩
  | 86 => ⟨S1x54, .f32⟩
  | 87 => ⟨S65536x54, .f32⟩
  | 88 => ⟨S65536x54, .f32⟩
  | 89 => ⟨S1x1024x256, .f32⟩
  | 90 => ⟨S1024x256, .f32⟩
  | 91 => ⟨S256x1024, .f32⟩
  | 92 => ⟨S65536x1024, .f32⟩
  | 93 => ⟨S1x1024, .f32⟩
  | 94 => ⟨S1024, .f32⟩
  | 95 => ⟨S1x1024, .f32⟩
  | 96 => ⟨S65536x1024, .f32⟩
  | 97 => ⟨S65536x1024, .f32⟩
  | 98 => ⟨S1x1024x256, .f32⟩
  | 99 => ⟨S1024x256, .f32⟩
  | 100 => ⟨S256x1024, .f32⟩
  | 101 => ⟨S65536x1024, .f32⟩
  | 102 => ⟨S65536x1024, .f32⟩
  | 103 => ⟨S1x1024, .f32⟩
  | 104 => ⟨S1024, .f32⟩
  | 105 => ⟨S1x1024, .f32⟩
  | 106 => ⟨S65536x1024, .f32⟩
  | 107 => ⟨S65536x1024, .f32⟩
  | 108 => ⟨S65536x256, .f32⟩
  | 109 => ⟨S65536x256, .f32⟩
  | 110 => ⟨S65536x256, .f32⟩
  | 111 => ⟨S65536x256, .f32⟩
  | 112 => ⟨S65536x256, .f32⟩
  | 113 => ⟨S65536x256, .f32⟩
  | 114 => ⟨S_, .f32⟩
  | 115 => ⟨S65536x256, .f32⟩
  | 116 => ⟨S65536x256, .f32⟩
  | 117 => ⟨S_, .f32⟩
  | 118 => ⟨S65536x256, .f32⟩
  | 119 => ⟨S65536x256, .f32⟩
  | 120 => ⟨S65536x256, .f32⟩
  | 121 => ⟨S65536x256, .f32⟩
  | 122 => ⟨S65536x256, .f32⟩
  | 123 => ⟨S_, .f32⟩
  | 124 => ⟨S65536x256, .f32⟩
  | 125 => ⟨S65536x256, .f32⟩
  | 126 => ⟨S_, .f32⟩
  | 127 => ⟨S65536x256, .f32⟩
  | _ => ⟨S65536x256, .f32⟩

abbrev hbmTy0_1 (i : Nat) : BufTy := match i % 128 with
  | 0 => ⟨S65536x256, .f32⟩
  | 1 => ⟨S65536x256, .f32⟩
  | 2 => ⟨S65536x256, .f32⟩
  | 3 => ⟨S65536x256, .f32⟩
  | 4 => ⟨S65536x256, .f32⟩
  | 5 => ⟨S65536x256, .f32⟩
  | 6 => ⟨S_, .f32⟩
  | 7 => ⟨S65536x256, .f32⟩
  | 8 => ⟨S65536x256, .f32⟩
  | 9 => ⟨S_, .f32⟩
  | 10 => ⟨S65536x256, .f32⟩
  | 11 => ⟨S65536x256, .f32⟩
  | 12 => ⟨S65536x256, .f32⟩
  | 13 => ⟨S65536x256, .f32⟩
  | 14 => ⟨S1x1x256x256, .f32⟩
  | 15 => ⟨S256x256, .f32⟩
  | 16 => ⟨S256x256, .f32⟩
  | 17 => ⟨S65536x256, .f32⟩
  | 18 => ⟨S65536x256, .f32⟩
  | 19 => ⟨S1x1x256, .f32⟩
  | 20 => ⟨S256, .f32⟩
  | 21 => ⟨S1x256, .f32⟩
  | 22 => ⟨S65536x256, .f32⟩
  | 23 => ⟨S65536x256, .f32⟩
  | 24 => ⟨S1x1x256x256, .f32⟩
  | 25 => ⟨S256x256, .f32⟩
  | 26 => ⟨S256x256, .f32⟩
  | 27 => ⟨S65536x256, .f32⟩
  | 28 => ⟨S65536x256, .f32⟩
  | 29 => ⟨S1x1x256, .f32⟩
  | 30 => ⟨S256, .f32⟩
  | 31 => ⟨S1x256, .f32⟩
  | 32 => ⟨S65536x256, .f32⟩
  | 33 => ⟨S65536x256, .f32⟩
  | 34 => ⟨S1x1x256x256, .f32⟩
  | 35 => ⟨S256x256, .f32⟩
  | 36 => ⟨S256x256, .f32⟩
  | 37 => ⟨S65536x256, .f32⟩
  | 38 => ⟨S65536x256, .f32⟩
  | 39 => ⟨S1x1x256, .f32⟩
  | 40 => ⟨S256, .f32⟩
  | 41 => ⟨S1x256, .f32⟩
  | 42 => ⟨S65536x256, .f32⟩
  | 43 => ⟨S65536x256, .f32⟩
  | 44 => ⟨S1x1x256x256, .f32⟩
  | 45 => ⟨S256x256, .f32⟩
  | 46 => ⟨S256x256, .f32⟩
  | 47 => ⟨S65536x256, .f32⟩
  | 48 => ⟨S65536x256, .f32⟩
  | 49 => ⟨S1x1x256, .f32⟩
  | 50 => ⟨S256, .f32⟩
  | 51 => ⟨S1x256, .f32⟩
  | 52 => ⟨S65536x256, .f32⟩
  | 53 => ⟨S65536x256, .f32⟩
  | 54 => ⟨S1x1x256x256, .f32⟩
  | 55 => ⟨S256x256, .f32⟩
  | 56 => ⟨S256x256, .f32⟩
  | 57 => ⟨S65536x256, .f32⟩
  | 58 => ⟨S65536x256, .f32⟩
  | 59 => ⟨S1x1x256, .f32⟩
  | 60 => ⟨S256, .f32⟩
  | 61 => ⟨S1x256, .f32⟩
  | 62 => ⟨S65536x256, .f32⟩
  | 63 => ⟨S65536x256, .f32⟩
  | 64 => ⟨S1x1x256x256, .f32⟩
  | 65 => ⟨S256x256, .f32⟩
  | 66 => ⟨S256x256, .f32⟩
  | 67 => ⟨S65536x256, .f32⟩
  | 68 => ⟨S65536x256, .f32⟩
  | 69 => ⟨S1x1x256, .f32⟩
  | 70 => ⟨S256, .f32⟩
  | 71 => ⟨S1x256, .f32⟩
  | 72 => ⟨S65536x256, .f32⟩
  | 73 => ⟨S65536x256, .f32⟩
  | 74 => ⟨S1x256x256, .f32⟩
  | 75 => ⟨S256x256, .f32⟩
  | 76 => ⟨S256x256, .f32⟩
  | 77 => ⟨S65536x256, .f32⟩
  | 78 => ⟨S1x256, .f32⟩
  | 79 => ⟨S256, .f32⟩
  | 80 => ⟨S1x256, .f32⟩
  | 81 => ⟨S65536x256, .f32⟩
  | 82 => ⟨S65536x256, .f32⟩
  | 83 => ⟨S_, .f32⟩
  | 84 => ⟨S65536x256, .f32⟩
  | 85 => ⟨S65536x256, .f32⟩
  | 86 => ⟨S256x23, .f32⟩
  | 87 => ⟨S65536x23, .f32⟩
  | 88 => ⟨S1x23, .f32⟩
  | 89 => ⟨S65536x23, .f32⟩
  | 90 => ⟨S65536x23, .f32⟩
  | 91 => ⟨S1x1024x256, .f32⟩
  | 92 => ⟨S1024x256, .f32⟩
  | 93 => ⟨S256x1024, .f32⟩
  | 94 => ⟨S65536x1024, .f32⟩
  | 95 => ⟨S1x1024, .f32⟩
  | 96 => ⟨S1024, .f32⟩
  | 97 => ⟨S1x1024, .f32⟩
  | 98 => ⟨S65536x1024, .f32⟩
  | 99 => ⟨S65536x1024, .f32⟩
  | 100 => ⟨S1x1024x256, .f32⟩
  | 101 => ⟨S1024x256, .f32⟩
  | 102 => ⟨S256x1024, .f32⟩
  | 103 => ⟨S65536x1024, .f32⟩
  | 104 => ⟨S65536x1024, .f32⟩
  | 105 => ⟨S1x1024, .f32⟩
  | 106 => ⟨S1024, .f32⟩
  | 107 => ⟨S1x1024, .f32⟩
  | 108 => ⟨S65536x1024, .f32⟩
  | 109 => ⟨S65536x1024, .f32⟩
  | 110 => ⟨S65536x256, .f32⟩
  | 111 => ⟨S65536x256, .f32⟩
  | 112 => ⟨S65536x256, .f32⟩
  | 113 => ⟨S65536x256, .f32⟩
  | 114 => ⟨S65536x256, .f32⟩
  | 115 => ⟨S65536x256, .f32⟩
  | 116 => ⟨S_, .f32⟩
  | 117 => ⟨S65536x256, .f32⟩
  | 118 => ⟨S65536x256, .f32⟩
  | 119 => ⟨S_, .f32⟩
  | 120 => ⟨S65536x256, .f32⟩
  | 121 => ⟨S65536x256, .f32⟩
  | 122 => ⟨S65536x256, .f32⟩
  | 123 => ⟨S65536x256, .f32⟩
  | 124 => ⟨S65536x256, .f32⟩
  | 125 => ⟨S_, .f32⟩
  | 126 => ⟨S65536x256, .f32⟩
  | 127 => ⟨S65536x256, .f32⟩
  | _ => ⟨S65536x256, .f32⟩

abbrev hbmTy0_2 (i : Nat) : BufTy := match i % 128 with
  | 0 => ⟨S_, .f32⟩
  | 1 => ⟨S65536x256, .f32⟩
  | 2 => ⟨S65536x256, .f32⟩
  | 3 => ⟨S65536x256, .f32⟩
  | 4 => ⟨S65536x256, .f32⟩
  | 5 => ⟨S65536x256, .f32⟩
  | 6 => ⟨S65536x256, .f32⟩
  | 7 => ⟨S65536x256, .f32⟩
  | 8 => ⟨S_, .f32⟩
  | 9 => ⟨S65536x256, .f32⟩
  | 10 => ⟨S65536x256, .f32⟩
  | 11 => ⟨S_, .f32⟩
  | 12 => ⟨S65536x256, .f32⟩
  | 13 => ⟨S65536x256, .f32⟩
  | 14 => ⟨S65536x256, .f32⟩
  | 15 => ⟨S65536x256, .f32⟩
  | 16 => ⟨S1x1x256x256, .f32⟩
  | 17 => ⟨S256x256, .f32⟩
  | 18 => ⟨S256x256, .f32⟩
  | 19 => ⟨S65536x256, .f32⟩
  | 20 => ⟨S65536x256, .f32⟩
  | 21 => ⟨S1x1x256, .f32⟩
  | 22 => ⟨S256, .f32⟩
  | 23 => ⟨S1x256, .f32⟩
  | 24 => ⟨S65536x256, .f32⟩
  | 25 => ⟨S65536x256, .f32⟩
  | 26 => ⟨S1x1x256x256, .f32⟩
  | 27 => ⟨S256x256, .f32⟩
  | 28 => ⟨S256x256, .f32⟩
  | 29 => ⟨S65536x256, .f32⟩
  | 30 => ⟨S65536x256, .f32⟩
  | 31 => ⟨S1x1x256, .f32⟩
  | 32 => ⟨S256, .f32⟩
  | 33 => ⟨S1x256, .f32⟩
  | 34 => ⟨S65536x256, .f32⟩
  | 35 => ⟨S65536x256, .f32⟩
  | 36 => ⟨S1x1x256x256, .f32⟩
  | 37 => ⟨S256x256, .f32⟩
  | 38 => ⟨S256x256, .f32⟩
  | 39 => ⟨S65536x256, .f32⟩
  | 40 => ⟨S65536x256, .f32⟩
  | 41 => ⟨S1x1x256, .f32⟩
  | 42 => ⟨S256, .f32⟩
  | 43 => ⟨S1x256, .f32⟩
  | 44 => ⟨S65536x256, .f32⟩
  | 45 => ⟨S65536x256, .f32⟩
  | 46 => ⟨S1x1x256x256, .f32⟩
  | 47 => ⟨S256x256, .f32⟩
  | 48 => ⟨S256x256, .f32⟩
  | 49 => ⟨S65536x256, .f32⟩
  | 50 => ⟨S65536x256, .f32⟩
  | 51 => ⟨S1x1x256, .f32⟩
  | 52 => ⟨S256, .f32⟩
  | 53 => ⟨S1x256, .f32⟩
  | 54 => ⟨S65536x256, .f32⟩
  | 55 => ⟨S65536x256, .f32⟩
  | 56 => ⟨S1x1x256x256, .f32⟩
  | 57 => ⟨S256x256, .f32⟩
  | 58 => ⟨S256x256, .f32⟩
  | 59 => ⟨S65536x256, .f32⟩
  | 60 => ⟨S65536x256, .f32⟩
  | 61 => ⟨S1x1x256, .f32⟩
  | 62 => ⟨S256, .f32⟩
  | 63 => ⟨S1x256, .f32⟩
  | 64 => ⟨S65536x256, .f32⟩
  | 65 => ⟨S65536x256, .f32⟩
  | 66 => ⟨S1x1x256x256, .f32⟩
  | 67 => ⟨S256x256, .f32⟩
  | 68 => ⟨S256x256, .f32⟩
  | 69 => ⟨S65536x256, .f32⟩
  | 70 => ⟨S65536x256, .f32⟩
  | 71 => ⟨S1x1x256, .f32⟩
  | 72 => ⟨S256, .f32⟩
  | 73 => ⟨S1x256, .f32⟩
  | 74 => ⟨S65536x256, .f32⟩
  | 75 => ⟨S65536x256, .f32⟩
  | 76 => ⟨S1x256x256, .f32⟩
  | 77 => ⟨S256x256, .f32⟩
  | 78 => ⟨S256x256, .f32⟩
  | 79 => ⟨S65536x256, .f32⟩
  | 80 => ⟨S1x256, .f32⟩
  | 81 => ⟨S256, .f32⟩
  | 82 => ⟨S1x256, .f32⟩
  | 83 => ⟨S65536x256, .f32⟩
  | 84 => ⟨S65536x256, .f32⟩
  | 85 => ⟨S_, .f32⟩
  | 86 => ⟨S65536x256, .f32⟩
  | 87 => ⟨S65536x256, .f32⟩
  | 88 => ⟨S256x20, .f32⟩
  | 89 => ⟨S65536x20, .f32⟩
  | 90 => ⟨S1x20, .f32⟩
  | 91 => ⟨S65536x20, .f32⟩
  | 92 => ⟨S65536x20, .f32⟩
  | _ => ⟨S65536x256, .f32⟩

abbrev hbmTy (i : Nat) : BufTy := match i / 128 with
  | 0 => hbmTy0_0 i
  | 1 => hbmTy0_1 i
  | 2 => hbmTy0_2 i
  | _ => ⟨S65536x256, .f32⟩

abbrev bufTy : (tb : Table) → Fin (tcTables nBuf tb) → BufTy
  | .hbm, ⟨i, _⟩ => hbmTy i
  | _, _ => ⟨S65536x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_cst : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_cst_0 : Ref sig .tc := ⟨.hbm, 44, rfl⟩
abbrev main_v26 : Ref sig .tc := ⟨.hbm, 45, rfl⟩
abbrev main_v27 : Ref sig .tc := ⟨.hbm, 46, rfl⟩
abbrev main_cst_1 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_cst_2 : Ref sig .tc := ⟨.hbm, 53, rfl⟩
abbrev main_v33 : Ref sig .tc := ⟨.hbm, 54, rfl⟩
abbrev main_v34 : Ref sig .tc := ⟨.hbm, 55, rfl⟩
abbrev main_cst_3 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_cst_4 : Ref sig .tc := ⟨.hbm, 64, rfl⟩
abbrev main_v42 : Ref sig .tc := ⟨.hbm, 65, rfl⟩
abbrev main_v43 : Ref sig .tc := ⟨.hbm, 66, rfl⟩
abbrev main_cst_5 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_call0_cst : Ref sig .tc := ⟨.hbm, 81, rfl⟩
abbrev main_call0_v0 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev main_v82 : Ref sig .tc := ⟨.hbm, 108, rfl⟩
abbrev main_v83 : Ref sig .tc := ⟨.hbm, 109, rfl⟩
abbrev main_v84 : Ref sig .tc := ⟨.hbm, 110, rfl⟩
abbrev main_v85 : Ref sig .tc := ⟨.hbm, 111, rfl⟩
abbrev main_v86 : Ref sig .tc := ⟨.hbm, 112, rfl⟩
abbrev main_v87 : Ref sig .tc := ⟨.hbm, 113, rfl⟩
abbrev main_cst_6 : Ref sig .tc := ⟨.hbm, 114, rfl⟩
abbrev main_v88 : Ref sig .tc := ⟨.hbm, 115, rfl⟩
abbrev main_v89 : Ref sig .tc := ⟨.hbm, 116, rfl⟩
abbrev main_cst_7 : Ref sig .tc := ⟨.hbm, 117, rfl⟩
abbrev main_v90 : Ref sig .tc := ⟨.hbm, 118, rfl⟩
abbrev main_v91 : Ref sig .tc := ⟨.hbm, 119, rfl⟩
abbrev main_v92 : Ref sig .tc := ⟨.hbm, 120, rfl⟩
abbrev main_v93 : Ref sig .tc := ⟨.hbm, 121, rfl⟩
abbrev main_v94 : Ref sig .tc := ⟨.hbm, 122, rfl⟩
abbrev main_cst_8 : Ref sig .tc := ⟨.hbm, 123, rfl⟩
abbrev main_v95 : Ref sig .tc := ⟨.hbm, 124, rfl⟩
abbrev main_v96 : Ref sig .tc := ⟨.hbm, 125, rfl⟩
abbrev main_cst_9 : Ref sig .tc := ⟨.hbm, 126, rfl⟩
abbrev main_v97 : Ref sig .tc := ⟨.hbm, 127, rfl⟩
abbrev main_v98 : Ref sig .tc := ⟨.hbm, 128, rfl⟩
abbrev main_v99 : Ref sig .tc := ⟨.hbm, 129, rfl⟩
abbrev main_v100 : Ref sig .tc := ⟨.hbm, 130, rfl⟩
abbrev main_v101 : Ref sig .tc := ⟨.hbm, 131, rfl⟩
abbrev main_v102 : Ref sig .tc := ⟨.hbm, 132, rfl⟩
abbrev main_v103 : Ref sig .tc := ⟨.hbm, 133, rfl⟩
abbrev main_cst_10 : Ref sig .tc := ⟨.hbm, 134, rfl⟩
abbrev main_v104 : Ref sig .tc := ⟨.hbm, 135, rfl⟩
abbrev main_v105 : Ref sig .tc := ⟨.hbm, 136, rfl⟩
abbrev main_cst_11 : Ref sig .tc := ⟨.hbm, 137, rfl⟩
abbrev main_v106 : Ref sig .tc := ⟨.hbm, 138, rfl⟩
abbrev main_v107 : Ref sig .tc := ⟨.hbm, 139, rfl⟩
abbrev main_v108 : Ref sig .tc := ⟨.hbm, 140, rfl⟩
abbrev main_v109 : Ref sig .tc := ⟨.hbm, 141, rfl⟩
abbrev main_v110 : Ref sig .tc := ⟨.hbm, 142, rfl⟩
abbrev main_v111 : Ref sig .tc := ⟨.hbm, 143, rfl⟩
abbrev main_v112 : Ref sig .tc := ⟨.hbm, 144, rfl⟩
abbrev main_v113 : Ref sig .tc := ⟨.hbm, 145, rfl⟩
abbrev main_v114 : Ref sig .tc := ⟨.hbm, 146, rfl⟩
abbrev main_v115 : Ref sig .tc := ⟨.hbm, 147, rfl⟩
abbrev main_v116 : Ref sig .tc := ⟨.hbm, 148, rfl⟩
abbrev main_v117 : Ref sig .tc := ⟨.hbm, 149, rfl⟩
abbrev main_v118 : Ref sig .tc := ⟨.hbm, 150, rfl⟩
abbrev main_v119 : Ref sig .tc := ⟨.hbm, 151, rfl⟩
abbrev main_v120 : Ref sig .tc := ⟨.hbm, 152, rfl⟩
abbrev main_v121 : Ref sig .tc := ⟨.hbm, 153, rfl⟩
abbrev main_v122 : Ref sig .tc := ⟨.hbm, 154, rfl⟩
abbrev main_v123 : Ref sig .tc := ⟨.hbm, 155, rfl⟩
abbrev main_v124 : Ref sig .tc := ⟨.hbm, 156, rfl⟩
abbrev main_v125 : Ref sig .tc := ⟨.hbm, 157, rfl⟩
abbrev main_v126 : Ref sig .tc := ⟨.hbm, 158, rfl⟩
abbrev main_v127 : Ref sig .tc := ⟨.hbm, 159, rfl⟩
abbrev main_v128 : Ref sig .tc := ⟨.hbm, 160, rfl⟩
abbrev main_v129 : Ref sig .tc := ⟨.hbm, 161, rfl⟩
abbrev main_v130 : Ref sig .tc := ⟨.hbm, 162, rfl⟩
abbrev main_v131 : Ref sig .tc := ⟨.hbm, 163, rfl⟩
abbrev main_v132 : Ref sig .tc := ⟨.hbm, 164, rfl⟩
abbrev main_v133 : Ref sig .tc := ⟨.hbm, 165, rfl⟩
abbrev main_v134 : Ref sig .tc := ⟨.hbm, 166, rfl⟩
abbrev main_v135 : Ref sig .tc := ⟨.hbm, 167, rfl⟩
abbrev main_v136 : Ref sig .tc := ⟨.hbm, 168, rfl⟩
abbrev main_v137 : Ref sig .tc := ⟨.hbm, 169, rfl⟩
abbrev main_v138 : Ref sig .tc := ⟨.hbm, 170, rfl⟩
abbrev main_v139 : Ref sig .tc := ⟨.hbm, 171, rfl⟩
abbrev main_v140 : Ref sig .tc := ⟨.hbm, 172, rfl⟩
abbrev main_v141 : Ref sig .tc := ⟨.hbm, 173, rfl⟩
abbrev main_v142 : Ref sig .tc := ⟨.hbm, 174, rfl⟩
abbrev main_v143 : Ref sig .tc := ⟨.hbm, 175, rfl⟩
abbrev main_v144 : Ref sig .tc := ⟨.hbm, 176, rfl⟩
abbrev main_v145 : Ref sig .tc := ⟨.hbm, 177, rfl⟩
abbrev main_v146 : Ref sig .tc := ⟨.hbm, 178, rfl⟩
abbrev main_v147 : Ref sig .tc := ⟨.hbm, 179, rfl⟩
abbrev main_v148 : Ref sig .tc := ⟨.hbm, 180, rfl⟩
abbrev main_v149 : Ref sig .tc := ⟨.hbm, 181, rfl⟩
abbrev main_v150 : Ref sig .tc := ⟨.hbm, 182, rfl⟩
abbrev main_v151 : Ref sig .tc := ⟨.hbm, 183, rfl⟩
abbrev main_v152 : Ref sig .tc := ⟨.hbm, 184, rfl⟩
abbrev main_v153 : Ref sig .tc := ⟨.hbm, 185, rfl⟩
abbrev main_v154 : Ref sig .tc := ⟨.hbm, 186, rfl⟩
abbrev main_v155 : Ref sig .tc := ⟨.hbm, 187, rfl⟩
abbrev main_v156 : Ref sig .tc := ⟨.hbm, 188, rfl⟩
abbrev main_v157 : Ref sig .tc := ⟨.hbm, 189, rfl⟩
abbrev main_v158 : Ref sig .tc := ⟨.hbm, 190, rfl⟩
abbrev main_v159 : Ref sig .tc := ⟨.hbm, 191, rfl⟩
abbrev main_v160 : Ref sig .tc := ⟨.hbm, 192, rfl⟩
abbrev main_v161 : Ref sig .tc := ⟨.hbm, 193, rfl⟩
abbrev main_v162 : Ref sig .tc := ⟨.hbm, 194, rfl⟩
abbrev main_v163 : Ref sig .tc := ⟨.hbm, 195, rfl⟩
abbrev main_v164 : Ref sig .tc := ⟨.hbm, 196, rfl⟩
abbrev main_v165 : Ref sig .tc := ⟨.hbm, 197, rfl⟩
abbrev main_v166 : Ref sig .tc := ⟨.hbm, 198, rfl⟩
abbrev main_v167 : Ref sig .tc := ⟨.hbm, 199, rfl⟩
abbrev main_v168 : Ref sig .tc := ⟨.hbm, 200, rfl⟩
abbrev main_v169 : Ref sig .tc := ⟨.hbm, 201, rfl⟩
abbrev main_v170 : Ref sig .tc := ⟨.hbm, 202, rfl⟩
abbrev main_v171 : Ref sig .tc := ⟨.hbm, 203, rfl⟩
abbrev main_v172 : Ref sig .tc := ⟨.hbm, 204, rfl⟩
abbrev main_v173 : Ref sig .tc := ⟨.hbm, 205, rfl⟩
abbrev main_v174 : Ref sig .tc := ⟨.hbm, 206, rfl⟩
abbrev main_v175 : Ref sig .tc := ⟨.hbm, 207, rfl⟩
abbrev main_v176 : Ref sig .tc := ⟨.hbm, 208, rfl⟩
abbrev main_v177 : Ref sig .tc := ⟨.hbm, 209, rfl⟩
abbrev main_v178 : Ref sig .tc := ⟨.hbm, 210, rfl⟩
abbrev main_call1_cst : Ref sig .tc := ⟨.hbm, 211, rfl⟩
abbrev main_call1_v0 : Ref sig .tc := ⟨.hbm, 212, rfl⟩
abbrev main_v179 : Ref sig .tc := ⟨.hbm, 213, rfl⟩
abbrev main_v180 : Ref sig .tc := ⟨.hbm, 214, rfl⟩
abbrev main_v181 : Ref sig .tc := ⟨.hbm, 215, rfl⟩
abbrev main_v182 : Ref sig .tc := ⟨.hbm, 216, rfl⟩
abbrev main_v183 : Ref sig .tc := ⟨.hbm, 217, rfl⟩
abbrev main_v184 : Ref sig .tc := ⟨.hbm, 218, rfl⟩
abbrev main_v185 : Ref sig .tc := ⟨.hbm, 219, rfl⟩
abbrev main_v186 : Ref sig .tc := ⟨.hbm, 220, rfl⟩
abbrev main_v187 : Ref sig .tc := ⟨.hbm, 221, rfl⟩
abbrev main_v188 : Ref sig .tc := ⟨.hbm, 222, rfl⟩
abbrev main_v189 : Ref sig .tc := ⟨.hbm, 223, rfl⟩
abbrev main_v190 : Ref sig .tc := ⟨.hbm, 224, rfl⟩
abbrev main_v191 : Ref sig .tc := ⟨.hbm, 225, rfl⟩
abbrev main_v192 : Ref sig .tc := ⟨.hbm, 226, rfl⟩
abbrev main_v193 : Ref sig .tc := ⟨.hbm, 227, rfl⟩
abbrev main_v194 : Ref sig .tc := ⟨.hbm, 228, rfl⟩
abbrev main_v195 : Ref sig .tc := ⟨.hbm, 229, rfl⟩
abbrev main_v196 : Ref sig .tc := ⟨.hbm, 230, rfl⟩
abbrev main_v197 : Ref sig .tc := ⟨.hbm, 231, rfl⟩
abbrev main_v198 : Ref sig .tc := ⟨.hbm, 232, rfl⟩
abbrev main_v199 : Ref sig .tc := ⟨.hbm, 233, rfl⟩
abbrev main_v200 : Ref sig .tc := ⟨.hbm, 234, rfl⟩
abbrev main_v201 : Ref sig .tc := ⟨.hbm, 235, rfl⟩
abbrev main_v202 : Ref sig .tc := ⟨.hbm, 236, rfl⟩
abbrev main_v203 : Ref sig .tc := ⟨.hbm, 237, rfl⟩
abbrev main_v204 : Ref sig .tc := ⟨.hbm, 238, rfl⟩
abbrev main_v205 : Ref sig .tc := ⟨.hbm, 239, rfl⟩
abbrev main_v206 : Ref sig .tc := ⟨.hbm, 240, rfl⟩
abbrev main_v207 : Ref sig .tc := ⟨.hbm, 241, rfl⟩
abbrev main_v208 : Ref sig .tc := ⟨.hbm, 242, rfl⟩
abbrev main_v209 : Ref sig .tc := ⟨.hbm, 243, rfl⟩
abbrev main_cst_12 : Ref sig .tc := ⟨.hbm, 244, rfl⟩
abbrev main_v210 : Ref sig .tc := ⟨.hbm, 245, rfl⟩
abbrev main_v211 : Ref sig .tc := ⟨.hbm, 246, rfl⟩
abbrev main_cst_13 : Ref sig .tc := ⟨.hbm, 247, rfl⟩
abbrev main_v212 : Ref sig .tc := ⟨.hbm, 248, rfl⟩
abbrev main_v213 : Ref sig .tc := ⟨.hbm, 249, rfl⟩
abbrev main_v214 : Ref sig .tc := ⟨.hbm, 250, rfl⟩
abbrev main_v215 : Ref sig .tc := ⟨.hbm, 251, rfl⟩
abbrev main_v216 : Ref sig .tc := ⟨.hbm, 252, rfl⟩
abbrev main_cst_14 : Ref sig .tc := ⟨.hbm, 253, rfl⟩
abbrev main_v217 : Ref sig .tc := ⟨.hbm, 254, rfl⟩
abbrev main_v218 : Ref sig .tc := ⟨.hbm, 255, rfl⟩
abbrev main_cst_15 : Ref sig .tc := ⟨.hbm, 256, rfl⟩
abbrev main_v219 : Ref sig .tc := ⟨.hbm, 257, rfl⟩
abbrev main_v220 : Ref sig .tc := ⟨.hbm, 258, rfl⟩
abbrev main_v221 : Ref sig .tc := ⟨.hbm, 259, rfl⟩
abbrev main_v222 : Ref sig .tc := ⟨.hbm, 260, rfl⟩
abbrev main_v223 : Ref sig .tc := ⟨.hbm, 261, rfl⟩
abbrev main_v224 : Ref sig .tc := ⟨.hbm, 262, rfl⟩
abbrev main_v225 : Ref sig .tc := ⟨.hbm, 263, rfl⟩
abbrev main_cst_16 : Ref sig .tc := ⟨.hbm, 264, rfl⟩
abbrev main_v226 : Ref sig .tc := ⟨.hbm, 265, rfl⟩
abbrev main_v227 : Ref sig .tc := ⟨.hbm, 266, rfl⟩
abbrev main_cst_17 : Ref sig .tc := ⟨.hbm, 267, rfl⟩
abbrev main_v228 : Ref sig .tc := ⟨.hbm, 268, rfl⟩
abbrev main_v229 : Ref sig .tc := ⟨.hbm, 269, rfl⟩
abbrev main_v230 : Ref sig .tc := ⟨.hbm, 270, rfl⟩
abbrev main_v231 : Ref sig .tc := ⟨.hbm, 271, rfl⟩
abbrev main_v232 : Ref sig .tc := ⟨.hbm, 272, rfl⟩
abbrev main_v233 : Ref sig .tc := ⟨.hbm, 273, rfl⟩
abbrev main_v234 : Ref sig .tc := ⟨.hbm, 274, rfl⟩
abbrev main_v235 : Ref sig .tc := ⟨.hbm, 275, rfl⟩
abbrev main_v236 : Ref sig .tc := ⟨.hbm, 276, rfl⟩
abbrev main_v237 : Ref sig .tc := ⟨.hbm, 277, rfl⟩
abbrev main_v238 : Ref sig .tc := ⟨.hbm, 278, rfl⟩
abbrev main_v239 : Ref sig .tc := ⟨.hbm, 279, rfl⟩
abbrev main_v240 : Ref sig .tc := ⟨.hbm, 280, rfl⟩
abbrev main_v241 : Ref sig .tc := ⟨.hbm, 281, rfl⟩
abbrev main_v242 : Ref sig .tc := ⟨.hbm, 282, rfl⟩
abbrev main_v243 : Ref sig .tc := ⟨.hbm, 283, rfl⟩
abbrev main_v244 : Ref sig .tc := ⟨.hbm, 284, rfl⟩
abbrev main_v245 : Ref sig .tc := ⟨.hbm, 285, rfl⟩
abbrev main_v246 : Ref sig .tc := ⟨.hbm, 286, rfl⟩
abbrev main_v247 : Ref sig .tc := ⟨.hbm, 287, rfl⟩
abbrev main_v248 : Ref sig .tc := ⟨.hbm, 288, rfl⟩
abbrev main_v249 : Ref sig .tc := ⟨.hbm, 289, rfl⟩
abbrev main_v250 : Ref sig .tc := ⟨.hbm, 290, rfl⟩
abbrev main_v251 : Ref sig .tc := ⟨.hbm, 291, rfl⟩
abbrev main_v252 : Ref sig .tc := ⟨.hbm, 292, rfl⟩
abbrev main_v253 : Ref sig .tc := ⟨.hbm, 293, rfl⟩
abbrev main_v254 : Ref sig .tc := ⟨.hbm, 294, rfl⟩
abbrev main_v255 : Ref sig .tc := ⟨.hbm, 295, rfl⟩
abbrev main_v256 : Ref sig .tc := ⟨.hbm, 296, rfl⟩
abbrev main_v257 : Ref sig .tc := ⟨.hbm, 297, rfl⟩
abbrev main_v258 : Ref sig .tc := ⟨.hbm, 298, rfl⟩
abbrev main_v259 : Ref sig .tc := ⟨.hbm, 299, rfl⟩
abbrev main_v260 : Ref sig .tc := ⟨.hbm, 300, rfl⟩
abbrev main_v261 : Ref sig .tc := ⟨.hbm, 301, rfl⟩
abbrev main_v262 : Ref sig .tc := ⟨.hbm, 302, rfl⟩
abbrev main_v263 : Ref sig .tc := ⟨.hbm, 303, rfl⟩
abbrev main_v264 : Ref sig .tc := ⟨.hbm, 304, rfl⟩
abbrev main_v265 : Ref sig .tc := ⟨.hbm, 305, rfl⟩
abbrev main_v266 : Ref sig .tc := ⟨.hbm, 306, rfl⟩
abbrev main_v267 : Ref sig .tc := ⟨.hbm, 307, rfl⟩
abbrev main_v268 : Ref sig .tc := ⟨.hbm, 308, rfl⟩
abbrev main_v269 : Ref sig .tc := ⟨.hbm, 309, rfl⟩
abbrev main_v270 : Ref sig .tc := ⟨.hbm, 310, rfl⟩
abbrev main_v271 : Ref sig .tc := ⟨.hbm, 311, rfl⟩
abbrev main_v272 : Ref sig .tc := ⟨.hbm, 312, rfl⟩
abbrev main_v273 : Ref sig .tc := ⟨.hbm, 313, rfl⟩
abbrev main_v274 : Ref sig .tc := ⟨.hbm, 314, rfl⟩
abbrev main_v275 : Ref sig .tc := ⟨.hbm, 315, rfl⟩
abbrev main_v276 : Ref sig .tc := ⟨.hbm, 316, rfl⟩
abbrev main_v277 : Ref sig .tc := ⟨.hbm, 317, rfl⟩
abbrev main_v278 : Ref sig .tc := ⟨.hbm, 318, rfl⟩
abbrev main_v279 : Ref sig .tc := ⟨.hbm, 319, rfl⟩
abbrev main_v280 : Ref sig .tc := ⟨.hbm, 320, rfl⟩
abbrev main_v281 : Ref sig .tc := ⟨.hbm, 321, rfl⟩
abbrev main_v282 : Ref sig .tc := ⟨.hbm, 322, rfl⟩
abbrev main_v283 : Ref sig .tc := ⟨.hbm, 323, rfl⟩
abbrev main_v284 : Ref sig .tc := ⟨.hbm, 324, rfl⟩
abbrev main_v285 : Ref sig .tc := ⟨.hbm, 325, rfl⟩
abbrev main_v286 : Ref sig .tc := ⟨.hbm, 326, rfl⟩
abbrev main_v287 : Ref sig .tc := ⟨.hbm, 327, rfl⟩
abbrev main_v288 : Ref sig .tc := ⟨.hbm, 328, rfl⟩
abbrev main_v289 : Ref sig .tc := ⟨.hbm, 329, rfl⟩
abbrev main_v290 : Ref sig .tc := ⟨.hbm, 330, rfl⟩
abbrev main_v291 : Ref sig .tc := ⟨.hbm, 331, rfl⟩
abbrev main_v292 : Ref sig .tc := ⟨.hbm, 332, rfl⟩
abbrev main_v293 : Ref sig .tc := ⟨.hbm, 333, rfl⟩
abbrev main_v294 : Ref sig .tc := ⟨.hbm, 334, rfl⟩
abbrev main_v295 : Ref sig .tc := ⟨.hbm, 335, rfl⟩
abbrev main_v296 : Ref sig .tc := ⟨.hbm, 336, rfl⟩
abbrev main_v297 : Ref sig .tc := ⟨.hbm, 337, rfl⟩
abbrev main_v298 : Ref sig .tc := ⟨.hbm, 338, rfl⟩
abbrev main_v299 : Ref sig .tc := ⟨.hbm, 339, rfl⟩
abbrev main_v300 : Ref sig .tc := ⟨.hbm, 340, rfl⟩
abbrev main_call2_cst : Ref sig .tc := ⟨.hbm, 341, rfl⟩
abbrev main_call2_v0 : Ref sig .tc := ⟨.hbm, 342, rfl⟩
abbrev main_v301 : Ref sig .tc := ⟨.hbm, 343, rfl⟩
abbrev main_v302 : Ref sig .tc := ⟨.hbm, 344, rfl⟩
abbrev main_v303 : Ref sig .tc := ⟨.hbm, 345, rfl⟩
abbrev main_v304 : Ref sig .tc := ⟨.hbm, 346, rfl⟩
abbrev main_v305 : Ref sig .tc := ⟨.hbm, 347, rfl⟩
abbrev main_v306 : Ref sig .tc := ⟨.hbm, 348, rfl⟩

abbrev nD : Nat := 1
abbrev τ : Topo := Topo.v7x

variable {F : FTy → Type} [FloatOps F]

class Facts₀ : Prop where
  bcast_S_S65536x256 : S_.BroadcastsInDim S65536x256 (![] : Fin 0 → Fin S65536x256.rank)
  slices_S3x1024x256_S1x1024x256_0_0_0 : S3x1024x256.Slices ![0, 0, 0] S1x1024x256
  shapeCasts_S1x1024x256_S1024x256 : S1x1024x256.ShapeCasts S1024x256
  transposes_S1024x256_S256x1024_1_0 : S1024x256.Transposes [1, 0] S256x1024
  slices_S3x1024_S1x1024_0_0 : S3x1024.Slices ![0, 0] S1x1024
  shapeCasts_S1x1024_S1024 : S1x1024.ShapeCasts S1024
  bcast_S1024_S1x1024_1 : S1024.BroadcastsInDim S1x1024 (![1] : Fin 1 → Fin S1x1024.rank)
  bcast_S1x1024_S65536x1024_0_1 : S1x1024.BroadcastsInDim S65536x1024 (![0, 1] : Fin 2 → Fin S65536x1024.rank)
  slices_S65536x1024_S65536x256_0_0 : S65536x1024.Slices ![0, 0] S65536x256
  slices_S65536x1024_S65536x256_0_256 : S65536x1024.Slices ![0, 256] S65536x256
  slices_S65536x1024_S65536x256_0_512 : S65536x1024.Slices ![0, 512] S65536x256
  slices_S65536x1024_S65536x256_0_768 : S65536x1024.Slices ![0, 768] S65536x256
  slices_S3x256x256_S1x256x256_0_0_0 : S3x256x256.Slices ![0, 0, 0] S1x256x256
  shapeCasts_S1x256x256_S256x256 : S1x256x256.ShapeCasts S256x256
  transposes_S256x256_S256x256_1_0 : S256x256.Transposes [1, 0] S256x256
  slices_S3x256_S1x256_0_0 : S3x256.Slices ![0, 0] S1x256
  shapeCasts_S1x256_S256 : S1x256.ShapeCasts S256
  bcast_S256_S1x256_1 : S256.BroadcastsInDim S1x256 (![1] : Fin 1 → Fin S1x256.rank)
  bcast_S1x256_S65536x256_0_1 : S1x256.BroadcastsInDim S65536x256 (![0, 1] : Fin 2 → Fin S65536x256.rank)
  transposes_S54x256_S256x54_1_0 : S54x256.Transposes [1, 0] S256x54
  bcast_S54_S1x54_1 : S54.BroadcastsInDim S1x54 (![1] : Fin 1 → Fin S1x54.rank)
  bcast_S1x54_S65536x54_0_1 : S1x54.BroadcastsInDim S65536x54 (![0, 1] : Fin 2 → Fin S65536x54.rank)
  slices_S3x1024x256_S1x1024x256_1_0_0 : S3x1024x256.Slices ![1, 0, 0] S1x1024x256
  slices_S3x1024_S1x1024_1_0 : S3x1024.Slices ![1, 0] S1x1024
  slices_S3x3x256x256_S1x1x256x256_1_0_0_0 : S3x3x256x256.Slices ![1, 0, 0, 0] S1x1x256x256
  shapeCasts_S1x1x256x256_S256x256 : S1x1x256x256.ShapeCasts S256x256
  slices_S3x3x256_S1x1x256_1_0_0 : S3x3x256.Slices ![1, 0, 0] S1x1x256
  shapeCasts_S1x1x256_S256 : S1x1x256.ShapeCasts S256
  slices_S3x3x256x256_S1x1x256x256_1_1_0_0 : S3x3x256x256.Slices ![1, 1, 0, 0] S1x1x256x256
  slices_S3x3x256_S1x1x256_1_1_0 : S3x3x256.Slices ![1, 1, 0] S1x1x256
  slices_S3x3x256x256_S1x1x256x256_1_2_0_0 : S3x3x256x256.Slices ![1, 2, 0, 0] S1x1x256x256
  slices_S3x3x256_S1x1x256_1_2_0 : S3x3x256.Slices ![1, 2, 0] S1x1x256
  slices_S3x256x256_S1x256x256_1_0_0 : S3x256x256.Slices ![1, 0, 0] S1x256x256
  slices_S3x256_S1x256_1_0 : S3x256.Slices ![1, 0] S1x256
  transposes_S23x256_S256x23_1_0 : S23x256.Transposes [1, 0] S256x23
  bcast_S23_S1x23_1 : S23.BroadcastsInDim S1x23 (![1] : Fin 1 → Fin S1x23.rank)
  bcast_S1x23_S65536x23_0_1 : S1x23.BroadcastsInDim S65536x23 (![0, 1] : Fin 2 → Fin S65536x23.rank)
  slices_S3x1024x256_S1x1024x256_2_0_0 : S3x1024x256.Slices ![2, 0, 0] S1x1024x256
  slices_S3x1024_S1x1024_2_0 : S3x1024.Slices ![2, 0] S1x1024
  slices_S3x3x256x256_S1x1x256x256_2_0_0_0 : S3x3x256x256.Slices ![2, 0, 0, 0] S1x1x256x256
  slices_S3x3x256_S1x1x256_2_0_0 : S3x3x256.Slices ![2, 0, 0] S1x1x256
  slices_S3x3x256x256_S1x1x256x256_2_1_0_0 : S3x3x256x256.Slices ![2, 1, 0, 0] S1x1x256x256
  slices_S3x3x256_S1x1x256_2_1_0 : S3x3x256.Slices ![2, 1, 0] S1x1x256
  slices_S3x3x256x256_S1x1x256x256_2_2_0_0 : S3x3x256x256.Slices ![2, 2, 0, 0] S1x1x256x256
  slices_S3x3x256_S1x1x256_2_2_0 : S3x3x256.Slices ![2, 2, 0] S1x1x256
  slices_S3x256x256_S1x256x256_2_0_0 : S3x256x256.Slices ![2, 0, 0] S1x256x256
  slices_S3x256_S1x256_2_0 : S3x256.Slices ![2, 0] S1x256
  transposes_S20x256_S256x20_1_0 : S20x256.Transposes [1, 0] S256x20
  bcast_S20_S1x20_1 : S20.BroadcastsInDim S1x20 (![1] : Fin 1 → Fin S1x20.rank)
  bcast_S1x20_S65536x20_0_1 : S1x20.BroadcastsInDim S65536x20 (![0, 1] : Fin 2 → Fin S65536x20.rank)
  dot_S65536x256_S256x1024_S65536x1024_1_0_0_1_n_n_wf : DotDims.WF S65536x256 S256x1024 S65536x1024 [1] [0] [0] [1] [] []
  dot_S65536x256_S256x256_S65536x256_1_0_0_1_n_n_wf : DotDims.WF S65536x256 S256x256 S65536x256 [1] [0] [0] [1] [] []
  dot_S65536x256_S256x54_S65536x54_1_0_0_1_n_n_wf : DotDims.WF S65536x256 S256x54 S65536x54 [1] [0] [0] [1] [] []
  dot_S65536x256_S256x23_S65536x23_1_0_0_1_n_n_wf : DotDims.WF S65536x256 S256x23 S65536x23 [1] [0] [0] [1] [] []
  dot_S65536x256_S256x20_S65536x20_1_0_0_1_n_n_wf : DotDims.WF S65536x256 S256x20 S65536x20 [1] [0] [0] [1] [] []

variable [Facts₀]

def dot_S65536x256_S256x1024_S65536x1024_1_0_0_1_n_n : DotDims S65536x256 S256x1024 S65536x1024 where
  lhsContracting := [1]
  rhsContracting := [0]
  lhsNonContracting := [0]
  rhsNonContracting := [1]
  lhsBatch := []
  rhsBatch := []
  wf := dot_S65536x256_S256x1024_S65536x1024_1_0_0_1_n_n_wf
def dot_S65536x256_S256x256_S65536x256_1_0_0_1_n_n : DotDims S65536x256 S256x256 S65536x256 where
  lhsContracting := [1]
  rhsContracting := [0]
  lhsNonContracting := [0]
  rhsNonContracting := [1]
  lhsBatch := []
  rhsBatch := []
  wf := dot_S65536x256_S256x256_S65536x256_1_0_0_1_n_n_wf
def dot_S65536x256_S256x54_S65536x54_1_0_0_1_n_n : DotDims S65536x256 S256x54 S65536x54 where
  lhsContracting := [1]
  rhsContracting := [0]
  lhsNonContracting := [0]
  rhsNonContracting := [1]
  lhsBatch := []
  rhsBatch := []
  wf := dot_S65536x256_S256x54_S65536x54_1_0_0_1_n_n_wf
def dot_S65536x256_S256x23_S65536x23_1_0_0_1_n_n : DotDims S65536x256 S256x23 S65536x23 where
  lhsContracting := [1]
  rhsContracting := [0]
  lhsNonContracting := [0]
  rhsNonContracting := [1]
  lhsBatch := []
  rhsBatch := []
  wf := dot_S65536x256_S256x23_S65536x23_1_0_0_1_n_n_wf
def dot_S65536x256_S256x20_S65536x20_1_0_0_1_n_n : DotDims S65536x256 S256x20 S65536x20 where
  lhsContracting := [1]
  rhsContracting := [0]
  lhsNonContracting := [0]
  rhsNonContracting := [1]
  lhsBatch := []
  rhsBatch := []
  wf := dot_S65536x256_S256x20_S65536x20_1_0_0_1_n_n_wf

class Facts : Prop extends Facts₀ where

variable [Facts]
-- ==== Proof.Spec.lean ====
/-
  The function both programs compute, one batch row at a time, on the extended reals.

  A row `x` of 256 features goes through three LSTM cells that share the input. Cell `a` forms 1024 gate
  pre-activations `x · Wih[a]ᵀ + h · Whh[a]ᵀ + (bih[a] + bhh[a])`, cut into four runs of 256 (input, forget,
  candidate, output gate), and updates `c' = σ(f) · c + σ(i) · tanh(g)`, `h' = σ(o) · tanh(c')`. Cell 0 starts from the
  zero state, so its recurrent product and its forget term are absent; cell 1 starts from cell 0's state; cell 2 from
  cell 0's state plus a linear image of cell 1's state (the one mixing pair whose result is read again). Each cell's
  hidden row feeds a head: `relu(h · midW[a]ᵀ + midb[a]) · outW_aᵀ + outb_a`.
-/
import Idealize.ShloMosaic.PureOps.Ideal
import Idealize.ShloMosaic.Lib.ValueIdx

noncomputable section

namespace Cert.Spec

open Idealize.ShloMosaic Idealize.ShloMosaic.ValueIdx

/-- A row of `n` extended reals. -/
abbrev Row (n : Nat) := Fin n → EReal

/-- `x · Wᵀ` for a weight matrix stored [out, in]: entry `o` is the contraction of `x` with row `o` of `W`. -/
def lin {n k : Nat} (x : Row n) (W : Fin k → Fin n → EReal) : Row k := fun o => ∑ c : Fin n, x c * W o c

/-- Position of the input gate's pre-activation `o` among the 1024. -/
def qi (o : Fin 256) : Fin 1024 := ⟨o.val, by omega⟩
/-- Position of the forget gate's. -/
def qf (o : Fin 256) : Fin 1024 := ⟨256 + o.val, by omega⟩
/-- Position of the cell candidate's. -/
def qg (o : Fin 256) : Fin 1024 := ⟨512 + o.val, by omega⟩
/-- Position of the output gate's. -/
def qo (o : Fin 256) : Fin 1024 := ⟨768 + o.val, by omega⟩

/-- Gate pre-activations from the zero state: `x · Wihᵀ + b`. -/
def gate0 (x : Row 256) (Wih : Fin 1024 → Fin 256 → EReal) (b : Row 1024) : Row 1024 :=
  fun j => lin x Wih j + b j

/-- Gate pre-activations: `x · Wihᵀ + h · Whhᵀ + b`. -/
def gate (x h : Row 256) (Wih Whh : Fin 1024 → Fin 256 → EReal) (b : Row 1024) : Row 1024 :=
  fun j => lin x Wih j + lin h Whh j + b j

/-- The new cell state from the zero state: `σ(i) · tanh(g)`. -/
def cell0 (g : Row 1024) : Row 256 := fun o => Ideal.logistic (g (qi o)) * Ideal.tanh (g (qg o))

/-- The new cell state: `σ(f) · c + σ(i) · tanh(g)`. -/
def cell (g : Row 1024) (cp : Row 256) : Row 256 :=
  fun o => Ideal.logistic (g (qf o)) * cp o + Ideal.logistic (g (qi o)) * Ideal.tanh (g (qg o))

/-- The new hidden state: `σ(o) · tanh(c')`. -/
def hid (g : Row 1024) (c : Row 256) : Row 256 := fun o => Ideal.logistic (g (qo o)) * Ideal.tanh (c o)

/-- The middle layer: `relu(h · Wᵀ + b)`. -/
def mid (h : Row 256) (W : Fin 256 → Fin 256 → EReal) (b : Row 256) : Row 256 := fun j => max (lin h W j + b j) 0

/-- The output layer: `m · Wᵀ + b`. -/
def outp {k : Nat} (m : Row 256) (W : Fin k → Fin 256 → EReal) (b : Row k) : Row k := fun o => lin m W o + b o

/-- A state mixed with a linear image of another: `p + s · Wᵀ + b`. -/
def mix (p s : Row 256) (W : Fin 256 → Fin 256 → EReal) (b : Row 256) : Row 256 := fun o => p o + lin s W o + b o

/-- The weights as the cells see them. -/
structure Params where
  /-- input weights of cell `a`, [1024, 256] -/
  Wih : Fin 3 → Fin 1024 → Fin 256 → EReal
  /-- recurrent weights of cell `a`, [1024, 256] -/
  Whh : Fin 3 → Fin 1024 → Fin 256 → EReal
  /-- the two bias rows of cell `a` added -/
  b : Fin 3 → Row 1024
  /-- hidden-state mixing weights from cell 1 into cell 2 -/
  hsW : Fin 256 → Fin 256 → EReal
  hsb : Row 256
  /-- cell-state mixing weights from cell 1 into cell 2 -/
  csW : Fin 256 → Fin 256 → EReal
  csb : Row 256
  /-- middle layer of head `a` -/
  midW : Fin 3 → Fin 256 → Fin 256 → EReal
  midb : Fin 3 → Row 256

variable (P : Params) (x : Row 256)

def g0 : Row 1024 := gate0 x (P.Wih 0) (P.b 0)
def c0 : Row 256 := cell0 (g0 P x)
def h0 : Row 256 := hid (g0 P x) (c0 P x)
def g1 : Row 1024 := gate x (h0 P x) (P.Wih 1) (P.Whh 1) (P.b 1)
def c1 : Row 256 := cell (g1 P x) (c0 P x)
def h1 : Row 256 := hid (g1 P x) (c1 P x)
def h2p : Row 256 := mix (h0 P x) (h1 P x) P.hsW P.hsb
def c2p : Row 256 := mix (c0 P x) (c1 P x) P.csW P.csb
def g2 : Row 1024 := gate x (h2p P x) (P.Wih 2) (P.Whh 2) (P.b 2)
def c2 : Row 256 := cell (g2 P x) (c2p P x)
def h2 : Row 256 := hid (g2 P x) (c2 P x)
def m0 : Row 256 := mid (h0 P x) (P.midW 0) (P.midb 0)
def m1 : Row 256 := mid (h1 P x) (P.midW 1) (P.midb 1)
def m2 : Row 256 := mid (h2 P x) (P.midW 2) (P.midb 2)

/-- The parameters read out of the argument arrays: cell `a`'s matrices are the slabs `a` of the stacked arrays,
    its bias the sum of the two bias rows, the mixing pair the (1, 2) entries of the mixing stacks. -/
def paramsOf (x1 x2 : (⟨3, ![3, 1024, 256]⟩ : Shape).Idx → EReal) (x3 x4 : (⟨2, ![3, 1024]⟩ : Shape).Idx → EReal)
    (x5 : (⟨4, ![3, 3, 256, 256]⟩ : Shape).Idx → EReal) (x6 : (⟨3, ![3, 3, 256]⟩ : Shape).Idx → EReal)
    (x7 : (⟨4, ![3, 3, 256, 256]⟩ : Shape).Idx → EReal) (x8 : (⟨3, ![3, 3, 256]⟩ : Shape).Idx → EReal)
    (x9 : (⟨3, ![3, 256, 256]⟩ : Shape).Idx → EReal) (x10 : (⟨2, ![3, 256]⟩ : Shape).Idx → EReal) : Params where
  Wih := fun a j c => x1 (ix3 a j c)
  Whh := fun a j c => x2 (ix3 a j c)
  b := fun a j => x3 (ix2 a j) + x4 (ix2 a j)
  hsW := fun o c => x5 (ix4 1 2 o c)
  hsb := fun o => x6 (ix3 1 2 o)
  csW := fun o c => x7 (ix4 1 2 o c)
  csb := fun o => x8 (ix3 1 2 o)
  midW := fun a j c => x9 (ix3 a j c)
  midb := fun a j => x10 (ix2 a j)

/-- Row `r` of a [B, 256] array. -/
def rowOf {B : Nat} (x0 : (⟨2, ![B, 256]⟩ : Shape).Idx → EReal) (r : Fin B) : Row 256 := fun c => x0 (ix2 r c)

/-- A [k, 256] weight array as a matrix. -/
def mat {k : Nat} (W : (⟨2, ![k, 256]⟩ : Shape).Idx → EReal) : Fin k → Fin 256 → EReal := fun o c => W (ix2 o c)

/-- A [k] bias array as a row. -/
def vec {k : Nat} (b : (⟨1, ![k]⟩ : Shape).Idx → EReal) : Row k := fun o => b (ix1 o)

/-- The first head's result array: entry `(r, o)` is head 0 of row `r` of the input at `o`. -/
def G0 (x0 : (⟨2, ![65536, 256]⟩ : Shape).Idx → EReal)
    (x1 x2 : (⟨3, ![3, 1024, 256]⟩ : Shape).Idx → EReal) (x3 x4 : (⟨2, ![3, 1024]⟩ : Shape).Idx → EReal)
    (x5 : (⟨4, ![3, 3, 256, 256]⟩ : Shape).Idx → EReal) (x6 : (⟨3, ![3, 3, 256]⟩ : Shape).Idx → EReal)
    (x7 : (⟨4, ![3, 3, 256, 256]⟩ : Shape).Idx → EReal) (x8 : (⟨3, ![3, 3, 256]⟩ : Shape).Idx → EReal)
    (x9 : (⟨3, ![3, 256, 256]⟩ : Shape).Idx → EReal) (x10 : (⟨2, ![3, 256]⟩ : Shape).Idx → EReal)
    (x11 : (⟨2, ![54, 256]⟩ : Shape).Idx → EReal) (x12 : (⟨1, ![54]⟩ : Shape).Idx → EReal) :
    (⟨2, ![65536, 54]⟩ : Shape).Idx → EReal :=
  fun i => outp (m0 (paramsOf x1 x2 x3 x4 x5 x6 x7 x8 x9 x10) (rowOf x0 (i 0))) (mat x11) (vec x12) (i 1)

/-- The second head's result array. -/
def G1 (x0 : (⟨2, ![65536, 256]⟩ : Shape).Idx → EReal)
    (x1 x2 : (⟨3, ![3, 1024, 256]⟩ : Shape).Idx → EReal) (x3 x4 : (⟨2, ![3, 1024]⟩ : Shape).Idx → EReal)
    (x5 : (⟨4, ![3, 3, 256, 256]⟩ : Shape).Idx → EReal) (x6 : (⟨3, ![3, 3, 256]⟩ : Shape).Idx → EReal)
    (x7 : (⟨4, ![3, 3, 256, 256]⟩ : Shape).Idx → EReal) (x8 : (⟨3, ![3, 3, 256]⟩ : Shape).Idx → EReal)
    (x9 : (⟨3, ![3, 256, 256]⟩ : Shape).Idx → EReal) (x10 : (⟨2, ![3, 256]⟩ : Shape).Idx → EReal)
    (x13 : (⟨2, ![23, 256]⟩ : Shape).Idx → EReal) (x14 : (⟨1, ![23]⟩ : Shape).Idx → EReal) :
    (⟨2, ![65536, 23]⟩ : Shape).Idx → EReal :=
  fun i => outp (m1 (paramsOf x1 x2 x3 x4 x5 x6 x7 x8 x9 x10) (rowOf x0 (i 0))) (mat x13) (vec x14) (i 1)

/-- The third head's result array. -/
def G2 (x0 : (⟨2, ![65536, 256]⟩ : Shape).Idx → EReal)
    (x1 x2 : (⟨3, ![3, 1024, 256]⟩ : Shape).Idx → EReal) (x3 x4 : (⟨2, ![3, 1024]⟩ : Shape).Idx → EReal)
    (x5 : (⟨4, ![3, 3, 256, 256]⟩ : Shape).Idx → EReal) (x6 : (⟨3, ![3, 3, 256]⟩ : Shape).Idx → EReal)
    (x7 : (⟨4, ![3, 3, 256, 256]⟩ : Shape).Idx → EReal) (x8 : (⟨3, ![3, 3, 256]⟩ : Shape).Idx → EReal)
    (x9 : (⟨3, ![3, 256, 256]⟩ : Shape).Idx → EReal) (x10 : (⟨2, ![3, 256]⟩ : Shape).Idx → EReal)
    (x15 : (⟨2, ![20, 256]⟩ : Shape).Idx → EReal) (x16 : (⟨1, ![20]⟩ : Shape).Idx → EReal) :
    (⟨2, ![65536, 20]⟩ : Shape).Idx → EReal :=
  fun i => outp (m2 (paramsOf x1 x2 x3 x4 x5 x6 x7 x8 x9 x10) (rowOf x0 (i 0))) (mat x15) (vec x16) (i 1)

end Cert.Spec

end
-- ==== Proof.LibRowsTimesRows.lean ====
/-
  A product of an `R × n` matrix with the rows of a `k × n` matrix, read at an index, over the extended reals.

  When both operands are contracted on their SECOND axis (no batch axis) — the product `A · Bᵀ` taken without
  materialising the transpose — a product accumulated into the zero matrix is, at row `q` and column `o`, the sum
  over `c : Fin n` of `A (q, c) * B (o, c)`: the zero accumulator contributes `0 + _`, and the contraction index, a
  one-axis multi-index, is re-indexed by its one coordinate. The statement quantifies over the well-formedness proof
  only, so it applies to any record with these six lists. Nothing here needs an entry to be finite.
-/
import Idealize.ShloMosaic.PureOps.Ideal
import Idealize.ShloMosaic.PureOps.Ideal.Laws
import Idealize.ShloMosaic.Lib.ValueIdx

noncomputable section

namespace Cert.RowsTimesRows

open Idealize.ShloMosaic Idealize.ShloMosaic.ValueIdx

/-- The dimension numbers of `A · Bᵀ` for `A : R × n` and `B : k × n`, for any proof that they are well formed. -/
abbrev rowsDims (R n k : Nat)
    (wf : DotDims.WF (⟨2, ![R, n]⟩ : Shape) ⟨2, ![k, n]⟩ ⟨2, ![R, k]⟩ [1] [1] [0] [0] [] []) :
    DotDims (⟨2, ![R, n]⟩ : Shape) ⟨2, ![k, n]⟩ ⟨2, ![R, k]⟩ :=
  { lhsContracting := [1], rhsContracting := [1], lhsNonContracting := [0], rhsNonContracting := [0],
    lhsBatch := [], rhsBatch := [], wf := wf }

theorem rowsDims_contr_rank {R n k : Nat} (wf) : (rowsDims R n k wf).contr.rank = 1 := rfl

theorem rowsDims_contr_size {R n k : Nat} (wf) :
    (rowsDims R n k wf).contr.size ⟨0, by rw [rowsDims_contr_rank]; exact Nat.one_pos⟩ = n := rfl

/-- The contraction index of such a product is one coordinate in `Fin n`. -/
abbrev rowsContr {R n k : Nat} (wf) : (rowsDims R n k wf).contr.Idx ≃ Fin n :=
  contrEquiv1 (rowsDims R n k wf) n (rowsDims_contr_rank wf) (rowsDims_contr_size wf)

/-- The left operand's index at output `(q, o)` and contraction coordinate `c` is `(q, c)`. -/
theorem rowsDims_lhsIdx {R n k : Nat} (wf) (q : Fin R) (o : Fin k) (c : Fin n) :
    (rowsDims R n k wf).lhsIdx (ix2 q o) ((rowsContr wf).symm c) = ix2 q c := by
  funext a
  apply Fin.ext
  match a with
  | ⟨0, h0⟩ =>
    unfold DotDims.lhsIdx
    rw [dif_neg (show ¬(⟨0, h0⟩ : Fin (⟨2, ![R, n]⟩ : Shape).rank) ∈ (rowsDims R n k wf).lhsBatch from List.not_mem_nil),
      dif_pos (show (⟨0, h0⟩ : Fin (⟨2, ![R, n]⟩ : Shape).rank) ∈ (rowsDims R n k wf).lhsNonContracting from
        List.mem_singleton.mpr rfl)]
    rfl
  | ⟨1, h1⟩ =>
    exact ((rowsDims R n k wf).lhsIdx_val_of_single (cl := ⟨1, h1⟩) rfl _ _).trans
      (contrEquiv1_symm_val (rowsDims R n k wf) n (rowsDims_contr_rank wf) (rowsDims_contr_size wf) c)

/-- The right operand's index there is `(o, c)`: its first axis is the output's second. -/
theorem rowsDims_rhsIdx {R n k : Nat} (wf) (q : Fin R) (o : Fin k) (c : Fin n) :
    (rowsDims R n k wf).rhsIdx (ix2 q o) ((rowsContr wf).symm c) = ix2 o c := by
  funext a
  apply Fin.ext
  match a with
  | ⟨0, h0⟩ =>
    unfold DotDims.rhsIdx
    rw [dif_neg (show ¬(⟨0, h0⟩ : Fin (⟨2, ![k, n]⟩ : Shape).rank) ∈ (rowsDims R n k wf).rhsBatch from List.not_mem_nil),
      dif_pos (show (⟨0, h0⟩ : Fin (⟨2, ![k, n]⟩ : Shape).rank) ∈ (rowsDims R n k wf).rhsNonContracting from
        List.mem_singleton.mpr rfl)]
    rfl
  | ⟨1, h1⟩ =>
    exact ((rowsDims R n k wf).rhsIdx_val_of_single (cr := ⟨1, h1⟩) rfl _ _).trans
      (contrEquiv1_symm_val (rowsDims R n k wf) n (rowsDims_contr_rank wf) (rowsDims_contr_size wf) c)

/-- A product `A · Bᵀ` accumulated into the zero matrix, at `(q, o)`: the sum over the shared second axis. -/
theorem rowsMatmul_zero_apply {R n k : Nat} {φ₁ φ₂ : FTy} (wf) (prec : Option ContractPrecision)
    (A : FVec Ideal (⟨2, ![R, n]⟩ : Shape) φ₁) (B : FVec Ideal (⟨2, ![k, n]⟩ : Shape) φ₂) (q : Fin R) (o : Fin k) :
    FloatOps.matmul (rowsDims R n k wf) prec A B (constant (F := Ideal) (⟨2, ![R, k]⟩ : Shape) .f32 0x00000000#32) (ix2 q o)
      = ∑ c : Fin n, A (ix2 q c) * B (ix2 o c) := by
  rw [Ideal.matmul_constant_zero_apply, ← Equiv.sum_comp (rowsContr wf).symm]
  refine Finset.sum_congr rfl fun c _ => ?_
  rw [rowsDims_lhsIdx, rowsDims_rhsIdx]

end Cert.RowsTimesRows

end
-- ==== Proof.KerOps.lean ====
/-
  The kernel body's building blocks on one batch tile, read at an entry, on the extended reals.

  A tile holds 1024 batch rows. Every matrix product of the body contracts the second axes of its two operands
  (`A · Bᵀ` with the weight stored [out, in]) into a zero accumulator, so its entry `(q, o)` is the sum over `c` of
  `A(q, c) · B(o, c)`: row `q` of the tile against row `o` of the weight. Biases are rows copied down the tile, the four
  gates are column runs of the 1024 pre-activations, and everything else is entrywise. Hence entry `(q, ·)` of every
  intermediate tile is the specification's row function of row `q` of the input tile.
-/
import proofs.«168260_j24026047054250_2_alg».proof.Proof.Gen.KernelIdeal.Skeleton
import proofs.«168260_j24026047054250_2_alg».proof.Proof.Spec
import proofs.«168260_j24026047054250_2_alg».proof.Proof.LibRowsTimesRows
import Idealize.ShloMosaic.Lib.ValueLayout
import Idealize.ShloMosaic.Lib.ValueIdx
import Idealize.ShloMosaic.Lib.Pipeline.Value
import Idealize.ShloMosaic.PureOps.Ideal.Laws

noncomputable section

namespace Cert.KerSide

open Cert.KernelIdeal Cert.KernelIdeal.Gen Idealize.ShloMosaic Idealize.ShloMosaic.ValueIdx Cert.Spec Cert.RowsTimesRows

/-! ## Rows of tiles and of loaded weights -/

/-- Row `q` of a tile of 256-wide rows. -/
abbrev trow (X : S1024x256.Idx → EReal) (q : Fin 1024) : Row 256 := fun c => X (ix2 q c)

/-- Row `q` of a tile of 1024-wide rows. -/
abbrev grow (G : S1024x1024.Idx → EReal) (q : Fin 1024) : Row 1024 := fun j => G (ix2 q j)

/-- A loaded one-slab weight [1, 1024, 256] as a matrix. -/
abbrev slabA (W : Vec Ideal S1x1024x256 .f32) : Fin 1024 → Fin 256 → EReal := fun j c => W (ix3 0 j c)

/-- A loaded one-slab weight [1, 256, 256] as a matrix. -/
abbrev slabB (W : Vec Ideal S1x256x256 .f32) : Fin 256 → Fin 256 → EReal := fun j c => W (ix3 0 j c)

/-- A loaded one-row bias [1, 1024] as a row. -/
abbrev browA (b : Vec Ideal S1x1024 .f32) : Row 1024 := fun j => b (ix2 0 j)

/-- A loaded one-row bias [1, 256] as a row. -/
abbrev browB (b : Vec Ideal S1x256 .f32) : Row 256 := fun j => b (ix2 0 j)

/-! ## The weights as the products see them -/

theorem castA_at (W : Vec Ideal S1x1024x256 .f32) (j : Fin 1024) (c : Fin 256) :
    (truncf .bf16 (shapeCast S1024x256 W shapeCasts_S1x1024x256_S1024x256) bitsLt_bf16_f32 : FVec Ideal S1024x256 .bf16) (ix2 j c)
      = W (ix3 0 j c) :=
  shapeCast_1ab_ab_apply W shapeCasts_S1x1024x256_S1024x256 j c

theorem castB_at (W : Vec Ideal S1x256x256 .f32) (j : Fin 256) (c : Fin 256) :
    (truncf .bf16 (shapeCast S256x256 W shapeCasts_S1x256x256_S256x256) bitsLt_bf16_f32 : FVec Ideal S256x256 .bf16) (ix2 j c)
      = W (ix3 0 j c) :=
  shapeCast_1ab_ab_apply W shapeCasts_S1x256x256_S256x256 j c

/-! ## The five products -/

theorem prodA_at {φ₁ φ₂ : FTy} (A : FVec Ideal S1024x256 φ₁) (B : FVec Ideal S1024x256 φ₂) (q j : Fin 1024) :
    matmul dot_S1024x256_S1024x256_S1024x1024_1_1_0_0_n_n none A B (constant S1024x1024 .f32 0x00000000#32) (ix2 q j)
      = ∑ c : Fin 256, A (ix2 q c) * B (ix2 j c) :=
  rowsMatmul_zero_apply dot_S1024x256_S1024x256_S1024x1024_1_1_0_0_n_n_wf none A B q j

theorem prodB_at {φ₁ φ₂ : FTy} (A : FVec Ideal S1024x256 φ₁) (B : FVec Ideal S256x256 φ₂) (q : Fin 1024) (j : Fin 256) :
    matmul dot_S1024x256_S256x256_S1024x256_1_1_0_0_n_n none A B (constant S1024x256 .f32 0x00000000#32) (ix2 q j)
      = ∑ c : Fin 256, A (ix2 q c) * B (ix2 j c) :=
  rowsMatmul_zero_apply dot_S1024x256_S256x256_S1024x256_1_1_0_0_n_n_wf none A B q j

theorem prod54_at {φ₁ φ₂ : FTy} (A : FVec Ideal S1024x256 φ₁) (B : FVec Ideal S54x256 φ₂) (q : Fin 1024) (j : Fin 54) :
    matmul dot_S1024x256_S54x256_S1024x54_1_1_0_0_n_n none A B (constant S1024x54 .f32 0x00000000#32) (ix2 q j)
      = ∑ c : Fin 256, A (ix2 q c) * B (ix2 j c) :=
  rowsMatmul_zero_apply dot_S1024x256_S54x256_S1024x54_1_1_0_0_n_n_wf none A B q j

theorem prod23_at {φ₁ φ₂ : FTy} (A : FVec Ideal S1024x256 φ₁) (B : FVec Ideal S23x256 φ₂) (q : Fin 1024) (j : Fin 23) :
    matmul dot_S1024x256_S23x256_S1024x23_1_1_0_0_n_n none A B (constant S1024x23 .f32 0x00000000#32) (ix2 q j)
      = ∑ c : Fin 256, A (ix2 q c) * B (ix2 j c) :=
  rowsMatmul_zero_apply dot_S1024x256_S23x256_S1024x23_1_1_0_0_n_n_wf none A B q j

theorem prod20_at {φ₁ φ₂ : FTy} (A : FVec Ideal S1024x256 φ₁) (B : FVec Ideal S20x256 φ₂) (q : Fin 1024) (j : Fin 20) :
    matmul dot_S1024x256_S20x256_S1024x20_1_1_0_0_n_n none A B (constant S1024x20 .f32 0x00000000#32) (ix2 q j)
      = ∑ c : Fin 256, A (ix2 q c) * B (ix2 j c) :=
  rowsMatmul_zero_apply dot_S1024x256_S20x256_S1024x20_1_1_0_0_n_n_wf none A B q j

/-! ## Bias rows copied down the tile -/

theorem biasA_at (b : Vec Ideal S1x1024 .f32) (q j : Fin 1024) :
    broadcastTo S1024x1024 (shapeCast S1x1024 (shapeCast S1024 b shapeCasts_S1x1024_S1024) shapeCasts_S1024_S1x1024)
      broadcasts_S1x1024_S1024x1024 (ix2 q j) = b (ix2 0 j) :=
  (broadcastTo_1b_ab_apply _ broadcasts_S1x1024_S1024x1024 q j).trans
    ((shapeCast_a_1a_apply _ shapeCasts_S1024_S1x1024 0 j).trans (shapeCast_1a_a_apply b shapeCasts_S1x1024_S1024 j))

theorem biasB_at (b : Vec Ideal S1x256 .f32) (q : Fin 1024) (j : Fin 256) :
    broadcastTo S1024x256 (shapeCast S1x256 (shapeCast S256 b shapeCasts_S1x256_S256) shapeCasts_S256_S1x256)
      broadcasts_S1x256_S1024x256 (ix2 q j) = b (ix2 0 j) :=
  (broadcastTo_1b_ab_apply _ broadcasts_S1x256_S1024x256 q j).trans
    ((shapeCast_a_1a_apply _ shapeCasts_S256_S1x256 0 j).trans (shapeCast_1a_a_apply b shapeCasts_S1x256_S256 j))

theorem biasV256_at (b : Vec Ideal S256 .f32) (q : Fin 1024) (j : Fin 256) :
    broadcastTo S1024x256 (shapeCast S1x256 (shapeCast S256 b shapeCasts_S256_S256) shapeCasts_S256_S1x256)
      broadcasts_S1x256_S1024x256 (ix2 q j) = b (ix1 j) := by
  rw [shapeCast_self]
  exact (broadcastTo_1b_ab_apply _ broadcasts_S1x256_S1024x256 q j).trans (shapeCast_a_1a_apply b shapeCasts_S256_S1x256 0 j)

theorem bias54_at (b : Vec Ideal S54 .f32) (q : Fin 1024) (j : Fin 54) :
    broadcastTo S1024x54 (shapeCast S1x54 b shapeCasts_S54_S1x54) broadcasts_S1x54_S1024x54 (ix2 q j) = b (ix1 j) :=
  (broadcastTo_1b_ab_apply _ broadcasts_S1x54_S1024x54 q j).trans (shapeCast_a_1a_apply b shapeCasts_S54_S1x54 0 j)

theorem bias23_at (b : Vec Ideal S23 .f32) (q : Fin 1024) (j : Fin 23) :
    broadcastTo S1024x23 (shapeCast S1x23 b shapeCasts_S23_S1x23) broadcasts_S1x23_S1024x23 (ix2 q j) = b (ix1 j) :=
  (broadcastTo_1b_ab_apply _ broadcasts_S1x23_S1024x23 q j).trans (shapeCast_a_1a_apply b shapeCasts_S23_S1x23 0 j)

theorem bias20_at (b : Vec Ideal S20 .f32) (q : Fin 1024) (j : Fin 20) :
    broadcastTo S1024x20 (shapeCast S1x20 b shapeCasts_S20_S1x20) broadcasts_S1x20_S1024x20 (ix2 q j) = b (ix1 j) :=
  (broadcastTo_1b_ab_apply _ broadcasts_S1x20_S1024x20 q j).trans (shapeCast_a_1a_apply b shapeCasts_S20_S1x20 0 j)

/-! ## The four gate runs -/

theorem runI_at (G : FVec Ideal S1024x1024 .f32) (q : Fin 1024) (o : Fin 256) :
    extractStridedSlice S1024x256 ![0, 0] G slices_S1024x1024_o0_0_S1024x256 (ix2 q o) = G (ix2 q (qi o)) :=
  slice2_axis1_apply 0 G slices_S1024x1024_o0_0_S1024x256 q o (qi o) (Nat.zero_add _).symm

theorem runF_at (G : FVec Ideal S1024x1024 .f32) (q : Fin 1024) (o : Fin 256) :
    extractStridedSlice S1024x256 ![0, 256] G slices_S1024x1024_o0_256_S1024x256 (ix2 q o) = G (ix2 q (qf o)) :=
  slice2_axis1_apply 256 G slices_S1024x1024_o0_256_S1024x256 q o (qf o) rfl

theorem runG_at (G : FVec Ideal S1024x1024 .f32) (q : Fin 1024) (o : Fin 256) :
    extractStridedSlice S1024x256 ![0, 512] G slices_S1024x1024_o0_512_S1024x256 (ix2 q o) = G (ix2 q (qg o)) :=
  slice2_axis1_apply 512 G slices_S1024x1024_o0_512_S1024x256 q o (qg o) rfl

theorem runO_at (G : FVec Ideal S1024x1024 .f32) (q : Fin 1024) (o : Fin 256) :
    extractStridedSlice S1024x256 ![0, 768] G slices_S1024x1024_o0_768_S1024x256 (ix2 q o) = G (ix2 q (qo o)) :=
  slice2_axis1_apply 768 G slices_S1024x1024_o0_768_S1024x256 q o (qo o) rfl

/-! ## The layers on a tile, at an entry -/

/-- The zero word broadcast over a tile is zero everywhere. -/
theorem zeroTile_at (i : S1024x256.Idx) :
    (broadcast S1024x256 (Scalar.ofBits (F := Ideal) .f32 0x00000000#32) : FVec Ideal S1024x256 .f32) i = 0 :=
  Ideal.ofBits_zero_f32

/-- Gate pre-activations from the zero state: one product plus the bias row. -/
theorem gate0_at {φ₁ φ₂ : FTy} (X : FVec Ideal S1024x256 φ₁) (Wi : FVec Ideal S1024x256 φ₂) (b : Vec Ideal S1x1024 .f32) (q j : Fin 1024) :
    addf (matmul dot_S1024x256_S1024x256_S1024x1024_1_1_0_0_n_n none X Wi (constant S1024x1024 .f32 0x00000000#32))
      (broadcastTo S1024x1024 (shapeCast S1x1024 (shapeCast S1024 b shapeCasts_S1x1024_S1024) shapeCasts_S1024_S1x1024) broadcasts_S1x1024_S1024x1024) (ix2 q j)
      = gate0 (fun c => X (ix2 q c)) (fun j c => Wi (ix2 j c)) (browA b) j :=
  (addf_apply _ _ _).trans (congrArg₂ (· + ·) (prodA_at X Wi q j) (biasA_at b q j))

/-- Gate pre-activations: the input product plus the recurrent product plus the bias row. -/
theorem gate_at {φ₁ φ₂ φ₃ φ₄ : FTy} (X : FVec Ideal S1024x256 φ₁) (H : FVec Ideal S1024x256 φ₃) (Wi : FVec Ideal S1024x256 φ₂) (Wh : FVec Ideal S1024x256 φ₄)
    (b : Vec Ideal S1x1024 .f32) (q j : Fin 1024) :
    addf (addf (matmul dot_S1024x256_S1024x256_S1024x1024_1_1_0_0_n_n none X Wi (constant S1024x1024 .f32 0x00000000#32))
        (matmul dot_S1024x256_S1024x256_S1024x1024_1_1_0_0_n_n none H Wh (constant S1024x1024 .f32 0x00000000#32)))
      (broadcastTo S1024x1024 (shapeCast S1x1024 (shapeCast S1024 b shapeCasts_S1x1024_S1024) shapeCasts_S1024_S1x1024) broadcasts_S1x1024_S1024x1024) (ix2 q j)
      = gate (fun c => X (ix2 q c)) (fun c => H (ix2 q c)) (fun j c => Wi (ix2 j c)) (fun j c => Wh (ix2 j c)) (browA b) j :=
  (addf_apply _ _ _).trans (congrArg₂ (· + ·)
    ((addf_apply _ _ _).trans (congrArg₂ (· + ·) (prodA_at X Wi q j) (prodA_at H Wh q j))) (biasA_at b q j))

/-- The cell state out of the zero state. -/
theorem cell0_at (G : FVec Ideal S1024x1024 .f32) (q : Fin 1024) (o : Fin 256) :
    mulf (logistic (extractStridedSlice S1024x256 ![0, 0] G slices_S1024x1024_o0_0_S1024x256))
      (tanh (extractStridedSlice S1024x256 ![0, 512] G slices_S1024x1024_o0_512_S1024x256)) (ix2 q o)
      = cell0 (grow G q) o :=
  (mulf_apply _ _ _).trans (congrArg₂ (· * ·) (congrArg Ideal.logistic (runI_at G q o)) (congrArg Ideal.tanh (runG_at G q o)))

/-- The cell state. -/
theorem cell_at (G : FVec Ideal S1024x1024 .f32) (C : FVec Ideal S1024x256 .f32) (q : Fin 1024) (o : Fin 256) :
    addf (mulf (logistic (extractStridedSlice S1024x256 ![0, 256] G slices_S1024x1024_o0_256_S1024x256)) C)
      (mulf (logistic (extractStridedSlice S1024x256 ![0, 0] G slices_S1024x1024_o0_0_S1024x256))
        (tanh (extractStridedSlice S1024x256 ![0, 512] G slices_S1024x1024_o0_512_S1024x256))) (ix2 q o)
      = cell (grow G q) (trow C q) o :=
  (addf_apply _ _ _).trans (congrArg₂ (· + ·)
    ((mulf_apply _ _ _).trans (congrArg (· * C (ix2 q o)) (congrArg Ideal.logistic (runF_at G q o)))) (cell0_at G q o))

/-- The hidden state. -/
theorem hid_at (G : FVec Ideal S1024x1024 .f32) (C : FVec Ideal S1024x256 .f32) (q : Fin 1024) (o : Fin 256) :
    mulf (logistic (extractStridedSlice S1024x256 ![0, 768] G slices_S1024x1024_o0_768_S1024x256)) (tanh C) (ix2 q o)
      = hid (grow G q) (trow C q) o :=
  (mulf_apply _ _ _).trans (congrArg (· * Ideal.tanh (C (ix2 q o))) (congrArg Ideal.logistic (runO_at G q o)))

/-- The middle layer before its maximum with zero. -/
theorem premid_at {φ₁ : FTy} (H : FVec Ideal S1024x256 φ₁) (W : Vec Ideal S1x256x256 .f32) (b : Vec Ideal S1x256 .f32) (q : Fin 1024) (j : Fin 256) :
    addf (matmul dot_S1024x256_S256x256_S1024x256_1_1_0_0_n_n none H
        (truncf .bf16 (shapeCast S256x256 W shapeCasts_S1x256x256_S256x256) bitsLt_bf16_f32) (constant S1024x256 .f32 0x00000000#32))
      (broadcastTo S1024x256 (shapeCast S1x256 (shapeCast S256 b shapeCasts_S1x256_S256) shapeCasts_S256_S1x256) broadcasts_S1x256_S1024x256) (ix2 q j)
      = lin (fun c => H (ix2 q c)) (slabB W) j + browB b j :=
  (addf_apply _ _ _).trans (congrArg₂ (· + ·)
    ((prodB_at H _ q j).trans (Finset.sum_congr rfl fun c _ => congrArg (H (ix2 q c) * ·) (castB_at W j c))) (biasB_at b q j))

/-- A state mixed with a linear image of another. -/
theorem mix_at {φ₁ : FTy} (P : FVec Ideal S1024x256 .f32) (S : FVec Ideal S1024x256 φ₁) (W : Vec Ideal S256x256 .f32) (b : Vec Ideal S256 .f32) (q : Fin 1024) (o : Fin 256) :
    addf (addf P (matmul dot_S1024x256_S256x256_S1024x256_1_1_0_0_n_n none S
        (truncf .bf16 (shapeCast S256x256 W shapeCasts_S256x256_S256x256) bitsLt_bf16_f32) (constant S1024x256 .f32 0x00000000#32)))
      (broadcastTo S1024x256 (shapeCast S1x256 (shapeCast S256 b shapeCasts_S256_S256) shapeCasts_S256_S1x256) broadcasts_S1x256_S1024x256) (ix2 q o)
      = mix (trow P q) (fun c => S (ix2 q c)) (mat W) (vec b) o :=
  (addf_apply _ _ _).trans (congrArg₂ (· + ·)
    ((addf_apply _ _ _).trans (congrArg (P (ix2 q o) + ·)
      ((prodB_at S _ q o).trans (Finset.sum_congr rfl fun c _ => congrArg (S (ix2 q c) * ·)
        (congrFun (shapeCast_self W shapeCasts_S256x256_S256x256) (ix2 o c))))))
    (biasV256_at b q o))

/-- The output layer of the first head. -/
theorem out54_at {φ₁ : FTy} (M : FVec Ideal S1024x256 φ₁) (W : Vec Ideal S54x256 .f32) (b : Vec Ideal S54 .f32) (q : Fin 1024) (o : Fin 54) :
    addf (matmul dot_S1024x256_S54x256_S1024x54_1_1_0_0_n_n none M (truncf .bf16 W bitsLt_bf16_f32) (constant S1024x54 .f32 0x00000000#32))
      (broadcastTo S1024x54 (shapeCast S1x54 b shapeCasts_S54_S1x54) broadcasts_S1x54_S1024x54) (ix2 q o)
      = outp (fun c => M (ix2 q c)) (mat W) (vec b) o :=
  (addf_apply _ _ _).trans (congrArg₂ (· + ·) (prod54_at M _ q o) (bias54_at b q o))

/-- The output layer of the second head. -/
theorem out23_at {φ₁ : FTy} (M : FVec Ideal S1024x256 φ₁) (W : Vec Ideal S23x256 .f32) (b : Vec Ideal S23 .f32) (q : Fin 1024) (o : Fin 23) :
    addf (matmul dot_S1024x256_S23x256_S1024x23_1_1_0_0_n_n none M (truncf .bf16 W bitsLt_bf16_f32) (constant S1024x23 .f32 0x00000000#32))
      (broadcastTo S1024x23 (shapeCast S1x23 b shapeCasts_S23_S1x23) broadcasts_S1x23_S1024x23) (ix2 q o)
      = outp (fun c => M (ix2 q c)) (mat W) (vec b) o :=
  (addf_apply _ _ _).trans (congrArg₂ (· + ·) (prod23_at M _ q o) (bias23_at b q o))

/-- The output layer of the third head. -/
theorem out20_at {φ₁ : FTy} (M : FVec Ideal S1024x256 φ₁) (W : Vec Ideal S20x256 .f32) (b : Vec Ideal S20 .f32) (q : Fin 1024) (o : Fin 20) :
    addf (matmul dot_S1024x256_S20x256_S1024x20_1_1_0_0_n_n none M (truncf .bf16 W bitsLt_bf16_f32) (constant S1024x20 .f32 0x00000000#32))
      (broadcastTo S1024x20 (shapeCast S1x20 b shapeCasts_S20_S1x20) broadcasts_S1x20_S1024x20) (ix2 q o)
      = outp (fun c => M (ix2 q c)) (mat W) (vec b) o :=
  (addf_apply _ _ _).trans (congrArg₂ (· + ·) (prod20_at M _ q o) (bias20_at b q o))

/-! ## The body's named values, row by row

Each named value of the body is one of the layers above applied to earlier named values, so row `q` of it is the
specification's layer function of their rows `q`. -/

theorem pay2_row (v0 : Vec Ideal S1024x256 .f32) (v2 : Vec Ideal S1x1024x256 .f32) (v5 : Vec Ideal S1x1024 .f32) (q : Fin 1024) :
    grow (k0_pay2 v0 v2 v5) q = gate0 (trow v0 q) (slabA v2) (browA v5) :=
  funext fun j => (gate0_at (k0_pay1 v0) _ v5 q j).trans
    (congrArg (fun W => gate0 (trow v0 q) W (browA v5) j) (funext fun j => funext fun c => castA_at v2 j c))

theorem pay3_row (v0 : Vec Ideal S1024x256 .f32) (v2 : Vec Ideal S1x1024x256 .f32) (v5 : Vec Ideal S1x1024 .f32) (q : Fin 1024) :
    trow (k0_pay3 v0 v2 v5) q = cell0 (grow (k0_pay2 v0 v2 v5) q) :=
  funext fun o => cell0_at (k0_pay2 v0 v2 v5) q o

theorem pay4_row (v0 : Vec Ideal S1024x256 .f32) (v2 : Vec Ideal S1x1024x256 .f32) (v5 : Vec Ideal S1x1024 .f32) (q : Fin 1024) :
    trow (k0_pay4 v0 v2 v5) q = hid (grow (k0_pay2 v0 v2 v5) q) (trow (k0_pay3 v0 v2 v5) q) :=
  funext fun o => hid_at (k0_pay2 v0 v2 v5) (k0_pay3 v0 v2 v5) q o

theorem pay5_at (v0 : Vec Ideal S1024x256 .f32) (v2 : Vec Ideal S1x1024x256 .f32) (v5 : Vec Ideal S1x1024 .f32)
    (v22 : Vec Ideal S1x256x256 .f32) (v26 : Vec Ideal S1x256 .f32) (v34 : Vec Ideal S54x256 .f32) (q : Fin 1024) (o : Fin 54) :
    k0_pay5 v0 v2 v5 v22 v26 v34 (ix2 q o)
      = lin (mid (trow (k0_pay4 v0 v2 v5) q) (slabB v22) (browB v26)) (mat v34) o :=
  (prod54_at _ _ q o).trans (Finset.sum_congr rfl fun c _ => congrArg (· * v34 (ix2 o c))
    ((maximumf_apply _ _ _).trans (congrArg₂ max
      (premid_at (truncf .bf16 (k0_pay4 v0 v2 v5) bitsLt_bf16_f32) v22 v26 q c) (zeroTile_at _))))

theorem pay8_row (v1 : FVec Ideal S1024x256 .bf16) (v20 : FVec Ideal S1024x256 .f32) (v42 v45 : Vec Ideal S1x1024x256 .f32)
    (v48 : Vec Ideal S1x1024 .f32) (q : Fin 1024) :
    grow (k0_pay8 v1 v20 v42 v45 v48) q = gate (trow v1 q) (trow v20 q) (slabA v42) (slabA v45) (browA v48) :=
  funext fun j => (gate_at v1 (truncf .bf16 v20 bitsLt_bf16_f32) _ _ v48 q j).trans
    (congrArg₂ (fun Wi Wh => gate (trow v1 q) (trow v20 q) Wi Wh (browA v48) j)
      (funext fun j => funext fun c => castA_at v42 j c) (funext fun j => funext fun c => castA_at v45 j c))

theorem pay9_row (v1 : FVec Ideal S1024x256 .bf16) (v17 v20 : FVec Ideal S1024x256 .f32) (v42 v45 : Vec Ideal S1x1024x256 .f32)
    (v48 : Vec Ideal S1x1024 .f32) (q : Fin 1024) :
    trow (k0_pay9 v1 v17 v20 v42 v45 v48) q = cell (grow (k0_pay8 v1 v20 v42 v45 v48) q) (trow v17 q) :=
  funext fun o => cell_at (k0_pay8 v1 v20 v42 v45 v48) v17 q o

theorem pay10_row (v1 : FVec Ideal S1024x256 .bf16) (v17 v20 : FVec Ideal S1024x256 .f32) (v42 v45 : Vec Ideal S1x1024x256 .f32)
    (v48 : Vec Ideal S1x1024 .f32) (q : Fin 1024) :
    trow (k0_pay10 v1 v17 v20 v42 v45 v48) q
      = hid (grow (k0_pay8 v1 v20 v42 v45 v48) q) (trow (k0_pay9 v1 v17 v20 v42 v45 v48) q) :=
  funext fun o => hid_at (k0_pay8 v1 v20 v42 v45 v48) (k0_pay9 v1 v17 v20 v42 v45 v48) q o

theorem pay11_row (v1 : FVec Ideal S1024x256 .bf16) (v17 v20 : FVec Ideal S1024x256 .f32) (v42 v45 : Vec Ideal S1x1024x256 .f32)
    (v48 : Vec Ideal S1x1024 .f32) (v71 : Vec Ideal S1x256x256 .f32) (v75 : Vec Ideal S1x256 .f32) (q : Fin 1024) :
    trow (k0_pay11 v1 v17 v20 v42 v45 v48 v71 v75) q
      = fun j => lin (trow (k0_pay10 v1 v17 v20 v42 v45 v48) q) (slabB v71) j + browB v75 j :=
  funext fun j => premid_at (truncf .bf16 (k0_pay10 v1 v17 v20 v42 v45 v48) bitsLt_bf16_f32) v71 v75 q j

theorem pay12_at (v79 : FVec Ideal S1024x256 .f32) (cst : Ideal .f32) (v83 : Vec Ideal S23x256 .f32) (v86 : Vec Ideal S23 .f32)
    (q : Fin 1024) (o : Fin 23) :
    k0_pay12 v79 cst v83 v86 (ix2 q o) = outp (fun j => max (v79 (ix2 q j)) cst) (mat v83) (vec v86) o :=
  out23_at (truncf .bf16 (maximumf v79 (broadcast S1024x256 cst)) bitsLt_bf16_f32) v83 v86 q o

theorem pay13_row (v20 v69 : FVec Ideal S1024x256 .f32) (v91 : Vec Ideal S256x256 .f32) (v101 : Vec Ideal S256 .f32) (q : Fin 1024) :
    trow (k0_pay13 v20 v69 v91 v101) q = mix (trow v20 q) (trow v69 q) (mat v91) (vec v101) :=
  funext fun o => mix_at v20 (truncf .bf16 v69 bitsLt_bf16_f32) v91 v101 q o

theorem pay14_row (v17 v66 : FVec Ideal S1024x256 .f32) (v94 : Vec Ideal S256x256 .f32) (v108 : Vec Ideal S256 .f32) (q : Fin 1024) :
    trow (k0_pay14 v17 v66 v94 v108) q = mix (trow v17 q) (trow v66 q) (mat v94) (vec v108) :=
  funext fun o => mix_at v17 (truncf .bf16 v66 bitsLt_bf16_f32) v94 v108 q o

theorem pay15_at (v113 : Vec Ideal S1x1024x256 .f32) (j : Fin 1024) (c : Fin 256) : k0_pay15 v113 (ix2 j c) = v113 (ix3 0 j c) :=
  castA_at v113 j c

theorem pay16_at (v116 : Vec Ideal S1x1024x256 .f32) (j : Fin 1024) (c : Fin 256) : k0_pay16 v116 (ix2 j c) = v116 (ix3 0 j c) :=
  castA_at v116 j c

/-- The third head's value on the tile: gates, cell, hidden state, middle layer and output layer in one. -/
theorem pay17_at (v1 : FVec Ideal S1024x256 .bf16) (v105 v112 : FVec Ideal S1024x256 .f32) (v115 v118 : FVec Ideal S1024x256 .bf16)
    (v119 : Vec Ideal S1x1024 .f32) (v142 : Vec Ideal S1x256x256 .f32) (v146 : Vec Ideal S1x256 .f32)
    (v154 : Vec Ideal S20x256 .f32) (v157 : Vec Ideal S20 .f32) (q : Fin 1024) (o : Fin 20) :
    k0_pay17 v1 v105 v112 v115 v118 v119 v142 v146 v154 v157 (ix2 q o)
      = outp (mid (hid (gate (trow v1 q) (trow v105 q) (fun j c => v115 (ix2 j c)) (fun j c => v118 (ix2 j c)) (browA v119))
            (cell (gate (trow v1 q) (trow v105 q) (fun j c => v115 (ix2 j c)) (fun j c => v118 (ix2 j c)) (browA v119)) (trow v112 q)))
          (slabB v142) (browB v146)) (mat v154) (vec v157) o := by
  refine (out20_at _ v154 v157 q o).trans ?_
  refine congrArg (fun m => outp m (mat v154) (vec v157) o) (funext fun j => ?_)
  refine (maximumf_apply _ _ _).trans (congrArg₂ max ((premid_at _ v142 v146 q j).trans ?_) (zeroTile_at _))
  refine congrArg (fun h => lin h (slabB v142) j + browB v146 j) (funext fun o' => ?_)
  refine (hid_at _ _ q o').trans ?_
  have hg := fun j' => gate_at v1 (truncf .bf16 v105 bitsLt_bf16_f32) v115 v118 v119 q j'
  refine congrArg₂ (fun g c => hid g c o') (funext hg) (funext fun o'' => ?_)
  exact (cell_at _ v112 q o'').trans (congrArg (fun g => cell g (trow v112 q) o'') (funext hg))

/-! ## What the body loads

Every weight window's block is its whole array, so the body's loads read the arrays themselves: a whole-array load is
the array, and the load of slab `a` of a stacked array reads the array at leading coordinate `a`. -/

theorem hz1 : (![0] : Fin 1 → Nat) = fun _ => 0 := by funext a; match a with | ⟨0, _⟩ => rfl
theorem hz2 : (![0, 0] : Fin 2 → Nat) = fun _ => 0 := by funext a; match a with | ⟨0, _⟩ => rfl | ⟨1, _⟩ => rfl

theorem ldSlabA (x : Vec Ideal S3x1024x256 .f32) (a : Fin 3) (inb) (j : Fin 1024) (c : Fin 256) :
    View.ld x (Rect.unit (s := S3x1024x256) ![a.val, 0, 0] S1x1024x256.size inb) (ix3 0 j c) = x (ix3 a j c) := by
  show x ((Rect.unit (s := S3x1024x256) ![a.val, 0, 0] S1x1024x256.size inb).emb (ix3 0 j c)) = x (ix3 a j c)
  congr 1; funext d; apply Fin.ext
  match d with
  | ⟨0, _⟩ => show a.val + 1 * (0 : Nat) = a.val; omega
  | ⟨1, _⟩ => show 0 + 1 * j.val = j.val; omega
  | ⟨2, _⟩ => show 0 + 1 * c.val = c.val; omega

theorem ldSlabB (x : Vec Ideal S3x256x256 .f32) (a : Fin 3) (inb) (j : Fin 256) (c : Fin 256) :
    View.ld x (Rect.unit (s := S3x256x256) ![a.val, 0, 0] S1x256x256.size inb) (ix3 0 j c) = x (ix3 a j c) := by
  show x ((Rect.unit (s := S3x256x256) ![a.val, 0, 0] S1x256x256.size inb).emb (ix3 0 j c)) = x (ix3 a j c)
  congr 1; funext d; apply Fin.ext
  match d with
  | ⟨0, _⟩ => show a.val + 1 * (0 : Nat) = a.val; omega
  | ⟨1, _⟩ => show 0 + 1 * j.val = j.val; omega
  | ⟨2, _⟩ => show 0 + 1 * c.val = c.val; omega

theorem ldRowA (x : Vec Ideal S3x1024 .f32) (a : Fin 3) (inb) (j : Fin 1024) :
    View.ld x (Rect.unit (s := S3x1024) ![a.val, 0] S1x1024.size inb) (ix2 0 j) = x (ix2 a j) := by
  show x ((Rect.unit (s := S3x1024) ![a.val, 0] S1x1024.size inb).emb (ix2 0 j)) = x (ix2 a j)
  congr 1; funext d; apply Fin.ext
  match d with
  | ⟨0, _⟩ => show a.val + 1 * (0 : Nat) = a.val; omega
  | ⟨1, _⟩ => show 0 + 1 * j.val = j.val; omega

theorem ldRowB (x : Vec Ideal S3x256 .f32) (a : Fin 3) (inb) (j : Fin 256) :
    View.ld x (Rect.unit (s := S3x256) ![a.val, 0] S1x256.size inb) (ix2 0 j) = x (ix2 a j) := by
  show x ((Rect.unit (s := S3x256) ![a.val, 0] S1x256.size inb).emb (ix2 0 j)) = x (ix2 a j)
  congr 1; funext d; apply Fin.ext
  match d with
  | ⟨0, _⟩ => show a.val + 1 * (0 : Nat) = a.val; omega
  | ⟨1, _⟩ => show 0 + 1 * j.val = j.val; omega

/-- The parameters as the body finds them in its whole-array blocks. -/
def kerParams (x1 x2 : Vec Ideal S3x1024x256 .f32) (x3 : Vec Ideal S3x1024 .f32) (x4 : Vec Ideal S256x256 .f32)
    (x5 : Vec Ideal S256 .f32) (x6 : Vec Ideal S256x256 .f32) (x7 : Vec Ideal S256 .f32) (x8 : Vec Ideal S3x256x256 .f32)
    (x9 : Vec Ideal S3x256 .f32) : Params where
  Wih := fun a j c => x1 (ix3 a j c)
  Whh := fun a j c => x2 (ix3 a j c)
  b := fun a j => x3 (ix2 a j)
  hsW := mat x4
  hsb := vec x5
  csW := mat x6
  csb := vec x7
  midW := fun a j c => x8 (ix3 a j c)
  midb := fun a j => x9 (ix2 a j)

end Cert.KerSide

end
-- ==== Proof.KerTile.lean ====
/-
  The three results of one batch tile, at an entry.

  The body's named values are chained: row `q` of each is the specification's value for row `q` of the input tile,
  with the parameters read out of the whole-array weight blocks. The three stores each cover their whole output tile, so
  what the body leaves in an output tile is the stored value.
-/
import proofs.«168260_j24026047054250_2_alg».proof.Proof.Gen.KernelIdeal.Frame
import proofs.«168260_j24026047054250_2_alg».proof.Proof.KerOps

noncomputable section

namespace Cert.KerSide

open Cert.KernelIdeal Cert.KernelIdeal.Gen Idealize.ShloMosaic Idealize.ShloMosaic.ValueIdx Cert.Spec

/-! ## The layers depend on their arguments only through their values -/

theorem gate_congr {x x' h h' : Row 256} {Wi Wi' Wh Wh' : Fin 1024 → Fin 256 → EReal} {b b' : Row 1024}
    (e1 : x = x') (e2 : h = h') (e3 : Wi = Wi') (e4 : Wh = Wh') (e5 : b = b') :
    gate x h Wi Wh b = gate x' h' Wi' Wh' b' := by rw [e1, e2, e3, e4, e5]

theorem mid_congr {h h' : Row 256} {W W' : Fin 256 → Fin 256 → EReal} {b b' : Row 256}
    (e1 : h = h') (e2 : W = W') (e3 : b = b') : mid h W b = mid h' W' b' := by rw [e1, e2, e3]

theorem head_congr {g g' : Row 1024} {cp cp' : Row 256} (eg : g = g') (ec : cp = cp') :
    hid g (cell g cp) = hid g' (cell g' cp') := by rw [eg, ec]

theorem mix_congr {p p' s s' : Row 256} {W W' : Fin 256 → Fin 256 → EReal} {b b' : Row 256}
    (e1 : p = p') (e2 : s = s') (e3 : W = W') (e4 : b = b') : mix p s W b = mix p' s' W' b' := by rw [e1, e2, e3, e4]

section Tile

variable (x0 : Vec Ideal S1024x256 .f32) (x1 x2 : Vec Ideal S3x1024x256 .f32) (x3 : Vec Ideal S3x1024 .f32)
  (x4 : Vec Ideal S256x256 .f32) (x5 : Vec Ideal S256 .f32) (x6 : Vec Ideal S256x256 .f32) (x7 : Vec Ideal S256 .f32)
  (x8 : Vec Ideal S3x256x256 .f32) (x9 : Vec Ideal S3x256 .f32) (q : Fin 1024)

/-- Row `q` of the first cell's gate pre-activations. -/
theorem tg0 : grow (k0_pay2 x0 (View.ld x1 r0_1) (View.ld x3 r0_2)) q = g0 (kerParams x1 x2 x3 x4 x5 x6 x7 x8 x9) (trow x0 q) :=
  (pay2_row _ _ _ q).trans (congrArg₂ (gate0 (trow x0 q))
    (funext fun j => funext fun c => ldSlabA x1 0 _ j c) (funext fun j => ldRowA x3 0 _ j))

/-- Row `q` of the first cell's new cell state. -/
theorem tc0 : trow (k0_pay3 x0 (View.ld x1 r0_1) (View.ld x3 r0_2)) q = c0 (kerParams x1 x2 x3 x4 x5 x6 x7 x8 x9) (trow x0 q) :=
  (pay3_row _ _ _ q).trans (congrArg cell0 (tg0 x0 x1 x2 x3 x4 x5 x6 x7 x8 x9 q))

/-- Row `q` of the first cell's new hidden state. -/
theorem th0 : trow (k0_pay4 x0 (View.ld x1 r0_1) (View.ld x3 r0_2)) q = h0 (kerParams x1 x2 x3 x4 x5 x6 x7 x8 x9) (trow x0 q) :=
  (pay4_row _ _ _ q).trans (congrArg₂ hid (tg0 x0 x1 x2 x3 x4 x5 x6 x7 x8 x9 q) (tc0 x0 x1 x2 x3 x4 x5 x6 x7 x8 x9 q))

/-- Row `q` of the second cell's gate pre-activations. -/
theorem tg1 : grow (k0_pay8 (k0_pay1 x0) (k0_pay4 x0 (View.ld x1 r0_1) (View.ld x3 r0_2)) (View.ld x1 r0_8) (View.ld x2 r0_8) (View.ld x3 r0_9)) q = g1 (kerParams x1 x2 x3 x4 x5 x6 x7 x8 x9) (trow x0 q) :=
  (pay8_row _ _ _ _ _ q).trans (gate_congr rfl (th0 x0 x1 x2 x3 x4 x5 x6 x7 x8 x9 q)
    (funext fun j => funext fun c => ldSlabA x1 1 _ j c) (funext fun j => funext fun c => ldSlabA x2 1 _ j c)
    (funext fun j => ldRowA x3 1 _ j))

theorem tc1 : trow (k0_pay9 (k0_pay1 x0) (k0_pay3 x0 (View.ld x1 r0_1) (View.ld x3 r0_2)) (k0_pay4 x0 (View.ld x1 r0_1) (View.ld x3 r0_2)) (View.ld x1 r0_8) (View.ld x2 r0_8) (View.ld x3 r0_9)) q = c1 (kerParams x1 x2 x3 x4 x5 x6 x7 x8 x9) (trow x0 q) :=
  (pay9_row _ _ _ _ _ _ q).trans (congrArg₂ cell (tg1 x0 x1 x2 x3 x4 x5 x6 x7 x8 x9 q) (tc0 x0 x1 x2 x3 x4 x5 x6 x7 x8 x9 q))

theorem th1 : trow (k0_pay10 (k0_pay1 x0) (k0_pay3 x0 (View.ld x1 r0_1) (View.ld x3 r0_2)) (k0_pay4 x0 (View.ld x1 r0_1) (View.ld x3 r0_2)) (View.ld x1 r0_8) (View.ld x2 r0_8) (View.ld x3 r0_9)) q = h1 (kerParams x1 x2 x3 x4 x5 x6 x7 x8 x9) (trow x0 q) :=
  (pay10_row _ _ _ _ _ _ q).trans (congrArg₂ hid (tg1 x0 x1 x2 x3 x4 x5 x6 x7 x8 x9 q) (tc1 x0 x1 x2 x3 x4 x5 x6 x7 x8 x9 q))

/-- Row `q` of the hidden state the third cell starts from. -/
theorem th2p : trow (k0_pay13 (k0_pay4 x0 (View.ld x1 r0_1) (View.ld x3 r0_2)) (k0_pay10 (k0_pay1 x0) (k0_pay3 x0 (View.ld x1 r0_1) (View.ld x3 r0_2)) (k0_pay4 x0 (View.ld x1 r0_1) (View.ld x3 r0_2)) (View.ld x1 r0_8) (View.ld x2 r0_8) (View.ld x3 r0_9)) x4 x5) q = h2p (kerParams x1 x2 x3 x4 x5 x6 x7 x8 x9) (trow x0 q) :=
  (pay13_row _ _ _ _ q).trans (mix_congr (th0 x0 x1 x2 x3 x4 x5 x6 x7 x8 x9 q) (th1 x0 x1 x2 x3 x4 x5 x6 x7 x8 x9 q) rfl rfl)

/-- Row `q` of the cell state the third cell starts from. -/
theorem tc2p : trow (k0_pay14 (k0_pay3 x0 (View.ld x1 r0_1) (View.ld x3 r0_2)) (k0_pay9 (k0_pay1 x0) (k0_pay3 x0 (View.ld x1 r0_1) (View.ld x3 r0_2)) (k0_pay4 x0 (View.ld x1 r0_1) (View.ld x3 r0_2)) (View.ld x1 r0_8) (View.ld x2 r0_8) (View.ld x3 r0_9)) x6 x7) q = c2p (kerParams x1 x2 x3 x4 x5 x6 x7 x8 x9) (trow x0 q) :=
  (pay14_row _ _ _ _ q).trans (mix_congr (tc0 x0 x1 x2 x3 x4 x5 x6 x7 x8 x9 q) (tc1 x0 x1 x2 x3 x4 x5 x6 x7 x8 x9 q) rfl rfl)

variable (x10 : Vec Ideal S54x256 .f32) (x11 : Vec Ideal S54 .f32) (x12 : Vec Ideal S23x256 .f32) (x13 : Vec Ideal S23 .f32)
  (x14 : Vec Ideal S20x256 .f32) (x15 : Vec Ideal S20 .f32)

/-- The first head's tile at `(q, o)`. -/
theorem tile0 (o : Fin 54) :
    out0_16 x0 x1 x2 x3 x4 x5 x6 x7 x8 x9 x10 x11 x12 x13 x14 x15 (ix2 q o) = outp (m0 (kerParams x1 x2 x3 x4 x5 x6 x7 x8 x9) (trow x0 q)) (mat x10) (vec x11) o := by
  unfold out0_16
  rw [View.canon_unit_zero hz2]
  simp only [View.ld_unit_zero (S := S1024x256) hz2, View.ld_unit_zero (S := S54x256) hz2, View.ld_unit_zero (S := S54) hz1]
  refine (addf_apply _ _ _).trans (congrArg₂ (· + ·) ((pay5_at _ _ _ _ _ _ q o).trans ?_) (bias54_at x11 q o))
  refine congrArg (fun m => lin m (mat x10) o) ?_
  exact mid_congr (th0 x0 x1 x2 x3 x4 x5 x6 x7 x8 x9 q) (funext fun j => funext fun c => ldSlabB x8 0 _ j c) (funext fun j => ldRowB x9 0 _ j)

/-- The second head's tile at `(q, o)`. -/
theorem tile1 (o : Fin 23) :
    out0_17 x0 x1 x2 x3 x4 x5 x6 x7 x8 x9 x10 x11 x12 x13 x14 x15 (ix2 q o) = outp (m1 (kerParams x1 x2 x3 x4 x5 x6 x7 x8 x9) (trow x0 q)) (mat x12) (vec x13) o := by
  unfold out0_17
  rw [View.canon_unit_zero hz2]
  simp only [View.ld_unit_zero (S := S1024x256) hz2, View.ld_unit_zero (S := S23x256) hz2, View.ld_unit_zero (S := S23) hz1]
  refine (pay12_at _ _ _ _ q o).trans ?_
  refine congrArg (fun m => outp m (mat x12) (vec x13) o) (funext fun j => ?_)
  refine (congrArg₂ max (congrFun (pay11_row _ _ _ _ _ _ _ _ q) j) Ideal.ofBits_zero_f32).trans ?_
  exact congrFun (mid_congr (th1 x0 x1 x2 x3 x4 x5 x6 x7 x8 x9 q) (funext fun j => funext fun c => ldSlabB x8 1 _ j c)
    (funext fun j => ldRowB x9 1 _ j)) j

/-- The third head's tile at `(q, o)`. -/
theorem tile2 (o : Fin 20) :
    out0_18 x0 x1 x2 x3 x4 x5 x6 x7 x8 x9 x10 x11 x12 x13 x14 x15 (ix2 q o) = outp (m2 (kerParams x1 x2 x3 x4 x5 x6 x7 x8 x9) (trow x0 q)) (mat x14) (vec x15) o := by
  unfold out0_18
  rw [View.canon_unit_zero hz2]
  simp only [View.ld_unit_zero (S := S1024x256) hz2, View.ld_unit_zero (S := S256x256) hz2, View.ld_unit_zero (S := S256) hz1,
    View.ld_unit_zero (S := S20x256) hz2, View.ld_unit_zero (S := S20) hz1]
  refine (pay17_at _ _ _ _ _ _ _ _ _ _ q o).trans ?_
  refine congrArg (fun m => outp m (mat x14) (vec x15) o) ?_
  exact mid_congr (head_congr (gate_congr rfl (th2p x0 x1 x2 x3 x4 x5 x6 x7 x8 x9 q)
      (funext fun j => funext fun c => (pay15_at (View.ld x1 r0_17) j c).trans (ldSlabA x1 2 _ j c))
      (funext fun j => funext fun c => (pay16_at (View.ld x2 r0_17) j c).trans (ldSlabA x2 2 _ j c))
      (funext fun j => ldRowA x3 2 _ j)) (tc2p x0 x1 x2 x3 x4 x5 x6 x7 x8 x9 q))
    (funext fun j => funext fun c => ldSlabB x8 2 _ j c) (funext fun j => ldRowB x9 2 _ j)

end Tile

end Cert.KerSide

end
-- ==== Proof.KerHost.lean ====
/-
  The arrays the region finds: the operations of the program that run before the kernel is launched.

  The folded bias is the entrywise sum of the two bias stacks; the mixing weights and biases handed to the kernel are
  the (1, 2) entries of the mixing stacks, cut out as [1, 1, …] slices and reshaped.
-/
import proofs.«168260_j24026047054250_2_alg».proof.Proof.Gen.KernelIdeal.Frame
import Idealize.ShloMosaic.Lib.StableHlo.Run
import Idealize.ShloMosaic.Lib.ValueIdx
import Idealize.ShloMosaic.Lib.Pipeline.Value

noncomputable section

namespace Cert.KerSide

open Cert.KernelIdeal Cert.KernelIdeal.Gen Idealize.ShloMosaic Idealize.ShloMosaic.ValueIdx Idealize.ShloMosaic.TcCoe Idealize.SL.Sem

variable (m : (ℓ : Loc nD τ sig) → Buf (Elt Ideal) ℓ)

/-- The folded bias array is the entrywise sum of the two bias stacks. -/
theorem bias_eq (c : Dev nD) :
    (V m c main_v0 : S3x1024.Idx → EReal)
      = addf (F := Ideal) (φ := .f32) (m ((c : Thread nD τ).loc main_arg3)) (m ((c : Thread nD τ).loc main_arg4)) := by
  dsimp only [Gen.V, Gen.hostOps0]; after_results
  try rfl

/-- The hidden-state mixing weights handed to the kernel. -/
theorem hsW_eq (c : Dev nD) :
    (V m c main_v2 : S256x256.Idx → EReal)
      = shapeCast S256x256 (extractStridedSlice S1x1x256x256 ![1, 2, 0, 0] (m ((c : Thread nD τ).loc main_arg5) : S3x3x256x256.Idx → EReal)
          slices_S3x3x256x256_S1x1x256x256_1_2_0_0) shapeCasts_S1x1x256x256_S256x256 := by
  dsimp only [Gen.V, Gen.hostOps0]; after_results
  try rfl

/-- The cell-state mixing weights handed to the kernel. -/
theorem csW_eq (c : Dev nD) :
    (V m c main_v4 : S256x256.Idx → EReal)
      = shapeCast S256x256 (extractStridedSlice S1x1x256x256 ![1, 2, 0, 0] (m ((c : Thread nD τ).loc main_arg7) : S3x3x256x256.Idx → EReal)
          slices_S3x3x256x256_S1x1x256x256_1_2_0_0) shapeCasts_S1x1x256x256_S256x256 := by
  dsimp only [Gen.V, Gen.hostOps0]; after_results
  try rfl

/-- The hidden-state mixing bias handed to the kernel. -/
theorem hsb_eq (c : Dev nD) :
    (V m c main_v6 : S256.Idx → EReal)
      = shapeCast S256 (extractStridedSlice S1x1x256 ![1, 2, 0] (m ((c : Thread nD τ).loc main_arg6) : S3x3x256.Idx → EReal)
          slices_S3x3x256_S1x1x256_1_2_0) shapeCasts_S1x1x256_S256 := by
  dsimp only [Gen.V, Gen.hostOps0]; after_results
  try rfl

/-- The cell-state mixing bias handed to the kernel. -/
theorem csb_eq (c : Dev nD) :
    (V m c main_v8 : S256.Idx → EReal)
      = shapeCast S256 (extractStridedSlice S1x1x256 ![1, 2, 0] (m ((c : Thread nD τ).loc main_arg8) : S3x3x256.Idx → EReal)
          slices_S3x3x256_S1x1x256_1_2_0) shapeCasts_S1x1x256_S256 := by
  dsimp only [Gen.V, Gen.hostOps0]; after_results
  try rfl

/-! ## The cut-out entries read at an index -/

/-- The (1, 2) matrix of a [3, 3, 256, 256] stack, cut out and reshaped, at `(o, k)`. -/
theorem pairMat_at (x : S3x3x256x256.Idx → EReal) (o k : Fin 256) :
    shapeCast S256x256 (extractStridedSlice S1x1x256x256 ![1, 2, 0, 0] x slices_S3x3x256x256_S1x1x256x256_1_2_0_0)
      shapeCasts_S1x1x256x256_S256x256 (ix2 o k) = x (ix4 1 2 o k) := by
  refine (shapeCast_apply _ shapeCasts_S1x1x256x256_S256x256 (ix2 o k) (ix4 (0 : Fin 1) (0 : Fin 1) o k) ?_).trans ?_
  · rw [Shape.rowMajor_val_four, Shape.rowMajor_val_two]
    show ((0 * 1 + 0) * 256 + o.val) * 256 + k.val = o.val * 256 + k.val
    omega
  · exact extractStridedSlice_apply ![1, 2, 0, 0] x slices_S3x3x256x256_S1x1x256x256_1_2_0_0 (ix4 (0 : Fin 1) (0 : Fin 1) o k) (ix4 1 2 o k) (fun a => by
      match a with
      | ⟨0, _⟩ => show (1 : Nat) = 1 + 0; rfl
      | ⟨1, _⟩ => show (2 : Nat) = 2 + 0; rfl
      | ⟨2, _⟩ => show o.val = 0 + o.val; omega
      | ⟨3, _⟩ => show k.val = 0 + k.val; omega)

/-- The (1, 2) row of a [3, 3, 256] stack, cut out and reshaped, at `o`. -/
theorem pairRow_at (x : S3x3x256.Idx → EReal) (o : Fin 256) :
    shapeCast S256 (extractStridedSlice S1x1x256 ![1, 2, 0] x slices_S3x3x256_S1x1x256_1_2_0) shapeCasts_S1x1x256_S256 (ix1 o)
      = x (ix3 1 2 o) := by
  refine (shapeCast_apply _ shapeCasts_S1x1x256_S256 (ix1 o) (ix3 (0 : Fin 1) (0 : Fin 1) o) ?_).trans ?_
  · rw [Shape.rowMajor_val_three, Shape.rowMajor_val_one]
    show (0 * 1 + 0) * 256 + o.val = o.val
    omega
  · exact extractStridedSlice_apply ![1, 2, 0] x slices_S3x3x256_S1x1x256_1_2_0 (ix3 (0 : Fin 1) (0 : Fin 1) o) (ix3 1 2 o) (fun a => by
      match a with
      | ⟨0, _⟩ => show (1 : Nat) = 1 + 0; rfl
      | ⟨1, _⟩ => show (2 : Nat) = 2 + 0; rfl
      | ⟨2, _⟩ => show o.val = 0 + o.val; omega)

end Cert.KerSide

end
-- ==== Proof.KerArray.lean ====
/-
  From tiles to arrays.

  Grid point `t` stages rows `1024·t … 1024·t + 1023` of the input and writes back the same rows of the three results;
  every weight window's block is its whole array at every point. So what point `t` writes back is block `t` of one
  whole-array function of the arrays the region finds, the 64 blocks cover the results, and each result array ends
  holding that function — the specification's, once the arrays the host prepared (the folded bias, the cut-out mixing
  pair) are read back to the arguments.
-/
import proofs.«168260_j24026047054250_2_alg».proof.Proof.Gen.KernelIdeal.Value
import proofs.«168260_j24026047054250_2_alg».proof.Proof.KerTile
import proofs.«168260_j24026047054250_2_alg».proof.Proof.KerHost

noncomputable section

namespace Cert.KerSide

open Cert.KernelIdeal Cert.KernelIdeal.Gen Idealize.ShloMosaic Idealize.ShloMosaic.ValueIdx Idealize.ShloMosaic.TcCoe Idealize.SL.Sem Cert.Spec
open Idealize.ShloMosaic.Pipeline (Dat)

variable (m : (ℓ : Loc nD τ sig) → Buf (Elt Ideal) ℓ) (ρ : Dev nD → PrngReg)

/-! ## The weight windows' blocks are their whole arrays -/

theorem idx0_1 : ∀ t : Fin cfg0.N, ∀ a : Fin 3, win0_1.index t a = 0 :=
  (by decide +kernel : ∀ t : Fin grid0.N, ∀ a : Fin 3, win0_1.index t a = 0)

theorem blk_1 (c : Dev nD) (t : Fin cfg0.N) : (iblk m c 1 t : S3x1024x256.Idx → EReal) = V m c main_arg1 := by
  funext y
  show V m c main_arg1 (((cfg0.win 1).blk t).view.emb y) = V m c main_arg1 y
  congr 1; funext a; apply Fin.ext
  have h := idx0_1 t
  match a with
  | ⟨0, _⟩ => show win0_1.index t (0 : Fin 3) * 3 + 1 * (y 0).val = (y 0).val; rw [h 0]; omega
  | ⟨1, _⟩ => show win0_1.index t (1 : Fin 3) * 1024 + 1 * (y 1).val = (y 1).val; rw [h 1]; omega
  | ⟨2, _⟩ => show win0_1.index t (2 : Fin 3) * 256 + 1 * (y 2).val = (y 2).val; rw [h 2]; omega

theorem idx0_2 : ∀ t : Fin cfg0.N, ∀ a : Fin 3, win0_2.index t a = 0 :=
  (by decide +kernel : ∀ t : Fin grid0.N, ∀ a : Fin 3, win0_2.index t a = 0)

theorem blk_2 (c : Dev nD) (t : Fin cfg0.N) : (iblk m c 2 t : S3x1024x256.Idx → EReal) = V m c main_arg2 := by
  funext y
  show V m c main_arg2 (((cfg0.win 2).blk t).view.emb y) = V m c main_arg2 y
  congr 1; funext a; apply Fin.ext
  have h := idx0_2 t
  match a with
  | ⟨0, _⟩ => show win0_2.index t (0 : Fin 3) * 3 + 1 * (y 0).val = (y 0).val; rw [h 0]; omega
  | ⟨1, _⟩ => show win0_2.index t (1 : Fin 3) * 1024 + 1 * (y 1).val = (y 1).val; rw [h 1]; omega
  | ⟨2, _⟩ => show win0_2.index t (2 : Fin 3) * 256 + 1 * (y 2).val = (y 2).val; rw [h 2]; omega

theorem idx0_3 : ∀ t : Fin cfg0.N, ∀ a : Fin 2, win0_3.index t a = 0 :=
  (by decide +kernel : ∀ t : Fin grid0.N, ∀ a : Fin 2, win0_3.index t a = 0)

theorem blk_3 (c : Dev nD) (t : Fin cfg0.N) : (iblk m c 3 t : S3x1024.Idx → EReal) = V m c main_v0 := by
  funext y
  show V m c main_v0 (((cfg0.win 3).blk t).view.emb y) = V m c main_v0 y
  congr 1; funext a; apply Fin.ext
  have h := idx0_3 t
  match a with
  | ⟨0, _⟩ => show win0_3.index t (0 : Fin 2) * 3 + 1 * (y 0).val = (y 0).val; rw [h 0]; omega
  | ⟨1, _⟩ => show win0_3.index t (1 : Fin 2) * 1024 + 1 * (y 1).val = (y 1).val; rw [h 1]; omega

theorem idx0_4 : ∀ t : Fin cfg0.N, ∀ a : Fin 2, win0_4.index t a = 0 :=
  (by decide +kernel : ∀ t : Fin grid0.N, ∀ a : Fin 2, win0_4.index t a = 0)

theorem blk_4 (c : Dev nD) (t : Fin cfg0.N) : (iblk m c 4 t : S256x256.Idx → EReal) = V m c main_v2 := by
  funext y
  show V m c main_v2 (((cfg0.win 4).blk t).view.emb y) = V m c main_v2 y
  congr 1; funext a; apply Fin.ext
  have h := idx0_4 t
  match a with
  | ⟨0, _⟩ => show win0_4.index t (0 : Fin 2) * 256 + 1 * (y 0).val = (y 0).val; rw [h 0]; omega
  | ⟨1, _⟩ => show win0_4.index t (1 : Fin 2) * 256 + 1 * (y 1).val = (y 1).val; rw [h 1]; omega

theorem idx0_5 : ∀ t : Fin cfg0.N, ∀ a : Fin 1, win0_5.index t a = 0 :=
  (by decide +kernel : ∀ t : Fin grid0.N, ∀ a : Fin 1, win0_5.index t a = 0)

theorem blk_5 (c : Dev nD) (t : Fin cfg0.N) : (iblk m c 5 t : S256.Idx → EReal) = V m c main_v6 := by
  funext y
  show V m c main_v6 (((cfg0.win 5).blk t).view.emb y) = V m c main_v6 y
  congr 1; funext a; apply Fin.ext
  have h := idx0_5 t
  match a with
  | ⟨0, _⟩ => show win0_5.index t (0 : Fin 1) * 256 + 1 * (y 0).val = (y 0).val; rw [h 0]; omega

theorem idx0_6 : ∀ t : Fin cfg0.N, ∀ a : Fin 2, win0_6.index t a = 0 :=
  (by decide +kernel : ∀ t : Fin grid0.N, ∀ a : Fin 2, win0_6.index t a = 0)

theorem blk_6 (c : Dev nD) (t : Fin cfg0.N) : (iblk m c 6 t : S256x256.Idx → EReal) = V m c main_v4 := by
  funext y
  show V m c main_v4 (((cfg0.win 6).blk t).view.emb y) = V m c main_v4 y
  congr 1; funext a; apply Fin.ext
  have h := idx0_6 t
  match a with
  | ⟨0, _⟩ => show win0_6.index t (0 : Fin 2) * 256 + 1 * (y 0).val = (y 0).val; rw [h 0]; omega
  | ⟨1, _⟩ => show win0_6.index t (1 : Fin 2) * 256 + 1 * (y 1).val = (y 1).val; rw [h 1]; omega

theorem idx0_7 : ∀ t : Fin cfg0.N, ∀ a : Fin 1, win0_7.index t a = 0 :=
  (by decide +kernel : ∀ t : Fin grid0.N, ∀ a : Fin 1, win0_7.index t a = 0)

theorem blk_7 (c : Dev nD) (t : Fin cfg0.N) : (iblk m c 7 t : S256.Idx → EReal) = V m c main_v8 := by
  funext y
  show V m c main_v8 (((cfg0.win 7).blk t).view.emb y) = V m c main_v8 y
  congr 1; funext a; apply Fin.ext
  have h := idx0_7 t
  match a with
  | ⟨0, _⟩ => show win0_7.index t (0 : Fin 1) * 256 + 1 * (y 0).val = (y 0).val; rw [h 0]; omega

theorem idx0_8 : ∀ t : Fin cfg0.N, ∀ a : Fin 3, win0_8.index t a = 0 :=
  (by decide +kernel : ∀ t : Fin grid0.N, ∀ a : Fin 3, win0_8.index t a = 0)

theorem blk_8 (c : Dev nD) (t : Fin cfg0.N) : (iblk m c 8 t : S3x256x256.Idx → EReal) = V m c main_arg9 := by
  funext y
  show V m c main_arg9 (((cfg0.win 8).blk t).view.emb y) = V m c main_arg9 y
  congr 1; funext a; apply Fin.ext
  have h := idx0_8 t
  match a with
  | ⟨0, _⟩ => show win0_8.index t (0 : Fin 3) * 3 + 1 * (y 0).val = (y 0).val; rw [h 0]; omega
  | ⟨1, _⟩ => show win0_8.index t (1 : Fin 3) * 256 + 1 * (y 1).val = (y 1).val; rw [h 1]; omega
  | ⟨2, _⟩ => show win0_8.index t (2 : Fin 3) * 256 + 1 * (y 2).val = (y 2).val; rw [h 2]; omega

theorem idx0_9 : ∀ t : Fin cfg0.N, ∀ a : Fin 2, win0_9.index t a = 0 :=
  (by decide +kernel : ∀ t : Fin grid0.N, ∀ a : Fin 2, win0_9.index t a = 0)

theorem blk_9 (c : Dev nD) (t : Fin cfg0.N) : (iblk m c 9 t : S3x256.Idx → EReal) = V m c main_arg10 := by
  funext y
  show V m c main_arg10 (((cfg0.win 9).blk t).view.emb y) = V m c main_arg10 y
  congr 1; funext a; apply Fin.ext
  have h := idx0_9 t
  match a with
  | ⟨0, _⟩ => show win0_9.index t (0 : Fin 2) * 3 + 1 * (y 0).val = (y 0).val; rw [h 0]; omega
  | ⟨1, _⟩ => show win0_9.index t (1 : Fin 2) * 256 + 1 * (y 1).val = (y 1).val; rw [h 1]; omega

theorem idx0_10 : ∀ t : Fin cfg0.N, ∀ a : Fin 2, win0_10.index t a = 0 :=
  (by decide +kernel : ∀ t : Fin grid0.N, ∀ a : Fin 2, win0_10.index t a = 0)

theorem blk_10 (c : Dev nD) (t : Fin cfg0.N) : (iblk m c 10 t : S54x256.Idx → EReal) = V m c main_arg11 := by
  funext y
  show V m c main_arg11 (((cfg0.win 10).blk t).view.emb y) = V m c main_arg11 y
  congr 1; funext a; apply Fin.ext
  have h := idx0_10 t
  match a with
  | ⟨0, _⟩ => show win0_10.index t (0 : Fin 2) * 54 + 1 * (y 0).val = (y 0).val; rw [h 0]; omega
  | ⟨1, _⟩ => show win0_10.index t (1 : Fin 2) * 256 + 1 * (y 1).val = (y 1).val; rw [h 1]; omega

theorem idx0_11 : ∀ t : Fin cfg0.N, ∀ a : Fin 1, win0_11.index t a = 0 :=
  (by decide +kernel : ∀ t : Fin grid0.N, ∀ a : Fin 1, win0_11.index t a = 0)

theorem blk_11 (c : Dev nD) (t : Fin cfg0.N) : (iblk m c 11 t : S54.Idx → EReal) = V m c main_arg12 := by
  funext y
  show V m c main_arg12 (((cfg0.win 11).blk t).view.emb y) = V m c main_arg12 y
  congr 1; funext a; apply Fin.ext
  have h := idx0_11 t
  match a with
  | ⟨0, _⟩ => show win0_11.index t (0 : Fin 1) * 54 + 1 * (y 0).val = (y 0).val; rw [h 0]; omega

theorem idx0_12 : ∀ t : Fin cfg0.N, ∀ a : Fin 2, win0_12.index t a = 0 :=
  (by decide +kernel : ∀ t : Fin grid0.N, ∀ a : Fin 2, win0_12.index t a = 0)

theorem blk_12 (c : Dev nD) (t : Fin cfg0.N) : (iblk m c 12 t : S23x256.Idx → EReal) = V m c main_arg13 := by
  funext y
  show V m c main_arg13 (((cfg0.win 12).blk t).view.emb y) = V m c main_arg13 y
  congr 1; funext a; apply Fin.ext
  have h := idx0_12 t
  match a with
  | ⟨0, _⟩ => show win0_12.index t (0 : Fin 2) * 23 + 1 * (y 0).val = (y 0).val; rw [h 0]; omega
  | ⟨1, _⟩ => show win0_12.index t (1 : Fin 2) * 256 + 1 * (y 1).val = (y 1).val; rw [h 1]; omega

theorem idx0_13 : ∀ t : Fin cfg0.N, ∀ a : Fin 1, win0_13.index t a = 0 :=
  (by decide +kernel : ∀ t : Fin grid0.N, ∀ a : Fin 1, win0_13.index t a = 0)

theorem blk_13 (c : Dev nD) (t : Fin cfg0.N) : (iblk m c 13 t : S23.Idx → EReal) = V m c main_arg14 := by
  funext y
  show V m c main_arg14 (((cfg0.win 13).blk t).view.emb y) = V m c main_arg14 y
  congr 1; funext a; apply Fin.ext
  have h := idx0_13 t
  match a with
  | ⟨0, _⟩ => show win0_13.index t (0 : Fin 1) * 23 + 1 * (y 0).val = (y 0).val; rw [h 0]; omega

theorem idx0_14 : ∀ t : Fin cfg0.N, ∀ a : Fin 2, win0_14.index t a = 0 :=
  (by decide +kernel : ∀ t : Fin grid0.N, ∀ a : Fin 2, win0_14.index t a = 0)

theorem blk_14 (c : Dev nD) (t : Fin cfg0.N) : (iblk m c 14 t : S20x256.Idx → EReal) = V m c main_arg15 := by
  funext y
  show V m c main_arg15 (((cfg0.win 14).blk t).view.emb y) = V m c main_arg15 y
  congr 1; funext a; apply Fin.ext
  have h := idx0_14 t
  match a with
  | ⟨0, _⟩ => show win0_14.index t (0 : Fin 2) * 20 + 1 * (y 0).val = (y 0).val; rw [h 0]; omega
  | ⟨1, _⟩ => show win0_14.index t (1 : Fin 2) * 256 + 1 * (y 1).val = (y 1).val; rw [h 1]; omega

theorem idx0_15 : ∀ t : Fin cfg0.N, ∀ a : Fin 1, win0_15.index t a = 0 :=
  (by decide +kernel : ∀ t : Fin grid0.N, ∀ a : Fin 1, win0_15.index t a = 0)

theorem blk_15 (c : Dev nD) (t : Fin cfg0.N) : (iblk m c 15 t : S20.Idx → EReal) = V m c main_arg16 := by
  funext y
  show V m c main_arg16 (((cfg0.win 15).blk t).view.emb y) = V m c main_arg16 y
  congr 1; funext a; apply Fin.ext
  have h := idx0_15 t
  match a with
  | ⟨0, _⟩ => show win0_15.index t (0 : Fin 1) * 20 + 1 * (y 0).val = (y 0).val; rw [h 0]; omega

/-! ## The input and result windows move one tile per point -/

theorem idx_rows : ∀ t : Fin cfg0.N, win0_0.index t (0 : Fin 2) = t.val ∧ win0_0.index t (1 : Fin 2) = 0
    ∧ win0_16.index t (0 : Fin 2) = t.val ∧ win0_16.index t (1 : Fin 2) = 0
    ∧ win0_17.index t (0 : Fin 2) = t.val ∧ win0_17.index t (1 : Fin 2) = 0
    ∧ win0_18.index t (0 : Fin 2) = t.val ∧ win0_18.index t (1 : Fin 2) = 0 :=
  (by decide +kernel : ∀ t : Fin grid0.N, win0_0.index t (0 : Fin 2) = t.val ∧ win0_0.index t (1 : Fin 2) = 0
    ∧ win0_16.index t (0 : Fin 2) = t.val ∧ win0_16.index t (1 : Fin 2) = 0
    ∧ win0_17.index t (0 : Fin 2) = t.val ∧ win0_17.index t (1 : Fin 2) = 0
    ∧ win0_18.index t (0 : Fin 2) = t.val ∧ win0_18.index t (1 : Fin 2) = 0)

/-- Row `q` of the input tile at point `t` is row `1024·t + q` of the input array. -/
theorem xrow_eq (c : Dev nD) (t : Fin cfg0.N) (q : Fin 1024) (r : Fin 65536) (hr : r.val = t.val * 1024 + q.val) :
    trow (iblk m c 0 t) q = rowOf (V m c main_arg0) r := by
  funext k
  show V m c main_arg0 (((cfg0.win 0).blk t).view.emb (ix2 q k)) = V m c main_arg0 (ix2 r k)
  congr 1; funext a; apply Fin.ext
  obtain ⟨e0, e1, -⟩ := idx_rows t
  match a with
  | ⟨0, _⟩ => show win0_0.index t (0 : Fin 2) * 1024 + 1 * q.val = r.val; rw [e0, hr]; omega
  | ⟨1, _⟩ => show win0_0.index t (1 : Fin 2) * 256 + 1 * k.val = k.val; rw [e1]; omega

/-! ## The three results as functions of the arrays the region finds -/

/-- The parameters read out of the arrays the region finds. -/
def QV (c : Dev nD) : Params :=
  kerParams (V m c main_arg1) (V m c main_arg2) (V m c main_v0) (V m c main_v2) (V m c main_v6) (V m c main_v4) (V m c main_v8) (V m c main_arg9) (V m c main_arg10)

/-- Result 0 as one function of the arrays the region finds. -/
def K0 (c : Dev nD) : S65536x54.Idx → EReal := fun i =>
  outp (m0 (QV m c) (rowOf (V m c main_arg0 : S65536x256.Idx → EReal) (i 0)))
    (mat (V m c main_arg11 : S54x256.Idx → EReal)) (vec (V m c main_arg12 : S54.Idx → EReal)) (i 1)

/-- What point `t` writes back to result 0 is block `t` of that function. -/
theorem flushed16_eq (c : Dev nD) (t : Fin cfg0.N) :
    (dats m 0 c).flushed 16 t = ((cfg0.win 16).blk t).view.read (Elt Ideal) (K0 m c) := by
  rw [Value.flushed16]
  funext j
  show out0_16 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) j = K0 m c (((cfg0.win 16).blk t).view.emb j)
  rw [blk_1 m c t, blk_2 m c t, blk_3 m c t, blk_4 m c t, blk_5 m c t, blk_6 m c t, blk_7 m c t, blk_8 m c t, blk_9 m c t, blk_10 m c t, blk_11 m c t, blk_12 m c t, blk_13 m c t, blk_14 m c t, blk_15 m c t]
  obtain ⟨e0, e1, e2, e3, e4, e5, e6, e7⟩ := idx_rows t
  have hj0 : (j 0).val < 1024 := (j 0).isLt
  have hj1 : (j 1).val < 54 := (j 1).isLt
  refine ((congrArg (out0_16 (iblk m c 0 t) (V m c main_arg1) (V m c main_arg2) (V m c main_v0) (V m c main_v2) (V m c main_v6) (V m c main_v4) (V m c main_v8) (V m c main_arg9) (V m c main_arg10) (V m c main_arg11) (V m c main_arg12) (V m c main_arg13) (V m c main_arg14) (V m c main_arg15) (V m c main_arg16)) (eq_ix2 j)).trans
    (tile0 (iblk m c 0 t) (V m c main_arg1) (V m c main_arg2) (V m c main_v0) (V m c main_v2) (V m c main_v6) (V m c main_v4) (V m c main_v8) (V m c main_arg9) (V m c main_arg10) (j 0) (V m c main_arg11) (V m c main_arg12) (V m c main_arg13) (V m c main_arg14) (V m c main_arg15) (V m c main_arg16) (j 1))).trans ?_
  have hrow := xrow_eq m c t (j 0) ((((cfg0.win 16).blk t).view.emb j) 0)
    (by show win0_16.index t (0 : Fin 2) * 1024 + 1 * (j 0).val = t.val * 1024 + (j 0).val; rw [e2]; omega)
  have hcol : j 1 = (((cfg0.win 16).blk t).view.emb j) 1 :=
    Fin.ext (by show (j 1).val = win0_16.index t (1 : Fin 2) * 54 + 1 * (j 1).val; rw [e3]; omega)
  unfold K0
  rw [hrow, ← hcol]
  rfl

/-- An index of result 0 is in point `t`'s block iff each coordinate is in the block's range on its axis. -/
theorem mem_blk16 (t : Fin cfg0.N) (i : S65536x54.Idx) :
    i ∈ ((cfg0.win 16).blk t).view.set ↔ ∀ a : Fin 2, win0_16.index t a * S1024x54.size a ≤ (i a).val
      ∧ (i a).val < win0_16.index t a * S1024x54.size a + S1024x54.size a := by
  show i ∈ ((View.whole main_v9_0).slice (win0_16.rect t)).set ↔ _
  rw [View.set_slice_whole, Rect.mem_set_unit]
  exact Iff.rfl

/-- Row `r` of result 0 is in the block of point `r / 1024`. -/
theorem cover16 (i : S65536x54.Idx) :
    ∃ t : Fin cfg0.N, (cfg0.win 16).flush t = true ∧ i ∈ ((cfg0.win 16).blk t).view.set := by
  have hi0 : (i 0).val < 65536 := (i 0).isLt
  have hi1 : (i 1).val < 54 := (i 1).isLt
  have hlt : (i 0).val / 1024 < 64 := by omega
  refine ⟨⟨(i 0).val / 1024, hlt⟩, flush0_16 _, ?_⟩
  rw [mem_blk16]
  obtain ⟨e0, e1, e2, e3, e4, e5, e6, e7⟩ := idx_rows ⟨(i 0).val / 1024, hlt⟩
  intro a
  match a with
  | ⟨0, _⟩ =>
    show win0_16.index ⟨(i 0).val / 1024, hlt⟩ (0 : Fin 2) * 1024 ≤ (i 0).val
      ∧ (i 0).val < win0_16.index ⟨(i 0).val / 1024, hlt⟩ (0 : Fin 2) * 1024 + 1024
    rw [e2]; show (i 0).val / 1024 * 1024 ≤ (i 0).val ∧ (i 0).val < (i 0).val / 1024 * 1024 + 1024; omega
  | ⟨1, _⟩ =>
    show win0_16.index ⟨(i 0).val / 1024, hlt⟩ (1 : Fin 2) * 54 ≤ (i 1).val
      ∧ (i 1).val < win0_16.index ⟨(i 0).val / 1024, hlt⟩ (1 : Fin 2) * 54 + 54
    rw [e3]; omega

/-- Result 0 after the run. -/
theorem final16 (c : Dev nD) : (dats m 0 c).arrAt 16 cfg0.N = K0 m c :=
  (dats m 0 c).arrAt_eq_of_cover 16 (K0 m c) (fun t _ => flushed16_eq m c t) cover16

/-- Result 1 as one function of the arrays the region finds. -/
def K1 (c : Dev nD) : S65536x23.Idx → EReal := fun i =>
  outp (m1 (QV m c) (rowOf (V m c main_arg0 : S65536x256.Idx → EReal) (i 0)))
    (mat (V m c main_arg13 : S23x256.Idx → EReal)) (vec (V m c main_arg14 : S23.Idx → EReal)) (i 1)

/-- What point `t` writes back to result 1 is block `t` of that function. -/
theorem flushed17_eq (c : Dev nD) (t : Fin cfg0.N) :
    (dats m 0 c).flushed 17 t = ((cfg0.win 17).blk t).view.read (Elt Ideal) (K1 m c) := by
  rw [Value.flushed17]
  funext j
  show out0_17 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) j = K1 m c (((cfg0.win 17).blk t).view.emb j)
  rw [blk_1 m c t, blk_2 m c t, blk_3 m c t, blk_4 m c t, blk_5 m c t, blk_6 m c t, blk_7 m c t, blk_8 m c t, blk_9 m c t, blk_10 m c t, blk_11 m c t, blk_12 m c t, blk_13 m c t, blk_14 m c t, blk_15 m c t]
  obtain ⟨e0, e1, e2, e3, e4, e5, e6, e7⟩ := idx_rows t
  have hj0 : (j 0).val < 1024 := (j 0).isLt
  have hj1 : (j 1).val < 23 := (j 1).isLt
  refine ((congrArg (out0_17 (iblk m c 0 t) (V m c main_arg1) (V m c main_arg2) (V m c main_v0) (V m c main_v2) (V m c main_v6) (V m c main_v4) (V m c main_v8) (V m c main_arg9) (V m c main_arg10) (V m c main_arg11) (V m c main_arg12) (V m c main_arg13) (V m c main_arg14) (V m c main_arg15) (V m c main_arg16)) (eq_ix2 j)).trans
    (tile1 (iblk m c 0 t) (V m c main_arg1) (V m c main_arg2) (V m c main_v0) (V m c main_v2) (V m c main_v6) (V m c main_v4) (V m c main_v8) (V m c main_arg9) (V m c main_arg10) (j 0) (V m c main_arg11) (V m c main_arg12) (V m c main_arg13) (V m c main_arg14) (V m c main_arg15) (V m c main_arg16) (j 1))).trans ?_
  have hrow := xrow_eq m c t (j 0) ((((cfg0.win 17).blk t).view.emb j) 0)
    (by show win0_17.index t (0 : Fin 2) * 1024 + 1 * (j 0).val = t.val * 1024 + (j 0).val; rw [e4]; omega)
  have hcol : j 1 = (((cfg0.win 17).blk t).view.emb j) 1 :=
    Fin.ext (by show (j 1).val = win0_17.index t (1 : Fin 2) * 23 + 1 * (j 1).val; rw [e5]; omega)
  unfold K1
  rw [hrow, ← hcol]
  rfl

/-- An index of result 1 is in point `t`'s block iff each coordinate is in the block's range on its axis. -/
theorem mem_blk17 (t : Fin cfg0.N) (i : S65536x23.Idx) :
    i ∈ ((cfg0.win 17).blk t).view.set ↔ ∀ a : Fin 2, win0_17.index t a * S1024x23.size a ≤ (i a).val
      ∧ (i a).val < win0_17.index t a * S1024x23.size a + S1024x23.size a := by
  show i ∈ ((View.whole main_v9_1).slice (win0_17.rect t)).set ↔ _
  rw [View.set_slice_whole, Rect.mem_set_unit]
  exact Iff.rfl

/-- Row `r` of result 1 is in the block of point `r / 1024`. -/
theorem cover17 (i : S65536x23.Idx) :
    ∃ t : Fin cfg0.N, (cfg0.win 17).flush t = true ∧ i ∈ ((cfg0.win 17).blk t).view.set := by
  have hi0 : (i 0).val < 65536 := (i 0).isLt
  have hi1 : (i 1).val < 23 := (i 1).isLt
  have hlt : (i 0).val / 1024 < 64 := by omega
  refine ⟨⟨(i 0).val / 1024, hlt⟩, flush0_17 _, ?_⟩
  rw [mem_blk17]
  obtain ⟨e0, e1, e2, e3, e4, e5, e6, e7⟩ := idx_rows ⟨(i 0).val / 1024, hlt⟩
  intro a
  match a with
  | ⟨0, _⟩ =>
    show win0_17.index ⟨(i 0).val / 1024, hlt⟩ (0 : Fin 2) * 1024 ≤ (i 0).val
      ∧ (i 0).val < win0_17.index ⟨(i 0).val / 1024, hlt⟩ (0 : Fin 2) * 1024 + 1024
    rw [e4]; show (i 0).val / 1024 * 1024 ≤ (i 0).val ∧ (i 0).val < (i 0).val / 1024 * 1024 + 1024; omega
  | ⟨1, _⟩ =>
    show win0_17.index ⟨(i 0).val / 1024, hlt⟩ (1 : Fin 2) * 23 ≤ (i 1).val
      ∧ (i 1).val < win0_17.index ⟨(i 0).val / 1024, hlt⟩ (1 : Fin 2) * 23 + 23
    rw [e5]; omega

/-- Result 1 after the run. -/
theorem final17 (c : Dev nD) : (dats m 0 c).arrAt 17 cfg0.N = K1 m c :=
  (dats m 0 c).arrAt_eq_of_cover 17 (K1 m c) (fun t _ => flushed17_eq m c t) cover17

/-- Result 2 as one function of the arrays the region finds. -/
def K2 (c : Dev nD) : S65536x20.Idx → EReal := fun i =>
  outp (m2 (QV m c) (rowOf (V m c main_arg0 : S65536x256.Idx → EReal) (i 0)))
    (mat (V m c main_arg15 : S20x256.Idx → EReal)) (vec (V m c main_arg16 : S20.Idx → EReal)) (i 1)

/-- What point `t` writes back to result 2 is block `t` of that function. -/
theorem flushed18_eq (c : Dev nD) (t : Fin cfg0.N) :
    (dats m 0 c).flushed 18 t = ((cfg0.win 18).blk t).view.read (Elt Ideal) (K2 m c) := by
  rw [Value.flushed18]
  funext j
  show out0_18 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) j = K2 m c (((cfg0.win 18).blk t).view.emb j)
  rw [blk_1 m c t, blk_2 m c t, blk_3 m c t, blk_4 m c t, blk_5 m c t, blk_6 m c t, blk_7 m c t, blk_8 m c t, blk_9 m c t, blk_10 m c t, blk_11 m c t, blk_12 m c t, blk_13 m c t, blk_14 m c t, blk_15 m c t]
  obtain ⟨e0, e1, e2, e3, e4, e5, e6, e7⟩ := idx_rows t
  have hj0 : (j 0).val < 1024 := (j 0).isLt
  have hj1 : (j 1).val < 20 := (j 1).isLt
  refine ((congrArg (out0_18 (iblk m c 0 t) (V m c main_arg1) (V m c main_arg2) (V m c main_v0) (V m c main_v2) (V m c main_v6) (V m c main_v4) (V m c main_v8) (V m c main_arg9) (V m c main_arg10) (V m c main_arg11) (V m c main_arg12) (V m c main_arg13) (V m c main_arg14) (V m c main_arg15) (V m c main_arg16)) (eq_ix2 j)).trans
    (tile2 (iblk m c 0 t) (V m c main_arg1) (V m c main_arg2) (V m c main_v0) (V m c main_v2) (V m c main_v6) (V m c main_v4) (V m c main_v8) (V m c main_arg9) (V m c main_arg10) (j 0) (V m c main_arg11) (V m c main_arg12) (V m c main_arg13) (V m c main_arg14) (V m c main_arg15) (V m c main_arg16) (j 1))).trans ?_
  have hrow := xrow_eq m c t (j 0) ((((cfg0.win 18).blk t).view.emb j) 0)
    (by show win0_18.index t (0 : Fin 2) * 1024 + 1 * (j 0).val = t.val * 1024 + (j 0).val; rw [e6]; omega)
  have hcol : j 1 = (((cfg0.win 18).blk t).view.emb j) 1 :=
    Fin.ext (by show (j 1).val = win0_18.index t (1 : Fin 2) * 20 + 1 * (j 1).val; rw [e7]; omega)
  unfold K2
  rw [hrow, ← hcol]
  rfl

/-- An index of result 2 is in point `t`'s block iff each coordinate is in the block's range on its axis. -/
theorem mem_blk18 (t : Fin cfg0.N) (i : S65536x20.Idx) :
    i ∈ ((cfg0.win 18).blk t).view.set ↔ ∀ a : Fin 2, win0_18.index t a * S1024x20.size a ≤ (i a).val
      ∧ (i a).val < win0_18.index t a * S1024x20.size a + S1024x20.size a := by
  show i ∈ ((View.whole main_v9_2).slice (win0_18.rect t)).set ↔ _
  rw [View.set_slice_whole, Rect.mem_set_unit]
  exact Iff.rfl

/-- Row `r` of result 2 is in the block of point `r / 1024`. -/
theorem cover18 (i : S65536x20.Idx) :
    ∃ t : Fin cfg0.N, (cfg0.win 18).flush t = true ∧ i ∈ ((cfg0.win 18).blk t).view.set := by
  have hi0 : (i 0).val < 65536 := (i 0).isLt
  have hi1 : (i 1).val < 20 := (i 1).isLt
  have hlt : (i 0).val / 1024 < 64 := by omega
  refine ⟨⟨(i 0).val / 1024, hlt⟩, flush0_18 _, ?_⟩
  rw [mem_blk18]
  obtain ⟨e0, e1, e2, e3, e4, e5, e6, e7⟩ := idx_rows ⟨(i 0).val / 1024, hlt⟩
  intro a
  match a with
  | ⟨0, _⟩ =>
    show win0_18.index ⟨(i 0).val / 1024, hlt⟩ (0 : Fin 2) * 1024 ≤ (i 0).val
      ∧ (i 0).val < win0_18.index ⟨(i 0).val / 1024, hlt⟩ (0 : Fin 2) * 1024 + 1024
    rw [e6]; show (i 0).val / 1024 * 1024 ≤ (i 0).val ∧ (i 0).val < (i 0).val / 1024 * 1024 + 1024; omega
  | ⟨1, _⟩ =>
    show win0_18.index ⟨(i 0).val / 1024, hlt⟩ (1 : Fin 2) * 20 ≤ (i 1).val
      ∧ (i 1).val < win0_18.index ⟨(i 0).val / 1024, hlt⟩ (1 : Fin 2) * 20 + 20
    rw [e7]; omega

/-- Result 2 after the run. -/
theorem final18 (c : Dev nD) : (dats m 0 c).arrAt 18 cfg0.N = K2 m c :=
  (dats m 0 c).arrAt_eq_of_cover 18 (K2 m c) (fun t _ => flushed18_eq m c t) cover18

/-! ## Back to the arguments -/

/-- The parameters the region finds are the specification's parameters of the argument arrays. -/
theorem params_eq (c : Dev nD) :
    QV m c = paramsOf (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  unfold QV kerParams paramsOf
  rw [V_main_arg1 m c, V_main_arg2 m c, V_main_arg9 m c, V_main_arg10 m c, bias_eq m c, hsW_eq m c, hsb_eq m c, csW_eq m c, csb_eq m c]
  congr 1
  · funext o k; exact pairMat_at _ o k
  · funext o; exact pairRow_at _ o
  · funext o k; exact pairMat_at _ o k
  · funext o; exact pairRow_at _ o

theorem K0_eq (c : Dev nD) :
    K0 m c = G0 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) := by
  funext i
  unfold K0 G0
  rw [params_eq m c, V_main_arg0 m c, V_main_arg11 m c, V_main_arg12 m c]

theorem K1_eq (c : Dev nD) :
    K1 m c = G1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg13)) (m ((c : Thread nD τ).loc main_arg14)) := by
  funext i
  unfold K1 G1
  rw [params_eq m c, V_main_arg0 m c, V_main_arg13 m c, V_main_arg14 m c]

theorem K2_eq (c : Dev nD) :
    K2 m c = G2 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg15)) (m ((c : Thread nD τ).loc main_arg16)) := by
  funext i
  unfold K2 G2
  rw [params_eq m c, V_main_arg0 m c, V_main_arg15 m c, V_main_arg16 m c]

/-! ## The run -/

/-- The kernel's run: the three results end at the specification's arrays of the arguments, the arguments unchanged. -/
theorem run : θ_run defs (onTc (τ := τ) (main (F := Ideal))) ⟨m, fun _ => 0, ρ⟩ fun r => ∀ c : Dev nD,
      r.2.mem ((c : Thread nD τ).loc main_v9_0) = G0 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12))
      ∧ r.2.mem ((c : Thread nD τ).loc main_v9_1) = G1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg13)) (m ((c : Thread nD τ).loc main_arg14))
      ∧ r.2.mem ((c : Thread nD τ).loc main_v9_2) = G2 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg15)) (m ((c : Thread nD τ).loc main_arg16))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13)
      ∧ r.2.mem ((c : Thread nD τ).loc main_arg14) = m ((c : Thread nD τ).loc main_arg14)
      ∧ r.2.mem ((c : Thread nD τ).loc main_arg15) = m ((c : Thread nD τ).loc main_arg15)
      ∧ r.2.mem ((c : Thread nD τ).loc main_arg16) = m ((c : Thread nD τ).loc main_arg16) :=
  (θ_run defs _ _).mono (fun r h c => ⟨(h c).1.trans ((final16 m c).trans (K0_eq m c)),
      (h c).2.1.trans ((final17 m c).trans (K1_eq m c)),
      (h c).2.2.1.trans ((final18 m c).trans (K2_eq m c)),
      (h c).2.2.2⟩)
    (Value.run_blocks m ρ)

end Cert.KerSide

end
-- ==== Proof.RefProg.lean ====
/-
  The reference program as a line of host operations, in seven stretches.

  Stretch A is the first cell and its head; B the second cell; C the mixing pairs into the first two cells, whose results
  are never read; D the mixing pair into the third cell and the second head; E the third cell; F the last mixing pairs,
  never read; G the third head. The program is the stretches run one after the other.
-/
import proofs.«168260_j24026047054250_2_alg».proof.Proof.Gen.ReferenceIdeal
import Idealize.ShloMosaic.Lib.StableHlo.Run

noncomputable section

namespace Cert.RefSide

open Cert.ReferenceIdeal Cert.ReferenceIdeal.Gen Idealize.ShloMosaic Idealize.ShloMosaic.TcCoe Idealize.SL.Sem Idealize.ShloMosaic.StableHlo

variable {F : FTy → Type} [FloatOps F]

/-- Stretch A: operations 0 to 71 of the line. -/
abbrev opsA : List (HloOp τ sig (Elt F)) :=
  [ nullary main_cst (constant S_ .f32 0x00000000#32),
    unary main_cst main_v0 (broadcastInDim S65536x256 ![] bcast_S_S65536x256 : (⟨S_, .f32⟩ : BufTy).Contents (Elt F) → (⟨S65536x256, .f32⟩ : BufTy).Contents (Elt F)),
    unary main_arg1 main_v1 ((extractStridedSlice S1x1024x256 ![0, 0, 0] · slices_S3x1024x256_S1x1024x256_0_0_0) : (⟨S3x1024x256, .f32⟩ : BufTy).Contents (Elt F) → (⟨S1x1024x256, .f32⟩ : BufTy).Contents (Elt F)),
    reshape main_v1 main_v2 rfl shapeCasts_S1x1024x256_S1024x256,
    unary main_v2 main_v3 ((transpose S256x1024 [1, 0] · transposes_S1024x256_S256x1024_1_0) : (⟨S1024x256, .f32⟩ : BufTy).Contents (Elt F) → (⟨S256x1024, .f32⟩ : BufTy).Contents (Elt F)),
    binary main_arg0 main_v3 main_v4 ((fun l r => Host.dotGeneral dot_S65536x256_S256x1024_S65536x1024_1_0_0_1_n_n none l r) : (⟨S65536x256, .f32⟩ : BufTy).Contents (Elt F) → (⟨S256x1024, .f32⟩ : BufTy).Contents (Elt F) → (⟨S65536x1024, .f32⟩ : BufTy).Contents (Elt F)),
    unary main_arg3 main_v5 ((extractStridedSlice S1x1024 ![0, 0] · slices_S3x1024_S1x1024_0_0) : (⟨S3x1024, .f32⟩ : BufTy).Contents (Elt F) → (⟨S1x1024, .f32⟩ : BufTy).Contents (Elt F)),
    reshape main_v5 main_v6 rfl shapeCasts_S1x1024_S1024,
    unary main_v6 main_v7 (broadcastInDim S1x1024 ![1] bcast_S1024_S1x1024_1 : (⟨S1024, .f32⟩ : BufTy).Contents (Elt F) → (⟨S1x1024, .f32⟩ : BufTy).Contents (Elt F)),
    unary main_v7 main_v8 (broadcastInDim S65536x1024 ![0, 1] bcast_S1x1024_S65536x1024_0_1 : (⟨S1x1024, .f32⟩ : BufTy).Contents (Elt F) → (⟨S65536x1024, .f32⟩ : BufTy).Contents (Elt F)),
    binary main_v4 main_v8 main_v9 (addf : (⟨S65536x1024, .f32⟩ : BufTy).Contents (Elt F) → (⟨S65536x1024, .f32⟩ : BufTy).Contents (Elt F) → (⟨S65536x1024, .f32⟩ : BufTy).Contents (Elt F)),
    unary main_arg2 main_v10 ((extractStridedSlice S1x1024x256 ![0, 0, 0] · slices_S3x1024x256_S1x1024x256_0_0_0) : (⟨S3x1024x256, .f32⟩ : BufTy).Contents (Elt F) → (⟨S1x1024x256, .f32⟩ : BufTy).Contents (Elt F)),
    reshape main_v10 main_v11 rfl shapeCasts_S1x1024x256_S1024x256,
    unary main_v11 main_v12 ((transpose S256x1024 [1, 0] · transposes_S1024x256_S256x1024_1_0) : (⟨S1024x256, .f32⟩ : BufTy).Contents (Elt F) → (⟨S256x1024, .f32⟩ : BufTy).Contents (Elt F)),
    binary main_v0 main_v12 main_v13 ((fun l r => Host.dotGeneral dot_S65536x256_S256x1024_S65536x1024_1_0_0_1_n_n none l r) : (⟨S65536x256, .f32⟩ : BufTy).Contents (Elt F) → (⟨S256x1024, .f32⟩ : BufTy).Contents (Elt F) → (⟨S65536x1024, .f32⟩ : BufTy).Contents (Elt F)),
    binary main_v9 main_v13 main_v14 (addf : (⟨S65536x1024, .f32⟩ : BufTy).Contents (Elt F) → (⟨S65536x1024, .f32⟩ : BufTy).Contents (Elt F) → (⟨S65536x1024, .f32⟩ : BufTy).Contents (Elt F)),
    unary main_arg4 main_v15 ((extractStridedSlice S1x1024 ![0, 0] · slices_S3x1024_S1x1024_0_0) : (⟨S3x1024, .f32⟩ : BufTy).Contents (Elt F) → (⟨S1x1024, .f32⟩ : BufTy).Contents (Elt F)),
    reshape main_v15 main_v16 rfl shapeCasts_S1x1024_S1024,
    unary main_v16 main_v17 (broadcastInDim S1x1024 ![1] bcast_S1024_S1x1024_1 : (⟨S1024, .f32⟩ : BufTy).Contents (Elt F) → (⟨S1x1024, .f32⟩ : BufTy).Contents (Elt F)),
    unary main_v17 main_v18 (broadcastInDim S65536x1024 ![0, 1] bcast_S1x1024_S65536x1024_0_1 : (⟨S1x1024, .f32⟩ : BufTy).Contents (Elt F) → (⟨S65536x1024, .f32⟩ : BufTy).Contents (Elt F)),
    binary main_v14 main_v18 main_v19 (addf : (⟨S65536x1024, .f32⟩ : BufTy).Contents (Elt F) → (⟨S65536x1024, .f32⟩ : BufTy).Contents (Elt F) → (⟨S65536x1024, .f32⟩ : BufTy).Contents (Elt F)),
    unary main_v19 main_v20 ((extractStridedSlice S65536x256 ![0, 0] · slices_S65536x1024_S65536x256_0_0) : (⟨S65536x1024, .f32⟩ : BufTy).Contents (Elt F) → (⟨S65536x256, .f32⟩ : BufTy).Contents (Elt F)),
    unary main_v19 main_v21 ((extractStridedSlice S65536x256 ![0, 256] · slices_S65536x1024_S65536x256_0_256) : (⟨S65536x1024, .f32⟩ : BufTy).Contents (Elt F) → (⟨S65536x256, .f32⟩ : BufTy).Contents (Elt F)),
    unary main_v19 main_v22 ((extractStridedSlice S65536x256 ![0, 512] · slices_S65536x1024_S65536x256_0_512) : (⟨S65536x1024, .f32⟩ : BufTy).Contents (Elt F) → (⟨S65536x256, .f32⟩ : BufTy).Contents (Elt F)),
    unary main_v19 main_v23 ((extractStridedSlice S65536x256 ![0, 768] · slices_S65536x1024_S65536x256_0_768) : (⟨S65536x1024, .f32⟩ : BufTy).Contents (Elt F) → (⟨S65536x256, .f32⟩ : BufTy).Contents (Elt F)),
    unary main_v21 main_v24 (Host.negf : (⟨S65536x256, .f32⟩ : BufTy).Contents (Elt F) → (⟨S65536x256, .f32⟩ : BufTy).Contents (Elt F)),
    unary main_v24 main_v25 (Host.exp : (⟨S65536x256, .f32⟩ : BufTy).Contents (Elt F) → (⟨S65536x256, .f32⟩ : BufTy).Contents (Elt F)),
    nullary main_cst_0 (constant S_ .f32 0x3F800000#32),
    unary main_cst_0 main_v26 (broadcastInDim S65536x256 ![] bcast_S_S65536x256 : (⟨S_, .f32⟩ : BufTy).Contents (Elt F) → (⟨S65536x256, .f32⟩ : BufTy).Contents (Elt F)),
    binary main_v26 main_v25 main_v27 (addf : (⟨S65536x256, .f32⟩ : BufTy).Contents (Elt F) → (⟨S65536x256, .f32⟩ : BufTy).Contents (Elt F) → (⟨S65536x256, .f32⟩ : BufTy).Contents (Elt F)),
    nullary main_cst_1 (constant S_ .f32 0x3F800000#32),
    unary main_cst_1 main_v28 (broadcastInDim S65536x256 ![] bcast_S_S65536x256 : (⟨S_, .f32⟩ : BufTy).Contents (Elt F) → (⟨S65536x256, .f32⟩ : BufTy).Contents (Elt F)),
    binary main_v28 main_v27 main_v29 (Host.divf : (⟨S65536x256, .f32⟩ : BufTy).Contents (Elt F) → (⟨S65536x256, .f32⟩ : BufTy).Contents (Elt F) → (⟨S65536x256, .f32⟩ : BufTy).Contents (Elt F)),
    binary main_v29 main_v0 main_v30 (mulf : (⟨S65536x256, .f32⟩ : BufTy).Contents (Elt F) → (⟨S65536x256, .f32⟩ : BufTy).Contents (Elt F) → (⟨S65536x256, .f32⟩ : BufTy).Contents (Elt F)),
    unary main_v20 main_v31 (Host.negf : (⟨S65536x256, .f32⟩ : BufTy).Contents (Elt F) → (⟨S65536x256, .f32⟩ : BufTy).Contents (Elt F)),
    unary main_v31 main_v32 (Host.exp : (⟨S65536x256, .f32⟩ : BufTy).Contents (Elt F) → (⟨S65536x256, .f32⟩ : BufTy).Contents (Elt F)),
    nullary main_cst_2 (constant S_ .f32 0x3F800000#32),
    unary main_cst_2 main_v33 (broadcastInDim S65536x256 ![] bcast_S_S65536x256 : (⟨S_, .f32⟩ : BufTy).Contents (Elt F) → (⟨S65536x256, .f32⟩ : BufTy).Contents (Elt F)),
    binary main_v33 main_v32 main_v34 (addf : (⟨S65536x256, .f32⟩ : BufTy).Contents (Elt F) → (⟨S65536x256, .f32⟩ : BufTy).Contents (Elt F) → (⟨S65536x256, .f32⟩ : BufTy).Contents (Elt F)),
    nullary main_cst_3 (constant S_ .f32 0x3F800000#32),
    unary main_cst_3 main_v35 (broadcastInDim S65536x256 ![] bcast_S_S65536x256 : (⟨S_, .f32⟩ : BufTy).Contents (Elt F) → (⟨S65536x256, .f32⟩ : BufTy).Contents (Elt F)),
    binary main_v35 main_v34 main_v36 (Host.divf : (⟨S65536x256, .f32⟩ : BufTy).Contents (Elt F) → (⟨S65536x256, .f32⟩ : BufTy).Contents (Elt F) → (⟨S65536x256, .f32⟩ : BufTy).Contents (Elt F)),
    unary main_v22 main_v37 (Host.tanh : (⟨S65536x256, .f32⟩ : BufTy).Contents (Elt F) → (⟨S65536x256, .f32⟩ : BufTy).Contents (Elt F)),
    binary main_v36 main_v37 main_v38 (mulf : (⟨S65536x256, .f32⟩ : BufTy).Contents (Elt F) → (⟨S65536x256, .f32⟩ : BufTy).Contents (Elt F) → (⟨S65536x256, .f32⟩ : BufTy).Contents (Elt F)),
    binary main_v30 main_v38 main_v39 (addf : (⟨S65536x256, .f32⟩ : BufTy).Contents (Elt F) → (⟨S65536x256, .f32⟩ : BufTy).Contents (Elt F) → (⟨S65536x256, .f32⟩ : BufTy).Contents (Elt F)),
    unary main_v23 main_v40 (Host.negf : (⟨S65536x256, .f32⟩ : BufTy).Contents (Elt F) → (⟨S65536x256, .f32⟩ : BufTy).Contents (Elt F)),
    unary main_v40 main_v41 (Host.exp : (⟨S65536x256, .f32⟩ : BufTy).Contents (Elt F) → (⟨S65536x256, .f32⟩ : BufTy).Contents (Elt F)),
    nullary main_cst_4 (constant S_ .f32 0x3F800000#32),
    unary main_cst_4 main_v42 (broadcastInDim S65536x256 ![] bcast_S_S65536x256 : (⟨S_, .f32⟩ : BufTy).Contents (Elt F) → (⟨S65536x256, .f32⟩ : BufTy).Contents (Elt F)),
    binary main_v42 main_v41 main_v43 (addf : (⟨S65536x256, .f32⟩ : BufTy).Contents (Elt F) → (⟨S65536x256, .f32⟩ : BufTy).Contents (Elt F) → (⟨S65536x256, .f32⟩ : BufTy).Contents (Elt F)),
    nullary main_cst_5 (constant S_ .f32 0x3F800000#32),
    unary main_cst_5 main_v44 (broadcastInDim S65536x256 ![] bcast_S_S65536x256 : (⟨S_, .f32⟩ : BufTy).Contents (Elt F) → (⟨S65536x256, .f32⟩ : BufTy).Contents (Elt F)),
    binary main_v44 main_v43 main_v45 (Host.divf : (⟨S65536x256, .f32⟩ : BufTy).Contents (Elt F) → (⟨S65536x256, .f32⟩ : BufTy).Contents (Elt F) → (⟨S65536x256, .f32⟩ : BufTy).Contents (Elt F)),
    unary main_v39 main_v46 (Host.tanh : (⟨S65536x256, .f32⟩ : BufTy).Contents (Elt F) → (⟨S65536x256, .f32⟩ : BufTy).Contents (Elt F)),
    binary main_v45 main_v46 main_v47 (mulf : (⟨S65536x256, .f32⟩ : BufTy).Contents (Elt F) → (⟨S65536x256, .f32⟩ : BufTy).Contents (Elt F) → (⟨S65536x256, .f32⟩ : BufTy).Contents (Elt F)),
    unary main_arg9 main_v48 ((extractStridedSlice S1x256x256 ![0, 0, 0] · slices_S3x256x256_S1x256x256_0_0_0) : (⟨S3x256x256, .f32⟩ : BufTy).Contents (Elt F) → (⟨S1x256x256, .f32⟩ : BufTy).Contents (Elt F)),
    reshape main_v48 main_v49 rfl shapeCasts_S1x256x256_S256x256,
    unary main_v49 main_v50 ((transpose S256x256 [1, 0] · transposes_S256x256_S256x256_1_0) : (⟨S256x256, .f32⟩ : BufTy).Contents (Elt F) → (⟨S256x256, .f32⟩ : BufTy).Contents (Elt F)),
    binary main_v47 main_v50 main_v51 ((fun l r => Host.dotGeneral dot_S65536x256_S256x256_S65536x256_1_0_0_1_n_n none l r) : (⟨S65536x256, .f32⟩ : BufTy).Contents (Elt F) → (⟨S256x256, .f32⟩ : BufTy).Contents (Elt F) → (⟨S65536x256, .f32⟩ : BufTy).Contents (Elt F)),
    unary main_arg10 main_v52 ((extractStridedSlice S1x256 ![0, 0] · slices_S3x256_S1x256_0_0) : (⟨S3x256, .f32⟩ : BufTy).Contents (Elt F) → (⟨S1x256, .f32⟩ : BufTy).Contents (Elt F)),
    reshape main_v52 main_v53 rfl shapeCasts_S1x256_S256,
    unary main_v53 main_v54 (broadcastInDim S1x256 ![1] bcast_S256_S1x256_1 : (⟨S256, .f32⟩ : BufTy).Contents (Elt F) → (⟨S1x256, .f32⟩ : BufTy).Contents (Elt F)),
    unary main_v54 main_v55 (broadcastInDim S65536x256 ![0, 1] bcast_S1x256_S65536x256_0_1 : (⟨S1x256, .f32⟩ : BufTy).Contents (Elt F) → (⟨S65536x256, .f32⟩ : BufTy).Contents (Elt F)),
    binary main_v51 main_v55 main_v56 (addf : (⟨S65536x256, .f32⟩ : BufTy).Contents (Elt F) → (⟨S65536x256, .f32⟩ : BufTy).Contents (Elt F) → (⟨S65536x256, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S65536x256, .f32⟩) main_call0_v0) (broadcastInDim S65536x256 ![] bcast_S_S65536x256),
    TRef.binary (TRef.of (T := ⟨S65536x256, .f32⟩) main_v56) (TRef.of (T := ⟨S65536x256, .f32⟩) main_call0_v0) (TRef.of (T := ⟨S65536x256, .f32⟩) main_v57) maximumf,
    unary main_arg11 main_v58 ((transpose S256x54 [1, 0] · transposes_S54x256_S256x54_1_0) : (⟨S54x256, .f32⟩ : BufTy).Contents (Elt F) → (⟨S256x54, .f32⟩ : BufTy).Contents (Elt F)),
    binary main_v57 main_v58 main_v59 ((fun l r => Host.dotGeneral dot_S65536x256_S256x54_S65536x54_1_0_0_1_n_n none l r) : (⟨S65536x256, .f32⟩ : BufTy).Contents (Elt F) → (⟨S256x54, .f32⟩ : BufTy).Contents (Elt F) → (⟨S65536x54, .f32⟩ : BufTy).Contents (Elt F)),
    unary main_arg12 main_v60 (broadcastInDim S1x54 ![1] bcast_S54_S1x54_1 : (⟨S54, .f32⟩ : BufTy).Contents (Elt F) → (⟨S1x54, .f32⟩ : BufTy).Contents (Elt F)),
    unary main_v60 main_v61 (broadcastInDim S65536x54 ![0, 1] bcast_S1x54_S65536x54_0_1 : (⟨S1x54, .f32⟩ : BufTy).Contents (Elt F) → (⟨S65536x54, .f32⟩ : BufTy).Contents (Elt F)),
    binary main_v59 main_v61 main_v62 (addf : (⟨S65536x54, .f32⟩ : BufTy).Contents (Elt F) → (⟨S65536x54, .f32⟩ : BufTy).Contents (Elt F) → (⟨S65536x54, .f32⟩ : BufTy).Contents (Elt F)) ]

set_option maxRecDepth 8192 in
theorem opsA_sub : (opsA : List (HloOp τ sig (Elt F))).Forall fun op => op.bufs ⊆ tcRefs τ sig :=
  ⟨nullary_bufs_sub .., unary_bufs_sub .., unary_bufs_sub .., reshape_bufs_sub .., unary_bufs_sub .., binary_bufs_sub .., unary_bufs_sub .., reshape_bufs_sub .., unary_bufs_sub .., unary_bufs_sub .., binary_bufs_sub .., unary_bufs_sub .., reshape_bufs_sub .., unary_bufs_sub .., binary_bufs_sub .., binary_bufs_sub .., unary_bufs_sub .., reshape_bufs_sub .., unary_bufs_sub .., unary_bufs_sub .., binary_bufs_sub .., unary_bufs_sub .., unary_bufs_sub .., unary_bufs_sub .., unary_bufs_sub .., unary_bufs_sub .., unary_bufs_sub .., nullary_bufs_sub .., unary_bufs_sub .., binary_bufs_sub .., nullary_bufs_sub .., unary_bufs_sub .., binary_bufs_sub .., binary_bufs_sub .., unary_bufs_sub .., unary_bufs_sub .., nullary_bufs_sub .., unary_bufs_sub .., binary_bufs_sub .., nullary_bufs_sub .., unary_bufs_sub .., binary_bufs_sub .., unary_bufs_sub .., binary_bufs_sub .., binary_bufs_sub .., unary_bufs_sub .., unary_bufs_sub .., nullary_bufs_sub .., unary_bufs_sub .., binary_bufs_sub .., nullary_bufs_sub .., unary_bufs_sub .., binary_bufs_sub .., unary_bufs_sub .., binary_bufs_sub .., unary_bufs_sub .., reshape_bufs_sub .., unary_bufs_sub .., binary_bufs_sub .., unary_bufs_sub .., reshape_bufs_sub .., unary_bufs_sub .., unary_bufs_sub .., binary_bufs_sub .., nullary_bufs_sub .., unary_bufs_sub .., binary_bufs_sub .., unary_bufs_sub .., binary_bufs_sub .., unary_bufs_sub .., unary_bufs_sub .., binary_bufs_sub ..⟩

/-- Stretch B: operations 72 to 124 of the line. -/
abbrev opsB : List (HloOp τ sig (Elt F)) :=
  [ unary main_arg1 main_v63 ((extractStridedSlice S1x1024x256 ![1, 0, 0] · slices_S3x1024x256_S1x1024x256_1_0_0) : (⟨S3x1024x256, .f32⟩ : BufTy).Contents (Elt F) → (⟨S1x1024x256, .f32⟩ : BufTy).Contents (Elt F)),
    reshape main_v63 main_v64 rfl shapeCasts_S1x1024x256_S1024x256,
    unary main_v64 main_v65 ((transpose S256x1024 [1, 0] · transposes_S1024x256_S256x1024_1_0) : (⟨S1024x256, .f32⟩ : BufTy).Contents (Elt F) → (⟨S256x1024, .f32⟩ : BufTy).Contents (Elt F)),
    binary main_arg0 main_v65 main_v66 ((fun l r => Host.dotGeneral dot_S65536x256_S256x1024_S65536x1024_1_0_0_1_n_n none l r) : (⟨S65536x256, .f32⟩ : BufTy).Contents (Elt F) → (⟨S256x1024, .f32⟩ : BufTy).Contents (Elt F) → (⟨S65536x1024, .f32⟩ : BufTy).Contents (Elt F)),
    unary main_arg3 main_v67 ((extractStridedSlice S1x1024 ![1, 0] · slices_S3x1024_S1x1024_1_0) : (⟨S3x1024, .f32⟩ : BufTy).Contents (Elt F) → (⟨S1x1024, .f32⟩ : BufTy).Contents (Elt F)),
    reshape main_v67 main_v68 rfl shapeCasts_S1x1024_S1024,
    unary main_v68 main_v69 (broadcastInDim S1x1024 ![1] bcast_S1024_S1x1024_1 : (⟨S1024, .f32⟩ : BufTy).Contents (Elt F) → (⟨S1x1024, .f32⟩ : BufTy).Contents (Elt F)),
    unary main_v69 main_v70 (broadcastInDim S65536x1024 ![0, 1] bcast_S1x1024_S65536x1024_0_1 : (⟨S1x1024, .f32⟩ : BufTy).Contents (Elt F) → (⟨S65536x1024, .f32⟩ : BufTy).Contents (Elt F)),
    binary main_v66 main_v70 main_v71 (addf : (⟨S65536x1024, .f32⟩ : BufTy).Contents (Elt F) → (⟨S65536x1024, .f32⟩ : BufTy).Contents (Elt F) → (⟨S65536x1024, .f32⟩ : BufTy).Contents (Elt F)),
    unary main_arg2 main_v72 ((extractStridedSlice S1x1024x256 ![1, 0, 0] · slices_S3x1024x256_S1x1024x256_1_0_0) : (⟨S3x1024x256, .f32⟩ : BufTy).Contents (Elt F) → (⟨S1x1024x256, .f32⟩ : BufTy).Contents (Elt F)),
    reshape main_v72 main_v73 rfl shapeCasts_S1x1024x256_S1024x256,
    unary main_v73 main_v74 ((transpose S256x1024 [1, 0] · transposes_S1024x256_S256x1024_1_0) : (⟨S1024x256, .f32⟩ : BufTy).Contents (Elt F) → (⟨S256x1024, .f32⟩ : BufTy).Contents (Elt F)),
    binary main_v47 main_v74 main_v75 ((fun l r => Host.dotGeneral dot_S65536x256_S256x1024_S65536x1024_1_0_0_1_n_n none l r) : (⟨S65536x256, .f32⟩ : BufTy).Contents (Elt F) → (⟨S256x1024, .f32⟩ : BufTy).Contents (Elt F) → (⟨S65536x1024, .f32⟩ : BufTy).Contents (Elt F)),
    binary main_v71 main_v75 main_v76 (addf : (⟨S65536x1024, .f32⟩ : BufTy).Contents (Elt F) → (⟨S65536x1024, .f32⟩ : BufTy).Contents (Elt F) → (⟨S65536x1024, .f32⟩ : BufTy).Contents (Elt F)),
    unary main_arg4 main_v77 ((extractStridedSlice S1x1024 ![1, 0] · slices_S3x1024_S1x1024_1_0) : (⟨S3x1024, .f32⟩ : BufTy).Contents (Elt F) → (⟨S1x1024, .f32⟩ : BufTy).Contents (Elt F)),
    reshape main_v77 main_v78 rfl shapeCasts_S1x1024_S1024,
    unary main_v78 main_v79 (broadcastInDim S1x1024 ![1] bcast_S1024_S1x1024_1 : (⟨S1024, .f32⟩ : BufTy).Contents (Elt F) → (⟨S1x1024, .f32⟩ : BufTy).Contents (Elt F)),
    unary main_v79 main_v80 (broadcastInDim S65536x1024 ![0, 1] bcast_S1x1024_S65536x1024_0_1 : (⟨S1x1024, .f32⟩ : BufTy).Contents (Elt F) → (⟨S65536x1024, .f32⟩ : BufTy).Contents (Elt F)),
    binary main_v76 main_v80 main_v81 (addf : (⟨S65536x1024, .f32⟩ : BufTy).Contents (Elt F) → (⟨S65536x1024, .f32⟩ : BufTy).Contents (Elt F) → (⟨S65536x1024, .f32⟩ : BufTy).Contents (Elt F)),
    unary main_v81 main_v82 ((extractStridedSlice S65536x256 ![0, 0] · slices_S65536x1024_S65536x256_0_0) : (⟨S65536x1024, .f32⟩ : BufTy).Contents (Elt F) → (⟨S65536x256, .f32⟩ : BufTy).Contents (Elt F)),
    unary main_v81 main_v83 ((extractStridedSlice S65536x256 ![0, 256] · slices_S65536x1024_S65536x256_0_256) : (⟨S65536x1024, .f32⟩ : BufTy).Contents (Elt F) → (⟨S65536x256, .f32⟩ : BufTy).Contents (Elt F)),
    unary main_v81 main_v84 ((extractStridedSlice S65536x256 ![0, 512] · slices_S65536x1024_S65536x256_0_512) : (⟨S65536x1024, .f32⟩ : BufTy).Contents (Elt F) → (⟨S65536x256, .f32⟩ : BufTy).Contents (Elt F)),
    unary main_v81 main_v85 ((extractStridedSlice S65536x256 ![0, 768] · slices_S65536x1024_S65536x256_0_768) : (⟨S65536x1024, .f32⟩ : BufTy).Contents (Elt F) → (⟨S65536x256, .f32⟩ : BufTy).Contents (Elt F)),
    unary main_v83 main_v86 (Host.negf : (⟨S65536x256, .f32⟩ : BufTy).Contents (Elt F) → (⟨S65536x256, .f32⟩ : BufTy).Contents (Elt F)),
    unary main_v86 main_v87 (Host.exp : (⟨S65536x256, .f32⟩ : BufTy).Contents (Elt F) → (⟨S65536x256, .f32⟩ : BufTy).Contents (Elt F)),
    nullary main_cst_6 (constant S_ .f32 0x3F800000#32),
    unary main_cst_6 main_v88 (broadcastInDim S65536x256 ![] bcast_S_S65536x256 : (⟨S_, .f32⟩ : BufTy).Contents (Elt F) → (⟨S65536x256, .f32⟩ : BufTy).Contents (Elt F)),
    binary main_v88 main_v87 main_v89 (addf : (⟨S65536x256, .f32⟩ : BufTy).Contents (Elt F) → (⟨S65536x256, .f32⟩ : BufTy).Contents (Elt F) → (⟨S65536x256, .f32⟩ : BufTy).Contents (Elt F)),
    nullary main_cst_7 (constant S_ .f32 0x3F800000#32),
    unary main_cst_7 main_v90 (broadcastInDim S65536x256 ![] bcast_S_S65536x256 : (⟨S_, .f32⟩ : BufTy).Contents (Elt F) → (⟨S65536x256, .f32⟩ : BufTy).Contents (Elt F)),
    binary main_v90 main_v89 main_v91 (Host.divf : (⟨S65536x256, .f32⟩ : BufTy).Contents (Elt F) → (⟨S65536x256, .f32⟩ : BufTy).Contents (Elt F) → (⟨S65536x256, .f32⟩ : BufTy).Contents (Elt F)),
    binary main_v91 main_v39 main_v92 (mulf : (⟨S65536x256, .f32⟩ : BufTy).Contents (Elt F) → (⟨S65536x256, .f32⟩ : BufTy).Contents (Elt F) → (⟨S65536x256, .f32⟩ : BufTy).Contents (Elt F)),
    unary main_v82 main_v93 (Host.negf : (⟨S65536x256, .f32⟩ : BufTy).Contents (Elt F) → (⟨S65536x256, .f32⟩ : BufTy).Contents (Elt F)),
    unary main_v93 main_v94 (Host.exp : (⟨S65536x256, .f32⟩ : BufTy).Contents (Elt F) → (⟨S65536x256, .f32⟩ : BufTy).Contents (Elt F)),
    nullary main_cst_8 (constant S_ .f32 0x3F800000#32),
    unary main_cst_8 main_v95 (broadcastInDim S65536x256 ![] bcast_S_S65536x256 : (⟨S_, .f32⟩ : BufTy).Contents (Elt F) → (⟨S65536x256, .f32⟩ : BufTy).Contents (Elt F)),
    binary main_v95 main_v94 main_v96 (addf : (⟨S65536x256, .f32⟩ : BufTy).Contents (Elt F) → (⟨S65536x256, .f32⟩ : BufTy).Contents (Elt F) → (⟨S65536x256, .f32⟩ : BufTy).Contents (Elt F)),
    nullary main_cst_9 (constant S_ .f32 0x3F800000#32),
    unary main_cst_9 main_v97 (broadcastInDim S65536x256 ![] bcast_S_S65536x256 : (⟨S_, .f32⟩ : BufTy).Contents (Elt F) → (⟨S65536x256, .f32⟩ : BufTy).Contents (Elt F)),
    binary main_v97 main_v96 main_v98 (Host.divf : (⟨S65536x256, .f32⟩ : BufTy).Contents (Elt F) → (⟨S65536x256, .f32⟩ : BufTy).Contents (Elt F) → (⟨S65536x256, .f32⟩ : BufTy).Contents (Elt F)),
    unary main_v84 main_v99 (Host.tanh : (⟨S65536x256, .f32⟩ : BufTy).Contents (Elt F) → (⟨S65536x256, .f32⟩ : BufTy).Contents (Elt F)),
    binary main_v98 main_v99 main_v100 (mulf : (⟨S65536x256, .f32⟩ : BufTy).Contents (Elt F) → (⟨S65536x256, .f32⟩ : BufTy).Contents (Elt F) → (⟨S65536x256, .f32⟩ : BufTy).Contents (Elt F)),
    binary main_v92 main_v100 main_v101 (addf : (⟨S65536x256, .f32⟩ : BufTy).Contents (Elt F) → (⟨S65536x256, .f32⟩ : BufTy).Contents (Elt F) → (⟨S65536x256, .f32⟩ : BufTy).Contents (Elt F)),
    unary main_v85 main_v102 (Host.negf : (⟨S65536x256, .f32⟩ : BufTy).Contents (Elt F) → (⟨S65536x256, .f32⟩ : BufTy).Contents (Elt F)),
    unary main_v102 main_v103 (Host.exp : (⟨S65536x256, .f32⟩ : BufTy).Contents (Elt F) → (⟨S65536x256, .f32⟩ : BufTy).Contents (Elt F)),
    nullary main_cst_10 (constant S_ .f32 0x3F800000#32),
    unary main_cst_10 main_v104 (broadcastInDim S65536x256 ![] bcast_S_S65536x256 : (⟨S_, .f32⟩ : BufTy).Contents (Elt F) → (⟨S65536x256, .f32⟩ : BufTy).Contents (Elt F)),
    binary main_v104 main_v103 main_v105 (addf : (⟨S65536x256, .f32⟩ : BufTy).Contents (Elt F) → (⟨S65536x256, .f32⟩ : BufTy).Contents (Elt F) → (⟨S65536x256, .f32⟩ : BufTy).Contents (Elt F)),
    nullary main_cst_11 (constant S_ .f32 0x3F800000#32),
    unary main_cst_11 main_v106 (broadcastInDim S65536x256 ![] bcast_S_S65536x256 : (⟨S_, .f32⟩ : BufTy).Contents (Elt F) → (⟨S65536x256, .f32⟩ : BufTy).Contents (Elt F)),
    binary main_v106 main_v105 main_v107 (Host.divf : (⟨S65536x256, .f32⟩ : BufTy).Contents (Elt F) → (⟨S65536x256, .f32⟩ : BufTy).Contents (Elt F) → (⟨S65536x256, .f32⟩ : BufTy).Contents (Elt F)),
    unary main_v101 main_v108 (Host.tanh : (⟨S65536x256, .f32⟩ : BufTy).Contents (Elt F) → (⟨S65536x256, .f32⟩ : BufTy).Contents (Elt F)),
    binary main_v107 main_v108 main_v109 (mulf : (⟨S65536x256, .f32⟩ : BufTy).Contents (Elt F) → (⟨S65536x256, .f32⟩ : BufTy).Contents (Elt F) → (⟨S65536x256, .f32⟩ : BufTy).Contents (Elt F)) ]

set_option maxRecDepth 8192 in
theorem opsB_sub : (opsB : List (HloOp τ sig (Elt F))).Forall fun op => op.bufs ⊆ tcRefs τ sig :=
  ⟨unary_bufs_sub .., reshape_bufs_sub .., unary_bufs_sub .., binary_bufs_sub .., unary_bufs_sub .., reshape_bufs_sub .., unary_bufs_sub .., unary_bufs_sub .., binary_bufs_sub .., unary_bufs_sub .., reshape_bufs_sub .., unary_bufs_sub .., binary_bufs_sub .., binary_bufs_sub .., unary_bufs_sub .., reshape_bufs_sub .., unary_bufs_sub .., unary_bufs_sub .., binary_bufs_sub .., unary_bufs_sub .., unary_bufs_sub .., unary_bufs_sub .., unary_bufs_sub .., unary_bufs_sub .., unary_bufs_sub .., nullary_bufs_sub .., unary_bufs_sub .., binary_bufs_sub .., nullary_bufs_sub .., unary_bufs_sub .., binary_bufs_sub .., binary_bufs_sub .., unary_bufs_sub .., unary_bufs_sub .., nullary_bufs_sub .., unary_bufs_sub .., binary_bufs_sub .., nullary_bufs_sub .., unary_bufs_sub .., binary_bufs_sub .., unary_bufs_sub .., binary_bufs_sub .., binary_bufs_sub .., unary_bufs_sub .., unary_bufs_sub .., nullary_bufs_sub .., unary_bufs_sub .., binary_bufs_sub .., nullary_bufs_sub .., unary_bufs_sub .., binary_bufs_sub .., unary_bufs_sub .., binary_bufs_sub ..⟩

/-- Stretch C: operations 125 to 164 of the line. -/
abbrev opsC : List (HloOp τ sig (Elt F)) :=
  [ unary main_arg5 main_v110 ((extractStridedSlice S1x1x256x256 ![1, 0, 0, 0] · slices_S3x3x256x256_S1x1x256x256_1_0_0_0) : (⟨S3x3x256x256, .f32⟩ : BufTy).Contents (Elt F) → (⟨S1x1x256x256, .f32⟩ : BufTy).Contents (Elt F)),
    reshape main_v110 main_v111 rfl shapeCasts_S1x1x256x256_S256x256,
    unary main_v111 main_v112 ((transpose S256x256 [1, 0] · transposes_S256x256_S256x256_1_0) : (⟨S256x256, .f32⟩ : BufTy).Contents (Elt F) → (⟨S256x256, .f32⟩ : BufTy).Contents (Elt F)),
    binary main_v109 main_v112 main_v113 ((fun l r => Host.dotGeneral dot_S65536x256_S256x256_S65536x256_1_0_0_1_n_n none l r) : (⟨S65536x256, .f32⟩ : BufTy).Contents (Elt F) → (⟨S256x256, .f32⟩ : BufTy).Contents (Elt F) → (⟨S65536x256, .f32⟩ : BufTy).Contents (Elt F)),
    binary main_v47 main_v113 main_v114 (addf : (⟨S65536x256, .f32⟩ : BufTy).Contents (Elt F) → (⟨S65536x256, .f32⟩ : BufTy).Contents (Elt F) → (⟨S65536x256, .f32⟩ : BufTy).Contents (Elt F)),
    unary main_arg6 main_v115 ((extractStridedSlice S1x1x256 ![1, 0, 0] · slices_S3x3x256_S1x1x256_1_0_0) : (⟨S3x3x256, .f32⟩ : BufTy).Contents (Elt F) → (⟨S1x1x256, .f32⟩ : BufTy).Contents (Elt F)),
    reshape main_v115 main_v116 rfl shapeCasts_S1x1x256_S256,
    unary main_v116 main_v117 (broadcastInDim S1x256 ![1] bcast_S256_S1x256_1 : (⟨S256, .f32⟩ : BufTy).Contents (Elt F) → (⟨S1x256, .f32⟩ : BufTy).Contents (Elt F)),
    unary main_v117 main_v118 (broadcastInDim S65536x256 ![0, 1] bcast_S1x256_S65536x256_0_1 : (⟨S1x256, .f32⟩ : BufTy).Contents (Elt F) → (⟨S65536x256, .f32⟩ : BufTy).Contents (Elt F)),
    binary main_v114 main_v118 main_v119 (addf : (⟨S65536x256, .f32⟩ : BufTy).Contents (Elt F) → (⟨S65536x256, .f32⟩ : BufTy).Contents (Elt F) → (⟨S65536x256, .f32⟩ : BufTy).Contents (Elt F)),
    unary main_arg7 main_v120 ((extractStridedSlice S1x1x256x256 ![1, 0, 0, 0] · slices_S3x3x256x256_S1x1x256x256_1_0_0_0) : (⟨S3x3x256x256, .f32⟩ : BufTy).Contents (Elt F) → (⟨S1x1x256x256, .f32⟩ : BufTy).Contents (Elt F)),
    reshape main_v120 main_v121 rfl shapeCasts_S1x1x256x256_S256x256,
    unary main_v121 main_v122 ((transpose S256x256 [1, 0] · transposes_S256x256_S256x256_1_0) : (⟨S256x256, .f32⟩ : BufTy).Contents (Elt F) → (⟨S256x256, .f32⟩ : BufTy).Contents (Elt F)),
    binary main_v101 main_v122 main_v123 ((fun l r => Host.dotGeneral dot_S65536x256_S256x256_S65536x256_1_0_0_1_n_n none l r) : (⟨S65536x256, .f32⟩ : BufTy).Contents (Elt F) → (⟨S256x256, .f32⟩ : BufTy).Contents (Elt F) → (⟨S65536x256, .f32⟩ : BufTy).Contents (Elt F)),
    binary main_v39 main_v123 main_v124 (addf : (⟨S65536x256, .f32⟩ : BufTy).Contents (Elt F) → (⟨S65536x256, .f32⟩ : BufTy).Contents (Elt F) → (⟨S65536x256, .f32⟩ : BufTy).Contents (Elt F)),
    unary main_arg8 main_v125 ((extractStridedSlice S1x1x256 ![1, 0, 0] · slices_S3x3x256_S1x1x256_1_0_0) : (⟨S3x3x256, .f32⟩ : BufTy).Contents (Elt F) → (⟨S1x1x256, .f32⟩ : BufTy).Contents (Elt F)),
    reshape main_v125 main_v126 rfl shapeCasts_S1x1x256_S256,
    unary main_v126 main_v127 (broadcastInDim S1x256 ![1] bcast_S256_S1x256_1 : (⟨S256, .f32⟩ : BufTy).Contents (Elt F) → (⟨S1x256, .f32⟩ : BufTy).Contents (Elt F)),
    unary main_v127 main_v128 (broadcastInDim S65536x256 ![0, 1] bcast_S1x256_S65536x256_0_1 : (⟨S1x256, .f32⟩ : BufTy).Contents (Elt F) → (⟨S65536x256, .f32⟩ : BufTy).Contents (Elt F)),
    binary main_v124 main_v128 main_v129 (addf : (⟨S65536x256, .f32⟩ : BufTy).Contents (Elt F) → (⟨S65536x256, .f32⟩ : BufTy).Contents (Elt F) → (⟨S65536x256, .f32⟩ : BufTy).Contents (Elt F)),
    unary main_arg5 main_v130 ((extractStridedSlice S1x1x256x256 ![1, 1, 0, 0] · slices_S3x3x256x256_S1x1x256x256_1_1_0_0) : (⟨S3x3x256x256, .f32⟩ : BufTy).Contents (Elt F) → (⟨S1x1x256x256, .f32⟩ : BufTy).Contents (Elt F)),
    reshape main_v130 main_v131 rfl shapeCasts_S1x1x256x256_S256x256,
    unary main_v131 main_v132 ((transpose S256x256 [1, 0] · transposes_S256x256_S256x256_1_0) : (⟨S256x256, .f32⟩ : BufTy).Contents (Elt F) → (⟨S256x256, .f32⟩ : BufTy).Contents (Elt F)),
    binary main_v109 main_v132 main_v133 ((fun l r => Host.dotGeneral dot_S65536x256_S256x256_S65536x256_1_0_0_1_n_n none l r) : (⟨S65536x256, .f32⟩ : BufTy).Contents (Elt F) → (⟨S256x256, .f32⟩ : BufTy).Contents (Elt F) → (⟨S65536x256, .f32⟩ : BufTy).Contents (Elt F)),
    binary main_v47 main_v133 main_v134 (addf : (⟨S65536x256, .f32⟩ : BufTy).Contents (Elt F) → (⟨S65536x256, .f32⟩ : BufTy).Contents (Elt F) → (⟨S65536x256, .f32⟩ : BufTy).Contents (Elt F)),
    unary main_arg6 main_v135 ((extractStridedSlice S1x1x256 ![1, 1, 0] · slices_S3x3x256_S1x1x256_1_1_0) : (⟨S3x3x256, .f32⟩ : BufTy).Contents (Elt F) → (⟨S1x1x256, .f32⟩ : BufTy).Contents (Elt F)),
    reshape main_v135 main_v136 rfl shapeCasts_S1x1x256_S256,
    unary main_v136 main_v137 (broadcastInDim S1x256 ![1] bcast_S256_S1x256_1 : (⟨S256, .f32⟩ : BufTy).Contents (Elt F) → (⟨S1x256, .f32⟩ : BufTy).Contents (Elt F)),
    unary main_v137 main_v138 (broadcastInDim S65536x256 ![0, 1] bcast_S1x256_S65536x256_0_1 : (⟨S1x256, .f32⟩ : BufTy).Contents (Elt F) → (⟨S65536x256, .f32⟩ : BufTy).Contents (Elt F)),
    binary main_v134 main_v138 main_v139 (addf : (⟨S65536x256, .f32⟩ : BufTy).Contents (Elt F) → (⟨S65536x256, .f32⟩ : BufTy).Contents (Elt F) → (⟨S65536x256, .f32⟩ : BufTy).Contents (Elt F)),
    unary main_arg7 main_v140 ((extractStridedSlice S1x1x256x256 ![1, 1, 0, 0] · slices_S3x3x256x256_S1x1x256x256_1_1_0_0) : (⟨S3x3x256x256, .f32⟩ : BufTy).Contents (Elt F) → (⟨S1x1x256x256, .f32⟩ : BufTy).Contents (Elt F)),
    reshape main_v140 main_v141 rfl shapeCasts_S1x1x256x256_S256x256,
    unary main_v141 main_v142 ((transpose S256x256 [1, 0] · transposes_S256x256_S256x256_1_0) : (⟨S256x256, .f32⟩ : BufTy).Contents (Elt F) → (⟨S256x256, .f32⟩ : BufTy).Contents (Elt F)),
    binary main_v101 main_v142 main_v143 ((fun l r => Host.dotGeneral dot_S65536x256_S256x256_S65536x256_1_0_0_1_n_n none l r) : (⟨S65536x256, .f32⟩ : BufTy).Contents (Elt F) → (⟨S256x256, .f32⟩ : BufTy).Contents (Elt F) → (⟨S65536x256, .f32⟩ : BufTy).Contents (Elt F)),
    binary main_v39 main_v143 main_v144 (addf : (⟨S65536x256, .f32⟩ : BufTy).Contents (Elt F) → (⟨S65536x256, .f32⟩ : BufTy).Contents (Elt F) → (⟨S65536x256, .f32⟩ : BufTy).Contents (Elt F)),
    unary main_arg8 main_v145 ((extractStridedSlice S1x1x256 ![1, 1, 0] · slices_S3x3x256_S1x1x256_1_1_0) : (⟨S3x3x256, .f32⟩ : BufTy).Contents (Elt F) → (⟨S1x1x256, .f32⟩ : BufTy).Contents (Elt F)),
    reshape main_v145 main_v146 rfl shapeCasts_S1x1x256_S256,
    unary main_v146 main_v147 (broadcastInDim S1x256 ![1] bcast_S256_S1x256_1 : (⟨S256, .f32⟩ : BufTy).Contents (Elt F) → (⟨S1x256, .f32⟩ : BufTy).Contents (Elt F)),
    unary main_v147 main_v148 (broadcastInDim S65536x256 ![0, 1] bcast_S1x256_S65536x256_0_1 : (⟨S1x256, .f32⟩ : BufTy).Contents (Elt F) → (⟨S65536x256, .f32⟩ : BufTy).Contents (Elt F)),
    binary main_v144 main_v148 main_v149 (addf : (⟨S65536x256, .f32⟩ : BufTy).Contents (Elt F) → (⟨S65536x256, .f32⟩ : BufTy).Contents (Elt F) → (⟨S65536x256, .f32⟩ : BufTy).Contents (Elt F)) ]

set_option maxRecDepth 8192 in
theorem opsC_sub : (opsC : List (HloOp τ sig (Elt F))).Forall fun op => op.bufs ⊆ tcRefs τ sig :=
  ⟨unary_bufs_sub .., reshape_bufs_sub .., unary_bufs_sub .., binary_bufs_sub .., binary_bufs_sub .., unary_bufs_sub .., reshape_bufs_sub .., unary_bufs_sub .., unary_bufs_sub .., binary_bufs_sub .., unary_bufs_sub .., reshape_bufs_sub .., unary_bufs_sub .., binary_bufs_sub .., binary_bufs_sub .., unary_bufs_sub .., reshape_bufs_sub .., unary_bufs_sub .., unary_bufs_sub .., binary_bufs_sub .., unary_bufs_sub .., reshape_bufs_sub .., unary_bufs_sub .., binary_bufs_sub .., binary_bufs_sub .., unary_bufs_sub .., reshape_bufs_sub .., unary_bufs_sub .., unary_bufs_sub .., binary_bufs_sub .., unary_bufs_sub .., reshape_bufs_sub .., unary_bufs_sub .., binary_bufs_sub .., binary_bufs_sub .., unary_bufs_sub .., reshape_bufs_sub .., unary_bufs_sub .., unary_bufs_sub .., binary_bufs_sub ..⟩

/-- Stretch D: operations 165 to 201 of the line. -/
abbrev opsD : List (HloOp τ sig (Elt F)) :=
  [ unary main_arg5 main_v150 ((extractStridedSlice S1x1x256x256 ![1, 2, 0, 0] · slices_S3x3x256x256_S1x1x256x256_1_2_0_0) : (⟨S3x3x256x256, .f32⟩ : BufTy).Contents (Elt F) → (⟨S1x1x256x256, .f32⟩ : BufTy).Contents (Elt F)),
    reshape main_v150 main_v151 rfl shapeCasts_S1x1x256x256_S256x256,
    unary main_v151 main_v152 ((transpose S256x256 [1, 0] · transposes_S256x256_S256x256_1_0) : (⟨S256x256, .f32⟩ : BufTy).Contents (Elt F) → (⟨S256x256, .f32⟩ : BufTy).Contents (Elt F)),
    binary main_v109 main_v152 main_v153 ((fun l r => Host.dotGeneral dot_S65536x256_S256x256_S65536x256_1_0_0_1_n_n none l r) : (⟨S65536x256, .f32⟩ : BufTy).Contents (Elt F) → (⟨S256x256, .f32⟩ : BufTy).Contents (Elt F) → (⟨S65536x256, .f32⟩ : BufTy).Contents (Elt F)),
    binary main_v47 main_v153 main_v154 (addf : (⟨S65536x256, .f32⟩ : BufTy).Contents (Elt F) → (⟨S65536x256, .f32⟩ : BufTy).Contents (Elt F) → (⟨S65536x256, .f32⟩ : BufTy).Contents (Elt F)),
    unary main_arg6 main_v155 ((extractStridedSlice S1x1x256 ![1, 2, 0] · slices_S3x3x256_S1x1x256_1_2_0) : (⟨S3x3x256, .f32⟩ : BufTy).Contents (Elt F) → (⟨S1x1x256, .f32⟩ : BufTy).Contents (Elt F)),
    reshape main_v155 main_v156 rfl shapeCasts_S1x1x256_S256,
    unary main_v156 main_v157 (broadcastInDim S1x256 ![1] bcast_S256_S1x256_1 : (⟨S256, .f32⟩ : BufTy).Contents (Elt F) → (⟨S1x256, .f32⟩ : BufTy).Contents (Elt F)),
    unary main_v157 main_v158 (broadcastInDim S65536x256 ![0, 1] bcast_S1x256_S65536x256_0_1 : (⟨S1x256, .f32⟩ : BufTy).Contents (Elt F) → (⟨S65536x256, .f32⟩ : BufTy).Contents (Elt F)),
    binary main_v154 main_v158 main_v159 (addf : (⟨S65536x256, .f32⟩ : BufTy).Contents (Elt F) → (⟨S65536x256, .f32⟩ : BufTy).Contents (Elt F) → (⟨S65536x256, .f32⟩ : BufTy).Contents (Elt F)),
    unary main_arg7 main_v160 ((extractStridedSlice S1x1x256x256 ![1, 2, 0, 0] · slices_S3x3x256x256_S1x1x256x256_1_2_0_0) : (⟨S3x3x256x256, .f32⟩ : BufTy).Contents (Elt F) → (⟨S1x1x256x256, .f32⟩ : BufTy).Contents (Elt F)),
    reshape main_v160 main_v161 rfl shapeCasts_S1x1x256x256_S256x256,
    unary main_v161 main_v162 ((transpose S256x256 [1, 0] · transposes_S256x256_S256x256_1_0) : (⟨S256x256, .f32⟩ : BufTy).Contents (Elt F) → (⟨S256x256, .f32⟩ : BufTy).Contents (Elt F)),
    binary main_v101 main_v162 main_v163 ((fun l r => Host.dotGeneral dot_S65536x256_S256x256_S65536x256_1_0_0_1_n_n none l r) : (⟨S65536x256, .f32⟩ : BufTy).Contents (Elt F) → (⟨S256x256, .f32⟩ : BufTy).Contents (Elt F) → (⟨S65536x256, .f32⟩ : BufTy).Contents (Elt F)),
    binary main_v39 main_v163 main_v164 (addf : (⟨S65536x256, .f32⟩ : BufTy).Contents (Elt F) → (⟨S65536x256, .f32⟩ : BufTy).Contents (Elt F) → (⟨S65536x256, .f32⟩ : BufTy).Contents (Elt F)),
    unary main_arg8 main_v165 ((extractStridedSlice S1x1x256 ![1, 2, 0] · slices_S3x3x256_S1x1x256_1_2_0) : (⟨S3x3x256, .f32⟩ : BufTy).Contents (Elt F) → (⟨S1x1x256, .f32⟩ : BufTy).Contents (Elt F)),
    reshape main_v165 main_v166 rfl shapeCasts_S1x1x256_S256,
    unary main_v166 main_v167 (broadcastInDim S1x256 ![1] bcast_S256_S1x256_1 : (⟨S256, .f32⟩ : BufTy).Contents (Elt F) → (⟨S1x256, .f32⟩ : BufTy).Contents (Elt F)),
    unary main_v167 main_v168 (broadcastInDim S65536x256 ![0, 1] bcast_S1x256_S65536x256_0_1 : (⟨S1x256, .f32⟩ : BufTy).Contents (Elt F) → (⟨S65536x256, .f32⟩ : BufTy).Contents (Elt F)),
    binary main_v164 main_v168 main_v169 (addf : (⟨S65536x256, .f32⟩ : BufTy).Contents (Elt F) → (⟨S65536x256, .f32⟩ : BufTy).Contents (Elt F) → (⟨S65536x256, .f32⟩ : BufTy).Contents (Elt F)),
    unary main_arg9 main_v170 ((extractStridedSlice S1x256x256 ![1, 0, 0] · slices_S3x256x256_S1x256x256_1_0_0) : (⟨S3x256x256, .f32⟩ : BufTy).Contents (Elt F) → (⟨S1x256x256, .f32⟩ : BufTy).Contents (Elt F)),
    reshape main_v170 main_v171 rfl shapeCasts_S1x256x256_S256x256,
    unary main_v171 main_v172 ((transpose S256x256 [1, 0] · transposes_S256x256_S256x256_1_0) : (⟨S256x256, .f32⟩ : BufTy).Contents (Elt F) → (⟨S256x256, .f32⟩ : BufTy).Contents (Elt F)),
    binary main_v109 main_v172 main_v173 ((fun l r => Host.dotGeneral dot_S65536x256_S256x256_S65536x256_1_0_0_1_n_n none l r) : (⟨S65536x256, .f32⟩ : BufTy).Contents (Elt F) → (⟨S256x256, .f32⟩ : BufTy).Contents (Elt F) → (⟨S65536x256, .f32⟩ : BufTy).Contents (Elt F)),
    unary main_arg10 main_v174 ((extractStridedSlice S1x256 ![1, 0] · slices_S3x256_S1x256_1_0) : (⟨S3x256, .f32⟩ : BufTy).Contents (Elt F) → (⟨S1x256, .f32⟩ : BufTy).Contents (Elt F)),
    reshape main_v174 main_v175 rfl shapeCasts_S1x256_S256,
    unary main_v175 main_v176 (broadcastInDim S1x256 ![1] bcast_S256_S1x256_1 : (⟨S256, .f32⟩ : BufTy).Contents (Elt F) → (⟨S1x256, .f32⟩ : BufTy).Contents (Elt F)),
    unary main_v176 main_v177 (broadcastInDim S65536x256 ![0, 1] bcast_S1x256_S65536x256_0_1 : (⟨S1x256, .f32⟩ : BufTy).Contents (Elt F) → (⟨S65536x256, .f32⟩ : BufTy).Contents (Elt F)),
    binary main_v173 main_v177 main_v178 (addf : (⟨S65536x256, .f32⟩ : BufTy).Contents (Elt F) → (⟨S65536x256, .f32⟩ : BufTy).Contents (Elt F) → (⟨S65536x256, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S65536x256, .f32⟩) main_call1_v0) (broadcastInDim S65536x256 ![] bcast_S_S65536x256),
    TRef.binary (TRef.of (T := ⟨S65536x256, .f32⟩) main_v178) (TRef.of (T := ⟨S65536x256, .f32⟩) main_call1_v0) (TRef.of (T := ⟨S65536x256, .f32⟩) main_v179) maximumf,
    unary main_arg13 main_v180 ((transpose S256x23 [1, 0] · transposes_S23x256_S256x23_1_0) : (⟨S23x256, .f32⟩ : BufTy).Contents (Elt F) → (⟨S256x23, .f32⟩ : BufTy).Contents (Elt F)),
    binary main_v179 main_v180 main_v181 ((fun l r => Host.dotGeneral dot_S65536x256_S256x23_S65536x23_1_0_0_1_n_n none l r) : (⟨S65536x256, .f32⟩ : BufTy).Contents (Elt F) → (⟨S256x23, .f32⟩ : BufTy).Contents (Elt F) → (⟨S65536x23, .f32⟩ : BufTy).Contents (Elt F)),
    unary main_arg14 main_v182 (broadcastInDim S1x23 ![1] bcast_S23_S1x23_1 : (⟨S23, .f32⟩ : BufTy).Contents (Elt F) → (⟨S1x23, .f32⟩ : BufTy).Contents (Elt F)),
    unary main_v182 main_v183 (broadcastInDim S65536x23 ![0, 1] bcast_S1x23_S65536x23_0_1 : (⟨S1x23, .f32⟩ : BufTy).Contents (Elt F) → (⟨S65536x23, .f32⟩ : BufTy).Contents (Elt F)),
    binary main_v181 main_v183 main_v184 (addf : (⟨S65536x23, .f32⟩ : BufTy).Contents (Elt F) → (⟨S65536x23, .f32⟩ : BufTy).Contents (Elt F) → (⟨S65536x23, .f32⟩ : BufTy).Contents (Elt F)) ]

set_option maxRecDepth 8192 in
theorem opsD_sub : (opsD : List (HloOp τ sig (Elt F))).Forall fun op => op.bufs ⊆ tcRefs τ sig :=
  ⟨unary_bufs_sub .., reshape_bufs_sub .., unary_bufs_sub .., binary_bufs_sub .., binary_bufs_sub .., unary_bufs_sub .., reshape_bufs_sub .., unary_bufs_sub .., unary_bufs_sub .., binary_bufs_sub .., unary_bufs_sub .., reshape_bufs_sub .., unary_bufs_sub .., binary_bufs_sub .., binary_bufs_sub .., unary_bufs_sub .., reshape_bufs_sub .., unary_bufs_sub .., unary_bufs_sub .., binary_bufs_sub .., unary_bufs_sub .., reshape_bufs_sub .., unary_bufs_sub .., binary_bufs_sub .., unary_bufs_sub .., reshape_bufs_sub .., unary_bufs_sub .., unary_bufs_sub .., binary_bufs_sub .., nullary_bufs_sub .., unary_bufs_sub .., binary_bufs_sub .., unary_bufs_sub .., binary_bufs_sub .., unary_bufs_sub .., unary_bufs_sub .., binary_bufs_sub ..⟩

/-- Stretch E: operations 202 to 254 of the line. -/
abbrev opsE : List (HloOp τ sig (Elt F)) :=
  [ unary main_arg1 main_v185 ((extractStridedSlice S1x1024x256 ![2, 0, 0] · slices_S3x1024x256_S1x1024x256_2_0_0) : (⟨S3x1024x256, .f32⟩ : BufTy).Contents (Elt F) → (⟨S1x1024x256, .f32⟩ : BufTy).Contents (Elt F)),
    reshape main_v185 main_v186 rfl shapeCasts_S1x1024x256_S1024x256,
    unary main_v186 main_v187 ((transpose S256x1024 [1, 0] · transposes_S1024x256_S256x1024_1_0) : (⟨S1024x256, .f32⟩ : BufTy).Contents (Elt F) → (⟨S256x1024, .f32⟩ : BufTy).Contents (Elt F)),
    binary main_arg0 main_v187 main_v188 ((fun l r => Host.dotGeneral dot_S65536x256_S256x1024_S65536x1024_1_0_0_1_n_n none l r) : (⟨S65536x256, .f32⟩ : BufTy).Contents (Elt F) → (⟨S256x1024, .f32⟩ : BufTy).Contents (Elt F) → (⟨S65536x1024, .f32⟩ : BufTy).Contents (Elt F)),
    unary main_arg3 main_v189 ((extractStridedSlice S1x1024 ![2, 0] · slices_S3x1024_S1x1024_2_0) : (⟨S3x1024, .f32⟩ : BufTy).Contents (Elt F) → (⟨S1x1024, .f32⟩ : BufTy).Contents (Elt F)),
    reshape main_v189 main_v190 rfl shapeCasts_S1x1024_S1024,
    unary main_v190 main_v191 (broadcastInDim S1x1024 ![1] bcast_S1024_S1x1024_1 : (⟨S1024, .f32⟩ : BufTy).Contents (Elt F) → (⟨S1x1024, .f32⟩ : BufTy).Contents (Elt F)),
    unary main_v191 main_v192 (broadcastInDim S65536x1024 ![0, 1] bcast_S1x1024_S65536x1024_0_1 : (⟨S1x1024, .f32⟩ : BufTy).Contents (Elt F) → (⟨S65536x1024, .f32⟩ : BufTy).Contents (Elt F)),
    binary main_v188 main_v192 main_v193 (addf : (⟨S65536x1024, .f32⟩ : BufTy).Contents (Elt F) → (⟨S65536x1024, .f32⟩ : BufTy).Contents (Elt F) → (⟨S65536x1024, .f32⟩ : BufTy).Contents (Elt F)),
    unary main_arg2 main_v194 ((extractStridedSlice S1x1024x256 ![2, 0, 0] · slices_S3x1024x256_S1x1024x256_2_0_0) : (⟨S3x1024x256, .f32⟩ : BufTy).Contents (Elt F) → (⟨S1x1024x256, .f32⟩ : BufTy).Contents (Elt F)),
    reshape main_v194 main_v195 rfl shapeCasts_S1x1024x256_S1024x256,
    unary main_v195 main_v196 ((transpose S256x1024 [1, 0] · transposes_S1024x256_S256x1024_1_0) : (⟨S1024x256, .f32⟩ : BufTy).Contents (Elt F) → (⟨S256x1024, .f32⟩ : BufTy).Contents (Elt F)),
    binary main_v159 main_v196 main_v197 ((fun l r => Host.dotGeneral dot_S65536x256_S256x1024_S65536x1024_1_0_0_1_n_n none l r) : (⟨S65536x256, .f32⟩ : BufTy).Contents (Elt F) → (⟨S256x1024, .f32⟩ : BufTy).Contents (Elt F) → (⟨S65536x1024, .f32⟩ : BufTy).Contents (Elt F)),
    binary main_v193 main_v197 main_v198 (addf : (⟨S65536x1024, .f32⟩ : BufTy).Contents (Elt F) → (⟨S65536x1024, .f32⟩ : BufTy).Contents (Elt F) → (⟨S65536x1024, .f32⟩ : BufTy).Contents (Elt F)),
    unary main_arg4 main_v199 ((extractStridedSlice S1x1024 ![2, 0] · slices_S3x1024_S1x1024_2_0) : (⟨S3x1024, .f32⟩ : BufTy).Contents (Elt F) → (⟨S1x1024, .f32⟩ : BufTy).Contents (Elt F)),
    reshape main_v199 main_v200 rfl shapeCasts_S1x1024_S1024,
    unary main_v200 main_v201 (broadcastInDim S1x1024 ![1] bcast_S1024_S1x1024_1 : (⟨S1024, .f32⟩ : BufTy).Contents (Elt F) → (⟨S1x1024, .f32⟩ : BufTy).Contents (Elt F)),
    unary main_v201 main_v202 (broadcastInDim S65536x1024 ![0, 1] bcast_S1x1024_S65536x1024_0_1 : (⟨S1x1024, .f32⟩ : BufTy).Contents (Elt F) → (⟨S65536x1024, .f32⟩ : BufTy).Contents (Elt F)),
    binary main_v198 main_v202 main_v203 (addf : (⟨S65536x1024, .f32⟩ : BufTy).Contents (Elt F) → (⟨S65536x1024, .f32⟩ : BufTy).Contents (Elt F) → (⟨S65536x1024, .f32⟩ : BufTy).Contents (Elt F)),
    unary main_v203 main_v204 ((extractStridedSlice S65536x256 ![0, 0] · slices_S65536x1024_S65536x256_0_0) : (⟨S65536x1024, .f32⟩ : BufTy).Contents (Elt F) → (⟨S65536x256, .f32⟩ : BufTy).Contents (Elt F)),
    unary main_v203 main_v205 ((extractStridedSlice S65536x256 ![0, 256] · slices_S65536x1024_S65536x256_0_256) : (⟨S65536x1024, .f32⟩ : BufTy).Contents (Elt F) → (⟨S65536x256, .f32⟩ : BufTy).Contents (Elt F)),
    unary main_v203 main_v206 ((extractStridedSlice S65536x256 ![0, 512] · slices_S65536x1024_S65536x256_0_512) : (⟨S65536x1024, .f32⟩ : BufTy).Contents (Elt F) → (⟨S65536x256, .f32⟩ : BufTy).Contents (Elt F)),
    unary main_v203 main_v207 ((extractStridedSlice S65536x256 ![0, 768] · slices_S65536x1024_S65536x256_0_768) : (⟨S65536x1024, .f32⟩ : BufTy).Contents (Elt F) → (⟨S65536x256, .f32⟩ : BufTy).Contents (Elt F)),
    unary main_v205 main_v208 (Host.negf : (⟨S65536x256, .f32⟩ : BufTy).Contents (Elt F) → (⟨S65536x256, .f32⟩ : BufTy).Contents (Elt F)),
    unary main_v208 main_v209 (Host.exp : (⟨S65536x256, .f32⟩ : BufTy).Contents (Elt F) → (⟨S65536x256, .f32⟩ : BufTy).Contents (Elt F)),
    nullary main_cst_12 (constant S_ .f32 0x3F800000#32),
    unary main_cst_12 main_v210 (broadcastInDim S65536x256 ![] bcast_S_S65536x256 : (⟨S_, .f32⟩ : BufTy).Contents (Elt F) → (⟨S65536x256, .f32⟩ : BufTy).Contents (Elt F)),
    binary main_v210 main_v209 main_v211 (addf : (⟨S65536x256, .f32⟩ : BufTy).Contents (Elt F) → (⟨S65536x256, .f32⟩ : BufTy).Contents (Elt F) → (⟨S65536x256, .f32⟩ : BufTy).Contents (Elt F)),
    nullary main_cst_13 (constant S_ .f32 0x3F800000#32),
    unary main_cst_13 main_v212 (broadcastInDim S65536x256 ![] bcast_S_S65536x256 : (⟨S_, .f32⟩ : BufTy).Contents (Elt F) → (⟨S65536x256, .f32⟩ : BufTy).Contents (Elt F)),
    binary main_v212 main_v211 main_v213 (Host.divf : (⟨S65536x256, .f32⟩ : BufTy).Contents (Elt F) → (⟨S65536x256, .f32⟩ : BufTy).Contents (Elt F) → (⟨S65536x256, .f32⟩ : BufTy).Contents (Elt F)),
    binary main_v213 main_v169 main_v214 (mulf : (⟨S65536x256, .f32⟩ : BufTy).Contents (Elt F) → (⟨S65536x256, .f32⟩ : BufTy).Contents (Elt F) → (⟨S65536x256, .f32⟩ : BufTy).Contents (Elt F)),
    unary main_v204 main_v215 (Host.negf : (⟨S65536x256, .f32⟩ : BufTy).Contents (Elt F) → (⟨S65536x256, .f32⟩ : BufTy).Contents (Elt F)),
    unary main_v215 main_v216 (Host.exp : (⟨S65536x256, .f32⟩ : BufTy).Contents (Elt F) → (⟨S65536x256, .f32⟩ : BufTy).Contents (Elt F)),
    nullary main_cst_14 (constant S_ .f32 0x3F800000#32),
    unary main_cst_14 main_v217 (broadcastInDim S65536x256 ![] bcast_S_S65536x256 : (⟨S_, .f32⟩ : BufTy).Contents (Elt F) → (⟨S65536x256, .f32⟩ : BufTy).Contents (Elt F)),
    binary main_v217 main_v216 main_v218 (addf : (⟨S65536x256, .f32⟩ : BufTy).Contents (Elt F) → (⟨S65536x256, .f32⟩ : BufTy).Contents (Elt F) → (⟨S65536x256, .f32⟩ : BufTy).Contents (Elt F)),
    nullary main_cst_15 (constant S_ .f32 0x3F800000#32),
    unary main_cst_15 main_v219 (broadcastInDim S65536x256 ![] bcast_S_S65536x256 : (⟨S_, .f32⟩ : BufTy).Contents (Elt F) → (⟨S65536x256, .f32⟩ : BufTy).Contents (Elt F)),
    binary main_v219 main_v218 main_v220 (Host.divf : (⟨S65536x256, .f32⟩ : BufTy).Contents (Elt F) → (⟨S65536x256, .f32⟩ : BufTy).Contents (Elt F) → (⟨S65536x256, .f32⟩ : BufTy).Contents (Elt F)),
    unary main_v206 main_v221 (Host.tanh : (⟨S65536x256, .f32⟩ : BufTy).Contents (Elt F) → (⟨S65536x256, .f32⟩ : BufTy).Contents (Elt F)),
    binary main_v220 main_v221 main_v222 (mulf : (⟨S65536x256, .f32⟩ : BufTy).Contents (Elt F) → (⟨S65536x256, .f32⟩ : BufTy).Contents (Elt F) → (⟨S65536x256, .f32⟩ : BufTy).Contents (Elt F)),
    binary main_v214 main_v222 main_v223 (addf : (⟨S65536x256, .f32⟩ : BufTy).Contents (Elt F) → (⟨S65536x256, .f32⟩ : BufTy).Contents (Elt F) → (⟨S65536x256, .f32⟩ : BufTy).Contents (Elt F)),
    unary main_v207 main_v224 (Host.negf : (⟨S65536x256, .f32⟩ : BufTy).Contents (Elt F) → (⟨S65536x256, .f32⟩ : BufTy).Contents (Elt F)),
    unary main_v224 main_v225 (Host.exp : (⟨S65536x256, .f32⟩ : BufTy).Contents (Elt F) → (⟨S65536x256, .f32⟩ : BufTy).Contents (Elt F)),
    nullary main_cst_16 (constant S_ .f32 0x3F800000#32),
    unary main_cst_16 main_v226 (broadcastInDim S65536x256 ![] bcast_S_S65536x256 : (⟨S_, .f32⟩ : BufTy).Contents (Elt F) → (⟨S65536x256, .f32⟩ : BufTy).Contents (Elt F)),
    binary main_v226 main_v225 main_v227 (addf : (⟨S65536x256, .f32⟩ : BufTy).Contents (Elt F) → (⟨S65536x256, .f32⟩ : BufTy).Contents (Elt F) → (⟨S65536x256, .f32⟩ : BufTy).Contents (Elt F)),
    nullary main_cst_17 (constant S_ .f32 0x3F800000#32),
    unary main_cst_17 main_v228 (broadcastInDim S65536x256 ![] bcast_S_S65536x256 : (⟨S_, .f32⟩ : BufTy).Contents (Elt F) → (⟨S65536x256, .f32⟩ : BufTy).Contents (Elt F)),
    binary main_v228 main_v227 main_v229 (Host.divf : (⟨S65536x256, .f32⟩ : BufTy).Contents (Elt F) → (⟨S65536x256, .f32⟩ : BufTy).Contents (Elt F) → (⟨S65536x256, .f32⟩ : BufTy).Contents (Elt F)),
    unary main_v223 main_v230 (Host.tanh : (⟨S65536x256, .f32⟩ : BufTy).Contents (Elt F) → (⟨S65536x256, .f32⟩ : BufTy).Contents (Elt F)),
    binary main_v229 main_v230 main_v231 (mulf : (⟨S65536x256, .f32⟩ : BufTy).Contents (Elt F) → (⟨S65536x256, .f32⟩ : BufTy).Contents (Elt F) → (⟨S65536x256, .f32⟩ : BufTy).Contents (Elt F)) ]

set_option maxRecDepth 8192 in
theorem opsE_sub : (opsE : List (HloOp τ sig (Elt F))).Forall fun op => op.bufs ⊆ tcRefs τ sig :=
  ⟨unary_bufs_sub .., reshape_bufs_sub .., unary_bufs_sub .., binary_bufs_sub .., unary_bufs_sub .., reshape_bufs_sub .., unary_bufs_sub .., unary_bufs_sub .., binary_bufs_sub .., unary_bufs_sub .., reshape_bufs_sub .., unary_bufs_sub .., binary_bufs_sub .., binary_bufs_sub .., unary_bufs_sub .., reshape_bufs_sub .., unary_bufs_sub .., unary_bufs_sub .., binary_bufs_sub .., unary_bufs_sub .., unary_bufs_sub .., unary_bufs_sub .., unary_bufs_sub .., unary_bufs_sub .., unary_bufs_sub .., nullary_bufs_sub .., unary_bufs_sub .., binary_bufs_sub .., nullary_bufs_sub .., unary_bufs_sub .., binary_bufs_sub .., binary_bufs_sub .., unary_bufs_sub .., unary_bufs_sub .., nullary_bufs_sub .., unary_bufs_sub .., binary_bufs_sub .., nullary_bufs_sub .., unary_bufs_sub .., binary_bufs_sub .., unary_bufs_sub .., binary_bufs_sub .., binary_bufs_sub .., unary_bufs_sub .., unary_bufs_sub .., nullary_bufs_sub .., unary_bufs_sub .., binary_bufs_sub .., nullary_bufs_sub .., unary_bufs_sub .., binary_bufs_sub .., unary_bufs_sub .., binary_bufs_sub ..⟩

/-- Stretch F: operations 255 to 314 of the line. -/
abbrev opsF : List (HloOp τ sig (Elt F)) :=
  [ unary main_arg5 main_v232 ((extractStridedSlice S1x1x256x256 ![2, 0, 0, 0] · slices_S3x3x256x256_S1x1x256x256_2_0_0_0) : (⟨S3x3x256x256, .f32⟩ : BufTy).Contents (Elt F) → (⟨S1x1x256x256, .f32⟩ : BufTy).Contents (Elt F)),
    reshape main_v232 main_v233 rfl shapeCasts_S1x1x256x256_S256x256,
    unary main_v233 main_v234 ((transpose S256x256 [1, 0] · transposes_S256x256_S256x256_1_0) : (⟨S256x256, .f32⟩ : BufTy).Contents (Elt F) → (⟨S256x256, .f32⟩ : BufTy).Contents (Elt F)),
    binary main_v231 main_v234 main_v235 ((fun l r => Host.dotGeneral dot_S65536x256_S256x256_S65536x256_1_0_0_1_n_n none l r) : (⟨S65536x256, .f32⟩ : BufTy).Contents (Elt F) → (⟨S256x256, .f32⟩ : BufTy).Contents (Elt F) → (⟨S65536x256, .f32⟩ : BufTy).Contents (Elt F)),
    binary main_v119 main_v235 main_v236 (addf : (⟨S65536x256, .f32⟩ : BufTy).Contents (Elt F) → (⟨S65536x256, .f32⟩ : BufTy).Contents (Elt F) → (⟨S65536x256, .f32⟩ : BufTy).Contents (Elt F)),
    unary main_arg6 main_v237 ((extractStridedSlice S1x1x256 ![2, 0, 0] · slices_S3x3x256_S1x1x256_2_0_0) : (⟨S3x3x256, .f32⟩ : BufTy).Contents (Elt F) → (⟨S1x1x256, .f32⟩ : BufTy).Contents (Elt F)),
    reshape main_v237 main_v238 rfl shapeCasts_S1x1x256_S256,
    unary main_v238 main_v239 (broadcastInDim S1x256 ![1] bcast_S256_S1x256_1 : (⟨S256, .f32⟩ : BufTy).Contents (Elt F) → (⟨S1x256, .f32⟩ : BufTy).Contents (Elt F)),
    unary main_v239 main_v240 (broadcastInDim S65536x256 ![0, 1] bcast_S1x256_S65536x256_0_1 : (⟨S1x256, .f32⟩ : BufTy).Contents (Elt F) → (⟨S65536x256, .f32⟩ : BufTy).Contents (Elt F)),
    binary main_v236 main_v240 main_v241 (addf : (⟨S65536x256, .f32⟩ : BufTy).Contents (Elt F) → (⟨S65536x256, .f32⟩ : BufTy).Contents (Elt F) → (⟨S65536x256, .f32⟩ : BufTy).Contents (Elt F)),
    unary main_arg7 main_v242 ((extractStridedSlice S1x1x256x256 ![2, 0, 0, 0] · slices_S3x3x256x256_S1x1x256x256_2_0_0_0) : (⟨S3x3x256x256, .f32⟩ : BufTy).Contents (Elt F) → (⟨S1x1x256x256, .f32⟩ : BufTy).Contents (Elt F)),
    reshape main_v242 main_v243 rfl shapeCasts_S1x1x256x256_S256x256,
    unary main_v243 main_v244 ((transpose S256x256 [1, 0] · transposes_S256x256_S256x256_1_0) : (⟨S256x256, .f32⟩ : BufTy).Contents (Elt F) → (⟨S256x256, .f32⟩ : BufTy).Contents (Elt F)),
    binary main_v223 main_v244 main_v245 ((fun l r => Host.dotGeneral dot_S65536x256_S256x256_S65536x256_1_0_0_1_n_n none l r) : (⟨S65536x256, .f32⟩ : BufTy).Contents (Elt F) → (⟨S256x256, .f32⟩ : BufTy).Contents (Elt F) → (⟨S65536x256, .f32⟩ : BufTy).Contents (Elt F)),
    binary main_v129 main_v245 main_v246 (addf : (⟨S65536x256, .f32⟩ : BufTy).Contents (Elt F) → (⟨S65536x256, .f32⟩ : BufTy).Contents (Elt F) → (⟨S65536x256, .f32⟩ : BufTy).Contents (Elt F)),
    unary main_arg8 main_v247 ((extractStridedSlice S1x1x256 ![2, 0, 0] · slices_S3x3x256_S1x1x256_2_0_0) : (⟨S3x3x256, .f32⟩ : BufTy).Contents (Elt F) → (⟨S1x1x256, .f32⟩ : BufTy).Contents (Elt F)),
    reshape main_v247 main_v248 rfl shapeCasts_S1x1x256_S256,
    unary main_v248 main_v249 (broadcastInDim S1x256 ![1] bcast_S256_S1x256_1 : (⟨S256, .f32⟩ : BufTy).Contents (Elt F) → (⟨S1x256, .f32⟩ : BufTy).Contents (Elt F)),
    unary main_v249 main_v250 (broadcastInDim S65536x256 ![0, 1] bcast_S1x256_S65536x256_0_1 : (⟨S1x256, .f32⟩ : BufTy).Contents (Elt F) → (⟨S65536x256, .f32⟩ : BufTy).Contents (Elt F)),
    binary main_v246 main_v250 main_v251 (addf : (⟨S65536x256, .f32⟩ : BufTy).Contents (Elt F) → (⟨S65536x256, .f32⟩ : BufTy).Contents (Elt F) → (⟨S65536x256, .f32⟩ : BufTy).Contents (Elt F)),
    unary main_arg5 main_v252 ((extractStridedSlice S1x1x256x256 ![2, 1, 0, 0] · slices_S3x3x256x256_S1x1x256x256_2_1_0_0) : (⟨S3x3x256x256, .f32⟩ : BufTy).Contents (Elt F) → (⟨S1x1x256x256, .f32⟩ : BufTy).Contents (Elt F)),
    reshape main_v252 main_v253 rfl shapeCasts_S1x1x256x256_S256x256,
    unary main_v253 main_v254 ((transpose S256x256 [1, 0] · transposes_S256x256_S256x256_1_0) : (⟨S256x256, .f32⟩ : BufTy).Contents (Elt F) → (⟨S256x256, .f32⟩ : BufTy).Contents (Elt F)),
    binary main_v231 main_v254 main_v255 ((fun l r => Host.dotGeneral dot_S65536x256_S256x256_S65536x256_1_0_0_1_n_n none l r) : (⟨S65536x256, .f32⟩ : BufTy).Contents (Elt F) → (⟨S256x256, .f32⟩ : BufTy).Contents (Elt F) → (⟨S65536x256, .f32⟩ : BufTy).Contents (Elt F)),
    binary main_v139 main_v255 main_v256 (addf : (⟨S65536x256, .f32⟩ : BufTy).Contents (Elt F) → (⟨S65536x256, .f32⟩ : BufTy).Contents (Elt F) → (⟨S65536x256, .f32⟩ : BufTy).Contents (Elt F)),
    unary main_arg6 main_v257 ((extractStridedSlice S1x1x256 ![2, 1, 0] · slices_S3x3x256_S1x1x256_2_1_0) : (⟨S3x3x256, .f32⟩ : BufTy).Contents (Elt F) → (⟨S1x1x256, .f32⟩ : BufTy).Contents (Elt F)),
    reshape main_v257 main_v258 rfl shapeCasts_S1x1x256_S256,
    unary main_v258 main_v259 (broadcastInDim S1x256 ![1] bcast_S256_S1x256_1 : (⟨S256, .f32⟩ : BufTy).Contents (Elt F) → (⟨S1x256, .f32⟩ : BufTy).Contents (Elt F)),
    unary main_v259 main_v260 (broadcastInDim S65536x256 ![0, 1] bcast_S1x256_S65536x256_0_1 : (⟨S1x256, .f32⟩ : BufTy).Contents (Elt F) → (⟨S65536x256, .f32⟩ : BufTy).Contents (Elt F)),
    binary main_v256 main_v260 main_v261 (addf : (⟨S65536x256, .f32⟩ : BufTy).Contents (Elt F) → (⟨S65536x256, .f32⟩ : BufTy).Contents (Elt F) → (⟨S65536x256, .f32⟩ : BufTy).Contents (Elt F)),
    unary main_arg7 main_v262 ((extractStridedSlice S1x1x256x256 ![2, 1, 0, 0] · slices_S3x3x256x256_S1x1x256x256_2_1_0_0) : (⟨S3x3x256x256, .f32⟩ : BufTy).Contents (Elt F) → (⟨S1x1x256x256, .f32⟩ : BufTy).Contents (Elt F)),
    reshape main_v262 main_v263 rfl shapeCasts_S1x1x256x256_S256x256,
    unary main_v263 main_v264 ((transpose S256x256 [1, 0] · transposes_S256x256_S256x256_1_0) : (⟨S256x256, .f32⟩ : BufTy).Contents (Elt F) → (⟨S256x256, .f32⟩ : BufTy).Contents (Elt F)),
    binary main_v223 main_v264 main_v265 ((fun l r => Host.dotGeneral dot_S65536x256_S256x256_S65536x256_1_0_0_1_n_n none l r) : (⟨S65536x256, .f32⟩ : BufTy).Contents (Elt F) → (⟨S256x256, .f32⟩ : BufTy).Contents (Elt F) → (⟨S65536x256, .f32⟩ : BufTy).Contents (Elt F)),
    binary main_v149 main_v265 main_v266 (addf : (⟨S65536x256, .f32⟩ : BufTy).Contents (Elt F) → (⟨S65536x256, .f32⟩ : BufTy).Contents (Elt F) → (⟨S65536x256, .f32⟩ : BufTy).Contents (Elt F)),
    unary main_arg8 main_v267 ((extractStridedSlice S1x1x256 ![2, 1, 0] · slices_S3x3x256_S1x1x256_2_1_0) : (⟨S3x3x256, .f32⟩ : BufTy).Contents (Elt F) → (⟨S1x1x256, .f32⟩ : BufTy).Contents (Elt F)),
    reshape main_v267 main_v268 rfl shapeCasts_S1x1x256_S256,
    unary main_v268 main_v269 (broadcastInDim S1x256 ![1] bcast_S256_S1x256_1 : (⟨S256, .f32⟩ : BufTy).Contents (Elt F) → (⟨S1x256, .f32⟩ : BufTy).Contents (Elt F)),
    unary main_v269 main_v270 (broadcastInDim S65536x256 ![0, 1] bcast_S1x256_S65536x256_0_1 : (⟨S1x256, .f32⟩ : BufTy).Contents (Elt F) → (⟨S65536x256, .f32⟩ : BufTy).Contents (Elt F)),
    binary main_v266 main_v270 main_v271 (addf : (⟨S65536x256, .f32⟩ : BufTy).Contents (Elt F) → (⟨S65536x256, .f32⟩ : BufTy).Contents (Elt F) → (⟨S65536x256, .f32⟩ : BufTy).Contents (Elt F)),
    unary main_arg5 main_v272 ((extractStridedSlice S1x1x256x256 ![2, 2, 0, 0] · slices_S3x3x256x256_S1x1x256x256_2_2_0_0) : (⟨S3x3x256x256, .f32⟩ : BufTy).Contents (Elt F) → (⟨S1x1x256x256, .f32⟩ : BufTy).Contents (Elt F)),
    reshape main_v272 main_v273 rfl shapeCasts_S1x1x256x256_S256x256,
    unary main_v273 main_v274 ((transpose S256x256 [1, 0] · transposes_S256x256_S256x256_1_0) : (⟨S256x256, .f32⟩ : BufTy).Contents (Elt F) → (⟨S256x256, .f32⟩ : BufTy).Contents (Elt F)),
    binary main_v231 main_v274 main_v275 ((fun l r => Host.dotGeneral dot_S65536x256_S256x256_S65536x256_1_0_0_1_n_n none l r) : (⟨S65536x256, .f32⟩ : BufTy).Contents (Elt F) → (⟨S256x256, .f32⟩ : BufTy).Contents (Elt F) → (⟨S65536x256, .f32⟩ : BufTy).Contents (Elt F)),
    binary main_v159 main_v275 main_v276 (addf : (⟨S65536x256, .f32⟩ : BufTy).Contents (Elt F) → (⟨S65536x256, .f32⟩ : BufTy).Contents (Elt F) → (⟨S65536x256, .f32⟩ : BufTy).Contents (Elt F)),
    unary main_arg6 main_v277 ((extractStridedSlice S1x1x256 ![2, 2, 0] · slices_S3x3x256_S1x1x256_2_2_0) : (⟨S3x3x256, .f32⟩ : BufTy).Contents (Elt F) → (⟨S1x1x256, .f32⟩ : BufTy).Contents (Elt F)),
    reshape main_v277 main_v278 rfl shapeCasts_S1x1x256_S256,
    unary main_v278 main_v279 (broadcastInDim S1x256 ![1] bcast_S256_S1x256_1 : (⟨S256, .f32⟩ : BufTy).Contents (Elt F) → (⟨S1x256, .f32⟩ : BufTy).Contents (Elt F)),
    unary main_v279 main_v280 (broadcastInDim S65536x256 ![0, 1] bcast_S1x256_S65536x256_0_1 : (⟨S1x256, .f32⟩ : BufTy).Contents (Elt F) → (⟨S65536x256, .f32⟩ : BufTy).Contents (Elt F)),
    binary main_v276 main_v280 main_v281 (addf : (⟨S65536x256, .f32⟩ : BufTy).Contents (Elt F) → (⟨S65536x256, .f32⟩ : BufTy).Contents (Elt F) → (⟨S65536x256, .f32⟩ : BufTy).Contents (Elt F)),
    unary main_arg7 main_v282 ((extractStridedSlice S1x1x256x256 ![2, 2, 0, 0] · slices_S3x3x256x256_S1x1x256x256_2_2_0_0) : (⟨S3x3x256x256, .f32⟩ : BufTy).Contents (Elt F) → (⟨S1x1x256x256, .f32⟩ : BufTy).Contents (Elt F)),
    reshape main_v282 main_v283 rfl shapeCasts_S1x1x256x256_S256x256,
    unary main_v283 main_v284 ((transpose S256x256 [1, 0] · transposes_S256x256_S256x256_1_0) : (⟨S256x256, .f32⟩ : BufTy).Contents (Elt F) → (⟨S256x256, .f32⟩ : BufTy).Contents (Elt F)),
    binary main_v223 main_v284 main_v285 ((fun l r => Host.dotGeneral dot_S65536x256_S256x256_S65536x256_1_0_0_1_n_n none l r) : (⟨S65536x256, .f32⟩ : BufTy).Contents (Elt F) → (⟨S256x256, .f32⟩ : BufTy).Contents (Elt F) → (⟨S65536x256, .f32⟩ : BufTy).Contents (Elt F)),
    binary main_v169 main_v285 main_v286 (addf : (⟨S65536x256, .f32⟩ : BufTy).Contents (Elt F) → (⟨S65536x256, .f32⟩ : BufTy).Contents (Elt F) → (⟨S65536x256, .f32⟩ : BufTy).Contents (Elt F)),
    unary main_arg8 main_v287 ((extractStridedSlice S1x1x256 ![2, 2, 0] · slices_S3x3x256_S1x1x256_2_2_0) : (⟨S3x3x256, .f32⟩ : BufTy).Contents (Elt F) → (⟨S1x1x256, .f32⟩ : BufTy).Contents (Elt F)),
    reshape main_v287 main_v288 rfl shapeCasts_S1x1x256_S256,
    unary main_v288 main_v289 (broadcastInDim S1x256 ![1] bcast_S256_S1x256_1 : (⟨S256, .f32⟩ : BufTy).Contents (Elt F) → (⟨S1x256, .f32⟩ : BufTy).Contents (Elt F)),
    unary main_v289 main_v290 (broadcastInDim S65536x256 ![0, 1] bcast_S1x256_S65536x256_0_1 : (⟨S1x256, .f32⟩ : BufTy).Contents (Elt F) → (⟨S65536x256, .f32⟩ : BufTy).Contents (Elt F)),
    binary main_v286 main_v290 main_v291 (addf : (⟨S65536x256, .f32⟩ : BufTy).Contents (Elt F) → (⟨S65536x256, .f32⟩ : BufTy).Contents (Elt F) → (⟨S65536x256, .f32⟩ : BufTy).Contents (Elt F)) ]

set_option maxRecDepth 8192 in
theorem opsF_sub : (opsF : List (HloOp τ sig (Elt F))).Forall fun op => op.bufs ⊆ tcRefs τ sig :=
  ⟨unary_bufs_sub .., reshape_bufs_sub .., unary_bufs_sub .., binary_bufs_sub .., binary_bufs_sub .., unary_bufs_sub .., reshape_bufs_sub .., unary_bufs_sub .., unary_bufs_sub .., binary_bufs_sub .., unary_bufs_sub .., reshape_bufs_sub .., unary_bufs_sub .., binary_bufs_sub .., binary_bufs_sub .., unary_bufs_sub .., reshape_bufs_sub .., unary_bufs_sub .., unary_bufs_sub .., binary_bufs_sub .., unary_bufs_sub .., reshape_bufs_sub .., unary_bufs_sub .., binary_bufs_sub .., binary_bufs_sub .., unary_bufs_sub .., reshape_bufs_sub .., unary_bufs_sub .., unary_bufs_sub .., binary_bufs_sub .., unary_bufs_sub .., reshape_bufs_sub .., unary_bufs_sub .., binary_bufs_sub .., binary_bufs_sub .., unary_bufs_sub .., reshape_bufs_sub .., unary_bufs_sub .., unary_bufs_sub .., binary_bufs_sub .., unary_bufs_sub .., reshape_bufs_sub .., unary_bufs_sub .., binary_bufs_sub .., binary_bufs_sub .., unary_bufs_sub .., reshape_bufs_sub .., unary_bufs_sub .., unary_bufs_sub .., binary_bufs_sub .., unary_bufs_sub .., reshape_bufs_sub .., unary_bufs_sub .., binary_bufs_sub .., binary_bufs_sub .., unary_bufs_sub .., reshape_bufs_sub .., unary_bufs_sub .., unary_bufs_sub .., binary_bufs_sub ..⟩

/-- Stretch G: operations 315 to 331 of the line. -/
abbrev opsG : List (HloOp τ sig (Elt F)) :=
  [ unary main_arg9 main_v292 ((extractStridedSlice S1x256x256 ![2, 0, 0] · slices_S3x256x256_S1x256x256_2_0_0) : (⟨S3x256x256, .f32⟩ : BufTy).Contents (Elt F) → (⟨S1x256x256, .f32⟩ : BufTy).Contents (Elt F)),
    reshape main_v292 main_v293 rfl shapeCasts_S1x256x256_S256x256,
    unary main_v293 main_v294 ((transpose S256x256 [1, 0] · transposes_S256x256_S256x256_1_0) : (⟨S256x256, .f32⟩ : BufTy).Contents (Elt F) → (⟨S256x256, .f32⟩ : BufTy).Contents (Elt F)),
    binary main_v231 main_v294 main_v295 ((fun l r => Host.dotGeneral dot_S65536x256_S256x256_S65536x256_1_0_0_1_n_n none l r) : (⟨S65536x256, .f32⟩ : BufTy).Contents (Elt F) → (⟨S256x256, .f32⟩ : BufTy).Contents (Elt F) → (⟨S65536x256, .f32⟩ : BufTy).Contents (Elt F)),
    unary main_arg10 main_v296 ((extractStridedSlice S1x256 ![2, 0] · slices_S3x256_S1x256_2_0) : (⟨S3x256, .f32⟩ : BufTy).Contents (Elt F) → (⟨S1x256, .f32⟩ : BufTy).Contents (Elt F)),
    reshape main_v296 main_v297 rfl shapeCasts_S1x256_S256,
    unary main_v297 main_v298 (broadcastInDim S1x256 ![1] bcast_S256_S1x256_1 : (⟨S256, .f32⟩ : BufTy).Contents (Elt F) → (⟨S1x256, .f32⟩ : BufTy).Contents (Elt F)),
    unary main_v298 main_v299 (broadcastInDim S65536x256 ![0, 1] bcast_S1x256_S65536x256_0_1 : (⟨S1x256, .f32⟩ : BufTy).Contents (Elt F) → (⟨S65536x256, .f32⟩ : BufTy).Contents (Elt F)),
    binary main_v295 main_v299 main_v300 (addf : (⟨S65536x256, .f32⟩ : BufTy).Contents (Elt F) → (⟨S65536x256, .f32⟩ : BufTy).Contents (Elt F) → (⟨S65536x256, .f32⟩ : BufTy).Contents (Elt F)),
    TRef.nullary (TRef.of (T := ⟨S_, .f32⟩) main_call2_cst) (constant S_ .f32 0x00000000#32),
    TRef.unary (TRef.of (T := ⟨S_, .f32⟩) main_call2_cst) (TRef.of (T := ⟨S65536x256, .f32⟩) main_call2_v0) (broadcastInDim S65536x256 ![] bcast_S_S65536x256),
    TRef.binary (TRef.of (T := ⟨S65536x256, .f32⟩) main_v300) (TRef.of (T := ⟨S65536x256, .f32⟩) main_call2_v0) (TRef.of (T := ⟨S65536x256, .f32⟩) main_v301) maximumf,
    unary main_arg15 main_v302 ((transpose S256x20 [1, 0] · transposes_S20x256_S256x20_1_0) : (⟨S20x256, .f32⟩ : BufTy).Contents (Elt F) → (⟨S256x20, .f32⟩ : BufTy).Contents (Elt F)),
    binary main_v301 main_v302 main_v303 ((fun l r => Host.dotGeneral dot_S65536x256_S256x20_S65536x20_1_0_0_1_n_n none l r) : (⟨S65536x256, .f32⟩ : BufTy).Contents (Elt F) → (⟨S256x20, .f32⟩ : BufTy).Contents (Elt F) → (⟨S65536x20, .f32⟩ : BufTy).Contents (Elt F)),
    unary main_arg16 main_v304 (broadcastInDim S1x20 ![1] bcast_S20_S1x20_1 : (⟨S20, .f32⟩ : BufTy).Contents (Elt F) → (⟨S1x20, .f32⟩ : BufTy).Contents (Elt F)),
    unary main_v304 main_v305 (broadcastInDim S65536x20 ![0, 1] bcast_S1x20_S65536x20_0_1 : (⟨S1x20, .f32⟩ : BufTy).Contents (Elt F) → (⟨S65536x20, .f32⟩ : BufTy).Contents (Elt F)),
    binary main_v303 main_v305 main_v306 (addf : (⟨S65536x20, .f32⟩ : BufTy).Contents (Elt F) → (⟨S65536x20, .f32⟩ : BufTy).Contents (Elt F) → (⟨S65536x20, .f32⟩ : BufTy).Contents (Elt F)) ]

set_option maxRecDepth 8192 in
theorem opsG_sub : (opsG : List (HloOp τ sig (Elt F))).Forall fun op => op.bufs ⊆ tcRefs τ sig :=
  ⟨unary_bufs_sub .., reshape_bufs_sub .., unary_bufs_sub .., binary_bufs_sub .., unary_bufs_sub .., reshape_bufs_sub .., unary_bufs_sub .., unary_bufs_sub .., binary_bufs_sub .., nullary_bufs_sub .., unary_bufs_sub .., binary_bufs_sub .., unary_bufs_sub .., binary_bufs_sub .., unary_bufs_sub .., unary_bufs_sub .., binary_bufs_sub ..⟩

/-- The whole line: the seven stretches in order. -/
def ops : List (HloOp τ sig (Elt F)) := opsA ++ (opsB ++ (opsC ++ (opsD ++ (opsE ++ (opsF ++ opsG)))))

theorem ops_eq : (ops : List (HloOp τ sig (Elt F))) = opsA ++ (opsB ++ (opsC ++ (opsD ++ (opsE ++ (opsF ++ opsG))))) := rfl

/-- A property of every operation of two lines holds of every operation of their concatenation. -/
theorem forall_append {α : Type _} {p : α → Prop} : ∀ {l₁ l₂ : List α}, l₁.Forall p → l₂.Forall p → (l₁ ++ l₂).Forall p := by
  intro l₁ l₂ h₁ h₂
  rw [List.forall_iff_forall_mem] at *
  intro x hx
  rcases List.mem_append.mp hx with h | h
  · exact h₁ x h
  · exact h₂ x h

theorem ops_sub : (ops : List (HloOp τ sig (Elt F))).Forall fun op => op.bufs ⊆ tcRefs τ sig :=
  forall_append opsA_sub (forall_append opsB_sub (forall_append opsC_sub (forall_append opsD_sub
    (forall_append opsE_sub (forall_append opsF_sub opsG_sub)))))

set_option maxRecDepth 8192 in
set_option maxHeartbeats 4000000 in
/-- @main is the line. -/
theorem main_eq (c : Dev nD) : main (F := F) c = seq ops := rfl

theorem scopedRefs_eq : (Finset.univ.filter fun b : Ref sig .tc => b.isScoped) = ∅ := by decide
theorem scopedSems_eq : (Finset.univ.filter fun sm : SemLoc sig => sm.isScoped .tc) = ∅ := by decide

/-- Two lines run one after the other leave what the second leaves from what the first left. -/
theorem after_append {Val : EltTy → Type} (l₁ l₂ : List (HloOp τ sig Val)) (V : Valuation τ sig Val) :
    after (l₁ ++ l₂) V = after l₂ (after l₁ V) := by
  induction l₁ generalizing V with
  | nil => rfl
  | cons op l ih => exact ih _

end Cert.RefSide

end
-- ==== Proof.RefTerms.lean ====
/-
  The reference program's live values as nested terms of a few layer functions.

  The reference is one straight line of host operations. Of its values only a chain is ever read again: for each of the
  three cells the gate pre-activations, the new cell state and the new hidden state; the state handed to the third cell
  (the first cell's plus a linear image of the second's); and each cell's head. Each is one layer function — spelt with
  exactly the host operations the program applies — of earlier values and of the argument arrays.
-/
import proofs.«168260_j24026047054250_2_alg».proof.Proof.Gen.ReferenceIdeal
import Idealize.ShloMosaic.PureOps.Ideal

noncomputable section

namespace Cert.RefSide

open Cert.ReferenceIdeal Cert.ReferenceIdeal.Gen Idealize.ShloMosaic

/-- An f32 array of shape `S` on the extended reals. -/
abbrev Arr (S : Shape) : Type := FVec Ideal S .f32

/-- The all-ones [65536, 256] array. -/
def ones : Arr S65536x256 := broadcastInDim S65536x256 ![] bcast_S_S65536x256 (constant S_ .f32 0x3F800000#32)

/-- The all-zeros [65536, 256] array. -/
def zeros : Arr S65536x256 := broadcastInDim S65536x256 ![] bcast_S_S65536x256 (constant S_ .f32 0x00000000#32)

/-- The logistic function as the program spells it: 1 / (1 + exp(-y)). -/
def sigm (Y : Arr S65536x256) : Arr S65536x256 := Host.divf ones (addf ones (Host.exp (Host.negf Y)))

/-- Slab `o` of a [3, 1024, 256] weight stack, as the [256, 1024] right operand of a product. -/
def wT1024 (o : Nat) (W : Arr S3x1024x256) (hs : S3x1024x256.Slices ![o, 0, 0] S1x1024x256) : Arr S256x1024 :=
  transpose S256x1024 [1, 0] (shapeCast _ (extractStridedSlice S1x1024x256 ![o, 0, 0] W hs) shapeCasts_S1x1024x256_S1024x256)
    transposes_S1024x256_S256x1024_1_0

/-- Row `o` of a [3, 1024] bias stack, copied down the batch. -/
def bRow1024 (o : Nat) (b : Arr S3x1024) (hs : S3x1024.Slices ![o, 0] S1x1024) : Arr S65536x1024 :=
  broadcastInDim S65536x1024 ![0, 1] bcast_S1x1024_S65536x1024_0_1 (broadcastInDim S1x1024 ![1] bcast_S1024_S1x1024_1
    (shapeCast _ (extractStridedSlice S1x1024 ![o, 0] b hs) shapeCasts_S1x1024_S1024))

/-- Slab `o` of a [3, 256, 256] weight stack, as the [256, 256] right operand of a product. -/
def wT256 (o : Nat) (W : Arr S3x256x256) (hs : S3x256x256.Slices ![o, 0, 0] S1x256x256) : Arr S256x256 :=
  transpose S256x256 [1, 0] (shapeCast _ (extractStridedSlice S1x256x256 ![o, 0, 0] W hs) shapeCasts_S1x256x256_S256x256)
    transposes_S256x256_S256x256_1_0

/-- Row `o` of a [3, 256] bias stack, copied down the batch. -/
def bRow256 (o : Nat) (b : Arr S3x256) (hs : S3x256.Slices ![o, 0] S1x256) : Arr S65536x256 :=
  broadcastInDim S65536x256 ![0, 1] bcast_S1x256_S65536x256_0_1 (broadcastInDim S1x256 ![1] bcast_S256_S1x256_1
    (shapeCast _ (extractStridedSlice S1x256 ![o, 0] b hs) shapeCasts_S1x256_S256))

/-- The (1, 2) matrix of a [3, 3, 256, 256] mixing stack, as the right operand of a product. -/
def mixW (W : Arr S3x3x256x256) : Arr S256x256 :=
  transpose S256x256 [1, 0] (shapeCast _ (extractStridedSlice S1x1x256x256 ![1, 2, 0, 0] W slices_S3x3x256x256_S1x1x256x256_1_2_0_0)
    shapeCasts_S1x1x256x256_S256x256) transposes_S256x256_S256x256_1_0

/-- The (1, 2) row of a [3, 3, 256] mixing bias stack, copied down the batch. -/
def mixB (b : Arr S3x3x256) : Arr S65536x256 :=
  broadcastInDim S65536x256 ![0, 1] bcast_S1x256_S65536x256_0_1 (broadcastInDim S1x256 ![1] bcast_S256_S1x256_1
    (shapeCast _ (extractStridedSlice S1x1x256 ![1, 2, 0] b slices_S3x3x256_S1x1x256_1_2_0) shapeCasts_S1x1x256_S256))

/-- Gate pre-activations: ((x · Wi + bi) + h · Wh) + bh. -/
def gateR (x h : Arr S65536x256) (WiT WhT : Arr S256x1024) (bi bh : Arr S65536x1024) : Arr S65536x1024 :=
  addf (addf (addf (Host.dotGeneral dot_S65536x256_S256x1024_S65536x1024_1_0_0_1_n_n none x WiT) bi)
    (Host.dotGeneral dot_S65536x256_S256x1024_S65536x1024_1_0_0_1_n_n none h WhT)) bh

/-- The new cell state: σ(f) · c + σ(i) · tanh(g). -/
def cellR (G : Arr S65536x1024) (cp : Arr S65536x256) : Arr S65536x256 :=
  addf (mulf (sigm (extractStridedSlice S65536x256 ![0, 256] G slices_S65536x1024_S65536x256_0_256)) cp)
    (mulf (sigm (extractStridedSlice S65536x256 ![0, 0] G slices_S65536x1024_S65536x256_0_0))
      (Host.tanh (extractStridedSlice S65536x256 ![0, 512] G slices_S65536x1024_S65536x256_0_512)))

/-- The new hidden state: σ(o) · tanh(c'). -/
def hidR (G : Arr S65536x1024) (C : Arr S65536x256) : Arr S65536x256 :=
  mulf (sigm (extractStridedSlice S65536x256 ![0, 768] G slices_S65536x1024_S65536x256_0_768)) (Host.tanh C)

/-- The middle layer: max(h · W + b, 0). -/
def midR (H : Arr S65536x256) (WT : Arr S256x256) (b : Arr S65536x256) : Arr S65536x256 :=
  maximumf (addf (Host.dotGeneral dot_S65536x256_S256x256_S65536x256_1_0_0_1_n_n none H WT) b) zeros

/-- A state plus a linear image of another plus a bias. -/
def mixR (P S : Arr S65536x256) (WT : Arr S256x256) (b : Arr S65536x256) : Arr S65536x256 :=
  addf (addf P (Host.dotGeneral dot_S65536x256_S256x256_S65536x256_1_0_0_1_n_n none S WT)) b

/-- The first head's output layer. -/
def out54R (M : Arr S65536x256) (W : Arr S54x256) (b : Arr S54) : Arr S65536x54 :=
  addf (Host.dotGeneral dot_S65536x256_S256x54_S65536x54_1_0_0_1_n_n none M (transpose S256x54 [1, 0] W transposes_S54x256_S256x54_1_0))
    (broadcastInDim S65536x54 ![0, 1] bcast_S1x54_S65536x54_0_1 (broadcastInDim S1x54 ![1] bcast_S54_S1x54_1 b))

/-- The second head's output layer. -/
def out23R (M : Arr S65536x256) (W : Arr S23x256) (b : Arr S23) : Arr S65536x23 :=
  addf (Host.dotGeneral dot_S65536x256_S256x23_S65536x23_1_0_0_1_n_n none M (transpose S256x23 [1, 0] W transposes_S23x256_S256x23_1_0))
    (broadcastInDim S65536x23 ![0, 1] bcast_S1x23_S65536x23_0_1 (broadcastInDim S1x23 ![1] bcast_S23_S1x23_1 b))

/-- The third head's output layer. -/
def out20R (M : Arr S65536x256) (W : Arr S20x256) (b : Arr S20) : Arr S65536x20 :=
  addf (Host.dotGeneral dot_S65536x256_S256x20_S65536x20_1_0_0_1_n_n none M (transpose S256x20 [1, 0] W transposes_S20x256_S256x20_1_0))
    (broadcastInDim S65536x20 ![0, 1] bcast_S1x20_S65536x20_0_1 (broadcastInDim S1x20 ![1] bcast_S20_S1x20_1 b))

/-! ## The chain of live values -/

section Chain

variable (x0 : Arr S65536x256) (x1 x2 : Arr S3x1024x256) (x3 x4 : Arr S3x1024) (x5 : Arr S3x3x256x256) (x6 : Arr S3x3x256)
  (x7 : Arr S3x3x256x256) (x8 : Arr S3x3x256) (x9 : Arr S3x256x256) (x10 : Arr S3x256)

/-- Gate pre-activations of cell `o` from hidden state `h`. -/
def gOf (o : Nat) (h : Arr S65536x256) (hw : S3x1024x256.Slices ![o, 0, 0] S1x1024x256) (hb : S3x1024.Slices ![o, 0] S1x1024) :
    Arr S65536x1024 :=
  gateR x0 h (wT1024 o x1 hw) (wT1024 o x2 hw) (bRow1024 o x3 hb) (bRow1024 o x4 hb)

def G0R : Arr S65536x1024 := gOf x0 x1 x2 x3 x4 0 zeros slices_S3x1024x256_S1x1024x256_0_0_0 slices_S3x1024_S1x1024_0_0
def C0R : Arr S65536x256 := cellR (G0R x0 x1 x2 x3 x4) zeros
def H0R : Arr S65536x256 := hidR (G0R x0 x1 x2 x3 x4) (C0R x0 x1 x2 x3 x4)
def G1R : Arr S65536x1024 := gOf x0 x1 x2 x3 x4 1 (H0R x0 x1 x2 x3 x4) slices_S3x1024x256_S1x1024x256_1_0_0 slices_S3x1024_S1x1024_1_0
def C1R : Arr S65536x256 := cellR (G1R x0 x1 x2 x3 x4) (C0R x0 x1 x2 x3 x4)
def H1R : Arr S65536x256 := hidR (G1R x0 x1 x2 x3 x4) (C1R x0 x1 x2 x3 x4)
def H2P : Arr S65536x256 := mixR (H0R x0 x1 x2 x3 x4) (H1R x0 x1 x2 x3 x4) (mixW x5) (mixB x6)
def C2P : Arr S65536x256 := mixR (C0R x0 x1 x2 x3 x4) (C1R x0 x1 x2 x3 x4) (mixW x7) (mixB x8)
def G2R : Arr S65536x1024 :=
  gOf x0 x1 x2 x3 x4 2 (H2P x0 x1 x2 x3 x4 x5 x6) slices_S3x1024x256_S1x1024x256_2_0_0 slices_S3x1024_S1x1024_2_0
def C2R : Arr S65536x256 := cellR (G2R x0 x1 x2 x3 x4 x5 x6) (C2P x0 x1 x2 x3 x4 x7 x8)
def H2R : Arr S65536x256 := hidR (G2R x0 x1 x2 x3 x4 x5 x6) (C2R x0 x1 x2 x3 x4 x5 x6 x7 x8)

/-- The first result. -/
def OUT0 (x11 : Arr S54x256) (x12 : Arr S54) : Arr S65536x54 :=
  out54R (midR (H0R x0 x1 x2 x3 x4) (wT256 0 x9 slices_S3x256x256_S1x256x256_0_0_0) (bRow256 0 x10 slices_S3x256_S1x256_0_0)) x11 x12

/-- The second result. -/
def OUT1 (x13 : Arr S23x256) (x14 : Arr S23) : Arr S65536x23 :=
  out23R (midR (H1R x0 x1 x2 x3 x4) (wT256 1 x9 slices_S3x256x256_S1x256x256_1_0_0) (bRow256 1 x10 slices_S3x256_S1x256_1_0)) x13 x14

/-- The third result. -/
def OUT2 (x15 : Arr S20x256) (x16 : Arr S20) : Arr S65536x20 :=
  out20R (midR (H2R x0 x1 x2 x3 x4 x5 x6 x7 x8) (wT256 2 x9 slices_S3x256x256_S1x256x256_2_0_0) (bRow256 2 x10 slices_S3x256_S1x256_2_0)) x15 x16

end Chain

end Cert.RefSide

end
-- ==== Proof.RefStretch.lean ====
/-
  What each stretch of the reference leaves in the buffers that are read again, from ANY contents it starts from: one
  layer function of the contents it reads.
-/
import proofs.«168260_j24026047054250_2_alg».proof.Proof.RefProg
import proofs.«168260_j24026047054250_2_alg».proof.Proof.RefTerms

noncomputable section

namespace Cert.RefSide

open Cert.ReferenceIdeal Cert.ReferenceIdeal.Gen Idealize.ShloMosaic Idealize.ShloMosaic.TcCoe Idealize.SL.Sem Idealize.ShloMosaic.StableHlo

variable (V : Valuation τ sig (Elt Ideal))

set_option maxRecDepth 8192 in
theorem A39 : (after (opsA (F := Ideal)) V (Proc.devRef .tc main_v39) : Arr S65536x256) = C0R (V (Proc.devRef .tc main_arg0) : Arr S65536x256) (V (Proc.devRef .tc main_arg1) : Arr S3x1024x256) (V (Proc.devRef .tc main_arg2) : Arr S3x1024x256) (V (Proc.devRef .tc main_arg3) : Arr S3x1024) (V (Proc.devRef .tc main_arg4) : Arr S3x1024) := by
  after_results_simp
  rfl

set_option maxRecDepth 8192 in
theorem A47 : (after (opsA (F := Ideal)) V (Proc.devRef .tc main_v47) : Arr S65536x256) = H0R (V (Proc.devRef .tc main_arg0) : Arr S65536x256) (V (Proc.devRef .tc main_arg1) : Arr S3x1024x256) (V (Proc.devRef .tc main_arg2) : Arr S3x1024x256) (V (Proc.devRef .tc main_arg3) : Arr S3x1024) (V (Proc.devRef .tc main_arg4) : Arr S3x1024) := by
  after_results_simp
  rfl

set_option maxRecDepth 8192 in
theorem A62 : (after (opsA (F := Ideal)) V (Proc.devRef .tc main_v62) : Arr S65536x54) = OUT0 (V (Proc.devRef .tc main_arg0) : Arr S65536x256) (V (Proc.devRef .tc main_arg1) : Arr S3x1024x256) (V (Proc.devRef .tc main_arg2) : Arr S3x1024x256) (V (Proc.devRef .tc main_arg3) : Arr S3x1024) (V (Proc.devRef .tc main_arg4) : Arr S3x1024) (V (Proc.devRef .tc main_arg9) : Arr S3x256x256) (V (Proc.devRef .tc main_arg10) : Arr S3x256) (V (Proc.devRef .tc main_arg11) : Arr S54x256) (V (Proc.devRef .tc main_arg12) : Arr S54) := by
  after_results_simp
  rfl

set_option maxRecDepth 8192 in
theorem B101 : (after (opsB (F := Ideal)) V (Proc.devRef .tc main_v101) : Arr S65536x256) = cellR (gOf (V (Proc.devRef .tc main_arg0) : Arr S65536x256) (V (Proc.devRef .tc main_arg1) : Arr S3x1024x256) (V (Proc.devRef .tc main_arg2) : Arr S3x1024x256) (V (Proc.devRef .tc main_arg3) : Arr S3x1024) (V (Proc.devRef .tc main_arg4) : Arr S3x1024) 1 (V (Proc.devRef .tc main_v47) : Arr S65536x256) slices_S3x1024x256_S1x1024x256_1_0_0 slices_S3x1024_S1x1024_1_0) (V (Proc.devRef .tc main_v39) : Arr S65536x256) := by
  after_results_simp
  rfl

set_option maxRecDepth 8192 in
theorem B109 : (after (opsB (F := Ideal)) V (Proc.devRef .tc main_v109) : Arr S65536x256) = hidR (gOf (V (Proc.devRef .tc main_arg0) : Arr S65536x256) (V (Proc.devRef .tc main_arg1) : Arr S3x1024x256) (V (Proc.devRef .tc main_arg2) : Arr S3x1024x256) (V (Proc.devRef .tc main_arg3) : Arr S3x1024) (V (Proc.devRef .tc main_arg4) : Arr S3x1024) 1 (V (Proc.devRef .tc main_v47) : Arr S65536x256) slices_S3x1024x256_S1x1024x256_1_0_0 slices_S3x1024_S1x1024_1_0) (cellR (gOf (V (Proc.devRef .tc main_arg0) : Arr S65536x256) (V (Proc.devRef .tc main_arg1) : Arr S3x1024x256) (V (Proc.devRef .tc main_arg2) : Arr S3x1024x256) (V (Proc.devRef .tc main_arg3) : Arr S3x1024) (V (Proc.devRef .tc main_arg4) : Arr S3x1024) 1 (V (Proc.devRef .tc main_v47) : Arr S65536x256) slices_S3x1024x256_S1x1024x256_1_0_0 slices_S3x1024_S1x1024_1_0) (V (Proc.devRef .tc main_v39) : Arr S65536x256)) := by
  after_results_simp
  rfl

set_option maxRecDepth 8192 in
theorem D159 : (after (opsD (F := Ideal)) V (Proc.devRef .tc main_v159) : Arr S65536x256) = mixR (V (Proc.devRef .tc main_v47) : Arr S65536x256) (V (Proc.devRef .tc main_v109) : Arr S65536x256) (mixW (V (Proc.devRef .tc main_arg5) : Arr S3x3x256x256)) (mixB (V (Proc.devRef .tc main_arg6) : Arr S3x3x256)) := by
  after_results_simp
  rfl

set_option maxRecDepth 8192 in
theorem D169 : (after (opsD (F := Ideal)) V (Proc.devRef .tc main_v169) : Arr S65536x256) = mixR (V (Proc.devRef .tc main_v39) : Arr S65536x256) (V (Proc.devRef .tc main_v101) : Arr S65536x256) (mixW (V (Proc.devRef .tc main_arg7) : Arr S3x3x256x256)) (mixB (V (Proc.devRef .tc main_arg8) : Arr S3x3x256)) := by
  after_results_simp
  rfl

set_option maxRecDepth 8192 in
theorem D184 : (after (opsD (F := Ideal)) V (Proc.devRef .tc main_v184) : Arr S65536x23) = out23R (midR (V (Proc.devRef .tc main_v109) : Arr S65536x256) (wT256 1 (V (Proc.devRef .tc main_arg9) : Arr S3x256x256) slices_S3x256x256_S1x256x256_1_0_0) (bRow256 1 (V (Proc.devRef .tc main_arg10) : Arr S3x256) slices_S3x256_S1x256_1_0)) (V (Proc.devRef .tc main_arg13) : Arr S23x256) (V (Proc.devRef .tc main_arg14) : Arr S23) := by
  after_results_simp
  rfl

set_option maxRecDepth 8192 in
theorem E231 : (after (opsE (F := Ideal)) V (Proc.devRef .tc main_v231) : Arr S65536x256) = hidR (gOf (V (Proc.devRef .tc main_arg0) : Arr S65536x256) (V (Proc.devRef .tc main_arg1) : Arr S3x1024x256) (V (Proc.devRef .tc main_arg2) : Arr S3x1024x256) (V (Proc.devRef .tc main_arg3) : Arr S3x1024) (V (Proc.devRef .tc main_arg4) : Arr S3x1024) 2 (V (Proc.devRef .tc main_v159) : Arr S65536x256) slices_S3x1024x256_S1x1024x256_2_0_0 slices_S3x1024_S1x1024_2_0) (cellR (gOf (V (Proc.devRef .tc main_arg0) : Arr S65536x256) (V (Proc.devRef .tc main_arg1) : Arr S3x1024x256) (V (Proc.devRef .tc main_arg2) : Arr S3x1024x256) (V (Proc.devRef .tc main_arg3) : Arr S3x1024) (V (Proc.devRef .tc main_arg4) : Arr S3x1024) 2 (V (Proc.devRef .tc main_v159) : Arr S65536x256) slices_S3x1024x256_S1x1024x256_2_0_0 slices_S3x1024_S1x1024_2_0) (V (Proc.devRef .tc main_v169) : Arr S65536x256)) := by
  after_results_simp
  rfl

set_option maxRecDepth 8192 in
theorem G306 : (after (opsG (F := Ideal)) V (Proc.devRef .tc main_v306) : Arr S65536x20) = out20R (midR (V (Proc.devRef .tc main_v231) : Arr S65536x256) (wT256 2 (V (Proc.devRef .tc main_arg9) : Arr S3x256x256) slices_S3x256x256_S1x256x256_2_0_0) (bRow256 2 (V (Proc.devRef .tc main_arg10) : Arr S3x256) slices_S3x256_S1x256_2_0)) (V (Proc.devRef .tc main_arg15) : Arr S20x256) (V (Proc.devRef .tc main_arg16) : Arr S20) := by
  after_results_simp
  rfl

end Cert.RefSide

end
-- ==== Proof.RefPass1.lean ====
/-
  A stretch leaves alone every buffer it does not write: the argument arrays, and the values of earlier stretches that
  later ones read (stretches A, B, C).
-/
import proofs.«168260_j24026047054250_2_alg».proof.Proof.RefProg
import Idealize.ShloMosaic.PureOps.Ideal

noncomputable section

namespace Cert.RefSide

open Cert.ReferenceIdeal Cert.ReferenceIdeal.Gen Idealize.ShloMosaic Idealize.ShloMosaic.TcCoe Idealize.SL.Sem Idealize.ShloMosaic.StableHlo

variable (V : Valuation τ sig (Elt Ideal))

set_option maxRecDepth 8192 in
theorem passA_a0 : after (opsA (F := Ideal)) V (Proc.devRef .tc main_arg0) = V (Proc.devRef .tc main_arg0) := by
  after_results_simp

set_option maxRecDepth 8192 in
theorem passA_a1 : after (opsA (F := Ideal)) V (Proc.devRef .tc main_arg1) = V (Proc.devRef .tc main_arg1) := by
  after_results_simp

set_option maxRecDepth 8192 in
theorem passA_a2 : after (opsA (F := Ideal)) V (Proc.devRef .tc main_arg2) = V (Proc.devRef .tc main_arg2) := by
  after_results_simp

set_option maxRecDepth 8192 in
theorem passA_a3 : after (opsA (F := Ideal)) V (Proc.devRef .tc main_arg3) = V (Proc.devRef .tc main_arg3) := by
  after_results_simp

set_option maxRecDepth 8192 in
theorem passA_a4 : after (opsA (F := Ideal)) V (Proc.devRef .tc main_arg4) = V (Proc.devRef .tc main_arg4) := by
  after_results_simp

set_option maxRecDepth 8192 in
theorem passA_a5 : after (opsA (F := Ideal)) V (Proc.devRef .tc main_arg5) = V (Proc.devRef .tc main_arg5) := by
  after_results_simp

set_option maxRecDepth 8192 in
theorem passA_a6 : after (opsA (F := Ideal)) V (Proc.devRef .tc main_arg6) = V (Proc.devRef .tc main_arg6) := by
  after_results_simp

set_option maxRecDepth 8192 in
theorem passA_a7 : after (opsA (F := Ideal)) V (Proc.devRef .tc main_arg7) = V (Proc.devRef .tc main_arg7) := by
  after_results_simp

set_option maxRecDepth 8192 in
theorem passA_a8 : after (opsA (F := Ideal)) V (Proc.devRef .tc main_arg8) = V (Proc.devRef .tc main_arg8) := by
  after_results_simp

set_option maxRecDepth 8192 in
theorem passA_a9 : after (opsA (F := Ideal)) V (Proc.devRef .tc main_arg9) = V (Proc.devRef .tc main_arg9) := by
  after_results_simp

set_option maxRecDepth 8192 in
theorem passA_a10 : after (opsA (F := Ideal)) V (Proc.devRef .tc main_arg10) = V (Proc.devRef .tc main_arg10) := by
  after_results_simp

set_option maxRecDepth 8192 in
theorem passA_a11 : after (opsA (F := Ideal)) V (Proc.devRef .tc main_arg11) = V (Proc.devRef .tc main_arg11) := by
  after_results_simp

set_option maxRecDepth 8192 in
theorem passA_a12 : after (opsA (F := Ideal)) V (Proc.devRef .tc main_arg12) = V (Proc.devRef .tc main_arg12) := by
  after_results_simp

set_option maxRecDepth 8192 in
theorem passA_a13 : after (opsA (F := Ideal)) V (Proc.devRef .tc main_arg13) = V (Proc.devRef .tc main_arg13) := by
  after_results_simp

set_option maxRecDepth 8192 in
theorem passA_a14 : after (opsA (F := Ideal)) V (Proc.devRef .tc main_arg14) = V (Proc.devRef .tc main_arg14) := by
  after_results_simp

set_option maxRecDepth 8192 in
theorem passA_a15 : after (opsA (F := Ideal)) V (Proc.devRef .tc main_arg15) = V (Proc.devRef .tc main_arg15) := by
  after_results_simp

set_option maxRecDepth 8192 in
theorem passA_a16 : after (opsA (F := Ideal)) V (Proc.devRef .tc main_arg16) = V (Proc.devRef .tc main_arg16) := by
  after_results_simp

set_option maxRecDepth 8192 in
theorem passB_a0 : after (opsB (F := Ideal)) V (Proc.devRef .tc main_arg0) = V (Proc.devRef .tc main_arg0) := by
  after_results_simp

set_option maxRecDepth 8192 in
theorem passB_a1 : after (opsB (F := Ideal)) V (Proc.devRef .tc main_arg1) = V (Proc.devRef .tc main_arg1) := by
  after_results_simp

set_option maxRecDepth 8192 in
theorem passB_a2 : after (opsB (F := Ideal)) V (Proc.devRef .tc main_arg2) = V (Proc.devRef .tc main_arg2) := by
  after_results_simp

set_option maxRecDepth 8192 in
theorem passB_a3 : after (opsB (F := Ideal)) V (Proc.devRef .tc main_arg3) = V (Proc.devRef .tc main_arg3) := by
  after_results_simp

set_option maxRecDepth 8192 in
theorem passB_a4 : after (opsB (F := Ideal)) V (Proc.devRef .tc main_arg4) = V (Proc.devRef .tc main_arg4) := by
  after_results_simp

set_option maxRecDepth 8192 in
theorem passB_a5 : after (opsB (F := Ideal)) V (Proc.devRef .tc main_arg5) = V (Proc.devRef .tc main_arg5) := by
  after_results_simp

set_option maxRecDepth 8192 in
theorem passB_a6 : after (opsB (F := Ideal)) V (Proc.devRef .tc main_arg6) = V (Proc.devRef .tc main_arg6) := by
  after_results_simp

set_option maxRecDepth 8192 in
theorem passB_a7 : after (opsB (F := Ideal)) V (Proc.devRef .tc main_arg7) = V (Proc.devRef .tc main_arg7) := by
  after_results_simp

set_option maxRecDepth 8192 in
theorem passB_a8 : after (opsB (F := Ideal)) V (Proc.devRef .tc main_arg8) = V (Proc.devRef .tc main_arg8) := by
  after_results_simp

set_option maxRecDepth 8192 in
theorem passB_a9 : after (opsB (F := Ideal)) V (Proc.devRef .tc main_arg9) = V (Proc.devRef .tc main_arg9) := by
  after_results_simp

set_option maxRecDepth 8192 in
theorem passB_a10 : after (opsB (F := Ideal)) V (Proc.devRef .tc main_arg10) = V (Proc.devRef .tc main_arg10) := by
  after_results_simp

set_option maxRecDepth 8192 in
theorem passB_a11 : after (opsB (F := Ideal)) V (Proc.devRef .tc main_arg11) = V (Proc.devRef .tc main_arg11) := by
  after_results_simp

set_option maxRecDepth 8192 in
theorem passB_a12 : after (opsB (F := Ideal)) V (Proc.devRef .tc main_arg12) = V (Proc.devRef .tc main_arg12) := by
  after_results_simp

set_option maxRecDepth 8192 in
theorem passB_a13 : after (opsB (F := Ideal)) V (Proc.devRef .tc main_arg13) = V (Proc.devRef .tc main_arg13) := by
  after_results_simp

set_option maxRecDepth 8192 in
theorem passB_a14 : after (opsB (F := Ideal)) V (Proc.devRef .tc main_arg14) = V (Proc.devRef .tc main_arg14) := by
  after_results_simp

set_option maxRecDepth 8192 in
theorem passB_a15 : after (opsB (F := Ideal)) V (Proc.devRef .tc main_arg15) = V (Proc.devRef .tc main_arg15) := by
  after_results_simp

set_option maxRecDepth 8192 in
theorem passB_a16 : after (opsB (F := Ideal)) V (Proc.devRef .tc main_arg16) = V (Proc.devRef .tc main_arg16) := by
  after_results_simp

set_option maxRecDepth 8192 in
theorem passC_a0 : after (opsC (F := Ideal)) V (Proc.devRef .tc main_arg0) = V (Proc.devRef .tc main_arg0) := by
  after_results_simp

set_option maxRecDepth 8192 in
theorem passC_a1 : after (opsC (F := Ideal)) V (Proc.devRef .tc main_arg1) = V (Proc.devRef .tc main_arg1) := by
  after_results_simp

set_option maxRecDepth 8192 in
theorem passC_a2 : after (opsC (F := Ideal)) V (Proc.devRef .tc main_arg2) = V (Proc.devRef .tc main_arg2) := by
  after_results_simp

set_option maxRecDepth 8192 in
theorem passC_a3 : after (opsC (F := Ideal)) V (Proc.devRef .tc main_arg3) = V (Proc.devRef .tc main_arg3) := by
  after_results_simp

set_option maxRecDepth 8192 in
theorem passC_a4 : after (opsC (F := Ideal)) V (Proc.devRef .tc main_arg4) = V (Proc.devRef .tc main_arg4) := by
  after_results_simp

set_option maxRecDepth 8192 in
theorem passC_a5 : after (opsC (F := Ideal)) V (Proc.devRef .tc main_arg5) = V (Proc.devRef .tc main_arg5) := by
  after_results_simp

set_option maxRecDepth 8192 in
theorem passC_a6 : after (opsC (F := Ideal)) V (Proc.devRef .tc main_arg6) = V (Proc.devRef .tc main_arg6) := by
  after_results_simp

set_option maxRecDepth 8192 in
theorem passC_a7 : after (opsC (F := Ideal)) V (Proc.devRef .tc main_arg7) = V (Proc.devRef .tc main_arg7) := by
  after_results_simp

set_option maxRecDepth 8192 in
theorem passC_a8 : after (opsC (F := Ideal)) V (Proc.devRef .tc main_arg8) = V (Proc.devRef .tc main_arg8) := by
  after_results_simp

set_option maxRecDepth 8192 in
theorem passC_a9 : after (opsC (F := Ideal)) V (Proc.devRef .tc main_arg9) = V (Proc.devRef .tc main_arg9) := by
  after_results_simp

set_option maxRecDepth 8192 in
theorem passC_a10 : after (opsC (F := Ideal)) V (Proc.devRef .tc main_arg10) = V (Proc.devRef .tc main_arg10) := by
  after_results_simp

set_option maxRecDepth 8192 in
theorem passC_a11 : after (opsC (F := Ideal)) V (Proc.devRef .tc main_arg11) = V (Proc.devRef .tc main_arg11) := by
  after_results_simp

set_option maxRecDepth 8192 in
theorem passC_a12 : after (opsC (F := Ideal)) V (Proc.devRef .tc main_arg12) = V (Proc.devRef .tc main_arg12) := by
  after_results_simp

set_option maxRecDepth 8192 in
theorem passC_a13 : after (opsC (F := Ideal)) V (Proc.devRef .tc main_arg13) = V (Proc.devRef .tc main_arg13) := by
  after_results_simp

set_option maxRecDepth 8192 in
theorem passC_a14 : after (opsC (F := Ideal)) V (Proc.devRef .tc main_arg14) = V (Proc.devRef .tc main_arg14) := by
  after_results_simp

set_option maxRecDepth 8192 in
theorem passC_a15 : after (opsC (F := Ideal)) V (Proc.devRef .tc main_arg15) = V (Proc.devRef .tc main_arg15) := by
  after_results_simp

set_option maxRecDepth 8192 in
theorem passC_a16 : after (opsC (F := Ideal)) V (Proc.devRef .tc main_arg16) = V (Proc.devRef .tc main_arg16) := by
  after_results_simp

set_option maxRecDepth 8192 in
theorem passB_v39 : after (opsB (F := Ideal)) V (Proc.devRef .tc main_v39) = V (Proc.devRef .tc main_v39) := by
  after_results_simp

set_option maxRecDepth 8192 in
theorem passB_v47 : after (opsB (F := Ideal)) V (Proc.devRef .tc main_v47) = V (Proc.devRef .tc main_v47) := by
  after_results_simp

set_option maxRecDepth 8192 in
theorem passC_v39 : after (opsC (F := Ideal)) V (Proc.devRef .tc main_v39) = V (Proc.devRef .tc main_v39) := by
  after_results_simp

set_option maxRecDepth 8192 in
theorem passC_v47 : after (opsC (F := Ideal)) V (Proc.devRef .tc main_v47) = V (Proc.devRef .tc main_v47) := by
  after_results_simp

set_option maxRecDepth 8192 in
theorem passC_v101 : after (opsC (F := Ideal)) V (Proc.devRef .tc main_v101) = V (Proc.devRef .tc main_v101) := by
  after_results_simp

set_option maxRecDepth 8192 in
theorem passC_v109 : after (opsC (F := Ideal)) V (Proc.devRef .tc main_v109) = V (Proc.devRef .tc main_v109) := by
  after_results_simp

set_option maxRecDepth 8192 in
theorem passB_v62 : after (opsB (F := Ideal)) V (Proc.devRef .tc main_v62) = V (Proc.devRef .tc main_v62) := by
  after_results_simp

set_option maxRecDepth 8192 in
theorem passC_v62 : after (opsC (F := Ideal)) V (Proc.devRef .tc main_v62) = V (Proc.devRef .tc main_v62) := by
  after_results_simp

end Cert.RefSide

end
-- ==== Proof.RefPass2.lean ====
/-
  A stretch leaves alone every buffer it does not write: the argument arrays, and the values of earlier stretches that
  later ones read (stretches D, E, F, G).
-/
import proofs.«168260_j24026047054250_2_alg».proof.Proof.RefProg
import Idealize.ShloMosaic.PureOps.Ideal

noncomputable section

namespace Cert.RefSide

open Cert.ReferenceIdeal Cert.ReferenceIdeal.Gen Idealize.ShloMosaic Idealize.ShloMosaic.TcCoe Idealize.SL.Sem Idealize.ShloMosaic.StableHlo

variable (V : Valuation τ sig (Elt Ideal))

set_option maxRecDepth 8192 in
theorem passD_a0 : after (opsD (F := Ideal)) V (Proc.devRef .tc main_arg0) = V (Proc.devRef .tc main_arg0) := by
  after_results_simp

set_option maxRecDepth 8192 in
theorem passD_a1 : after (opsD (F := Ideal)) V (Proc.devRef .tc main_arg1) = V (Proc.devRef .tc main_arg1) := by
  after_results_simp

set_option maxRecDepth 8192 in
theorem passD_a2 : after (opsD (F := Ideal)) V (Proc.devRef .tc main_arg2) = V (Proc.devRef .tc main_arg2) := by
  after_results_simp

set_option maxRecDepth 8192 in
theorem passD_a3 : after (opsD (F := Ideal)) V (Proc.devRef .tc main_arg3) = V (Proc.devRef .tc main_arg3) := by
  after_results_simp

set_option maxRecDepth 8192 in
theorem passD_a4 : after (opsD (F := Ideal)) V (Proc.devRef .tc main_arg4) = V (Proc.devRef .tc main_arg4) := by
  after_results_simp

set_option maxRecDepth 8192 in
theorem passD_a5 : after (opsD (F := Ideal)) V (Proc.devRef .tc main_arg5) = V (Proc.devRef .tc main_arg5) := by
  after_results_simp

set_option maxRecDepth 8192 in
theorem passD_a6 : after (opsD (F := Ideal)) V (Proc.devRef .tc main_arg6) = V (Proc.devRef .tc main_arg6) := by
  after_results_simp

set_option maxRecDepth 8192 in
theorem passD_a7 : after (opsD (F := Ideal)) V (Proc.devRef .tc main_arg7) = V (Proc.devRef .tc main_arg7) := by
  after_results_simp

set_option maxRecDepth 8192 in
theorem passD_a8 : after (opsD (F := Ideal)) V (Proc.devRef .tc main_arg8) = V (Proc.devRef .tc main_arg8) := by
  after_results_simp

set_option maxRecDepth 8192 in
theorem passD_a9 : after (opsD (F := Ideal)) V (Proc.devRef .tc main_arg9) = V (Proc.devRef .tc main_arg9) := by
  after_results_simp

set_option maxRecDepth 8192 in
theorem passD_a10 : after (opsD (F := Ideal)) V (Proc.devRef .tc main_arg10) = V (Proc.devRef .tc main_arg10) := by
  after_results_simp

set_option maxRecDepth 8192 in
theorem passD_a11 : after (opsD (F := Ideal)) V (Proc.devRef .tc main_arg11) = V (Proc.devRef .tc main_arg11) := by
  after_results_simp

set_option maxRecDepth 8192 in
theorem passD_a12 : after (opsD (F := Ideal)) V (Proc.devRef .tc main_arg12) = V (Proc.devRef .tc main_arg12) := by
  after_results_simp

set_option maxRecDepth 8192 in
theorem passD_a13 : after (opsD (F := Ideal)) V (Proc.devRef .tc main_arg13) = V (Proc.devRef .tc main_arg13) := by
  after_results_simp

set_option maxRecDepth 8192 in
theorem passD_a14 : after (opsD (F := Ideal)) V (Proc.devRef .tc main_arg14) = V (Proc.devRef .tc main_arg14) := by
  after_results_simp

set_option maxRecDepth 8192 in
theorem passD_a15 : after (opsD (F := Ideal)) V (Proc.devRef .tc main_arg15) = V (Proc.devRef .tc main_arg15) := by
  after_results_simp

set_option maxRecDepth 8192 in
theorem passD_a16 : after (opsD (F := Ideal)) V (Proc.devRef .tc main_arg16) = V (Proc.devRef .tc main_arg16) := by
  after_results_simp

set_option maxRecDepth 8192 in
theorem passE_a0 : after (opsE (F := Ideal)) V (Proc.devRef .tc main_arg0) = V (Proc.devRef .tc main_arg0) := by
  after_results_simp

set_option maxRecDepth 8192 in
theorem passE_a1 : after (opsE (F := Ideal)) V (Proc.devRef .tc main_arg1) = V (Proc.devRef .tc main_arg1) := by
  after_results_simp

set_option maxRecDepth 8192 in
theorem passE_a2 : after (opsE (F := Ideal)) V (Proc.devRef .tc main_arg2) = V (Proc.devRef .tc main_arg2) := by
  after_results_simp

set_option maxRecDepth 8192 in
theorem passE_a3 : after (opsE (F := Ideal)) V (Proc.devRef .tc main_arg3) = V (Proc.devRef .tc main_arg3) := by
  after_results_simp

set_option maxRecDepth 8192 in
theorem passE_a4 : after (opsE (F := Ideal)) V (Proc.devRef .tc main_arg4) = V (Proc.devRef .tc main_arg4) := by
  after_results_simp

set_option maxRecDepth 8192 in
theorem passE_a5 : after (opsE (F := Ideal)) V (Proc.devRef .tc main_arg5) = V (Proc.devRef .tc main_arg5) := by
  after_results_simp

set_option maxRecDepth 8192 in
theorem passE_a6 : after (opsE (F := Ideal)) V (Proc.devRef .tc main_arg6) = V (Proc.devRef .tc main_arg6) := by
  after_results_simp

set_option maxRecDepth 8192 in
theorem passE_a7 : after (opsE (F := Ideal)) V (Proc.devRef .tc main_arg7) = V (Proc.devRef .tc main_arg7) := by
  after_results_simp

set_option maxRecDepth 8192 in
theorem passE_a8 : after (opsE (F := Ideal)) V (Proc.devRef .tc main_arg8) = V (Proc.devRef .tc main_arg8) := by
  after_results_simp

set_option maxRecDepth 8192 in
theorem passE_a9 : after (opsE (F := Ideal)) V (Proc.devRef .tc main_arg9) = V (Proc.devRef .tc main_arg9) := by
  after_results_simp

set_option maxRecDepth 8192 in
theorem passE_a10 : after (opsE (F := Ideal)) V (Proc.devRef .tc main_arg10) = V (Proc.devRef .tc main_arg10) := by
  after_results_simp

set_option maxRecDepth 8192 in
theorem passE_a11 : after (opsE (F := Ideal)) V (Proc.devRef .tc main_arg11) = V (Proc.devRef .tc main_arg11) := by
  after_results_simp

set_option maxRecDepth 8192 in
theorem passE_a12 : after (opsE (F := Ideal)) V (Proc.devRef .tc main_arg12) = V (Proc.devRef .tc main_arg12) := by
  after_results_simp

set_option maxRecDepth 8192 in
theorem passE_a13 : after (opsE (F := Ideal)) V (Proc.devRef .tc main_arg13) = V (Proc.devRef .tc main_arg13) := by
  after_results_simp

set_option maxRecDepth 8192 in
theorem passE_a14 : after (opsE (F := Ideal)) V (Proc.devRef .tc main_arg14) = V (Proc.devRef .tc main_arg14) := by
  after_results_simp

set_option maxRecDepth 8192 in
theorem passE_a15 : after (opsE (F := Ideal)) V (Proc.devRef .tc main_arg15) = V (Proc.devRef .tc main_arg15) := by
  after_results_simp

set_option maxRecDepth 8192 in
theorem passE_a16 : after (opsE (F := Ideal)) V (Proc.devRef .tc main_arg16) = V (Proc.devRef .tc main_arg16) := by
  after_results_simp

set_option maxRecDepth 8192 in
theorem passF_a0 : after (opsF (F := Ideal)) V (Proc.devRef .tc main_arg0) = V (Proc.devRef .tc main_arg0) := by
  after_results_simp

set_option maxRecDepth 8192 in
theorem passF_a1 : after (opsF (F := Ideal)) V (Proc.devRef .tc main_arg1) = V (Proc.devRef .tc main_arg1) := by
  after_results_simp

set_option maxRecDepth 8192 in
theorem passF_a2 : after (opsF (F := Ideal)) V (Proc.devRef .tc main_arg2) = V (Proc.devRef .tc main_arg2) := by
  after_results_simp

set_option maxRecDepth 8192 in
theorem passF_a3 : after (opsF (F := Ideal)) V (Proc.devRef .tc main_arg3) = V (Proc.devRef .tc main_arg3) := by
  after_results_simp

set_option maxRecDepth 8192 in
theorem passF_a4 : after (opsF (F := Ideal)) V (Proc.devRef .tc main_arg4) = V (Proc.devRef .tc main_arg4) := by
  after_results_simp

set_option maxRecDepth 8192 in
theorem passF_a5 : after (opsF (F := Ideal)) V (Proc.devRef .tc main_arg5) = V (Proc.devRef .tc main_arg5) := by
  after_results_simp

set_option maxRecDepth 8192 in
theorem passF_a6 : after (opsF (F := Ideal)) V (Proc.devRef .tc main_arg6) = V (Proc.devRef .tc main_arg6) := by
  after_results_simp

set_option maxRecDepth 8192 in
theorem passF_a7 : after (opsF (F := Ideal)) V (Proc.devRef .tc main_arg7) = V (Proc.devRef .tc main_arg7) := by
  after_results_simp

set_option maxRecDepth 8192 in
theorem passF_a8 : after (opsF (F := Ideal)) V (Proc.devRef .tc main_arg8) = V (Proc.devRef .tc main_arg8) := by
  after_results_simp

set_option maxRecDepth 8192 in
theorem passF_a9 : after (opsF (F := Ideal)) V (Proc.devRef .tc main_arg9) = V (Proc.devRef .tc main_arg9) := by
  after_results_simp

set_option maxRecDepth 8192 in
theorem passF_a10 : after (opsF (F := Ideal)) V (Proc.devRef .tc main_arg10) = V (Proc.devRef .tc main_arg10) := by
  after_results_simp

set_option maxRecDepth 8192 in
theorem passF_a11 : after (opsF (F := Ideal)) V (Proc.devRef .tc main_arg11) = V (Proc.devRef .tc main_arg11) := by
  after_results_simp

set_option maxRecDepth 8192 in
theorem passF_a12 : after (opsF (F := Ideal)) V (Proc.devRef .tc main_arg12) = V (Proc.devRef .tc main_arg12) := by
  after_results_simp

set_option maxRecDepth 8192 in
theorem passF_a13 : after (opsF (F := Ideal)) V (Proc.devRef .tc main_arg13) = V (Proc.devRef .tc main_arg13) := by
  after_results_simp

set_option maxRecDepth 8192 in
theorem passF_a14 : after (opsF (F := Ideal)) V (Proc.devRef .tc main_arg14) = V (Proc.devRef .tc main_arg14) := by
  after_results_simp

set_option maxRecDepth 8192 in
theorem passF_a15 : after (opsF (F := Ideal)) V (Proc.devRef .tc main_arg15) = V (Proc.devRef .tc main_arg15) := by
  after_results_simp

set_option maxRecDepth 8192 in
theorem passF_a16 : after (opsF (F := Ideal)) V (Proc.devRef .tc main_arg16) = V (Proc.devRef .tc main_arg16) := by
  after_results_simp

set_option maxRecDepth 8192 in
theorem passG_a0 : after (opsG (F := Ideal)) V (Proc.devRef .tc main_arg0) = V (Proc.devRef .tc main_arg0) := by
  after_results_simp

set_option maxRecDepth 8192 in
theorem passG_a1 : after (opsG (F := Ideal)) V (Proc.devRef .tc main_arg1) = V (Proc.devRef .tc main_arg1) := by
  after_results_simp

set_option maxRecDepth 8192 in
theorem passG_a2 : after (opsG (F := Ideal)) V (Proc.devRef .tc main_arg2) = V (Proc.devRef .tc main_arg2) := by
  after_results_simp

set_option maxRecDepth 8192 in
theorem passG_a3 : after (opsG (F := Ideal)) V (Proc.devRef .tc main_arg3) = V (Proc.devRef .tc main_arg3) := by
  after_results_simp

set_option maxRecDepth 8192 in
theorem passG_a4 : after (opsG (F := Ideal)) V (Proc.devRef .tc main_arg4) = V (Proc.devRef .tc main_arg4) := by
  after_results_simp

set_option maxRecDepth 8192 in
theorem passG_a5 : after (opsG (F := Ideal)) V (Proc.devRef .tc main_arg5) = V (Proc.devRef .tc main_arg5) := by
  after_results_simp

set_option maxRecDepth 8192 in
theorem passG_a6 : after (opsG (F := Ideal)) V (Proc.devRef .tc main_arg6) = V (Proc.devRef .tc main_arg6) := by
  after_results_simp

set_option maxRecDepth 8192 in
theorem passG_a7 : after (opsG (F := Ideal)) V (Proc.devRef .tc main_arg7) = V (Proc.devRef .tc main_arg7) := by
  after_results_simp

set_option maxRecDepth 8192 in
theorem passG_a8 : after (opsG (F := Ideal)) V (Proc.devRef .tc main_arg8) = V (Proc.devRef .tc main_arg8) := by
  after_results_simp

set_option maxRecDepth 8192 in
theorem passG_a9 : after (opsG (F := Ideal)) V (Proc.devRef .tc main_arg9) = V (Proc.devRef .tc main_arg9) := by
  after_results_simp

set_option maxRecDepth 8192 in
theorem passG_a10 : after (opsG (F := Ideal)) V (Proc.devRef .tc main_arg10) = V (Proc.devRef .tc main_arg10) := by
  after_results_simp

set_option maxRecDepth 8192 in
theorem passG_a11 : after (opsG (F := Ideal)) V (Proc.devRef .tc main_arg11) = V (Proc.devRef .tc main_arg11) := by
  after_results_simp

set_option maxRecDepth 8192 in
theorem passG_a12 : after (opsG (F := Ideal)) V (Proc.devRef .tc main_arg12) = V (Proc.devRef .tc main_arg12) := by
  after_results_simp

set_option maxRecDepth 8192 in
theorem passG_a13 : after (opsG (F := Ideal)) V (Proc.devRef .tc main_arg13) = V (Proc.devRef .tc main_arg13) := by
  after_results_simp

set_option maxRecDepth 8192 in
theorem passG_a14 : after (opsG (F := Ideal)) V (Proc.devRef .tc main_arg14) = V (Proc.devRef .tc main_arg14) := by
  after_results_simp

set_option maxRecDepth 8192 in
theorem passG_a15 : after (opsG (F := Ideal)) V (Proc.devRef .tc main_arg15) = V (Proc.devRef .tc main_arg15) := by
  after_results_simp

set_option maxRecDepth 8192 in
theorem passG_a16 : after (opsG (F := Ideal)) V (Proc.devRef .tc main_arg16) = V (Proc.devRef .tc main_arg16) := by
  after_results_simp

set_option maxRecDepth 8192 in
theorem passF_v231 : after (opsF (F := Ideal)) V (Proc.devRef .tc main_v231) = V (Proc.devRef .tc main_v231) := by
  after_results_simp

set_option maxRecDepth 8192 in
theorem passD_v62 : after (opsD (F := Ideal)) V (Proc.devRef .tc main_v62) = V (Proc.devRef .tc main_v62) := by
  after_results_simp

set_option maxRecDepth 8192 in
theorem passE_v62 : after (opsE (F := Ideal)) V (Proc.devRef .tc main_v62) = V (Proc.devRef .tc main_v62) := by
  after_results_simp

set_option maxRecDepth 8192 in
theorem passF_v62 : after (opsF (F := Ideal)) V (Proc.devRef .tc main_v62) = V (Proc.devRef .tc main_v62) := by
  after_results_simp

set_option maxRecDepth 8192 in
theorem passG_v62 : after (opsG (F := Ideal)) V (Proc.devRef .tc main_v62) = V (Proc.devRef .tc main_v62) := by
  after_results_simp

set_option maxRecDepth 8192 in
theorem passE_v184 : after (opsE (F := Ideal)) V (Proc.devRef .tc main_v184) = V (Proc.devRef .tc main_v184) := by
  after_results_simp

set_option maxRecDepth 8192 in
theorem passF_v184 : after (opsF (F := Ideal)) V (Proc.devRef .tc main_v184) = V (Proc.devRef .tc main_v184) := by
  after_results_simp

set_option maxRecDepth 8192 in
theorem passG_v184 : after (opsG (F := Ideal)) V (Proc.devRef .tc main_v184) = V (Proc.devRef .tc main_v184) := by
  after_results_simp

end Cert.RefSide

end
-- ==== Proof.RefRun.lean ====
/-
  The reference's run, stretch by stretch.

  The whole line is the seven stretches in order, so what it leaves in a buffer is what the last stretch that writes the
  buffer leaves there, from contents the earlier stretches left: each result unwinds to one nested term of the layer
  functions over the argument arrays, and the arguments, which no stretch writes, are left as they were.
-/
import proofs.«168260_j24026047054250_2_alg».proof.Proof.RefStretch
import proofs.«168260_j24026047054250_2_alg».proof.Proof.RefPass1
import proofs.«168260_j24026047054250_2_alg».proof.Proof.RefPass2

noncomputable section

namespace Cert.RefSide

open Cert.ReferenceIdeal Cert.ReferenceIdeal.Gen Idealize.ShloMosaic Idealize.ShloMosaic.TcCoe Idealize.SL.Sem Idealize.ShloMosaic.StableHlo

variable (V : Valuation τ sig (Elt Ideal))

/-- The first result after the whole line. -/
theorem W62 : (after (ops (F := Ideal)) V (Proc.devRef .tc main_v62) : Arr S65536x54)
    = OUT0 (V (Proc.devRef .tc main_arg0) : Arr S65536x256) (V (Proc.devRef .tc main_arg1) : Arr S3x1024x256) (V (Proc.devRef .tc main_arg2) : Arr S3x1024x256) (V (Proc.devRef .tc main_arg3) : Arr S3x1024) (V (Proc.devRef .tc main_arg4) : Arr S3x1024) (V (Proc.devRef .tc main_arg9) : Arr S3x256x256) (V (Proc.devRef .tc main_arg10) : Arr S3x256) (V (Proc.devRef .tc main_arg11) : Arr S54x256) (V (Proc.devRef .tc main_arg12) : Arr S54) := by
  rw [ops_eq]
  simp only [after_append]
  rw [passG_v62, passF_v62, passE_v62, passD_v62, passC_v62, passB_v62]
  exact A62 V

/-- The second result after the whole line. -/
theorem W184 : (after (ops (F := Ideal)) V (Proc.devRef .tc main_v184) : Arr S65536x23)
    = OUT1 (V (Proc.devRef .tc main_arg0) : Arr S65536x256) (V (Proc.devRef .tc main_arg1) : Arr S3x1024x256) (V (Proc.devRef .tc main_arg2) : Arr S3x1024x256) (V (Proc.devRef .tc main_arg3) : Arr S3x1024) (V (Proc.devRef .tc main_arg4) : Arr S3x1024) (V (Proc.devRef .tc main_arg9) : Arr S3x256x256) (V (Proc.devRef .tc main_arg10) : Arr S3x256) (V (Proc.devRef .tc main_arg13) : Arr S23x256) (V (Proc.devRef .tc main_arg14) : Arr S23) := by
  rw [ops_eq]
  simp only [after_append]
  rw [passG_v184, passF_v184, passE_v184, D184]
  rw [passC_v109, passC_a9, passC_a10, passC_a13, passC_a14]
  rw [B109, passB_a9, passB_a10, passB_a13, passB_a14]
  rw [A47, A39, passA_a0, passA_a1, passA_a2, passA_a3, passA_a4, passA_a9, passA_a10, passA_a13, passA_a14]
  rfl

/-- The third result after the whole line. -/
theorem W306 : (after (ops (F := Ideal)) V (Proc.devRef .tc main_v306) : Arr S65536x20)
    = OUT2 (V (Proc.devRef .tc main_arg0) : Arr S65536x256) (V (Proc.devRef .tc main_arg1) : Arr S3x1024x256) (V (Proc.devRef .tc main_arg2) : Arr S3x1024x256) (V (Proc.devRef .tc main_arg3) : Arr S3x1024) (V (Proc.devRef .tc main_arg4) : Arr S3x1024) (V (Proc.devRef .tc main_arg5) : Arr S3x3x256x256) (V (Proc.devRef .tc main_arg6) : Arr S3x3x256) (V (Proc.devRef .tc main_arg7) : Arr S3x3x256x256) (V (Proc.devRef .tc main_arg8) : Arr S3x3x256) (V (Proc.devRef .tc main_arg9) : Arr S3x256x256) (V (Proc.devRef .tc main_arg10) : Arr S3x256) (V (Proc.devRef .tc main_arg15) : Arr S20x256) (V (Proc.devRef .tc main_arg16) : Arr S20) := by
  rw [ops_eq]
  simp only [after_append]
  rw [G306, passF_v231, passF_a9, passF_a10, passF_a15, passF_a16]
  rw [E231, passE_a9, passE_a10, passE_a15, passE_a16]
  rw [D159, D169, passD_a0, passD_a1, passD_a2, passD_a3, passD_a4, passD_a9, passD_a10, passD_a15, passD_a16]
  rw [passC_v47, passC_v109, passC_v39, passC_v101, passC_a0, passC_a1, passC_a2, passC_a3, passC_a4, passC_a5, passC_a6, passC_a7, passC_a8, passC_a9, passC_a10, passC_a15, passC_a16]
  rw [B109, B101, passB_v47, passB_v39, passB_a0, passB_a1, passB_a2, passB_a3, passB_a4, passB_a5, passB_a6, passB_a7, passB_a8, passB_a9, passB_a10, passB_a15, passB_a16]
  rw [A47, A39, passA_a0, passA_a1, passA_a2, passA_a3, passA_a4, passA_a5, passA_a6, passA_a7, passA_a8, passA_a9, passA_a10, passA_a15, passA_a16]
  rfl

theorem Warg0 : after (ops (F := Ideal)) V (Proc.devRef .tc main_arg0) = V (Proc.devRef .tc main_arg0) := by
  rw [ops_eq]
  simp only [after_append]
  rw [passG_a0, passF_a0, passE_a0, passD_a0, passC_a0, passB_a0, passA_a0]

theorem Warg1 : after (ops (F := Ideal)) V (Proc.devRef .tc main_arg1) = V (Proc.devRef .tc main_arg1) := by
  rw [ops_eq]
  simp only [after_append]
  rw [passG_a1, passF_a1, passE_a1, passD_a1, passC_a1, passB_a1, passA_a1]

theorem Warg2 : after (ops (F := Ideal)) V (Proc.devRef .tc main_arg2) = V (Proc.devRef .tc main_arg2) := by
  rw [ops_eq]
  simp only [after_append]
  rw [passG_a2, passF_a2, passE_a2, passD_a2, passC_a2, passB_a2, passA_a2]

theorem Warg3 : after (ops (F := Ideal)) V (Proc.devRef .tc main_arg3) = V (Proc.devRef .tc main_arg3) := by
  rw [ops_eq]
  simp only [after_append]
  rw [passG_a3, passF_a3, passE_a3, passD_a3, passC_a3, passB_a3, passA_a3]

theorem Warg4 : after (ops (F := Ideal)) V (Proc.devRef .tc main_arg4) = V (Proc.devRef .tc main_arg4) := by
  rw [ops_eq]
  simp only [after_append]
  rw [passG_a4, passF_a4, passE_a4, passD_a4, passC_a4, passB_a4, passA_a4]

theorem Warg5 : after (ops (F := Ideal)) V (Proc.devRef .tc main_arg5) = V (Proc.devRef .tc main_arg5) := by
  rw [ops_eq]
  simp only [after_append]
  rw [passG_a5, passF_a5, passE_a5, passD_a5, passC_a5, passB_a5, passA_a5]

theorem Warg6 : after (ops (F := Ideal)) V (Proc.devRef .tc main_arg6) = V (Proc.devRef .tc main_arg6) := by
  rw [ops_eq]
  simp only [after_append]
  rw [passG_a6, passF_a6, passE_a6, passD_a6, passC_a6, passB_a6, passA_a6]

theorem Warg7 : after (ops (F := Ideal)) V (Proc.devRef .tc main_arg7) = V (Proc.devRef .tc main_arg7) := by
  rw [ops_eq]
  simp only [after_append]
  rw [passG_a7, passF_a7, passE_a7, passD_a7, passC_a7, passB_a7, passA_a7]

theorem Warg8 : after (ops (F := Ideal)) V (Proc.devRef .tc main_arg8) = V (Proc.devRef .tc main_arg8) := by
  rw [ops_eq]
  simp only [after_append]
  rw [passG_a8, passF_a8, passE_a8, passD_a8, passC_a8, passB_a8, passA_a8]

theorem Warg9 : after (ops (F := Ideal)) V (Proc.devRef .tc main_arg9) = V (Proc.devRef .tc main_arg9) := by
  rw [ops_eq]
  simp only [after_append]
  rw [passG_a9, passF_a9, passE_a9, passD_a9, passC_a9, passB_a9, passA_a9]

theorem Warg10 : after (ops (F := Ideal)) V (Proc.devRef .tc main_arg10) = V (Proc.devRef .tc main_arg10) := by
  rw [ops_eq]
  simp only [after_append]
  rw [passG_a10, passF_a10, passE_a10, passD_a10, passC_a10, passB_a10, passA_a10]

theorem Warg11 : after (ops (F := Ideal)) V (Proc.devRef .tc main_arg11) = V (Proc.devRef .tc main_arg11) := by
  rw [ops_eq]
  simp only [after_append]
  rw [passG_a11, passF_a11, passE_a11, passD_a11, passC_a11, passB_a11, passA_a11]

theorem Warg12 : after (ops (F := Ideal)) V (Proc.devRef .tc main_arg12) = V (Proc.devRef .tc main_arg12) := by
  rw [ops_eq]
  simp only [after_append]
  rw [passG_a12, passF_a12, passE_a12, passD_a12, passC_a12, passB_a12, passA_a12]

theorem Warg13 : after (ops (F := Ideal)) V (Proc.devRef .tc main_arg13) = V (Proc.devRef .tc main_arg13) := by
  rw [ops_eq]
  simp only [after_append]
  rw [passG_a13, passF_a13, passE_a13, passD_a13, passC_a13, passB_a13, passA_a13]

theorem Warg14 : after (ops (F := Ideal)) V (Proc.devRef .tc main_arg14) = V (Proc.devRef .tc main_arg14) := by
  rw [ops_eq]
  simp only [after_append]
  rw [passG_a14, passF_a14, passE_a14, passD_a14, passC_a14, passB_a14, passA_a14]

theorem Warg15 : after (ops (F := Ideal)) V (Proc.devRef .tc main_arg15) = V (Proc.devRef .tc main_arg15) := by
  rw [ops_eq]
  simp only [after_append]
  rw [passG_a15, passF_a15, passE_a15, passD_a15, passC_a15, passB_a15, passA_a15]

theorem Warg16 : after (ops (F := Ideal)) V (Proc.devRef .tc main_arg16) = V (Proc.devRef .tc main_arg16) := by
  rw [ops_eq]
  simp only [after_append]
  rw [passG_a16, passF_a16, passE_a16, passD_a16, passC_a16, passB_a16, passA_a16]

/-! ## Every operation determines its results -/

set_option maxRecDepth 8192 in
theorem opsA_fresh : ∀ op ∈ (opsA : List (HloOp τ sig (Elt Ideal))), op.fresh = ∅ := by
  intro _ h; (repeat (cases h with | head => rfl | tail _ h => ?_)); exact nomatch h

set_option maxRecDepth 8192 in
theorem opsB_fresh : ∀ op ∈ (opsB : List (HloOp τ sig (Elt Ideal))), op.fresh = ∅ := by
  intro _ h; (repeat (cases h with | head => rfl | tail _ h => ?_)); exact nomatch h

set_option maxRecDepth 8192 in
theorem opsC_fresh : ∀ op ∈ (opsC : List (HloOp τ sig (Elt Ideal))), op.fresh = ∅ := by
  intro _ h; (repeat (cases h with | head => rfl | tail _ h => ?_)); exact nomatch h

set_option maxRecDepth 8192 in
theorem opsD_fresh : ∀ op ∈ (opsD : List (HloOp τ sig (Elt Ideal))), op.fresh = ∅ := by
  intro _ h; (repeat (cases h with | head => rfl | tail _ h => ?_)); exact nomatch h

set_option maxRecDepth 8192 in
theorem opsE_fresh : ∀ op ∈ (opsE : List (HloOp τ sig (Elt Ideal))), op.fresh = ∅ := by
  intro _ h; (repeat (cases h with | head => rfl | tail _ h => ?_)); exact nomatch h

set_option maxRecDepth 8192 in
theorem opsF_fresh : ∀ op ∈ (opsF : List (HloOp τ sig (Elt Ideal))), op.fresh = ∅ := by
  intro _ h; (repeat (cases h with | head => rfl | tail _ h => ?_)); exact nomatch h

set_option maxRecDepth 8192 in
theorem opsG_fresh : ∀ op ∈ (opsG : List (HloOp τ sig (Elt Ideal))), op.fresh = ∅ := by
  intro _ h; (repeat (cases h with | head => rfl | tail _ h => ?_)); exact nomatch h

theorem ops_fresh : ∀ op ∈ (ops : List (HloOp τ sig (Elt Ideal))), op.fresh = ∅ := by
  intro op h
  rw [ops_eq] at h
  simp only [List.mem_append] at h
  rcases h with h | h | h | h | h | h | h
  · exact opsA_fresh op h
  · exact opsB_fresh op h
  · exact opsC_fresh op h
  · exact opsD_fresh op h
  · exact opsE_fresh op h
  · exact opsF_fresh op h
  · exact opsG_fresh op h

/-- Every weakly fair execution of the reference terminates with the three results at the nested layer terms of the
    argument arrays, and the arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v62) = OUT0 (m ((c.tc : Thread nD τ).loc main_arg0) : Arr S65536x256) (m ((c.tc : Thread nD τ).loc main_arg1) : Arr S3x1024x256) (m ((c.tc : Thread nD τ).loc main_arg2) : Arr S3x1024x256) (m ((c.tc : Thread nD τ).loc main_arg3) : Arr S3x1024) (m ((c.tc : Thread nD τ).loc main_arg4) : Arr S3x1024) (m ((c.tc : Thread nD τ).loc main_arg9) : Arr S3x256x256) (m ((c.tc : Thread nD τ).loc main_arg10) : Arr S3x256) (m ((c.tc : Thread nD τ).loc main_arg11) : Arr S54x256) (m ((c.tc : Thread nD τ).loc main_arg12) : Arr S54)
      ∧ r.2.mem ((c.tc : Thread nD τ).loc main_v184) = OUT1 (m ((c.tc : Thread nD τ).loc main_arg0) : Arr S65536x256) (m ((c.tc : Thread nD τ).loc main_arg1) : Arr S3x1024x256) (m ((c.tc : Thread nD τ).loc main_arg2) : Arr S3x1024x256) (m ((c.tc : Thread nD τ).loc main_arg3) : Arr S3x1024) (m ((c.tc : Thread nD τ).loc main_arg4) : Arr S3x1024) (m ((c.tc : Thread nD τ).loc main_arg9) : Arr S3x256x256) (m ((c.tc : Thread nD τ).loc main_arg10) : Arr S3x256) (m ((c.tc : Thread nD τ).loc main_arg13) : Arr S23x256) (m ((c.tc : Thread nD τ).loc main_arg14) : Arr S23)
      ∧ r.2.mem ((c.tc : Thread nD τ).loc main_v306) = OUT2 (m ((c.tc : Thread nD τ).loc main_arg0) : Arr S65536x256) (m ((c.tc : Thread nD τ).loc main_arg1) : Arr S3x1024x256) (m ((c.tc : Thread nD τ).loc main_arg2) : Arr S3x1024x256) (m ((c.tc : Thread nD τ).loc main_arg3) : Arr S3x1024) (m ((c.tc : Thread nD τ).loc main_arg4) : Arr S3x1024) (m ((c.tc : Thread nD τ).loc main_arg5) : Arr S3x3x256x256) (m ((c.tc : Thread nD τ).loc main_arg6) : Arr S3x3x256) (m ((c.tc : Thread nD τ).loc main_arg7) : Arr S3x3x256x256) (m ((c.tc : Thread nD τ).loc main_arg8) : Arr S3x3x256) (m ((c.tc : Thread nD τ).loc main_arg9) : Arr S3x256x256) (m ((c.tc : Thread nD τ).loc main_arg10) : Arr S3x256) (m ((c.tc : Thread nD τ).loc main_arg15) : Arr S20x256) (m ((c.tc : Thread nD τ).loc main_arg16) : Arr S20)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16) :=
  (θ_run defs _ _).mono (fun _ h c => ⟨(h c main_v62).trans (W62 (launchContents m c)),
      (h c main_v184).trans (W184 (launchContents m c)),
      (h c main_v306).trans (W306 (launchContents m c)),
      (h c main_arg0).trans (Warg0 (launchContents m c)),
      (h c main_arg1).trans (Warg1 (launchContents m c)),
      (h c main_arg2).trans (Warg2 (launchContents m c)),
      (h c main_arg3).trans (Warg3 (launchContents m c)),
      (h c main_arg4).trans (Warg4 (launchContents m c)),
      (h c main_arg5).trans (Warg5 (launchContents m c)),
      (h c main_arg6).trans (Warg6 (launchContents m c)),
      (h c main_arg7).trans (Warg7 (launchContents m c)),
      (h c main_arg8).trans (Warg8 (launchContents m c)),
      (h c main_arg9).trans (Warg9 (launchContents m c)),
      (h c main_arg10).trans (Warg10 (launchContents m c)),
      (h c main_arg11).trans (Warg11 (launchContents m c)),
      (h c main_arg12).trans (Warg12 (launchContents m c)),
      (h c main_arg13).trans (Warg13 (launchContents m c)),
      (h c main_arg14).trans (Warg14 (launchContents m c)),
      (h c main_arg15).trans (Warg15 (launchContents m c)),
      (h c main_arg16).trans (Warg16 (launchContents m c))⟩)
    (run_seq scopedRefs_eq scopedSems_eq defs main (fun _ => ops) main_eq (fun _ => ops_sub) m ρ (fun _ => ops_fresh))

end Cert.RefSide

end
-- ==== Proof.RefOps.lean ====
/-
  The reference's array operations read at coordinates, on the extended reals.

  The reference stores every weight [out, in] and multiplies by the transpose it forms first, so each of its matrix
  products is a plain rows-times-columns product: entry `(r, j)` of `A · B` is the sum over `k` of `A(r, k) · B(k, j)`.
  The weights of one cell are a slab of a stacked array (a cut of thickness one along the leading axes, then the unit
  axes dropped), a bias is a row copied down the batch, and a scalar constant is copied everywhere. Each lemma reads
  one such operation at coordinates; none needs an entry to be finite.
-/
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value
import Idealize.ShloMosaic.Lib.IdealHost

noncomputable section

namespace Cert.RefOps

open Idealize.ShloMosaic Idealize.ShloMosaic.ValueIdx

/-! ## Cuts of thickness one along the leading axes -/

section Layout
variable {α : Type}

/-- Slab `a` of a stack of matrices: the cut `[o : o + 1, :, :]` with `o = a`. -/
theorem slab3_apply {K n m : Nat} (o : Nat) (x : (⟨3, ![K, n, m]⟩ : Shape).Idx → α)
    (h : (⟨3, ![K, n, m]⟩ : Shape).Slices ![o, 0, 0] ⟨3, ![1, n, m]⟩) (a : Fin K) (ha : a.val = o)
    (u : Fin 1) (j : Fin n) (c : Fin m) :
    extractStridedSlice ⟨3, ![1, n, m]⟩ ![o, 0, 0] x h (ix3 u j c) = x (ix3 a j c) :=
  extractStridedSlice_apply _ x h _ _ fun ax => by
    match ax with
    | ⟨0, _⟩ => show a.val = o + u.val; omega
    | ⟨1, _⟩ => exact (Nat.zero_add _).symm
    | ⟨2, _⟩ => exact (Nat.zero_add _).symm

/-- Row `a` of a stack of rows: the cut `[o : o + 1, :]` with `o = a`. -/
theorem row2_apply {K n : Nat} (o : Nat) (x : (⟨2, ![K, n]⟩ : Shape).Idx → α)
    (h : (⟨2, ![K, n]⟩ : Shape).Slices ![o, 0] ⟨2, ![1, n]⟩) (a : Fin K) (ha : a.val = o) (u : Fin 1) (j : Fin n) :
    extractStridedSlice ⟨2, ![1, n]⟩ ![o, 0] x h (ix2 u j) = x (ix2 a j) :=
  extractStridedSlice_apply _ x h _ _ fun ax => by
    match ax with
    | ⟨0, _⟩ => show a.val = o + u.val; omega
    | ⟨1, _⟩ => exact (Nat.zero_add _).symm

/-- Block `(a, b)` of a grid of matrices: the cut `[o : o + 1, p : p + 1, :, :]`. -/
theorem slab4_apply {K L n m : Nat} (o p : Nat) (x : (⟨4, ![K, L, n, m]⟩ : Shape).Idx → α)
    (h : (⟨4, ![K, L, n, m]⟩ : Shape).Slices ![o, p, 0, 0] ⟨4, ![1, 1, n, m]⟩) (a : Fin K) (ha : a.val = o)
    (b : Fin L) (hb : b.val = p) (u v : Fin 1) (j : Fin n) (c : Fin m) :
    extractStridedSlice ⟨4, ![1, 1, n, m]⟩ ![o, p, 0, 0] x h (ix4 u v j c) = x (ix4 a b j c) :=
  extractStridedSlice_apply _ x h _ _ fun ax => by
    match ax with
    | ⟨0, _⟩ => show a.val = o + u.val; omega
    | ⟨1, _⟩ => show b.val = p + v.val; omega
    | ⟨2, _⟩ => exact (Nat.zero_add _).symm
    | ⟨3, _⟩ => exact (Nat.zero_add _).symm

/-- Row `(a, b)` of a grid of rows: the cut `[o : o + 1, p : p + 1, :]`. -/
theorem row3_apply {K L n : Nat} (o p : Nat) (x : (⟨3, ![K, L, n]⟩ : Shape).Idx → α)
    (h : (⟨3, ![K, L, n]⟩ : Shape).Slices ![o, p, 0] ⟨3, ![1, 1, n]⟩) (a : Fin K) (ha : a.val = o)
    (b : Fin L) (hb : b.val = p) (u v : Fin 1) (j : Fin n) :
    extractStridedSlice ⟨3, ![1, 1, n]⟩ ![o, p, 0] x h (ix3 u v j) = x (ix3 a b j) :=
  extractStridedSlice_apply _ x h _ _ fun ax => by
    match ax with
    | ⟨0, _⟩ => show a.val = o + u.val; omega
    | ⟨1, _⟩ => show b.val = p + v.val; omega
    | ⟨2, _⟩ => exact (Nat.zero_add _).symm

/-! ## Two leading unit axes dropped -/

/-- A `[1, 1, a, b]` array cast to `[a, b]` reads, at `(i, j)`, the operand at `(0, 0, i, j)`: the row-major
    positions agree. -/
theorem shapeCast_11ab_ab_apply {a b : ℕ} (x : (⟨4, ![1, 1, a, b]⟩ : Shape).Idx → α)
    (h : (⟨4, ![1, 1, a, b]⟩ : Shape).ShapeCasts ⟨2, ![a, b]⟩) (i : Fin a) (j : Fin b) :
    shapeCast ⟨2, ![a, b]⟩ x h (ix2 i j) = x (ix4 (0 : Fin 1) (0 : Fin 1) i j) :=
  shapeCast_apply x h _ _ (by
    rw [Shape.rowMajor_val_four, Shape.rowMajor_val_two]
    show ((0 * 1 + 0) * a + i.val) * b + j.val = i.val * b + j.val
    simp only [Nat.zero_mul, Nat.zero_add])

/-- A `[1, 1, a]` array cast to `[a]` reads, at `i`, the operand at `(0, 0, i)`. -/
theorem shapeCast_11a_a_apply {a : ℕ} (x : (⟨3, ![1, 1, a]⟩ : Shape).Idx → α)
    (h : (⟨3, ![1, 1, a]⟩ : Shape).ShapeCasts ⟨1, ![a]⟩) (i : Fin a) :
    shapeCast ⟨1, ![a]⟩ x h (ix1 i) = x (ix3 (0 : Fin 1) (0 : Fin 1) i) :=
  shapeCast_apply x h _ _ (by
    rw [Shape.rowMajor_val_three, Shape.rowMajor_val_one]
    show (0 * 1 + 0) * a + i.val = i.val
    simp only [Nat.zero_mul, Nat.zero_add])

/-! ## A row copied down the batch -/

/-- A vector placed on the second axis of a one-row matrix reads, at `(u, j)`, the vector at `j`. -/
theorem bcast_a_1a_apply {n : Nat} (x : (⟨1, ![n]⟩ : Shape).Idx → α)
    (h : (⟨1, ![n]⟩ : Shape).BroadcastsInDim ⟨2, ![1, n]⟩ ![1]) (u : Fin 1) (j : Fin n) :
    broadcastInDim ⟨2, ![1, n]⟩ ![1] h x (ix2 u j) = x (ix1 j) :=
  broadcastInDim_apply _ h x _ _ fun ax => by
    match ax with
    | ⟨0, _⟩ =>
      show j.val = if n = 1 then 0 else j.val
      by_cases hn : n = 1
      · rw [if_pos hn]; have := j.isLt; omega
      · rw [if_neg hn]

/-- A one-row matrix copied down `B` rows reads, at `(r, j)`, the row at `j`. -/
theorem bcast_1b_ab_apply {B n : Nat} (x : (⟨2, ![1, n]⟩ : Shape).Idx → α)
    (h : (⟨2, ![1, n]⟩ : Shape).BroadcastsInDim ⟨2, ![B, n]⟩ ![0, 1]) (r : Fin B) (j : Fin n) :
    broadcastInDim ⟨2, ![B, n]⟩ ![0, 1] h x (ix2 r j) = x (ix2 (0 : Fin 1) j) :=
  broadcastInDim_apply _ h x _ _ fun ax => by
    match ax with
    | ⟨0, _⟩ => show 0 = if (1 : Nat) = 1 then 0 else r.val; rw [if_pos rfl]
    | ⟨1, _⟩ =>
      show j.val = if n = 1 then 0 else j.val
      by_cases hn : n = 1
      · rw [if_pos hn]; have := j.isLt; omega
      · rw [if_neg hn]

end Layout

/-! ## A rows-times-columns product -/

/-- The dimension numbers of `A · B` for `A : R × n` and `B : n × k`, for any proof that they are well formed. -/
abbrev colsDims (R n k : Nat)
    (wf : DotDims.WF (⟨2, ![R, n]⟩ : Shape) ⟨2, ![n, k]⟩ ⟨2, ![R, k]⟩ [1] [0] [0] [1] [] []) :
    DotDims (⟨2, ![R, n]⟩ : Shape) ⟨2, ![n, k]⟩ ⟨2, ![R, k]⟩ :=
  { lhsContracting := [1], rhsContracting := [0], lhsNonContracting := [0], rhsNonContracting := [1],
    lhsBatch := [], rhsBatch := [], wf := wf }

theorem colsDims_contr_rank {R n k : Nat} (wf) : (colsDims R n k wf).contr.rank = 1 := rfl

theorem colsDims_contr_size {R n k : Nat} (wf) :
    (colsDims R n k wf).contr.size ⟨0, by rw [colsDims_contr_rank]; exact Nat.one_pos⟩ = n := rfl

/-- The contraction index of such a product is one coordinate in `Fin n`. -/
abbrev colsContr {R n k : Nat} (wf) : (colsDims R n k wf).contr.Idx ≃ Fin n :=
  contrEquiv1 (colsDims R n k wf) n (colsDims_contr_rank wf) (colsDims_contr_size wf)

/-- The left operand's index at output `(q, o)` and contraction coordinate `c` is `(q, c)`. -/
theorem colsDims_lhsIdx {R n k : Nat} (wf) (q : Fin R) (o : Fin k) (c : Fin n) :
    (colsDims R n k wf).lhsIdx (ix2 q o) ((colsContr wf).symm c) = ix2 q c := by
  funext a
  apply Fin.ext
  match a with
  | ⟨0, h0⟩ =>
    unfold DotDims.lhsIdx
    rw [dif_neg (show ¬(⟨0, h0⟩ : Fin (⟨2, ![R, n]⟩ : Shape).rank) ∈ (colsDims R n k wf).lhsBatch from List.not_mem_nil),
      dif_pos (show (⟨0, h0⟩ : Fin (⟨2, ![R, n]⟩ : Shape).rank) ∈ (colsDims R n k wf).lhsNonContracting from
        List.mem_singleton.mpr rfl)]
    rfl
  | ⟨1, h1⟩ =>
    exact ((colsDims R n k wf).lhsIdx_val_of_single (cl := ⟨1, h1⟩) rfl _ _).trans
      (contrEquiv1_symm_val (colsDims R n k wf) n (colsDims_contr_rank wf) (colsDims_contr_size wf) c)

/-- The right operand's index there is `(c, o)`: its second axis is the output's second. -/
theorem colsDims_rhsIdx {R n k : Nat} (wf) (q : Fin R) (o : Fin k) (c : Fin n) :
    (colsDims R n k wf).rhsIdx (ix2 q o) ((colsContr wf).symm c) = ix2 c o := by
  funext a
  apply Fin.ext
  match a with
  | ⟨0, h0⟩ =>
    exact ((colsDims R n k wf).rhsIdx_val_of_single (cr := ⟨0, h0⟩) rfl _ _).trans
      (contrEquiv1_symm_val (colsDims R n k wf) n (colsDims_contr_rank wf) (colsDims_contr_size wf) c)
  | ⟨1, h1⟩ =>
    unfold DotDims.rhsIdx
    rw [dif_neg (show ¬(⟨1, h1⟩ : Fin (⟨2, ![n, k]⟩ : Shape).rank) ∈ (colsDims R n k wf).rhsBatch from List.not_mem_nil),
      dif_pos (show (⟨1, h1⟩ : Fin (⟨2, ![n, k]⟩ : Shape).rank) ∈ (colsDims R n k wf).rhsNonContracting from
        List.mem_singleton.mpr rfl)]
    rfl

/-- The reference's product `A · B` at `(q, o)`: the sum over the shared axis. -/
theorem colsDot_apply {R n k : Nat} {φ₁ φ₂ : FTy} (wf) (prec : Option ContractPrecision)
    (A : FVec Ideal (⟨2, ![R, n]⟩ : Shape) φ₁) (B : FVec Ideal (⟨2, ![n, k]⟩ : Shape) φ₂) (q : Fin R) (o : Fin k) :
    Host.dotGeneral (F := Ideal) (colsDims R n k wf) prec A B (ix2 q o) = ∑ c : Fin n, A (ix2 q c) * B (ix2 c o) := by
  show FloatOps.dotGeneral (colsDims R n k wf) prec .single A B (ix2 q o) = _
  rw [Ideal.dotGeneral_apply, ← Equiv.sum_comp (colsContr wf).symm]
  refine Finset.sum_congr rfl fun c _ => ?_
  rw [colsDims_lhsIdx, colsDims_rhsIdx]

/-! ## Scalars copied everywhere, and the sigmoid as the reference spells it -/

/-- The f32 word of one, copied over any shape, is one everywhere. -/
theorem ones_apply {T : Shape} (h : (⟨0, ![]⟩ : Shape).BroadcastsInDim T ![]) (i : T.Idx) :
    broadcastInDim T ![] h (constant (F := Ideal) (⟨0, ![]⟩ : Shape) .f32 0x3F800000#32) i = 1 :=
  (broadcastInDim_scalar_apply h _ i).trans Ideal.ofBits_one_f32

/-- The f32 word of zero, copied over any shape, is zero everywhere. -/
theorem zeros_apply {T : Shape} (h : (⟨0, ![]⟩ : Shape).BroadcastsInDim T ![]) (i : T.Idx) :
    broadcastInDim T ![] h (constant (F := Ideal) (⟨0, ![]⟩ : Shape) .f32 0x00000000#32) i = 0 :=
  (broadcastInDim_scalar_apply h _ i).trans Ideal.ofBits_zero_f32

/-- `1 / (1 + e^(-y))`, with both ones the copied f32 word, is the ideal logistic function of `y`, entry by entry:
    that is its definition. -/
theorem sigmoid_apply {T : Shape} (h h' : (⟨0, ![]⟩ : Shape).BroadcastsInDim T ![]) (Y : FVec Ideal T .f32) (i : T.Idx) :
    Host.divf (broadcastInDim T ![] h (constant (F := Ideal) (⟨0, ![]⟩ : Shape) .f32 0x3F800000#32))
      (addf (broadcastInDim T ![] h' (constant (F := Ideal) (⟨0, ![]⟩ : Shape) .f32 0x3F800000#32)) (Host.exp (Host.negf Y))) i
      = Ideal.logistic (Y i) := by
  show Ideal.div _ (_ + Ideal.exp (-(Y i))) = Ideal.div 1 (1 + Ideal.exp (-(Y i)))
  rw [ones_apply h i]

end Cert.RefOps

end
-- ==== Proof.RefLayers.lean ====
/-
  The reference's layers read at an entry, and its three results as the specification's.

  Every layer of the reference acts row by row: entry `(r, ·)` of its result depends on its array operands only through
  their rows `r`, and is the specification's layer function of those rows. The products are rows-times-columns products
  with the transposed weight slab, so entry `(r, j)` contracts row `r` with row `j` of the stored weight. Two places
  need algebra on the extended reals, and neither needs an entry to be finite: the gate sum is formed as
  `((x · Wi + bi) + h · Wh) + bh`, which is `x · Wi + h · Wh + (bi + bh)` because the sum is associative and
  commutative; and the first cell starts from the zero state, whose recurrent product is a sum of `0 · w = 0` and whose
  forget term is `σ · 0 = 0`. Chaining the layers along the program gives, for each batch row, the specification's
  values of that row, and the three result arrays entry by entry.
-/
import proofs.«168260_j24026047054250_2_alg».proof.Proof.RefTerms
import proofs.«168260_j24026047054250_2_alg».proof.Proof.RefOps
import proofs.«168260_j24026047054250_2_alg».proof.Proof.Spec

noncomputable section

namespace Cert.RefSide

open Cert.ReferenceIdeal Cert.ReferenceIdeal.Gen Idealize.ShloMosaic Idealize.ShloMosaic.ValueIdx Cert.Spec Cert.RefOps

/-! ## Constants, the sigmoid and the hyperbolic tangent at an entry -/

theorem zeros_at (i : S65536x256.Idx) : zeros i = 0 := by
  unfold zeros
  exact zeros_apply bcast_S_S65536x256 i

/-- `1 / (1 + e^(-y))` is the ideal logistic function of `y`. -/
theorem sigm_at (Y : Arr S65536x256) (i : S65536x256.Idx) : sigm Y i = Ideal.logistic (Y i) := by
  unfold sigm ones
  exact sigmoid_apply bcast_S_S65536x256 bcast_S_S65536x256 Y i

theorem tanh_at (Y : Arr S65536x256) (i : S65536x256.Idx) : Host.tanh Y i = Ideal.tanh (Y i) := rfl

/-! ## The operands of the products and the bias rows -/

/-- Slab `a` of a weight stack, transposed: entry `(c, j)` is entry `(a, j, c)` of the stack. -/
theorem wT1024_at (o : Nat) (W : Arr S3x1024x256) (hs : S3x1024x256.Slices ![o, 0, 0] S1x1024x256) (a : Fin 3) (ha : a.val = o)
    (c : Fin 256) (j : Fin 1024) : wT1024 o W hs (ix2 c j) = W (ix3 a j c) := by
  unfold wT1024
  exact (transpose_ix2_apply _ transposes_S1024x256_S256x1024_1_0 c j).trans
    ((shapeCast_1ab_ab_apply _ shapeCasts_S1x1024x256_S1024x256 j c).trans (slab3_apply o W hs a ha 0 j c))

theorem wT256_at (o : Nat) (W : Arr S3x256x256) (hs : S3x256x256.Slices ![o, 0, 0] S1x256x256) (a : Fin 3) (ha : a.val = o)
    (c : Fin 256) (j : Fin 256) : wT256 o W hs (ix2 c j) = W (ix3 a j c) := by
  unfold wT256
  exact (transpose_ix2_apply _ transposes_S256x256_S256x256_1_0 c j).trans
    ((shapeCast_1ab_ab_apply _ shapeCasts_S1x256x256_S256x256 j c).trans (slab3_apply o W hs a ha 0 j c))

/-- Row `a` of a bias stack, copied down the batch. -/
theorem bRow1024_at (o : Nat) (b : Arr S3x1024) (hs : S3x1024.Slices ![o, 0] S1x1024) (a : Fin 3) (ha : a.val = o)
    (r : Fin 65536) (j : Fin 1024) : bRow1024 o b hs (ix2 r j) = b (ix2 a j) := by
  unfold bRow1024
  exact (bcast_1b_ab_apply _ bcast_S1x1024_S65536x1024_0_1 r j).trans
    ((bcast_a_1a_apply _ bcast_S1024_S1x1024_1 0 j).trans
      ((shapeCast_1a_a_apply _ shapeCasts_S1x1024_S1024 j).trans (row2_apply o b hs a ha 0 j)))

theorem bRow256_at (o : Nat) (b : Arr S3x256) (hs : S3x256.Slices ![o, 0] S1x256) (a : Fin 3) (ha : a.val = o)
    (r : Fin 65536) (j : Fin 256) : bRow256 o b hs (ix2 r j) = b (ix2 a j) := by
  unfold bRow256
  exact (bcast_1b_ab_apply _ bcast_S1x256_S65536x256_0_1 r j).trans
    ((bcast_a_1a_apply _ bcast_S256_S1x256_1 0 j).trans
      ((shapeCast_1a_a_apply _ shapeCasts_S1x256_S256 j).trans (row2_apply o b hs a ha 0 j)))

/-- The mixing matrix, transposed: entry `(c, j)` is entry `(1, 2, j, c)` of the stack. -/
theorem mixW_at (W : Arr S3x3x256x256) (c j : Fin 256) : mixW W (ix2 c j) = W (ix4 1 2 j c) := by
  unfold mixW
  exact (transpose_ix2_apply _ transposes_S256x256_S256x256_1_0 c j).trans
    ((shapeCast_11ab_ab_apply _ shapeCasts_S1x1x256x256_S256x256 j c).trans
      (slab4_apply 1 2 W slices_S3x3x256x256_S1x1x256x256_1_2_0_0 1 rfl 2 rfl 0 0 j c))

/-- The mixing bias row `(1, 2)`, copied down the batch. -/
theorem mixB_at (b : Arr S3x3x256) (r : Fin 65536) (j : Fin 256) : mixB b (ix2 r j) = b (ix3 1 2 j) := by
  unfold mixB
  exact (bcast_1b_ab_apply _ bcast_S1x256_S65536x256_0_1 r j).trans
    ((bcast_a_1a_apply _ bcast_S256_S1x256_1 0 j).trans
      ((shapeCast_11a_a_apply _ shapeCasts_S1x1x256_S256 j).trans
        (row3_apply 1 2 b slices_S3x3x256_S1x1x256_1_2_0 1 rfl 2 rfl 0 0 j)))

/-! ## The five products: row `r` of the left operand against column `j` of the right -/

theorem dotA_at (A : Arr S65536x256) (B : Arr S256x1024) (r : Fin 65536) (j : Fin 1024) :
    Host.dotGeneral dot_S65536x256_S256x1024_S65536x1024_1_0_0_1_n_n none A B (ix2 r j) = ∑ c : Fin 256, A (ix2 r c) * B (ix2 c j) :=
  colsDot_apply dot_S65536x256_S256x1024_S65536x1024_1_0_0_1_n_n_wf none A B r j

theorem dotB_at (A : Arr S65536x256) (B : Arr S256x256) (r : Fin 65536) (j : Fin 256) :
    Host.dotGeneral dot_S65536x256_S256x256_S65536x256_1_0_0_1_n_n none A B (ix2 r j) = ∑ c : Fin 256, A (ix2 r c) * B (ix2 c j) :=
  colsDot_apply dot_S65536x256_S256x256_S65536x256_1_0_0_1_n_n_wf none A B r j

theorem dot54_at (A : Arr S65536x256) (B : Arr S256x54) (r : Fin 65536) (j : Fin 54) :
    Host.dotGeneral dot_S65536x256_S256x54_S65536x54_1_0_0_1_n_n none A B (ix2 r j) = ∑ c : Fin 256, A (ix2 r c) * B (ix2 c j) :=
  colsDot_apply dot_S65536x256_S256x54_S65536x54_1_0_0_1_n_n_wf none A B r j

theorem dot23_at (A : Arr S65536x256) (B : Arr S256x23) (r : Fin 65536) (j : Fin 23) :
    Host.dotGeneral dot_S65536x256_S256x23_S65536x23_1_0_0_1_n_n none A B (ix2 r j) = ∑ c : Fin 256, A (ix2 r c) * B (ix2 c j) :=
  colsDot_apply dot_S65536x256_S256x23_S65536x23_1_0_0_1_n_n_wf none A B r j

theorem dot20_at (A : Arr S65536x256) (B : Arr S256x20) (r : Fin 65536) (j : Fin 20) :
    Host.dotGeneral dot_S65536x256_S256x20_S65536x20_1_0_0_1_n_n none A B (ix2 r j) = ∑ c : Fin 256, A (ix2 r c) * B (ix2 c j) :=
  colsDot_apply dot_S65536x256_S256x20_S65536x20_1_0_0_1_n_n_wf none A B r j

/-! ## The four gate runs -/

theorem runI_at (G : Arr S65536x1024) (r : Fin 65536) (o : Fin 256) :
    extractStridedSlice S65536x256 ![0, 0] G slices_S65536x1024_S65536x256_0_0 (ix2 r o) = G (ix2 r (qi o)) :=
  slice2_axis1_apply 0 G slices_S65536x1024_S65536x256_0_0 r o (qi o) (Nat.zero_add _).symm

theorem runF_at (G : Arr S65536x1024) (r : Fin 65536) (o : Fin 256) :
    extractStridedSlice S65536x256 ![0, 256] G slices_S65536x1024_S65536x256_0_256 (ix2 r o) = G (ix2 r (qf o)) :=
  slice2_axis1_apply 256 G slices_S65536x1024_S65536x256_0_256 r o (qf o) rfl

theorem runG_at (G : Arr S65536x1024) (r : Fin 65536) (o : Fin 256) :
    extractStridedSlice S65536x256 ![0, 512] G slices_S65536x1024_S65536x256_0_512 (ix2 r o) = G (ix2 r (qg o)) :=
  slice2_axis1_apply 512 G slices_S65536x1024_S65536x256_0_512 r o (qg o) rfl

theorem runO_at (G : Arr S65536x1024) (r : Fin 65536) (o : Fin 256) :
    extractStridedSlice S65536x256 ![0, 768] G slices_S65536x1024_S65536x256_0_768 (ix2 r o) = G (ix2 r (qo o)) :=
  slice2_axis1_apply 768 G slices_S65536x1024_S65536x256_0_768 r o (qo o) rfl

/-! ## The layers at an entry -/

/-- Four extended reals added as `((a + b) + c) + d` are `(a + c) + (b + d)`. -/
theorem add4 (a b c d : EReal) : a + b + c + d = a + c + (b + d) := by
  rw [add_right_comm a b c, add_assoc]

/-- Gate pre-activations of cell `a` at `(r, j)`: the two products and the two bias rows, regrouped. -/
theorem gateR_at (x h : Arr S65536x256) (o : Nat) (W1 W2 : Arr S3x1024x256) (hw : S3x1024x256.Slices ![o, 0, 0] S1x1024x256)
    (b1 b2 : Arr S3x1024) (hb : S3x1024.Slices ![o, 0] S1x1024) (a : Fin 3) (ha : a.val = o) (r : Fin 65536) (j : Fin 1024) :
    gateR x h (wT1024 o W1 hw) (wT1024 o W2 hw) (bRow1024 o b1 hb) (bRow1024 o b2 hb) (ix2 r j)
      = gate (rowOf x r) (fun c => h (ix2 r c)) (fun j c => W1 (ix3 a j c)) (fun j c => W2 (ix3 a j c))
          (fun j => b1 (ix2 a j) + b2 (ix2 a j)) j := by
  unfold gateR
  rw [addf_apply, addf_apply, addf_apply, dotA_at, dotA_at, bRow1024_at o b1 hb a ha, bRow1024_at o b2 hb a ha]
  simp only [wT1024_at o _ hw a ha]
  exact add4 _ _ _ _

/-- From the zero hidden state the recurrent product is a sum of zeros, and what is left is `x · Wi + (bi + bh)`. -/
theorem gateR_zero_at (x : Arr S65536x256) (o : Nat) (W1 W2 : Arr S3x1024x256) (hw : S3x1024x256.Slices ![o, 0, 0] S1x1024x256)
    (b1 b2 : Arr S3x1024) (hb : S3x1024.Slices ![o, 0] S1x1024) (a : Fin 3) (ha : a.val = o) (r : Fin 65536) (j : Fin 1024) :
    gateR x zeros (wT1024 o W1 hw) (wT1024 o W2 hw) (bRow1024 o b1 hb) (bRow1024 o b2 hb) (ix2 r j)
      = gate0 (rowOf x r) (fun j c => W1 (ix3 a j c)) (fun j => b1 (ix2 a j) + b2 (ix2 a j)) j := by
  unfold gateR
  rw [addf_apply, addf_apply, addf_apply, dotA_at, dotA_at, bRow1024_at o b1 hb a ha, bRow1024_at o b2 hb a ha]
  simp only [wT1024_at o _ hw a ha, zeros_at, zero_mul, Finset.sum_const_zero, add_zero]
  exact add_assoc _ _ _

/-- The new cell state at `(r, o)`. -/
theorem cellR_at (G : Arr S65536x1024) (cp : Arr S65536x256) (r : Fin 65536) (o : Fin 256) :
    cellR G cp (ix2 r o) = cell (fun j => G (ix2 r j)) (fun c => cp (ix2 r c)) o := by
  unfold cellR
  rw [addf_apply, mulf_apply, mulf_apply, sigm_at, sigm_at, tanh_at, runF_at, runI_at, runG_at]
  rfl

/-- From the zero cell state the forget term is `σ(f) · 0 = 0`. -/
theorem cellR_zero_at (G : Arr S65536x1024) (r : Fin 65536) (o : Fin 256) :
    cellR G zeros (ix2 r o) = cell0 (fun j => G (ix2 r j)) o := by
  unfold cellR
  rw [addf_apply, mulf_apply, mulf_apply, sigm_at, sigm_at, tanh_at, runI_at, runG_at, zeros_at, mul_zero, zero_add]
  rfl

/-- The new hidden state at `(r, o)`. -/
theorem hidR_at (G : Arr S65536x1024) (C : Arr S65536x256) (r : Fin 65536) (o : Fin 256) :
    hidR G C (ix2 r o) = hid (fun j => G (ix2 r j)) (fun c => C (ix2 r c)) o := by
  unfold hidR
  rw [mulf_apply, sigm_at, tanh_at, runO_at]
  rfl

/-- The middle layer of head `a` at `(r, j)`. -/
theorem midR_at (H : Arr S65536x256) (o : Nat) (W : Arr S3x256x256) (hw : S3x256x256.Slices ![o, 0, 0] S1x256x256)
    (b : Arr S3x256) (hb : S3x256.Slices ![o, 0] S1x256) (a : Fin 3) (ha : a.val = o) (r : Fin 65536) (j : Fin 256) :
    midR H (wT256 o W hw) (bRow256 o b hb) (ix2 r j)
      = mid (fun c => H (ix2 r c)) (fun j c => W (ix3 a j c)) (fun j => b (ix2 a j)) j := by
  unfold midR
  rw [maximumf_apply, addf_apply, dotB_at, bRow256_at o b hb a ha, zeros_at]
  simp only [wT256_at o _ hw a ha]
  rfl

/-- A state mixed with a linear image of another, at `(r, o)`. -/
theorem mixR_at (P S : Arr S65536x256) (W : Arr S3x3x256x256) (b : Arr S3x3x256) (r : Fin 65536) (o : Fin 256) :
    mixR P S (mixW W) (mixB b) (ix2 r o)
      = mix (fun c => P (ix2 r c)) (fun c => S (ix2 r c)) (fun o c => W (ix4 1 2 o c)) (fun o => b (ix3 1 2 o)) o := by
  unfold mixR
  rw [addf_apply, addf_apply, dotB_at, mixB_at]
  simp only [mixW_at]
  rfl

/-- The output weights [54, 256], transposed for the product. -/
theorem oW54_at (W : Arr S54x256) (c : Fin 256) (o : Fin 54) :
    transpose S256x54 [1, 0] W transposes_S54x256_S256x54_1_0 (ix2 c o) = W (ix2 o c) :=
  transpose_ix2_apply W transposes_S54x256_S256x54_1_0 c o

/-- The output bias [54], the same in every batch row. -/
theorem ob54_at (b : Arr S54) (r : Fin 65536) (o : Fin 54) :
    broadcastInDim S65536x54 ![0, 1] bcast_S1x54_S65536x54_0_1 (broadcastInDim S1x54 ![1] bcast_S54_S1x54_1 b) (ix2 r o) = b (ix1 o) :=
  (bcast_1b_ab_apply _ bcast_S1x54_S65536x54_0_1 r o).trans (bcast_a_1a_apply _ bcast_S54_S1x54_1 0 o)

/-- The output layer with 54 classes at `(r, o)`: `m · Wᵀ + b` over row `r` of the middle layer. -/
theorem out54R_at (M : Arr S65536x256) (W : Arr S54x256) (b : Arr S54) (r : Fin 65536) (o : Fin 54) :
    out54R M W b (ix2 r o) = outp (fun c => M (ix2 r c)) (mat W) (vec b) o := by
  unfold out54R
  rw [addf_apply, dot54_at, ob54_at]
  exact congrArg (· + b (ix1 o)) (Finset.sum_congr rfl fun c _ => congrArg (M (ix2 r c) * ·) (oW54_at W c o))

/-- The output weights [23, 256], transposed for the product. -/
theorem oW23_at (W : Arr S23x256) (c : Fin 256) (o : Fin 23) :
    transpose S256x23 [1, 0] W transposes_S23x256_S256x23_1_0 (ix2 c o) = W (ix2 o c) :=
  transpose_ix2_apply W transposes_S23x256_S256x23_1_0 c o

/-- The output bias [23], the same in every batch row. -/
theorem ob23_at (b : Arr S23) (r : Fin 65536) (o : Fin 23) :
    broadcastInDim S65536x23 ![0, 1] bcast_S1x23_S65536x23_0_1 (broadcastInDim S1x23 ![1] bcast_S23_S1x23_1 b) (ix2 r o) = b (ix1 o) :=
  (bcast_1b_ab_apply _ bcast_S1x23_S65536x23_0_1 r o).trans (bcast_a_1a_apply _ bcast_S23_S1x23_1 0 o)

/-- The output layer with 23 classes at `(r, o)`: `m · Wᵀ + b` over row `r` of the middle layer. -/
theorem out23R_at (M : Arr S65536x256) (W : Arr S23x256) (b : Arr S23) (r : Fin 65536) (o : Fin 23) :
    out23R M W b (ix2 r o) = outp (fun c => M (ix2 r c)) (mat W) (vec b) o := by
  unfold out23R
  rw [addf_apply, dot23_at, ob23_at]
  exact congrArg (· + b (ix1 o)) (Finset.sum_congr rfl fun c _ => congrArg (M (ix2 r c) * ·) (oW23_at W c o))

/-- The output weights [20, 256], transposed for the product. -/
theorem oW20_at (W : Arr S20x256) (c : Fin 256) (o : Fin 20) :
    transpose S256x20 [1, 0] W transposes_S20x256_S256x20_1_0 (ix2 c o) = W (ix2 o c) :=
  transpose_ix2_apply W transposes_S20x256_S256x20_1_0 c o

/-- The output bias [20], the same in every batch row. -/
theorem ob20_at (b : Arr S20) (r : Fin 65536) (o : Fin 20) :
    broadcastInDim S65536x20 ![0, 1] bcast_S1x20_S65536x20_0_1 (broadcastInDim S1x20 ![1] bcast_S20_S1x20_1 b) (ix2 r o) = b (ix1 o) :=
  (bcast_1b_ab_apply _ bcast_S1x20_S65536x20_0_1 r o).trans (bcast_a_1a_apply _ bcast_S20_S1x20_1 0 o)

/-- The output layer with 20 classes at `(r, o)`: `m · Wᵀ + b` over row `r` of the middle layer. -/
theorem out20R_at (M : Arr S65536x256) (W : Arr S20x256) (b : Arr S20) (r : Fin 65536) (o : Fin 20) :
    out20R M W b (ix2 r o) = outp (fun c => M (ix2 r c)) (mat W) (vec b) o := by
  unfold out20R
  rw [addf_apply, dot20_at, ob20_at]
  exact congrArg (· + b (ix1 o)) (Finset.sum_congr rfl fun c _ => congrArg (M (ix2 r c) * ·) (oW20_at W c o))

/-! ## The layers depend on their arguments only through their values -/

theorem gate_congr {x : Row 256} {h h' : Row 256} {Wi Wh : Fin 1024 → Fin 256 → EReal} {b : Row 1024} (e : h = h') :
    gate x h Wi Wh b = gate x h' Wi Wh b := by rw [e]

theorem mix_congr {p p' s s' : Row 256} {W : Fin 256 → Fin 256 → EReal} {b : Row 256} (e1 : p = p') (e2 : s = s') :
    mix p s W b = mix p' s' W b := by rw [e1, e2]

theorem mid_congr {h h' : Row 256} {W : Fin 256 → Fin 256 → EReal} {b : Row 256} (e : h = h') : mid h W b = mid h' W b := by
  rw [e]

/-! ## The chain, one batch row at a time -/

section Chain

variable (x0 : Arr S65536x256) (x1 x2 : Arr S3x1024x256) (x3 x4 : Arr S3x1024) (x5 : Arr S3x3x256x256) (x6 : Arr S3x3x256)
  (x7 : Arr S3x3x256x256) (x8 : Arr S3x3x256) (x9 : Arr S3x256x256) (x10 : Arr S3x256) (r : Fin 65536)

theorem G0R_row : (fun j => G0R x0 x1 x2 x3 x4 (ix2 r j)) = g0 (paramsOf x1 x2 x3 x4 x5 x6 x7 x8 x9 x10) (rowOf x0 r) :=
  funext fun j => gateR_zero_at x0 0 x1 x2 slices_S3x1024x256_S1x1024x256_0_0_0 x3 x4 slices_S3x1024_S1x1024_0_0 0 rfl r j

theorem C0R_row : (fun o => C0R x0 x1 x2 x3 x4 (ix2 r o)) = c0 (paramsOf x1 x2 x3 x4 x5 x6 x7 x8 x9 x10) (rowOf x0 r) :=
  funext fun o => (cellR_zero_at (G0R x0 x1 x2 x3 x4) r o).trans (congrFun (congrArg cell0 (G0R_row x0 x1 x2 x3 x4 x5 x6 x7 x8 x9 x10 r)) o)

theorem H0R_row : (fun o => H0R x0 x1 x2 x3 x4 (ix2 r o)) = h0 (paramsOf x1 x2 x3 x4 x5 x6 x7 x8 x9 x10) (rowOf x0 r) :=
  funext fun o => (hidR_at (G0R x0 x1 x2 x3 x4) (C0R x0 x1 x2 x3 x4) r o).trans
    (congrFun (congrArg₂ hid (G0R_row x0 x1 x2 x3 x4 x5 x6 x7 x8 x9 x10 r) (C0R_row x0 x1 x2 x3 x4 x5 x6 x7 x8 x9 x10 r)) o)

theorem G1R_row : (fun j => G1R x0 x1 x2 x3 x4 (ix2 r j)) = g1 (paramsOf x1 x2 x3 x4 x5 x6 x7 x8 x9 x10) (rowOf x0 r) :=
  funext fun j => (gateR_at x0 (H0R x0 x1 x2 x3 x4) 1 x1 x2 slices_S3x1024x256_S1x1024x256_1_0_0 x3 x4 slices_S3x1024_S1x1024_1_0 1 rfl r j).trans
    (congrFun (gate_congr (H0R_row x0 x1 x2 x3 x4 x5 x6 x7 x8 x9 x10 r)) j)

theorem C1R_row : (fun o => C1R x0 x1 x2 x3 x4 (ix2 r o)) = c1 (paramsOf x1 x2 x3 x4 x5 x6 x7 x8 x9 x10) (rowOf x0 r) :=
  funext fun o => (cellR_at (G1R x0 x1 x2 x3 x4) (C0R x0 x1 x2 x3 x4) r o).trans
    (congrFun (congrArg₂ cell (G1R_row x0 x1 x2 x3 x4 x5 x6 x7 x8 x9 x10 r) (C0R_row x0 x1 x2 x3 x4 x5 x6 x7 x8 x9 x10 r)) o)

theorem H1R_row : (fun o => H1R x0 x1 x2 x3 x4 (ix2 r o)) = h1 (paramsOf x1 x2 x3 x4 x5 x6 x7 x8 x9 x10) (rowOf x0 r) :=
  funext fun o => (hidR_at (G1R x0 x1 x2 x3 x4) (C1R x0 x1 x2 x3 x4) r o).trans
    (congrFun (congrArg₂ hid (G1R_row x0 x1 x2 x3 x4 x5 x6 x7 x8 x9 x10 r) (C1R_row x0 x1 x2 x3 x4 x5 x6 x7 x8 x9 x10 r)) o)

theorem H2P_row : (fun o => H2P x0 x1 x2 x3 x4 x5 x6 (ix2 r o)) = h2p (paramsOf x1 x2 x3 x4 x5 x6 x7 x8 x9 x10) (rowOf x0 r) :=
  funext fun o => (mixR_at (H0R x0 x1 x2 x3 x4) (H1R x0 x1 x2 x3 x4) x5 x6 r o).trans
    (congrFun (mix_congr (H0R_row x0 x1 x2 x3 x4 x5 x6 x7 x8 x9 x10 r) (H1R_row x0 x1 x2 x3 x4 x5 x6 x7 x8 x9 x10 r)) o)

theorem C2P_row : (fun o => C2P x0 x1 x2 x3 x4 x7 x8 (ix2 r o)) = c2p (paramsOf x1 x2 x3 x4 x5 x6 x7 x8 x9 x10) (rowOf x0 r) :=
  funext fun o => (mixR_at (C0R x0 x1 x2 x3 x4) (C1R x0 x1 x2 x3 x4) x7 x8 r o).trans
    (congrFun (mix_congr (C0R_row x0 x1 x2 x3 x4 x5 x6 x7 x8 x9 x10 r) (C1R_row x0 x1 x2 x3 x4 x5 x6 x7 x8 x9 x10 r)) o)

theorem G2R_row : (fun j => G2R x0 x1 x2 x3 x4 x5 x6 (ix2 r j)) = g2 (paramsOf x1 x2 x3 x4 x5 x6 x7 x8 x9 x10) (rowOf x0 r) :=
  funext fun j => (gateR_at x0 (H2P x0 x1 x2 x3 x4 x5 x6) 2 x1 x2 slices_S3x1024x256_S1x1024x256_2_0_0 x3 x4 slices_S3x1024_S1x1024_2_0 2 rfl r j).trans
    (congrFun (gate_congr (H2P_row x0 x1 x2 x3 x4 x5 x6 x7 x8 x9 x10 r)) j)

theorem C2R_row : (fun o => C2R x0 x1 x2 x3 x4 x5 x6 x7 x8 (ix2 r o)) = c2 (paramsOf x1 x2 x3 x4 x5 x6 x7 x8 x9 x10) (rowOf x0 r) :=
  funext fun o => (cellR_at (G2R x0 x1 x2 x3 x4 x5 x6) (C2P x0 x1 x2 x3 x4 x7 x8) r o).trans
    (congrFun (congrArg₂ cell (G2R_row x0 x1 x2 x3 x4 x5 x6 x7 x8 x9 x10 r) (C2P_row x0 x1 x2 x3 x4 x5 x6 x7 x8 x9 x10 r)) o)

theorem H2R_row : (fun o => H2R x0 x1 x2 x3 x4 x5 x6 x7 x8 (ix2 r o)) = h2 (paramsOf x1 x2 x3 x4 x5 x6 x7 x8 x9 x10) (rowOf x0 r) :=
  funext fun o => (hidR_at (G2R x0 x1 x2 x3 x4 x5 x6) (C2R x0 x1 x2 x3 x4 x5 x6 x7 x8) r o).trans
    (congrFun (congrArg₂ hid (G2R_row x0 x1 x2 x3 x4 x5 x6 x7 x8 x9 x10 r) (C2R_row x0 x1 x2 x3 x4 x5 x6 x7 x8 x9 x10 r)) o)

end Chain

/-! ## The three results -/

section Results

variable (x0 : Arr S65536x256) (x1 x2 : Arr S3x1024x256) (x3 x4 : Arr S3x1024) (x5 : Arr S3x3x256x256) (x6 : Arr S3x3x256)
  (x7 : Arr S3x3x256x256) (x8 : Arr S3x3x256) (x9 : Arr S3x256x256) (x10 : Arr S3x256)
  (x11 : Arr S54x256) (x12 : Arr S54) (x13 : Arr S23x256) (x14 : Arr S23) (x15 : Arr S20x256) (x16 : Arr S20)

/-- The first result array is the specification's. -/
theorem OUT0_eq : OUT0 x0 x1 x2 x3 x4 x9 x10 x11 x12 = Cert.Spec.G0 x0 x1 x2 x3 x4 x5 x6 x7 x8 x9 x10 x11 x12 := by
  funext i
  obtain ⟨r, o, rfl⟩ : ∃ (r : Fin 65536) (o : Fin 54), i = ix2 r o := ⟨i 0, i 1, eq_ix2 i⟩
  refine (out54R_at _ x11 x12 r o).trans (congrArg (fun m => outp m (mat x11) (vec x12) o) (funext fun j => ?_))
  exact (midR_at (H0R x0 x1 x2 x3 x4) 0 x9 slices_S3x256x256_S1x256x256_0_0_0 x10 slices_S3x256_S1x256_0_0 0 rfl r j).trans
    (congrFun (mid_congr (H0R_row x0 x1 x2 x3 x4 x5 x6 x7 x8 x9 x10 r)) j)

/-- The second result array is the specification's. -/
theorem OUT1_eq : OUT1 x0 x1 x2 x3 x4 x9 x10 x13 x14 = Cert.Spec.G1 x0 x1 x2 x3 x4 x5 x6 x7 x8 x9 x10 x13 x14 := by
  funext i
  obtain ⟨r, o, rfl⟩ : ∃ (r : Fin 65536) (o : Fin 23), i = ix2 r o := ⟨i 0, i 1, eq_ix2 i⟩
  refine (out23R_at _ x13 x14 r o).trans (congrArg (fun m => outp m (mat x13) (vec x14) o) (funext fun j => ?_))
  exact (midR_at (H1R x0 x1 x2 x3 x4) 1 x9 slices_S3x256x256_S1x256x256_1_0_0 x10 slices_S3x256_S1x256_1_0 1 rfl r j).trans
    (congrFun (mid_congr (H1R_row x0 x1 x2 x3 x4 x5 x6 x7 x8 x9 x10 r)) j)

/-- The third result array is the specification's. -/
theorem OUT2_eq : OUT2 x0 x1 x2 x3 x4 x5 x6 x7 x8 x9 x10 x15 x16 = Cert.Spec.G2 x0 x1 x2 x3 x4 x5 x6 x7 x8 x9 x10 x15 x16 := by
  funext i
  obtain ⟨r, o, rfl⟩ : ∃ (r : Fin 65536) (o : Fin 20), i = ix2 r o := ⟨i 0, i 1, eq_ix2 i⟩
  refine (out20R_at _ x15 x16 r o).trans (congrArg (fun m => outp m (mat x15) (vec x16) o) (funext fun j => ?_))
  exact (midR_at (H2R x0 x1 x2 x3 x4 x5 x6 x7 x8) 2 x9 slices_S3x256x256_S1x256x256_2_0_0 x10 slices_S3x256_S1x256_2_0 2 rfl r j).trans
    (congrFun (mid_congr (H2R_row x0 x1 x2 x3 x4 x5 x6 x7 x8 x9 x10 r)) j)

end Results

end Cert.RefSide

end
-- ==== Proof.lean ====
/-
  The proof of `Cert.Claim`: a three-task LSTM-cell network on a batch of 65536 rows, as a Pallas kernel that walks
  the batch in 64 tiles of 1024 rows against the plain jnp program.

  Both programs compute, row by row, the function of Proof/Spec.lean. The kernel (Proof/KerOps.lean: the body's
  products, bias rows, gate runs and layers at an entry, and its named values row by row; Proof/KerTile.lean: the three
  results of a tile; Proof/KerHost.lean: the folded bias and the cut-out mixing pair the host prepares;
  Proof/KerArray.lean: from the 64 tiles to the three result arrays) folds the two bias rows of a cell into one, drops the
  first cell's recurrent product and forget term (its state is zero), and keeps only the one mixing pair whose result is
  read again. The reference (Proof/RefProg.lean: its line of host operations in seven stretches; Proof/RefStretch.lean, Proof/RefPass1.lean, Proof/RefPass2.lean, Proof/RefRun.lean: its run, stretch by stretch, ending at nested layer terms of Proof/RefTerms.lean; Proof/RefOps.lean, Proof/RefLayers.lean: those terms read at an entry) adds the biases one after the other, multiplies by the zero state, and
  spells the logistic function as 1 / (1 + exp(-x)). On the extended reals these agree entry by entry: addition is
  associative and commutative, 0 · w = 0 and s · 0 = 0 for every w and s, and the logistic function is that quotient by
  definition — so no entry needs to be finite, and the precondition is not used. A change of float format is the
  identity on the extended reals, and a product accumulated into zero is the host's contraction. The idealization
  rewrote nothing, so `preserves` is trivial; the two kernels' frames are the generated ones, and the reference's is its run with the results dropped.
-/
import proofs.«168260_j24026047054250_2_alg».proof.Defs
import proofs.«168260_j24026047054250_2_alg».proof.Proof.Gen.Kernel
import proofs.«168260_j24026047054250_2_alg».proof.Proof.Gen.Kernel.Skeleton
import proofs.«168260_j24026047054250_2_alg».proof.Proof.Gen.Kernel.Launch
import proofs.«168260_j24026047054250_2_alg».proof.Proof.Gen.Kernel.Points
import proofs.«168260_j24026047054250_2_alg».proof.Proof.Gen.Kernel.Frame
import proofs.«168260_j24026047054250_2_alg».proof.Proof.Gen.KernelIdeal
import proofs.«168260_j24026047054250_2_alg».proof.Proof.Gen.KernelIdeal.Skeleton
import proofs.«168260_j24026047054250_2_alg».proof.Proof.Gen.KernelIdeal.Launch
import proofs.«168260_j24026047054250_2_alg».proof.Proof.Gen.KernelIdeal.Points
import proofs.«168260_j24026047054250_2_alg».proof.Proof.Gen.KernelIdeal.Frame
import proofs.«168260_j24026047054250_2_alg».proof.Proof.Gen.ReferenceIdeal
import proofs.«168260_j24026047054250_2_alg».proof.Proof.Gen.KernelIdeal.Value
import proofs.«168260_j24026047054250_2_alg».proof.Proof.Gen.Pre_finite_inputs
import proofs.«168260_j24026047054250_2_alg».proof.Proof.KerArray
import proofs.«168260_j24026047054250_2_alg».proof.Proof.RefRun
import proofs.«168260_j24026047054250_2_alg».proof.Proof.RefLayers
import Idealize.ShloMosaic.Adequacy
import Idealize.ShloMosaic.Init

noncomputable section

namespace Cert.Proof

open Idealize.ShloMosaic Idealize.SL.Sem

/-- The word-level kernel's frame is the generated one. -/
theorem frame_k : Cert.frame_Kernel := fun m ρ _ => Cert.Kernel.Gen.frame m ρ

/-- The idealized kernel's frame is the generated one. -/
theorem frame_ki : Cert.frame_KernelIdeal := fun m ρ _ => Cert.KernelIdeal.Gen.frame m ρ

/-- The reference's frame is its run with the three results dropped. -/
theorem frame_ri : Cert.frame_ReferenceIdeal := fun m ρ _ =>
  (θ_run Cert.ReferenceIdeal.defs _ _).mono (fun _ h c => (h c).2.2.2) (Cert.RefSide.run m ρ)

/-- Both runs end with the specification's three arrays of the (agreeing) arguments. -/
theorem algebraic : Cert.algebraic_KernelIdeal_ReferenceIdeal := by
  intro m ρ m' ρ' _ hagree
  refine ⟨_, _, _, Cert.KerSide.run m ρ, ?_⟩
  refine (θ_run Cert.ReferenceIdeal.defs _ _).mono
    (fun r h c => ⟨(h c).1.trans ?_, (h c).2.1.trans ?_, (h c).2.2.1.trans ?_, (h c).2.2.2⟩)
    (Cert.RefSide.run m' ρ')
  · obtain ⟨a0, a1, a2, a3, a4, a5, a6, a7, a8, a9, a10, a11, a12, -⟩ := hagree c
    refine (Cert.RefSide.OUT0_eq _ _ _ _ _ (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) _ _ _ _).trans ?_
    rw [a0, a1, a2, a3, a4, a5, a6, a7, a8, a9, a10, a11, a12]
  · obtain ⟨a0, a1, a2, a3, a4, a5, a6, a7, a8, a9, a10, -, -, a13, a14, -⟩ := hagree c
    refine (Cert.RefSide.OUT1_eq _ _ _ _ _ (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) _ _ _ _).trans ?_
    rw [a0, a1, a2, a3, a4, a5, a6, a7, a8, a9, a10, a13, a14]
  · obtain ⟨a0, a1, a2, a3, a4, a5, a6, a7, a8, a9, a10, -, -, -, -, a15, a16⟩ := hagree c
    refine (Cert.RefSide.OUT2_eq _ _ _ _ _ _ _ _ _ _ _ _ _).trans ?_
    rw [a0, a1, a2, a3, a4, a5, a6, a7, a8, a9, a10, a15, a16]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
